-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v147)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v178) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg18 : FVec F S64 .f32) (main_arg19 : FVec F S64x2 .f32) (main_arg20 : FVec F S2 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x2 .f32 := Host.absf main_arg19
  let main_cst_28 : FVec F S_ .f32 := constant S_ .f32 0x7F800000#32
  let main_v75 : FVec F S64x2 .f32 := broadcastInDim S64x2 ![] bcast_S_S64x2 main_cst_28
  let main_v76 : IVec S64x2 1 := cmpf .olt main_v74 main_v75
  let main_c_29 : IVec S_ 1 := constantI S_ 1 1#1
  let main_v77 : IVec S_ 1 := (fun x v => Host.reduce IntOp.andi x v reducesTo_S64x2_S_d0_1 h_S_) main_v76 main_c_29
  let main_v78 : IVec S_ 1 := andi main_v73 main_v77
  let main_v79 : FVec F S2 .f32 := Host.absf main_arg20
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg15 : FVec F S128 .f32) (main_arg16 : FVec F S128 .f32) (main_arg17 : FVec F S128x64 .f32) (main_arg18 : FVec F S64 .f32) (main_arg19 : FVec F S64x2 .f32) (main_arg20 : FVec F S2 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg15
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x64 .f32 := Host.absf main_arg17
  let main_cst_24 : FVec F S_ .f32 := constant S_ .f32 0x7F800000#32
  let main_v65 : FVec F S128x64 .f32 := broadcastInDim S128x64 ![] bcast_S_S128x64 main_cst_24
  let main_v66 : IVec S128x64 1 := cmpf .olt main_v64 main_v65
  let main_c_25 : IVec S_ 1 := constantI S_ 1 1#1
  let main_v67 : IVec S_ 1 := (fun x v => Host.reduce IntOp.andi x v reducesTo_S128x64_S_d0_1 h_S_) main_v66 main_c_25
  fn_part4 (F := F) main_arg18 main_arg19 main_arg20 main_v63 main_v67

def fn_part2 {F : FTy → Type} [FloatOps F] (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x64 .f32) (main_arg18 : FVec F S64 .f32) (main_arg19 : FVec F S64x2 .f32) (main_arg20 : FVec F S2 .f32) (main_v33 : IVec S_ 1) : IVec S_ 1 :=
  let main_v34 : FVec F S128 .f32 := Host.absf main_arg11
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg12
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg13
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg14
  let main_cst_18 : FVec F S_ .f32 := constant S_ .f32 0x7F800000#32
  let main_v50 : FVec F S128 .f32 := broadcastInDim S128 ![] bcast_S_S128 main_cst_18
  fn_part3 (F := F) main_arg15 main_arg16 main_arg17 main_arg18 main_arg19 main_arg20 main_v48 main_v49 main_v50

def fn_part1 {F : FTy → Type} [FloatOps F] (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x64 .f32) (main_arg18 : FVec F S64 .f32) (main_arg19 : FVec F S64x2 .f32) (main_arg20 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_v33

def fn {F : FTy → Type} [FloatOps F] (main_arg0 : IVec S100000 32) (main_arg1 : IVec S1600000 32) (main_arg2 : IVec S1600000 32) (main_arg3 : IVec S100000 32) (main_arg4 : FVec F S50000x128 .f32) (main_arg5 : FVec F S128x128 .f32) (main_arg6 : FVec F S128 .f32) (main_arg7 : FVec F S128 .f32) (main_arg8 : FVec F S128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) (main_arg17 : FVec F S128x64 .f32) (main_arg18 : FVec F S64 .f32) (main_arg19 : FVec F S64x2 .f32) (main_arg20 : FVec F S2 .f32) : IVec S_ 1 :=
  let main_v0 : FVec F S50000x128 .f32 := Host.absf main_arg4
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg5
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg6
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_v13 main_v16
-- ==== Kernel.lean ====
abbrev S100000 : Shape := ⟨1, ![100000]⟩
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S50x1x128 : Shape := ⟨3, ![50, 1, 128]⟩
abbrev S2000x128 : Shape := ⟨2, ![2000, 128]⟩
abbrev S2000x1 : Shape := ⟨2, ![2000, 1]⟩
abbrev S1x1x128 : Shape := ⟨3, ![1, 1, 128]⟩
abbrev S50x128 : Shape := ⟨2, ![50, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 216
  | .vmem => 66
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S50000x128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128x64, .f32⟩
  | 18 => ⟨S64, .f32⟩
  | 19 => ⟨S64x2, .f32⟩
  | 20 => ⟨S2, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S100000, .f32⟩
  | 39 => ⟨S100000x1, .f32⟩
  | 40 => ⟨S100000x1, .f32⟩
  | 41 => ⟨S_, .f32⟩
  | 42 => ⟨S100000x1, .f32⟩
  | 43 => ⟨S_, .i32⟩
  | 44 => ⟨S100000, .i32⟩
  | 45 => ⟨S100000, .i1⟩
  | 46 => ⟨S_, .i32⟩
  | 47 => ⟨S100000, .i32⟩
  | 48 => ⟨S100000, .i32⟩
  | 49 => ⟨S100000, .i32⟩
  | 50 => ⟨S100000x1, .i32⟩
  | 51 => ⟨S100000x128, .f32⟩
  | 52 => ⟨S100000x1, .f32⟩
  | 53 => ⟨S100000x128, .f32⟩
  | 54 => ⟨S100000x128, .f32⟩
  | 55 => ⟨S100000x128, .bf16⟩
  | 56 => ⟨S_, .i32⟩
  | 57 => ⟨S1600000, .i32⟩
  | 58 => ⟨S1600000, .i1⟩
  | 59 => ⟨S_, .i32⟩
  | 60 => ⟨S1600000, .i32⟩
  | 61 => ⟨S1600000, .i32⟩
  | 62 => ⟨S1600000, .i32⟩
  | 63 => ⟨S1600000x1, .i32⟩
  | 64 => ⟨S1600000x128, .bf16⟩
  | 65 => ⟨S1600000x128, .f32⟩
  | 66 => ⟨S_, .f32⟩
  | 67 => ⟨S100000x128, .f32⟩
  | 68 => ⟨S1600000x1, .i32⟩
  | 69 => ⟨S100000x128, .f32⟩
  | 70 => ⟨S1x128, .f32⟩
  | 71 => ⟨S100000x128, .f32⟩
  | 72 => ⟨S50x1x128, .f32⟩
  | 73 => ⟨S50x1x128, .f32⟩
  | 74 => ⟨S50x128, .f32⟩
  | 75 => ⟨S50x128, .f32⟩
  | 76 => ⟨S_, .f32⟩
  | 77 => ⟨S128, .f32⟩
  | 78 => ⟨S_, .f32⟩
  | 79 => ⟨S128, .f32⟩
  | 80 => ⟨S128, .f32⟩
  | 81 => ⟨S_, .f32⟩
  | 82 => ⟨S128, .f32⟩
  | 83 => ⟨S_, .f32⟩
  | 84 => ⟨S128, .f32⟩
  | 85 => ⟨S128, .f32⟩
  | 86 => ⟨S128, .f32⟩
  | 87 => ⟨S128, .f32⟩
  | 88 => ⟨S_, .f32⟩
  | 89 => ⟨S128, .f32⟩
  | 90 => ⟨S128, .f32⟩
  | 91 => ⟨S_, .f32⟩
  | 92 => ⟨S128, .f32⟩
  | 93 => ⟨S128, .f32⟩
  | 94 => ⟨S128, .f32⟩
  | 95 => ⟨S1x128, .f32⟩
  | 96 => ⟨S1x128, .f32⟩
  | 97 => ⟨S1x128, .f32⟩
  | 98 => ⟨S1x128, .f32⟩
  | 99 => ⟨S100000x128, .bf16⟩
  | 100 => ⟨S_, .i32⟩
  | 101 => ⟨S1600000, .i32⟩
  | 102 => ⟨S1600000, .i1⟩
  | 103 => ⟨S_, .i32⟩
  | 104 => ⟨S1600000, .i32⟩
  | 105 => ⟨S1600000, .i32⟩
  | 106 => ⟨S1600000, .i32⟩
  | 107 => ⟨S1600000x1, .i32⟩
  | 108 => ⟨S1600000x128, .bf16⟩
  | 109 => ⟨S1600000x128, .f32⟩
  | 110 => ⟨S_, .f32⟩
  | 111 => ⟨S100000x128, .f32⟩
  | 112 => ⟨S1600000x1, .i32⟩
  | 113 => ⟨S100000x128, .f32⟩
  | 114 => ⟨S1x128, .f32⟩
  | 115 => ⟨S100000x128, .f32⟩
  | 116 => ⟨S50x1x128, .f32⟩
  | 117 => ⟨S50x1x128, .f32⟩
  | 118 => ⟨S50x128, .f32⟩
  | 119 => ⟨S50x128, .f32⟩
  | 120 => ⟨S_, .f32⟩
  | 121 => ⟨S128, .f32⟩
  | 122 => ⟨S_, .f32⟩
  | 123 => ⟨S128, .f32⟩
  | 124 => ⟨S128, .f32⟩
  | 125 => ⟨S_, .f32⟩
  | 126 => ⟨S128, .f32⟩
  | 127 => ⟨S_, .f32⟩
  | _ => ⟨S100000, .i32⟩

abbrev hbmTy0_1 (i : Nat) : BufTy := match i % 128 with
  | 0 => ⟨S128, .f32⟩
  | 1 => ⟨S128, .f32⟩
  | 2 => ⟨S128, .f32⟩
  | 3 => ⟨S128, .f32⟩
  | 4 => ⟨S_, .f32⟩
  | 5 => ⟨S128, .f32⟩
  | 6 => ⟨S128, .f32⟩
  | 7 => ⟨S_, .f32⟩
  | 8 => ⟨S128, .f32⟩
  | 9 => ⟨S128, .f32⟩
  | 10 => ⟨S128, .f32⟩
  | 11 => ⟨S1x128, .f32⟩
  | 12 => ⟨S1x128, .f32⟩
  | 13 => ⟨S1x128, .f32⟩
  | 14 => ⟨S1x128, .f32⟩
  | 15 => ⟨S100000x128, .bf16⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .bf16⟩
  | 25 => ⟨S1600000x128, .f32⟩
  | 26 => ⟨S_, .f32⟩
  | 27 => ⟨S100000x128, .f32⟩
  | 28 => ⟨S1600000x1, .i32⟩
  | 29 => ⟨S100000x128, .f32⟩
  | 30 => ⟨S1x128, .f32⟩
  | 31 => ⟨S100000x128, .f32⟩
  | 32 => ⟨S50x1x128, .f32⟩
  | 33 => ⟨S50x1x128, .f32⟩
  | 34 => ⟨S50x128, .f32⟩
  | 35 => ⟨S50x128, .f32⟩
  | 36 => ⟨S_, .f32⟩
  | 37 => ⟨S128, .f32⟩
  | 38 => ⟨S_, .f32⟩
  | 39 => ⟨S128, .f32⟩
  | 40 => ⟨S128, .f32⟩
  | 41 => ⟨S_, .f32⟩
  | 42 => ⟨S128, .f32⟩
  | 43 => ⟨S_, .f32⟩
  | 44 => ⟨S128, .f32⟩
  | 45 => ⟨S128, .f32⟩
  | 46 => ⟨S128, .f32⟩
  | 47 => ⟨S128, .f32⟩
  | 48 => ⟨S_, .f32⟩
  | 49 => ⟨S128, .f32⟩
  | 50 => ⟨S128, .f32⟩
  | 51 => ⟨S_, .f32⟩
  | 52 => ⟨S128, .f32⟩
  | 53 => ⟨S128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S100000x128, .bf16⟩
  | 60 => ⟨S100000x128, .f32⟩
  | 61 => ⟨S_, .f32⟩
  | 62 => ⟨S64x128, .f32⟩
  | 63 => ⟨S100000x1, .i32⟩
  | 64 => ⟨S64x128, .f32⟩
  | 65 => ⟨S_, .f32⟩
  | 66 => ⟨S100000, .f32⟩
  | 67 => ⟨S_, .f32⟩
  | 68 => ⟨S64, .f32⟩
  | 69 => ⟨S100000x1, .i32⟩
  | 70 => ⟨S64, .f32⟩
  | 71 => ⟨S_, .f32⟩
  | 72 => ⟨S64, .f32⟩
  | 73 => ⟨S64, .f32⟩
  | 74 => ⟨S64x1, .f32⟩
  | 75 => ⟨S64x128, .f32⟩
  | 76 => ⟨S64x128, .f32⟩
  | 77 => ⟨S64x64, .f32⟩
  | 78 => ⟨S1x64, .f32⟩
  | 79 => ⟨S64x64, .f32⟩
  | 80 => ⟨S64x64, .f32⟩
  | 81 => ⟨S_, .f32⟩
  | 82 => ⟨S64x64, .f32⟩
  | 83 => ⟨S64x64, .f32⟩
  | 84 => ⟨S64x2, .f32⟩
  | 85 => ⟨S1x2, .f32⟩
  | 86 => ⟨S64x2, .f32⟩
  | 87 => ⟨S64x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S1x128, .f32⟩
  | .local _ .vmem, ⟨6, _⟩ => ⟨S2000x128, .f32⟩
  | .local _ .vmem, ⟨7, _⟩ => ⟨S2000x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S2000x128, .f32⟩
  | .local _ .vmem, ⟨13, _⟩ => ⟨S2000x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S2000x1, .f32⟩
  | .local _ .vmem, ⟨19, _⟩ => ⟨S2000x1, .f32⟩
  | .local _ .vmem, ⟨20, _⟩ => ⟨S2000x128, .bf16⟩
  | .local _ .vmem, ⟨21, _⟩ => ⟨S2000x128, .bf16⟩
  | .local _ .vmem, ⟨22, _⟩ => ⟨S2000x128, .f32⟩
  | .local _ .vmem, ⟨23, _⟩ => ⟨S2000x128, .f32⟩
  | .local _ .vmem, ⟨24, _⟩ => ⟨S2000x1, .f32⟩
  | .local _ .vmem, ⟨25, _⟩ => ⟨S2000x1, .f32⟩
  | .local _ .vmem, ⟨26, _⟩ => ⟨S128x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S1x1x128, .f32⟩
  | .local _ .vmem, ⟨31, _⟩ => ⟨S1x1x128, .f32⟩
  | .local _ .vmem, ⟨32, _⟩ => ⟨S1x1x128, .f32⟩
  | .local _ .vmem, ⟨33, _⟩ => ⟨S1x1x128, .f32⟩
  | .local _ .vmem, ⟨34, _⟩ => ⟨S2000x128, .f32⟩
  | .local _ .vmem, ⟨35, _⟩ => ⟨S2000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S2000x1, .f32⟩
  | .local _ .vmem, ⟨41, _⟩ => ⟨S2000x1, .f32⟩
  | .local _ .vmem, ⟨42, _⟩ => ⟨S2000x128, .bf16⟩
  | .local _ .vmem, ⟨43, _⟩ => ⟨S2000x128, .bf16⟩
  | .local _ .vmem, ⟨44, _⟩ => ⟨S2000x128, .f32⟩
  | .local _ .vmem, ⟨45, _⟩ => ⟨S2000x128, .f32⟩
  | .local _ .vmem, ⟨46, _⟩ => ⟨S2000x1, .f32⟩
  | .local _ .vmem, ⟨47, _⟩ => ⟨S2000x1, .f32⟩
  | .local _ .vmem, ⟨48, _⟩ => ⟨S128x128, .f32⟩
  | .local _ .vmem, ⟨49, _⟩ => ⟨S1x128, .f32⟩
  | .local _ .vmem, ⟨50, _⟩ => ⟨S2000x128, .f32⟩
  | .local _ .vmem, ⟨51, _⟩ => ⟨S2000x128, .f32⟩
  | .local _ .vmem, ⟨52, _⟩ => ⟨S1x1x128, .f32⟩
  | .local _ .vmem, ⟨53, _⟩ => ⟨S1x1x128, .f32⟩
  | .local _ .vmem, ⟨54, _⟩ => ⟨S1x1x128, .f32⟩
  | .local _ .vmem, ⟨55, _⟩ => ⟨S1x1x128, .f32⟩
  | .local _ .vmem, ⟨56, _⟩ => ⟨S2000x128, .f32⟩
  | .local _ .vmem, ⟨57, _⟩ => ⟨S2000x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S1x128, .f32⟩
  | .local _ .vmem, ⟨62, _⟩ => ⟨S2000x1, .f32⟩
  | .local _ .vmem, ⟨63, _⟩ => ⟨S2000x1, .f32⟩
  | .local _ .vmem, ⟨64, _⟩ => ⟨S2000x128, .bf16⟩
  | .local _ .vmem, ⟨65, _⟩ => ⟨S2000x128, .bf16⟩
  | _, _ => ⟨S100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_cst_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_cst_4 : Ref sig .tc := ⟨.hbm, 41, rfl⟩
abbrev main_v15 : Ref sig .tc := ⟨.hbm, 42, rfl⟩
abbrev main_c : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_6 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_8 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39_0 : Ref sig .tc := ⟨.hbm, 71, rfl⟩
abbrev main_v39_1 : Ref sig .tc := ⟨.hbm, 72, rfl⟩
abbrev main_v39_2 : Ref sig .tc := ⟨.hbm, 73, rfl⟩
abbrev main_v40 : Ref sig .tc := ⟨.hbm, 74, rfl⟩
abbrev main_v41 : Ref sig .tc := ⟨.hbm, 75, rfl⟩
abbrev main_cst_9 : Ref sig .tc := ⟨.hbm, 76, rfl⟩
abbrev main_v42 : Ref sig .tc := ⟨.hbm, 77, rfl⟩
abbrev main_cst_10 : Ref sig .tc := ⟨.hbm, 78, rfl⟩
abbrev main_v43 : Ref sig .tc := ⟨.hbm, 79, rfl⟩
abbrev main_v44 : Ref sig .tc := ⟨.hbm, 80, rfl⟩
abbrev main_cst_11 : Ref sig .tc := ⟨.hbm, 81, rfl⟩
abbrev main_v45 : Ref sig .tc := ⟨.hbm, 82, rfl⟩
abbrev main_cst_12 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_cst_13 : Ref sig .tc := ⟨.hbm, 88, rfl⟩
abbrev main_v50 : Ref sig .tc := ⟨.hbm, 89, rfl⟩
abbrev main_v51 : Ref sig .tc := ⟨.hbm, 90, rfl⟩
abbrev main_cst_14 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_c_15 : Ref sig .tc := ⟨.hbm, 100, rfl⟩
abbrev main_v60 : Ref sig .tc := ⟨.hbm, 101, rfl⟩
abbrev main_v61 : Ref sig .tc := ⟨.hbm, 102, rfl⟩
abbrev main_c_16 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_cst_17 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72_0 : Ref sig .tc := ⟨.hbm, 115, rfl⟩
abbrev main_v72_1 : Ref sig .tc := ⟨.hbm, 116, rfl⟩
abbrev main_v72_2 : Ref sig .tc := ⟨.hbm, 117, rfl⟩
abbrev main_v73 : Ref sig .tc := ⟨.hbm, 118, rfl⟩
abbrev main_v74 : Ref sig .tc := ⟨.hbm, 119, rfl⟩
abbrev main_cst_18 : Ref sig .tc := ⟨.hbm, 120, rfl⟩
abbrev main_v75 : Ref sig .tc := ⟨.hbm, 121, rfl⟩
abbrev main_cst_19 : Ref sig .tc := ⟨.hbm, 122, rfl⟩
abbrev main_v76 : Ref sig .tc := ⟨.hbm, 123, rfl⟩
abbrev main_v77 : Ref sig .tc := ⟨.hbm, 124, rfl⟩
abbrev main_cst_20 : Ref sig .tc := ⟨.hbm, 125, rfl⟩
abbrev main_v78 : Ref sig .tc := ⟨.hbm, 126, rfl⟩
abbrev main_cst_21 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_22 : Ref sig .tc := ⟨.hbm, 132, rfl⟩
abbrev main_v83 : Ref sig .tc := ⟨.hbm, 133, rfl⟩
abbrev main_v84 : Ref sig .tc := ⟨.hbm, 134, rfl⟩
abbrev main_cst_23 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_c_24 : Ref sig .tc := ⟨.hbm, 144, rfl⟩
abbrev main_v93 : Ref sig .tc := ⟨.hbm, 145, rfl⟩
abbrev main_v94 : Ref sig .tc := ⟨.hbm, 146, rfl⟩
abbrev main_c_25 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_cst_26 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105_0 : Ref sig .tc := ⟨.hbm, 159, rfl⟩
abbrev main_v105_1 : Ref sig .tc := ⟨.hbm, 160, rfl⟩
abbrev main_v105_2 : Ref sig .tc := ⟨.hbm, 161, rfl⟩
abbrev main_v106 : Ref sig .tc := ⟨.hbm, 162, rfl⟩
abbrev main_v107 : Ref sig .tc := ⟨.hbm, 163, rfl⟩
abbrev main_cst_27 : Ref sig .tc := ⟨.hbm, 164, rfl⟩
abbrev main_v108 : Ref sig .tc := ⟨.hbm, 165, rfl⟩
abbrev main_cst_28 : Ref sig .tc := ⟨.hbm, 166, rfl⟩
abbrev main_v109 : Ref sig .tc := ⟨.hbm, 167, rfl⟩
abbrev main_v110 : Ref sig .tc := ⟨.hbm, 168, rfl⟩
abbrev main_cst_29 : Ref sig .tc := ⟨.hbm, 169, rfl⟩
abbrev main_v111 : Ref sig .tc := ⟨.hbm, 170, rfl⟩
abbrev main_cst_30 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_cst_31 : Ref sig .tc := ⟨.hbm, 176, rfl⟩
abbrev main_v116 : Ref sig .tc := ⟨.hbm, 177, rfl⟩
abbrev main_v117 : Ref sig .tc := ⟨.hbm, 178, rfl⟩
abbrev main_cst_32 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_cst_33 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_cst_34 : Ref sig .tc := ⟨.hbm, 193, rfl⟩
abbrev main_v130 : Ref sig .tc := ⟨.hbm, 194, rfl⟩
abbrev main_cst_35 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_cst_36 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_call0_cst : Ref sig .tc := ⟨.hbm, 209, rfl⟩
abbrev main_call0_v0 : Ref sig .tc := ⟨.hbm, 210, rfl⟩
abbrev main_v143 : Ref sig .tc := ⟨.hbm, 211, rfl⟩
abbrev main_v144 : Ref sig .tc := ⟨.hbm, 212, rfl⟩
abbrev main_v145 : Ref sig .tc := ⟨.hbm, 213, rfl⟩
abbrev main_v146 : Ref sig .tc := ⟨.hbm, 214, rfl⟩
abbrev main_v147 : Ref sig .tc := ⟨.hbm, 215, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc3_stg6_0 : Ref sig .tc := ⟨.vmem, 42, rfl⟩
abbrev cc3_stg6_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg4_1 : Ref sig .tc := ⟨.vmem, 51, rfl⟩
abbrev cc4_stg5_0 : Ref sig .tc := ⟨.vmem, 52, rfl⟩
abbrev cc4_stg5_1 : Ref sig .tc := ⟨.vmem, 53, rfl⟩
abbrev cc4_stg6_0 : Ref sig .tc := ⟨.vmem, 54, rfl⟩
abbrev cc4_stg6_1 : Ref sig .tc := ⟨.vmem, 55, rfl⟩
abbrev cc5_stg0_0 : Ref sig .tc := ⟨.vmem, 56, rfl⟩
abbrev cc5_stg0_1 : Ref sig .tc := ⟨.vmem, 57, rfl⟩
abbrev cc5_stg1_0 : Ref sig .tc := ⟨.vmem, 58, rfl⟩
abbrev cc5_stg2_0 : Ref sig .tc := ⟨.vmem, 59, rfl⟩
abbrev cc5_stg3_0 : Ref sig .tc := ⟨.vmem, 60, rfl⟩
abbrev cc5_stg4_0 : Ref sig .tc := ⟨.vmem, 61, rfl⟩
abbrev cc5_stg5_0 : Ref sig .tc := ⟨.vmem, 62, rfl⟩
abbrev cc5_stg5_1 : Ref sig .tc := ⟨.vmem, 63, rfl⟩
abbrev cc5_stg6_0 : Ref sig .tc := ⟨.vmem, 64, rfl⟩
abbrev cc5_stg6_1 : Ref sig .tc := ⟨.vmem, 65, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem5_1 : DmaSem sig := 31
abbrev cc2_sem6_0 : DmaSem sig := 32
abbrev cc2_sem6_1 : DmaSem sig := 33
abbrev cc3_sem0_0 : DmaSem sig := 34
abbrev cc3_sem0_1 : DmaSem sig := 35
abbrev cc3_sem1_0 : DmaSem sig := 36
abbrev cc3_sem2_0 : DmaSem sig := 37
abbrev cc3_sem3_0 : DmaSem sig := 38
abbrev cc3_sem4_0 : DmaSem sig := 39
abbrev cc3_sem5_0 : DmaSem sig := 40
abbrev cc3_sem5_1 : DmaSem sig := 41
abbrev cc3_sem6_0 : DmaSem sig := 42
abbrev cc3_sem6_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem3_0 : DmaSem sig := 49
abbrev cc4_sem4_0 : DmaSem sig := 50
abbrev cc4_sem4_1 : DmaSem sig := 51
abbrev cc4_sem5_0 : DmaSem sig := 52
abbrev cc4_sem5_1 : DmaSem sig := 53
abbrev cc4_sem6_0 : DmaSem sig := 54
abbrev cc4_sem6_1 : DmaSem sig := 55
abbrev cc5_sem0_0 : DmaSem sig := 56
abbrev cc5_sem0_1 : DmaSem sig := 57
abbrev cc5_sem1_0 : DmaSem sig := 58
abbrev cc5_sem2_0 : DmaSem sig := 59
abbrev cc5_sem3_0 : DmaSem sig := 60
abbrev cc5_sem4_0 : DmaSem sig := 61
abbrev cc5_sem5_0 : DmaSem sig := 62
abbrev cc5_sem5_1 : DmaSem sig := 63
abbrev cc5_sem6_0 : DmaSem sig := 64
abbrev cc5_sem6_1 : DmaSem sig := 65

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x1x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S2000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x1x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S1x1x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x1 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 2 → Memref sig .tc .vmem S2000x128 .bf16 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x1 : S_.BroadcastsInDim S100000x1 (![] : Fin 0 → Fin S100000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bitsLt_bf16_f32 : FTy.bits .bf16 < FTy.bits .f32
  bcast_S_S100000x128 : S_.BroadcastsInDim S100000x128 (![] : Fin 0 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S128 : S2000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S50x1x128_S50x128 : S50x1x128.ShapeCasts S50x128
  reducesTo_S50x128_S128_d0 : S50x128.ReducesTo [0] S128
  h_S_ : 0 < S_.numel
  bcast_S_S128 : S_.BroadcastsInDim S128 (![] : Fin 0 → Fin S128.rank)
  packedbf16_S2000x128_S2000x128_0_0 : (Rect.unit (s := S2000x128) ![0, 0] S2000x128.size inb_S2000x128_S2000x128_0_0).PackedRows (EltTy.packing .bf16)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S50000x128_S100000x1_S100000x128_1_0_n_n_0_1_1128_wf : GatherDims.WF S50000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x128.size a ≤ S100000x128.size a
  hwx0_4 : ∀ i : grid0.Coords, EltTy.bits .f32 = 32 ∨ (Rect.block (s := S100000x128) S2000x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x128.size a ≤ S50x1x128.size a
  hwx0_5 : ∀ i : grid0.Coords, EltTy.bits .f32 = 32 ∨ (Rect.block (s := S50x1x128) S1x1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x128.size a ≤ S50x1x128.size a
  hwx0_6 : ∀ i : grid0.Coords, EltTy.bits .f32 = 32 ∨ (Rect.block (s := S50x1x128) S1x1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x1.size a ≤ S100000x1.size a
  hwx1_5 : ∀ i : grid1.Coords, EltTy.bits .f32 = 32 ∨ (Rect.block (s := S100000x1) S2000x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S100000x128.size a
  hwx1_6 : ∀ i : grid1.Coords, EltTy.bits .bf16 = 32 ∨ (Rect.block (s := S100000x128) S2000x128.size (cc1_transform_6 i) (hinb1_6 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x128.size a ≤ S100000x128.size a
  hwx2_4 : ∀ i : grid2.Coords, EltTy.bits .f32 = 32 ∨ (Rect.block (s := S100000x128) S2000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S50x1x128.size a
  hwx2_5 : ∀ i : grid2.Coords, EltTy.bits .f32 = 32 ∨ (Rect.block (s := S50x1x128) S1x1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x1x128.size a ≤ S50x1x128.size a
  hwx2_6 : ∀ i : grid2.Coords, EltTy.bits .f32 = 32 ∨ (Rect.block (s := S50x1x128) S1x1x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S100000x1.size a
  hwx3_5 : ∀ i : grid3.Coords, EltTy.bits .f32 = 32 ∨ (Rect.block (s := S100000x1) S2000x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S100000x128.size a
  hwx3_6 : ∀ i : grid3.Coords, EltTy.bits .bf16 = 32 ∨ (Rect.block (s := S100000x128) S2000x128.size (cc3_transform_6 i) (hinb3_6 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x1.size a ≤ S100000x1.size a
  hwx4_1 : ∀ i : grid4.Coords, EltTy.bits .f32 = 32 ∨ (Rect.block (s := S100000x1) S2000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S2000x128.size a ≤ S100000x128.size a
  hwx4_4 : ∀ i : grid4.Coords, EltTy.bits .f32 = 32 ∨ (Rect.block (s := S100000x128) S2000x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x1x128.size a ≤ S50x1x128.size a
  hwx4_5 : ∀ i : grid4.Coords, EltTy.bits .f32 = 32 ∨ (Rect.block (s := S50x1x128) S1x1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S1x1x128.size a ≤ S50x1x128.size a
  hwx4_6 : ∀ i : grid4.Coords, EltTy.bits .f32 = 32 ∨ (Rect.block (s := S50x1x128) S1x1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x1.size a ≤ S100000x1.size a
  hwx5_5 : ∀ i : grid5.Coords, EltTy.bits .f32 = 32 ∨ (Rect.block (s := S100000x1) S2000x1.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S2000x128.size a ≤ S100000x128.size a
  hwx5_6 : ∀ i : grid5.Coords, EltTy.bits .bf16 = 32 ∨ (Rect.block (s := S100000x128) S2000x128.size (cc5_transform_6 i) (hinb5_6 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_v37) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v38) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v39_0) S2000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v39_1) S1x1x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39_2) S1x1x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v39_0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v56) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v57) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S2000x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v59) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v70) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v71) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v72_0) S2000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v72_1) S1x1x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v72_2) S1x1x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v72_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v88) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v89) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v90) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v91) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v92) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v103) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S2000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg13) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v104) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v105_0) S2000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v105_1) S1x1x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v105_2) S1x1x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v105_0) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v121) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v122) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v123) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v15) S2000x1.size cc5_transform_5 reads5_5 false false 2 stage5_5 sem5_5
    hrank5 hreads5_5 hinb5_5 nbuf5_5 (Memref.isWhole_whole _) hwx5_5 hstage5_5

abbrev win5_6 : Pipeline.Window sig grid5 :=
  Pipeline.Window.ofSpec (Memref.whole main_v125) S2000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S100000 : Shape := ⟨1, ![100000]⟩
abbrev S1600000 : Shape := ⟨1, ![1600000]⟩
abbrev S50000x128 : Shape := ⟨2, ![50000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S1600000x1 : Shape := ⟨2, ![1600000, 1]⟩
abbrev S100000x1 : Shape := ⟨2, ![100000, 1]⟩
abbrev S100000x128 : Shape := ⟨2, ![100000, 128]⟩
abbrev S1600000x128 : Shape := ⟨2, ![1600000, 128]⟩
abbrev S1x128 : Shape := ⟨2, ![1, 128]⟩
abbrev S64x128 : Shape := ⟨2, ![64, 128]⟩
abbrev S64x1 : Shape := ⟨2, ![64, 1]⟩
abbrev S64x64 : Shape := ⟨2, ![64, 64]⟩
abbrev S1x64 : Shape := ⟨2, ![1, 64]⟩
abbrev S1x2 : Shape := ⟨2, ![1, 2]⟩

abbrev nBuf : Space → Nat
  | .hbm => 243
  | .vmem => 0
  | .smem => 0
  | _ => 0

abbrev hbmTy0_0 (i : Nat) : BufTy := match i % 128 with
  | 0 => ⟨S100000, .i32⟩
  | 1 => ⟨S1600000, .i32⟩
  | 2 => ⟨S1600000, .i32⟩
  | 3 => ⟨S100000, .i32⟩
  | 4 => ⟨S50000x128, .f32⟩
  | 5 => ⟨S128x128, .f32⟩
  | 6 => ⟨S128, .f32⟩
  | 7 => ⟨S128, .f32⟩
  | 8 => ⟨S128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S128x64, .f32⟩
  | 18 => ⟨S64, .f32⟩
  | 19 => ⟨S64x2, .f32⟩
  | 20 => ⟨S2, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S100000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S100000, .f32⟩
  | 37 => ⟨S100000, .f32⟩
  | 38 => ⟨S100000, .f32⟩
  | 39 => ⟨S_, .i32⟩
  | 40 => ⟨S100000, .i32⟩
  | 41 => ⟨S100000, .i1⟩
  | 42 => ⟨S_, .i32⟩
  | 43 => ⟨S100000, .i32⟩
  | 44 => ⟨S100000, .i32⟩
  | 45 => ⟨S100000, .i32⟩
  | 46 => ⟨S100000x1, .i32⟩
  | 47 => ⟨S100000x128, .f32⟩
  | 48 => ⟨S100000x1, .f32⟩
  | 49 => ⟨S100000x128, .f32⟩
  | 50 => ⟨S100000x128, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x128, .f32⟩
  | 60 => ⟨S_, .f32⟩
  | 61 => ⟨S100000x128, .f32⟩
  | 62 => ⟨S1600000x1, .i32⟩
  | 63 => ⟨S100000x128, .f32⟩
  | 64 => ⟨S100000x1, .f32⟩
  | 65 => ⟨S100000x128, .f32⟩
  | 66 => ⟨S100000x128, .f32⟩
  | 67 => ⟨S100000x128, .f32⟩
  | 68 => ⟨S1x128, .f32⟩
  | 69 => ⟨S100000x128, .f32⟩
  | 70 => ⟨S100000x128, .f32⟩
  | 71 => ⟨S_, .f32⟩
  | 72 => ⟨S128, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S100000x128, .f32⟩
  | 80 => ⟨S_, .f32⟩
  | 81 => ⟨S128, .f32⟩
  | 82 => ⟨S_, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S_, .f32⟩
  | 89 => ⟨S128, .f32⟩
  | 90 => ⟨S128, .f32⟩
  | 91 => ⟨S128, .f32⟩
  | 92 => ⟨S1x128, .f32⟩
  | 93 => ⟨S100000x128, .f32⟩
  | 94 => ⟨S100000x128, .f32⟩
  | 95 => ⟨S1x128, .f32⟩
  | 96 => ⟨S100000x128, .f32⟩
  | 97 => ⟨S100000x128, .f32⟩
  | 98 => ⟨S1x128, .f32⟩
  | 99 => ⟨S100000x128, .f32⟩
  | 100 => ⟨S100000x128, .f32⟩
  | 101 => ⟨S_, .f32⟩
  | 102 => ⟨S100000x128, .f32⟩
  | 103 => ⟨S100000x128, .f32⟩
  | 104 => ⟨S100000x1, .f32⟩
  | 105 => ⟨S100000x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x1, .f32⟩
  | 121 => ⟨S100000x128, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S_, .f32⟩
  | _ => ⟨S100000, .i32⟩

abbrev hbmTy0_1 (i : Nat) : BufTy := match i % 128 with
  | 0 => ⟨S128, .f32⟩
  | 1 => ⟨S_, .f32⟩
  | 2 => ⟨S128, .f32⟩
  | 3 => ⟨S128, .f32⟩
  | 4 => ⟨S1x128, .f32⟩
  | 5 => ⟨S100000x128, .f32⟩
  | 6 => ⟨S100000x128, .f32⟩
  | 7 => ⟨S100000x128, .f32⟩
  | 8 => ⟨S_, .f32⟩
  | 9 => ⟨S128, .f32⟩
  | 10 => ⟨S_, .f32⟩
  | 11 => ⟨S128, .f32⟩
  | 12 => ⟨S128, .f32⟩
  | 13 => ⟨S1x128, .f32⟩
  | 14 => ⟨S100000x128, .f32⟩
  | 15 => ⟨S100000x128, .f32⟩
  | 16 => ⟨S_, .f32⟩
  | 17 => ⟨S128, .f32⟩
  | 18 => ⟨S128, .f32⟩
  | 19 => ⟨S128, .f32⟩
  | 20 => ⟨S1x128, .f32⟩
  | 21 => ⟨S100000x128, .f32⟩
  | 22 => ⟨S100000x128, .f32⟩
  | 23 => ⟨S1x128, .f32⟩
  | 24 => ⟨S100000x128, .f32⟩
  | 25 => ⟨S100000x128, .f32⟩
  | 26 => ⟨S1x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x1, .f32⟩
  | 33 => ⟨S100000x128, .f32⟩
  | 34 => ⟨S100000x128, .f32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x128, .f32⟩
  | 44 => ⟨S_, .f32⟩
  | 45 => ⟨S100000x128, .f32⟩
  | 46 => ⟨S1600000x1, .i32⟩
  | 47 => ⟨S100000x128, .f32⟩
  | 48 => ⟨S100000x1, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S100000x128, .f32⟩
  | 64 => ⟨S_, .f32⟩
  | 65 => ⟨S128, .f32⟩
  | 66 => ⟨S_, .f32⟩
  | 67 => ⟨S128, .f32⟩
  | 68 => ⟨S128, .f32⟩
  | 69 => ⟨S1x128, .f32⟩
  | 70 => ⟨S100000x128, .f32⟩
  | 71 => ⟨S100000x128, .f32⟩
  | 72 => ⟨S_, .f32⟩
  | 73 => ⟨S128, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S1x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .f32⟩
  | 89 => ⟨S64x128, .f32⟩
  | 90 => ⟨S100000x1, .i32⟩
  | 91 => ⟨S64x128, .f32⟩
  | 92 => ⟨S_, .f32⟩
  | 93 => ⟨S100000, .f32⟩
  | 94 => ⟨S_, .f32⟩
  | 95 => ⟨S64, .f32⟩
  | 96 => ⟨S100000x1, .i32⟩
  | 97 => ⟨S64, .f32⟩
  | 98 => ⟨S_, .f32⟩
  | 99 => ⟨S64, .f32⟩
  | 100 => ⟨S64, .f32⟩
  | 101 => ⟨S64x1, .f32⟩
  | 102 => ⟨S64x128, .f32⟩
  | 103 => ⟨S64x128, .f32⟩
  | 104 => ⟨S64x64, .f32⟩
  | 105 => ⟨S1x64, .f32⟩
  | 106 => ⟨S64x64, .f32⟩
  | 107 => ⟨S64x64, .f32⟩
  | 108 => ⟨S_, .f32⟩
  | 109 => ⟨S64x64, .f32⟩
  | 110 => ⟨S64x64, .f32⟩
  | 111 => ⟨S64x2, .f32⟩
  | 112 => ⟨S1x2, .f32⟩
  | 113 => ⟨S64x2, .f32⟩
  | 114 => ⟨S64x2, .f32⟩
  | _ => ⟨S100000, .i32⟩

abbrev hbmTy (i : Nat) : BufTy := match i / 128 with
  | 0 => hbmTy0_0 i
  | 1 => hbmTy0_1 i
  | _ => ⟨S100000, .i32⟩

abbrev bufTy : (tb : Table) → Fin (tcTables nBuf tb) → BufTy
  | .hbm, ⟨i, _⟩ => hbmTy i
  | _, _ => ⟨S100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_cst : Ref sig .tc := ⟨.hbm, 21, rfl⟩
abbrev main_v0 : Ref sig .tc := ⟨.hbm, 22, rfl⟩
abbrev main_cst_0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst_1 : Ref sig .tc := ⟨.hbm, 27, rfl⟩
abbrev main_v4 : Ref sig .tc := ⟨.hbm, 28, rfl⟩
abbrev main_v5 : Ref sig .tc := ⟨.hbm, 29, rfl⟩
abbrev main_cst_2 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c : Ref sig .tc := ⟨.hbm, 39, rfl⟩
abbrev main_v13 : Ref sig .tc := ⟨.hbm, 40, rfl⟩
abbrev main_v14 : Ref sig .tc := ⟨.hbm, 41, rfl⟩
abbrev main_c_4 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_c_5 : Ref sig .tc := ⟨.hbm, 51, rfl⟩
abbrev main_v23 : Ref sig .tc := ⟨.hbm, 52, rfl⟩
abbrev main_v24 : Ref sig .tc := ⟨.hbm, 53, rfl⟩
abbrev main_c_6 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_8 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_cst_10 : Ref sig .tc := ⟨.hbm, 80, rfl⟩
abbrev main_v47 : Ref sig .tc := ⟨.hbm, 81, rfl⟩
abbrev main_cst_11 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_cst_12 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_call0_cst : Ref sig .tc := ⟨.hbm, 101, rfl⟩
abbrev main_call0_v0 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_15 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_cst_16 : Ref sig .tc := ⟨.hbm, 127, rfl⟩
abbrev main_v86 : Ref sig .tc := ⟨.hbm, 128, rfl⟩
abbrev main_cst_17 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_18 : Ref sig .tc := ⟨.hbm, 136, rfl⟩
abbrev main_v93 : Ref sig .tc := ⟨.hbm, 137, rfl⟩
abbrev main_cst_19 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_20 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call1_cst : Ref sig .tc := ⟨.hbm, 157, rfl⟩
abbrev main_call1_v0 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_c_21 : Ref sig .tc := ⟨.hbm, 163, rfl⟩
abbrev main_v115 : Ref sig .tc := ⟨.hbm, 164, rfl⟩
abbrev main_v116 : Ref sig .tc := ⟨.hbm, 165, rfl⟩
abbrev main_c_22 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_23 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_24 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_26 : Ref sig .tc := ⟨.hbm, 192, rfl⟩
abbrev main_v139 : Ref sig .tc := ⟨.hbm, 193, rfl⟩
abbrev main_cst_27 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_28 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_call2_cst : Ref sig .tc := ⟨.hbm, 213, rfl⟩
abbrev main_call2_v0 : Ref sig .tc := ⟨.hbm, 214, rfl⟩
abbrev main_v157 : Ref sig .tc := ⟨.hbm, 215, rfl⟩
abbrev main_cst_29 : Ref sig .tc := ⟨.hbm, 216, rfl⟩
abbrev main_v158 : Ref sig .tc := ⟨.hbm, 217, rfl⟩
abbrev main_v159 : Ref sig .tc := ⟨.hbm, 218, rfl⟩
abbrev main_v160 : Ref sig .tc := ⟨.hbm, 219, rfl⟩
abbrev main_cst_30 : Ref sig .tc := ⟨.hbm, 220, rfl⟩
abbrev main_v161 : Ref sig .tc := ⟨.hbm, 221, rfl⟩
abbrev main_cst_31 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_cst_32 : Ref sig .tc := ⟨.hbm, 226, rfl⟩
abbrev main_v165 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_call3_cst : Ref sig .tc := ⟨.hbm, 236, rfl⟩
abbrev main_call3_v0 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  scatter_S100000_S1600000x1_S1600000_n_0_0_1_wf : ScatterDims.WF S100000 S1600000x1 S1600000 [] [0] [0] 1
  gather_S50000x128_S100000x1_S100000x128_1_0_n_n_0_1_1128_wf : GatherDims.WF S50000x128 S100000x1 S100000x128 [1] [0] [] [0] [] 1 ![1, 128]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x64_S64x64_1_0_0_1_n_n_wf : DotDims.WF S64x128 S128x64 S64x64 [1] [0] [0] [1] [] []
  dot_S64x64_S64x2_S64x2_1_0_0_1_n_n_wf : DotDims.WF S64x64 S64x2 S64x2 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S50000x128_S100000x1_S100000x128_1_0_n_n_0_1_1128 : GatherDims S50000x128 S100000x1 S100000x128 where
  offsetDims := [1]
  collapsedSliceDims := [0]
  operandBatchingDims := []
  startIndicesBatchingDims := []
  startIndexMap := [0]
  indexVectorDim := 1
  sliceSizes := ![1, 128]
  wf := gather_S50000x128_S100000x1_S100000x128_1_0_n_n_0_1_1128_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x64_S64x64_1_0_0_1_n_n : DotDims S64x128 S128x64 S64x64 where
  lhsContracting := [1]
  rhsContracting := [0]
  lhsNonContracting := [0]
  rhsNonContracting := [1]
  lhsBatch := []
  rhsBatch := []
  wf := dot_S64x128_S128x64_S64x64_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KernelRun.lean ====
/-
  The idealized kernel's run with its RESULT named.

  The program's frame certificate runs @main — nine stretches of host operations and six kernel regions — from any
  memory and reads the final state against the buffer contents the fold of the segments leaves. Its statement keeps
  only the argument arrays. Here the same run is read once more at the result buffer as well: after every weakly fair
  execution the result array holds what the last fold (the three host stretches after the sixth region, over what the
  regions' write-backs left) holds at that buffer, and the arguments are as launched.
-/
import proofs.«132861_j65154653880488_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last fold's
    contents of its buffer and every argument array as launched. -/
theorem run_named : θ_run defs (onTc (τ := τ) (main (F := F))) ⟨m, fun _ => 0, ρ⟩ (fun r => ∀ c : Dev nD,
      r.2.mem ((c.tc : Thread nD τ).loc main_v147) = W15 m ρ c (Proc.devRef .tc main_v147)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v147 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c),
       (h c _ (mem_uc main_arg11 (by decide))).trans (W15_main_arg11 m ρ c),
       (h c _ (mem_uc main_arg12 (by decide))).trans (W15_main_arg12 m ρ c),
       (h c _ (mem_uc main_arg13 (by decide))).trans (W15_main_arg13 m ρ c),
       (h c _ (mem_uc main_arg14 (by decide))).trans (W15_main_arg14 m ρ c),
       (h c _ (mem_uc main_arg15 (by decide))).trans (W15_main_arg15 m ρ c),
       (h c _ (mem_uc main_arg16 (by decide))).trans (W15_main_arg16 m ρ c),
       (h c _ (mem_uc main_arg17 (by decide))).trans (W15_main_arg17 m ρ c),
       (h c _ (mem_uc main_arg18 (by decide))).trans (W15_main_arg18 m ρ c),
       (h c _ (mem_uc main_arg19 (by decide))).trans (W15_main_arg19 m ρ c),
       (h c _ (mem_uc main_arg20 (by decide))).trans (W15_main_arg20 m ρ c)⟩)

end Cert.KernelIdeal.Run

end
-- ==== Proof.RefRunSegs.lean ====
/-
  The reference program's operations in seven segments, and the contents after each segment.

  A straight-line host program is a list of operations, each writing one buffer as a function of buffers
  written before it. Every weakly fair execution of such a program terminates with every buffer at the FOLD of
  the operations' results over the launch contents; a buffer that no operation writes keeps its launch contents.
  The fold over a concatenation of lists is the fold over the second list from the fold over the first, so the
  fold may be read one segment at a time: the contents after a segment are a function of the contents before it.
  The list is cut where a large value (a layer's output) starts to be read several times; the value is then named
  once (by the stage function of the operation that writes it) and later segments read it by that name instead of
  by its whole expression in the program's arguments. Chaining the segments gives the last buffer as the last
  stage function of the arguments, and every argument buffer unchanged.
-/
import proofs.«132861_j65154653880488_2_alg».proof.Proof.Gen.ReferenceIdeal
import proofs.«132861_j65154653880488_2_alg».proof.Proof.ReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## The operations, in seven segments -/
/-- Segment 1: the 50 operations up to and including the one that writes `main_v39`. -/
abbrev seg1 : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg1 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v4 (broadcastInDim S100000 ![] bcast_S_S100000 : (⟨S_, .f32⟩ : BufTy).Contents (Elt F) → (⟨S100000, .f32⟩ : BufTy).Contents (Elt F)),
    binary main_v3 main_v4 main_v5 (maximumf : (⟨S100000, .f32⟩ : BufTy).Contents (Elt F) → (⟨S100000, .f32⟩ : BufTy).Contents (Elt F) → (⟨S100000, .f32⟩ : BufTy).Contents (Elt F)),
    nullary main_cst_2 (constant S_ .f32 0x00000000#32),
    unary main_cst_2 main_v6 (broadcastInDim S100000 ![] bcast_S_S100000 : (⟨S_, .f32⟩ : BufTy).Contents (Elt F) → (⟨S100000, .f32⟩ : BufTy).Contents (Elt F)),
    unary main_arg2 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v0 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_3 (constant S_ .f32 0x3F800000#32),
    unary main_cst_3 main_v9 (broadcastInDim S100000 ![] bcast_S_S100000 : (⟨S_, .f32⟩ : BufTy).Contents (Elt F) → (⟨S100000, .f32⟩ : BufTy).Contents (Elt F)),
    binary main_v8 main_v9 main_v10 (maximumf : (⟨S100000, .f32⟩ : BufTy).Contents (Elt F) → (⟨S100000, .f32⟩ : BufTy).Contents (Elt F) → (⟨S100000, .f32⟩ : BufTy).Contents (Elt F)),
    unary main_v5 main_v11 (Host.rsqrt : (⟨S100000, .f32⟩ : BufTy).Contents (Elt F) → (⟨S100000, .f32⟩ : BufTy).Contents (Elt F)),
    unary main_v10 main_v12 (Host.rsqrt : (⟨S100000, .f32⟩ : BufTy).Contents (Elt F) → (⟨S100000, .f32⟩ : BufTy).Contents (Elt F)),
    nullary main_c (constantI S_ 32 0#32),
    unary main_c main_v13 (broadcastInDim S100000 ![] bcast_S_S100000 : (⟨S_, .i32⟩ : BufTy).Contents (Elt F) → (⟨S100000, .i32⟩ : BufTy).Contents (Elt F)),
    binary main_arg0 main_v13 main_v14 (cmpi .slt : (⟨S100000, .i32⟩ : BufTy).Contents (Elt F) → (⟨S100000, .i32⟩ : BufTy).Contents (Elt F) → (⟨S100000, .i1⟩ : BufTy).Contents (Elt F)),
    nullary main_c_4 (constantI S_ 32 50000#32),
    unary main_c_4 main_v15 (broadcastInDim S100000 ![] bcast_S_S100000 : (⟨S_, .i32⟩ : BufTy).Contents (Elt F) → (⟨S100000, .i32⟩ : BufTy).Contents (Elt F)),
    binary main_arg0 main_v15 main_v16 (addi : (⟨S100000, .i32⟩ : BufTy).Contents (Elt F) → (⟨S100000, .i32⟩ : BufTy).Contents (Elt F) → (⟨S100000, .i32⟩ : BufTy).Contents (Elt F)),
    ternary main_v14 main_v16 main_arg0 main_v17 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v17 main_v18 (broadcastInDim S100000x1 ![0] bcast_S100000_S100000x1_0 : (⟨S100000, .i32⟩ : BufTy).Contents (Elt F) → (⟨S100000x1, .i32⟩ : BufTy).Contents (Elt F)),
    binary main_arg4 main_v18 main_v19 ((fun x i => Host.gather gather_S50000x128_S100000x1_S100000x128_1_0_n_n_0_1_1128 x i) : (⟨S50000x128, .f32⟩ : BufTy).Contents (Elt F) → (⟨S100000x1, .i32⟩ : BufTy).Contents (Elt F) → (⟨S100000x128, .f32⟩ : BufTy).Contents (Elt F)),
    unary main_v11 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v19 main_v21 main_v22 (mulf : (⟨S100000x128, .f32⟩ : BufTy).Contents (Elt F) → (⟨S100000x128, .f32⟩ : BufTy).Contents (Elt F) → (⟨S100000x128, .f32⟩ : BufTy).Contents (Elt F)),
    nullary main_c_5 (constantI S_ 32 0#32),
    unary main_c_5 main_v23 (broadcastInDim S1600000 ![] bcast_S_S1600000 : (⟨S_, .i32⟩ : BufTy).Contents (Elt F) → (⟨S1600000, .i32⟩ : BufTy).Contents (Elt F)),
    binary main_arg1 main_v23 main_v24 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v25 (broadcastInDim S1600000 ![] bcast_S_S1600000 : (⟨S_, .i32⟩ : BufTy).Contents (Elt F) → (⟨S1600000, .i32⟩ : BufTy).Contents (Elt F)),
    binary main_arg1 main_v25 main_v26 (addi : (⟨S1600000, .i32⟩ : BufTy).Contents (Elt F) → (⟨S1600000, .i32⟩ : BufTy).Contents (Elt F) → (⟨S1600000, .i32⟩ : BufTy).Contents (Elt F)),
    ternary main_v24 main_v26 main_arg1 main_v27 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v27 main_v28 (broadcastInDim S1600000x1 ![0] bcast_S1600000_S1600000x1_0 : (⟨S1600000, .i32⟩ : BufTy).Contents (Elt F) → (⟨S1600000x1, .i32⟩ : BufTy).Contents (Elt F)),
    binary main_v22 main_v28 main_v29 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_7 (constant S_ .f32 0x00000000#32),
    unary main_cst_7 main_v30 (broadcastInDim S100000x128 ![] bcast_S_S100000x128 : (⟨S_, .f32⟩ : BufTy).Contents (Elt F) → (⟨S100000x128, .f32⟩ : BufTy).Contents (Elt F)),
    unary main_arg2 main_v31 (broadcastInDim S1600000x1 ![0] bcast_S1600000_S1600000x1_0 : (⟨S1600000, .i32⟩ : BufTy).Contents (Elt F) → (⟨S1600000x1, .i32⟩ : BufTy).Contents (Elt F)),
    ternary main_v30 main_v31 main_v29 main_v32 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v33 (broadcastInDim S100000x1 ![0] bcast_S100000_S100000x1_0 : (⟨S100000, .f32⟩ : BufTy).Contents (Elt F) → (⟨S100000x1, .f32⟩ : BufTy).Contents (Elt F)),
    unary main_v33 main_v34 (broadcastInDim S100000x128 ![0, 1] bcast_S100000x1_S100000x128_0_1 : (⟨S100000x1, .f32⟩ : BufTy).Contents (Elt F) → (⟨S100000x128, .f32⟩ : BufTy).Contents (Elt F)),
    binary main_v32 main_v34 main_v35 (mulf : (⟨S100000x128, .f32⟩ : BufTy).Contents (Elt F) → (⟨S100000x128, .f32⟩ : BufTy).Contents (Elt F) → (⟨S100000x128, .f32⟩ : BufTy).Contents (Elt F)),
    binary main_v35 main_arg5 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v37 (broadcastInDim S1x128 ![1] bcast_S128_S1x128_1 : (⟨S128, .f32⟩ : BufTy).Contents (Elt F) → (⟨S1x128, .f32⟩ : BufTy).Contents (Elt F)),
    unary main_v37 main_v38 (broadcastInDim S100000x128 ![0, 1] bcast_S1x128_S100000x128_0_1 : (⟨S1x128, .f32⟩ : BufTy).Contents (Elt F) → (⟨S100000x128, .f32⟩ : BufTy).Contents (Elt F)),
    binary main_v36 main_v38 main_v39 (addf : (⟨S100000x128, .f32⟩ : BufTy).Contents (Elt F) → (⟨S100000x128, .f32⟩ : BufTy).Contents (Elt F) → (⟨S100000x128, .f32⟩ : BufTy).Contents (Elt F)) ]

/-- Segment 2: the 36 operations up to and including the one that writes `main_v68`. -/
abbrev seg2 : List (HloOp τ sig (Elt F)) :=
  [ nullary main_cst_8 (constant S_ .f32 0x00000000#32),
    binary main_v39 main_cst_8 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_9 (constant S_ .f32 0x47C35000#32),
    unary main_cst_9 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    unary main_v42 main_v43 (broadcastInDim S1x128 ![1] bcast_S128_S1x128_1 : (⟨S128, .f32⟩ : BufTy).Contents (Elt F) → (⟨S1x128, .f32⟩ : BufTy).Contents (Elt F)),
    unary main_v43 main_v44 (broadcastInDim S100000x128 ![0, 1] bcast_S1x128_S100000x128_0_1 : (⟨S1x128, .f32⟩ : BufTy).Contents (Elt F) → (⟨S100000x128, .f32⟩ : BufTy).Contents (Elt F)),
    binary main_v39 main_v44 main_v45 (subf : (⟨S100000x128, .f32⟩ : BufTy).Contents (Elt F) → (⟨S100000x128, .f32⟩ : BufTy).Contents (Elt F) → (⟨S100000x128, .f32⟩ : BufTy).Contents (Elt F)),
    binary main_v45 main_v45 main_v46 (mulf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x00000000#32),
    binary main_v46 main_cst_10 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_11 (constant S_ .f32 0x47C35000#32),
    unary main_cst_11 main_v48 (broadcastInDim S128 ![] bcast_S_S128 : (⟨S_, .f32⟩ : BufTy).Contents (Elt F) → (⟨S128, .f32⟩ : BufTy).Contents (Elt F)),
    binary main_v47 main_v48 main_v49 (Host.divf : (⟨S128, .f32⟩ : BufTy).Contents (Elt F) → (⟨S128, .f32⟩ : BufTy).Contents (Elt F) → (⟨S128, .f32⟩ : BufTy).Contents (Elt F)),
    unary main_v42 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v39 main_v51 main_v52 (subf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x3727C5AC#32),
    unary main_cst_12 main_v53 (broadcastInDim S128 ![] bcast_S_S128 : (⟨S_, .f32⟩ : BufTy).Contents (Elt F) → (⟨S128, .f32⟩ : BufTy).Contents (Elt F)),
    binary main_v49 main_v53 main_v54 (addf : (⟨S128, .f32⟩ : BufTy).Contents (Elt F) → (⟨S128, .f32⟩ : BufTy).Contents (Elt F) → (⟨S128, .f32⟩ : BufTy).Contents (Elt F)),
    unary main_v54 main_v55 (Host.rsqrt : (⟨S128, .f32⟩ : BufTy).Contents (Elt F) → (⟨S128, .f32⟩ : BufTy).Contents (Elt F)),
    unary main_v55 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v52 main_v57 main_v58 (mulf : (⟨S100000x128, .f32⟩ : BufTy).Contents (Elt F) → (⟨S100000x128, .f32⟩ : BufTy).Contents (Elt F) → (⟨S100000x128, .f32⟩ : BufTy).Contents (Elt F)),
    unary main_arg7 main_v59 (broadcastInDim S1x128 ![1] bcast_S128_S1x128_1 : (⟨S128, .f32⟩ : BufTy).Contents (Elt F) → (⟨S1x128, .f32⟩ : BufTy).Contents (Elt F)),
    unary main_v59 main_v60 (broadcastInDim S100000x128 ![0, 1] bcast_S1x128_S100000x128_0_1 : (⟨S1x128, .f32⟩ : BufTy).Contents (Elt F) → (⟨S100000x128, .f32⟩ : BufTy).Contents (Elt F)),
    binary main_v58 main_v60 main_v61 (mulf : (⟨S100000x128, .f32⟩ : BufTy).Contents (Elt F) → (⟨S100000x128, .f32⟩ : BufTy).Contents (Elt F) → (⟨S100000x128, .f32⟩ : BufTy).Contents (Elt F)),
    unary main_arg8 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v64) (TRef.of (T := ⟨S100000x128, .f32⟩) main_call0_v0) (TRef.of (T := ⟨S100000x128, .f32⟩) main_v65) maximumf,
    unary main_v11 main_v66 (broadcastInDim S100000x1 ![0] bcast_S100000_S100000x1_0 : (⟨S100000, .f32⟩ : BufTy).Contents (Elt F) → (⟨S100000x1, .f32⟩ : BufTy).Contents (Elt F)),
    unary main_v66 main_v67 (broadcastInDim S100000x128 ![0, 1] bcast_S100000x1_S100000x128_0_1 : (⟨S100000x1, .f32⟩ : BufTy).Contents (Elt F) → (⟨S100000x128, .f32⟩ : BufTy).Contents (Elt F)),
    binary main_v65 main_v67 main_v68 (mulf : (⟨S100000x128, .f32⟩ : BufTy).Contents (Elt F) → (⟨S100000x128, .f32⟩ : BufTy).Contents (Elt F) → (⟨S100000x128, .f32⟩ : BufTy).Contents (Elt F)) ]

/-- Segment 3: the 20 operations up to and including the one that writes `main_v85`. -/
abbrev seg3 : List (HloOp τ sig (Elt F)) :=
  [ nullary main_c_13 (constantI S_ 32 0#32),
    unary main_c_13 main_v69 (broadcastInDim S1600000 ![] bcast_S_S1600000 : (⟨S_, .i32⟩ : BufTy).Contents (Elt F) → (⟨S1600000, .i32⟩ : BufTy).Contents (Elt F)),
    binary main_arg1 main_v69 main_v70 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v71 (broadcastInDim S1600000 ![] bcast_S_S1600000 : (⟨S_, .i32⟩ : BufTy).Contents (Elt F) → (⟨S1600000, .i32⟩ : BufTy).Contents (Elt F)),
    binary main_arg1 main_v71 main_v72 (addi : (⟨S1600000, .i32⟩ : BufTy).Contents (Elt F) → (⟨S1600000, .i32⟩ : BufTy).Contents (Elt F) → (⟨S1600000, .i32⟩ : BufTy).Contents (Elt F)),
    ternary main_v70 main_v72 main_arg1 main_v73 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v73 main_v74 (broadcastInDim S1600000x1 ![0] bcast_S1600000_S1600000x1_0 : (⟨S1600000, .i32⟩ : BufTy).Contents (Elt F) → (⟨S1600000x1, .i32⟩ : BufTy).Contents (Elt F)),
    binary main_v68 main_v74 main_v75 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_15 (constant S_ .f32 0x00000000#32),
    unary main_cst_15 main_v76 (broadcastInDim S100000x128 ![] bcast_S_S100000x128 : (⟨S_, .f32⟩ : BufTy).Contents (Elt F) → (⟨S100000x128, .f32⟩ : BufTy).Contents (Elt F)),
    unary main_arg2 main_v77 (broadcastInDim S1600000x1 ![0] bcast_S1600000_S1600000x1_0 : (⟨S1600000, .i32⟩ : BufTy).Contents (Elt F) → (⟨S1600000x1, .i32⟩ : BufTy).Contents (Elt F)),
    ternary main_v76 main_v77 main_v75 main_v78 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v79 (broadcastInDim S100000x1 ![0] bcast_S100000_S100000x1_0 : (⟨S100000, .f32⟩ : BufTy).Contents (Elt F) → (⟨S100000x1, .f32⟩ : BufTy).Contents (Elt F)),
    unary main_v79 main_v80 (broadcastInDim S100000x128 ![0, 1] bcast_S100000x1_S100000x128_0_1 : (⟨S100000x1, .f32⟩ : BufTy).Contents (Elt F) → (⟨S100000x128, .f32⟩ : BufTy).Contents (Elt F)),
    binary main_v78 main_v80 main_v81 (mulf : (⟨S100000x128, .f32⟩ : BufTy).Contents (Elt F) → (⟨S100000x128, .f32⟩ : BufTy).Contents (Elt F) → (⟨S100000x128, .f32⟩ : BufTy).Contents (Elt F)),
    binary main_v81 main_arg9 main_v82 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg10 main_v83 (broadcastInDim S1x128 ![1] bcast_S128_S1x128_1 : (⟨S128, .f32⟩ : BufTy).Contents (Elt F) → (⟨S1x128, .f32⟩ : BufTy).Contents (Elt F)),
    unary main_v83 main_v84 (broadcastInDim S100000x128 ![0, 1] bcast_S1x128_S100000x128_0_1 : (⟨S1x128, .f32⟩ : BufTy).Contents (Elt F) → (⟨S100000x128, .f32⟩ : BufTy).Contents (Elt F)),
    binary main_v82 main_v84 main_v85 (addf : (⟨S100000x128, .f32⟩ : BufTy).Contents (Elt F) → (⟨S100000x128, .f32⟩ : BufTy).Contents (Elt F) → (⟨S100000x128, .f32⟩ : BufTy).Contents (Elt F)) ]

/-- Segment 4: the 36 operations up to and including the one that writes `main_v114`. -/
abbrev seg4 : List (HloOp τ sig (Elt F)) :=
  [ nullary main_cst_16 (constant S_ .f32 0x00000000#32),
    binary main_v85 main_cst_16 main_v86 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_17 (constant S_ .f32 0x47C35000#32),
    unary main_cst_17 main_v87 (broadcastInDim S128 ![] bcast_S_S128 : (⟨S_, .f32⟩ : BufTy).Contents (Elt F) → (⟨S128, .f32⟩ : BufTy).Contents (Elt F)),
    binary main_v86 main_v87 main_v88 (Host.divf : (⟨S128, .f32⟩ : BufTy).Contents (Elt F) → (⟨S128, .f32⟩ : BufTy).Contents (Elt F) → (⟨S128, .f32⟩ : BufTy).Contents (Elt F)),
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S100000x128 ![0, 1] bcast_S1x128_S100000x128_0_1 : (⟨S1x128, .f32⟩ : BufTy).Contents (Elt F) → (⟨S100000x128, .f32⟩ : BufTy).Contents (Elt F)),
    binary main_v85 main_v90 main_v91 (subf : (⟨S100000x128, .f32⟩ : BufTy).Contents (Elt F) → (⟨S100000x128, .f32⟩ : BufTy).Contents (Elt F) → (⟨S100000x128, .f32⟩ : BufTy).Contents (Elt F)),
    binary main_v91 main_v91 main_v92 (mulf : (⟨S100000x128, .f32⟩ : BufTy).Contents (Elt F) → (⟨S100000x128, .f32⟩ : BufTy).Contents (Elt F) → (⟨S100000x128, .f32⟩ : BufTy).Contents (Elt F)),
    nullary main_cst_18 (constant S_ .f32 0x00000000#32),
    binary main_v92 main_cst_18 main_v93 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_19 (constant S_ .f32 0x47C35000#32),
    unary main_cst_19 main_v94 (broadcastInDim S128 ![] bcast_S_S128 : (⟨S_, .f32⟩ : BufTy).Contents (Elt F) → (⟨S128, .f32⟩ : BufTy).Contents (Elt F)),
    binary main_v93 main_v94 main_v95 (Host.divf : (⟨S128, .f32⟩ : BufTy).Contents (Elt F) → (⟨S128, .f32⟩ : BufTy).Contents (Elt F) → (⟨S128, .f32⟩ : BufTy).Contents (Elt F)),
    unary main_v88 main_v96 (broadcastInDim S1x128 ![1] bcast_S128_S1x128_1 : (⟨S128, .f32⟩ : BufTy).Contents (Elt F) → (⟨S1x128, .f32⟩ : BufTy).Contents (Elt F)),
    unary main_v96 main_v97 (broadcastInDim S100000x128 ![0, 1] bcast_S1x128_S100000x128_0_1 : (⟨S1x128, .f32⟩ : BufTy).Contents (Elt F) → (⟨S100000x128, .f32⟩ : BufTy).Contents (Elt F)),
    binary main_v85 main_v97 main_v98 (subf : (⟨S100000x128, .f32⟩ : BufTy).Contents (Elt F) → (⟨S100000x128, .f32⟩ : BufTy).Contents (Elt F) → (⟨S100000x128, .f32⟩ : BufTy).Contents (Elt F)),
    nullary main_cst_20 (constant S_ .f32 0x3727C5AC#32),
    unary main_cst_20 main_v99 (broadcastInDim S128 ![] bcast_S_S128 : (⟨S_, .f32⟩ : BufTy).Contents (Elt F) → (⟨S128, .f32⟩ : BufTy).Contents (Elt F)),
    binary main_v95 main_v99 main_v100 (addf : (⟨S128, .f32⟩ : BufTy).Contents (Elt F) → (⟨S128, .f32⟩ : BufTy).Contents (Elt F) → (⟨S128, .f32⟩ : BufTy).Contents (Elt F)),
    unary main_v100 main_v101 (Host.rsqrt : (⟨S128, .f32⟩ : BufTy).Contents (Elt F) → (⟨S128, .f32⟩ : BufTy).Contents (Elt F)),
    unary main_v101 main_v102 (broadcastInDim S1x128 ![1] bcast_S128_S1x128_1 : (⟨S128, .f32⟩ : BufTy).Contents (Elt F) → (⟨S1x128, .f32⟩ : BufTy).Contents (Elt F)),
    unary main_v102 main_v103 (broadcastInDim S100000x128 ![0, 1] bcast_S1x128_S100000x128_0_1 : (⟨S1x128, .f32⟩ : BufTy).Contents (Elt F) → (⟨S100000x128, .f32⟩ : BufTy).Contents (Elt F)),
    binary main_v98 main_v103 main_v104 (mulf : (⟨S100000x128, .f32⟩ : BufTy).Contents (Elt F) → (⟨S100000x128, .f32⟩ : BufTy).Contents (Elt F) → (⟨S100000x128, .f32⟩ : BufTy).Contents (Elt F)),
    unary main_arg11 main_v105 (broadcastInDim S1x128 ![1] bcast_S128_S1x128_1 : (⟨S128, .f32⟩ : BufTy).Contents (Elt F) → (⟨S1x128, .f32⟩ : BufTy).Contents (Elt F)),
    unary main_v105 main_v106 (broadcastInDim S100000x128 ![0, 1] bcast_S1x128_S100000x128_0_1 : (⟨S1x128, .f32⟩ : BufTy).Contents (Elt F) → (⟨S100000x128, .f32⟩ : BufTy).Contents (Elt F)),
    binary main_v104 main_v106 main_v107 (mulf : (⟨S100000x128, .f32⟩ : BufTy).Contents (Elt F) → (⟨S100000x128, .f32⟩ : BufTy).Contents (Elt F) → (⟨S100000x128, .f32⟩ : BufTy).Contents (Elt F)),
    unary main_arg12 main_v108 (broadcastInDim S1x128 ![1] bcast_S128_S1x128_1 : (⟨S128, .f32⟩ : BufTy).Contents (Elt F) → (⟨S1x128, .f32⟩ : BufTy).Contents (Elt F)),
    unary main_v108 main_v109 (broadcastInDim S100000x128 ![0, 1] bcast_S1x128_S100000x128_0_1 : (⟨S1x128, .f32⟩ : BufTy).Contents (Elt F) → (⟨S100000x128, .f32⟩ : BufTy).Contents (Elt F)),
    binary main_v107 main_v109 main_v110 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v110) (TRef.of (T := ⟨S100000x128, .f32⟩) main_call1_v0) (TRef.of (T := ⟨S100000x128, .f32⟩) main_v111) maximumf,
    unary main_v11 main_v112 (broadcastInDim S100000x1 ![0] bcast_S100000_S100000x1_0 : (⟨S100000, .f32⟩ : BufTy).Contents (Elt F) → (⟨S100000x1, .f32⟩ : BufTy).Contents (Elt F)),
    unary main_v112 main_v113 (broadcastInDim S100000x128 ![0, 1] bcast_S100000x1_S100000x128_0_1 : (⟨S100000x1, .f32⟩ : BufTy).Contents (Elt F) → (⟨S100000x128, .f32⟩ : BufTy).Contents (Elt F)),
    binary main_v111 main_v113 main_v114 (mulf : (⟨S100000x128, .f32⟩ : BufTy).Contents (Elt F) → (⟨S100000x128, .f32⟩ : BufTy).Contents (Elt F) → (⟨S100000x128, .f32⟩ : BufTy).Contents (Elt F)) ]

/-- Segment 5: the 20 operations up to and including the one that writes `main_v131`. -/
abbrev seg5 : List (HloOp τ sig (Elt F)) :=
  [ nullary main_c_21 (constantI S_ 32 0#32),
    unary main_c_21 main_v115 (broadcastInDim S1600000 ![] bcast_S_S1600000 : (⟨S_, .i32⟩ : BufTy).Contents (Elt F) → (⟨S1600000, .i32⟩ : BufTy).Contents (Elt F)),
    binary main_arg1 main_v115 main_v116 (cmpi .slt : (⟨S1600000, .i32⟩ : BufTy).Contents (Elt F) → (⟨S1600000, .i32⟩ : BufTy).Contents (Elt F) → (⟨S1600000, .i1⟩ : BufTy).Contents (Elt F)),
    nullary main_c_22 (constantI S_ 32 100000#32),
    unary main_c_22 main_v117 (broadcastInDim S1600000 ![] bcast_S_S1600000 : (⟨S_, .i32⟩ : BufTy).Contents (Elt F) → (⟨S1600000, .i32⟩ : BufTy).Contents (Elt F)),
    binary main_arg1 main_v117 main_v118 (addi : (⟨S1600000, .i32⟩ : BufTy).Contents (Elt F) → (⟨S1600000, .i32⟩ : BufTy).Contents (Elt F) → (⟨S1600000, .i32⟩ : BufTy).Contents (Elt F)),
    ternary main_v116 main_v118 main_arg1 main_v119 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v119 main_v120 (broadcastInDim S1600000x1 ![0] bcast_S1600000_S1600000x1_0 : (⟨S1600000, .i32⟩ : BufTy).Contents (Elt F) → (⟨S1600000x1, .i32⟩ : BufTy).Contents (Elt F)),
    binary main_v114 main_v120 main_v121 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    nullary main_cst_23 (constant S_ .f32 0x00000000#32),
    unary main_cst_23 main_v122 (broadcastInDim S100000x128 ![] bcast_S_S100000x128 : (⟨S_, .f32⟩ : BufTy).Contents (Elt F) → (⟨S100000x128, .f32⟩ : BufTy).Contents (Elt F)),
    unary main_arg2 main_v123 (broadcastInDim S1600000x1 ![0] bcast_S1600000_S1600000x1_0 : (⟨S1600000, .i32⟩ : BufTy).Contents (Elt F) → (⟨S1600000x1, .i32⟩ : BufTy).Contents (Elt F)),
    ternary main_v122 main_v123 main_v121 main_v124 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_v12 main_v125 (broadcastInDim S100000x1 ![0] bcast_S100000_S100000x1_0 : (⟨S100000, .f32⟩ : BufTy).Contents (Elt F) → (⟨S100000x1, .f32⟩ : BufTy).Contents (Elt F)),
    unary main_v125 main_v126 (broadcastInDim S100000x128 ![0, 1] bcast_S100000x1_S100000x128_0_1 : (⟨S100000x1, .f32⟩ : BufTy).Contents (Elt F) → (⟨S100000x128, .f32⟩ : BufTy).Contents (Elt F)),
    binary main_v124 main_v126 main_v127 (mulf : (⟨S100000x128, .f32⟩ : BufTy).Contents (Elt F) → (⟨S100000x128, .f32⟩ : BufTy).Contents (Elt F) → (⟨S100000x128, .f32⟩ : BufTy).Contents (Elt F)),
    binary main_v127 main_arg13 main_v128 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg14 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v128 main_v130 main_v131 (addf : (⟨S100000x128, .f32⟩ : BufTy).Contents (Elt F) → (⟨S100000x128, .f32⟩ : BufTy).Contents (Elt F) → (⟨S100000x128, .f32⟩ : BufTy).Contents (Elt F)) ]

/-- Segment 6: the 33 operations up to and including the one that writes `main_v157`. -/
abbrev seg6 : List (HloOp τ sig (Elt F)) :=
  [ nullary main_cst_24 (constant S_ .f32 0x00000000#32),
    binary main_v131 main_cst_24 main_v132 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_25 (constant S_ .f32 0x47C35000#32),
    unary main_cst_25 main_v133 (broadcastInDim S128 ![] bcast_S_S128 : (⟨S_, .f32⟩ : BufTy).Contents (Elt F) → (⟨S128, .f32⟩ : BufTy).Contents (Elt F)),
    binary main_v132 main_v133 main_v134 (Host.divf : (⟨S128, .f32⟩ : BufTy).Contents (Elt F) → (⟨S128, .f32⟩ : BufTy).Contents (Elt F) → (⟨S128, .f32⟩ : BufTy).Contents (Elt F)),
    unary main_v134 main_v135 (broadcastInDim S1x128 ![1] bcast_S128_S1x128_1 : (⟨S128, .f32⟩ : BufTy).Contents (Elt F) → (⟨S1x128, .f32⟩ : BufTy).Contents (Elt F)),
    unary main_v135 main_v136 (broadcastInDim S100000x128 ![0, 1] bcast_S1x128_S100000x128_0_1 : (⟨S1x128, .f32⟩ : BufTy).Contents (Elt F) → (⟨S100000x128, .f32⟩ : BufTy).Contents (Elt F)),
    binary main_v131 main_v136 main_v137 (subf : (⟨S100000x128, .f32⟩ : BufTy).Contents (Elt F) → (⟨S100000x128, .f32⟩ : BufTy).Contents (Elt F) → (⟨S100000x128, .f32⟩ : BufTy).Contents (Elt F)),
    binary main_v137 main_v137 main_v138 (mulf : (⟨S100000x128, .f32⟩ : BufTy).Contents (Elt F) → (⟨S100000x128, .f32⟩ : BufTy).Contents (Elt F) → (⟨S100000x128, .f32⟩ : BufTy).Contents (Elt F)),
    nullary main_cst_26 (constant S_ .f32 0x00000000#32),
    binary main_v138 main_cst_26 main_v139 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_27 (constant S_ .f32 0x47C35000#32),
    unary main_cst_27 main_v140 (broadcastInDim S128 ![] bcast_S_S128 : (⟨S_, .f32⟩ : BufTy).Contents (Elt F) → (⟨S128, .f32⟩ : BufTy).Contents (Elt F)),
    binary main_v139 main_v140 main_v141 (Host.divf : (⟨S128, .f32⟩ : BufTy).Contents (Elt F) → (⟨S128, .f32⟩ : BufTy).Contents (Elt F) → (⟨S128, .f32⟩ : BufTy).Contents (Elt F)),
    unary main_v134 main_v142 (broadcastInDim S1x128 ![1] bcast_S128_S1x128_1 : (⟨S128, .f32⟩ : BufTy).Contents (Elt F) → (⟨S1x128, .f32⟩ : BufTy).Contents (Elt F)),
    unary main_v142 main_v143 (broadcastInDim S100000x128 ![0, 1] bcast_S1x128_S100000x128_0_1 : (⟨S1x128, .f32⟩ : BufTy).Contents (Elt F) → (⟨S100000x128, .f32⟩ : BufTy).Contents (Elt F)),
    binary main_v131 main_v143 main_v144 (subf : (⟨S100000x128, .f32⟩ : BufTy).Contents (Elt F) → (⟨S100000x128, .f32⟩ : BufTy).Contents (Elt F) → (⟨S100000x128, .f32⟩ : BufTy).Contents (Elt F)),
    nullary main_cst_28 (constant S_ .f32 0x3727C5AC#32),
    unary main_cst_28 main_v145 (broadcastInDim S128 ![] bcast_S_S128 : (⟨S_, .f32⟩ : BufTy).Contents (Elt F) → (⟨S128, .f32⟩ : BufTy).Contents (Elt F)),
    binary main_v141 main_v145 main_v146 (addf : (⟨S128, .f32⟩ : BufTy).Contents (Elt F) → (⟨S128, .f32⟩ : BufTy).Contents (Elt F) → (⟨S128, .f32⟩ : BufTy).Contents (Elt F)),
    unary main_v146 main_v147 (Host.rsqrt : (⟨S128, .f32⟩ : BufTy).Contents (Elt F) → (⟨S128, .f32⟩ : BufTy).Contents (Elt F)),
    unary main_v147 main_v148 (broadcastInDim S1x128 ![1] bcast_S128_S1x128_1 : (⟨S128, .f32⟩ : BufTy).Contents (Elt F) → (⟨S1x128, .f32⟩ : BufTy).Contents (Elt F)),
    unary main_v148 main_v149 (broadcastInDim S100000x128 ![0, 1] bcast_S1x128_S100000x128_0_1 : (⟨S1x128, .f32⟩ : BufTy).Contents (Elt F) → (⟨S100000x128, .f32⟩ : BufTy).Contents (Elt F)),
    binary main_v144 main_v149 main_v150 (mulf : (⟨S100000x128, .f32⟩ : BufTy).Contents (Elt F) → (⟨S100000x128, .f32⟩ : BufTy).Contents (Elt F) → (⟨S100000x128, .f32⟩ : BufTy).Contents (Elt F)),
    unary main_arg15 main_v151 (broadcastInDim S1x128 ![1] bcast_S128_S1x128_1 : (⟨S128, .f32⟩ : BufTy).Contents (Elt F) → (⟨S1x128, .f32⟩ : BufTy).Contents (Elt F)),
    unary main_v151 main_v152 (broadcastInDim S100000x128 ![0, 1] bcast_S1x128_S100000x128_0_1 : (⟨S1x128, .f32⟩ : BufTy).Contents (Elt F) → (⟨S100000x128, .f32⟩ : BufTy).Contents (Elt F)),
    binary main_v150 main_v152 main_v153 (mulf : (⟨S100000x128, .f32⟩ : BufTy).Contents (Elt F) → (⟨S100000x128, .f32⟩ : BufTy).Contents (Elt F) → (⟨S100000x128, .f32⟩ : BufTy).Contents (Elt F)),
    unary main_arg16 main_v154 (broadcastInDim S1x128 ![1] bcast_S128_S1x128_1 : (⟨S128, .f32⟩ : BufTy).Contents (Elt F) → (⟨S1x128, .f32⟩ : BufTy).Contents (Elt F)),
    unary main_v154 main_v155 (broadcastInDim S100000x128 ![0, 1] bcast_S1x128_S100000x128_0_1 : (⟨S1x128, .f32⟩ : BufTy).Contents (Elt F) → (⟨S100000x128, .f32⟩ : BufTy).Contents (Elt F)),
    binary main_v153 main_v155 main_v156 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v156) (TRef.of (T := ⟨S100000x128, .f32⟩) main_call2_v0) (TRef.of (T := ⟨S100000x128, .f32⟩) main_v157) maximumf ]

/-- Segment 7: the 27 operations up to and including the one that writes `main_v178`. -/
abbrev seg7 : List (HloOp τ sig (Elt F)) :=
  [ nullary main_cst_29 (constant S_ .f32 0x00000000#32),
    unary main_cst_29 main_v158 (broadcastInDim S64x128 ![] bcast_S_S64x128 : (⟨S_, .f32⟩ : BufTy).Contents (Elt F) → (⟨S64x128, .f32⟩ : BufTy).Contents (Elt F)),
    unary main_arg3 main_v159 (broadcastInDim S100000x1 ![0] bcast_S100000_S100000x1_0 : (⟨S100000, .i32⟩ : BufTy).Contents (Elt F) → (⟨S100000x1, .i32⟩ : BufTy).Contents (Elt F)),
    ternary main_v158 main_v159 main_v157 main_v160 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    nullary main_cst_30 (constant S_ .f32 0x3F800000#32),
    unary main_cst_30 main_v161 (broadcastInDim S100000 ![] bcast_S_S100000 : (⟨S_, .f32⟩ : BufTy).Contents (Elt F) → (⟨S100000, .f32⟩ : BufTy).Contents (Elt F)),
    nullary main_cst_31 (constant S_ .f32 0x00000000#32),
    unary main_cst_31 main_v162 (broadcastInDim S64 ![] bcast_S_S64 : (⟨S_, .f32⟩ : BufTy).Contents (Elt F) → (⟨S64, .f32⟩ : BufTy).Contents (Elt F)),
    unary main_arg3 main_v163 (broadcastInDim S100000x1 ![0] bcast_S100000_S100000x1_0 : (⟨S100000, .i32⟩ : BufTy).Contents (Elt F) → (⟨S100000x1, .i32⟩ : BufTy).Contents (Elt F)),
    ternary main_v162 main_v163 main_v161 main_v164 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    nullary main_cst_32 (constant S_ .f32 0x3F800000#32),
    unary main_cst_32 main_v165 (broadcastInDim S64 ![] bcast_S_S64 : (⟨S_, .f32⟩ : BufTy).Contents (Elt F) → (⟨S64, .f32⟩ : BufTy).Contents (Elt F)),
    binary main_v164 main_v165 main_v166 (maximumf : (⟨S64, .f32⟩ : BufTy).Contents (Elt F) → (⟨S64, .f32⟩ : BufTy).Contents (Elt F) → (⟨S64, .f32⟩ : BufTy).Contents (Elt F)),
    unary main_v166 main_v167 (broadcastInDim S64x1 ![0] bcast_S64_S64x1_0 : (⟨S64, .f32⟩ : BufTy).Contents (Elt F) → (⟨S64x1, .f32⟩ : BufTy).Contents (Elt F)),
    unary main_v167 main_v168 (broadcastInDim S64x128 ![0, 1] bcast_S64x1_S64x128_0_1 : (⟨S64x1, .f32⟩ : BufTy).Contents (Elt F) → (⟨S64x128, .f32⟩ : BufTy).Contents (Elt F)),
    binary main_v160 main_v168 main_v169 (Host.divf : (⟨S64x128, .f32⟩ : BufTy).Contents (Elt F) → (⟨S64x128, .f32⟩ : BufTy).Contents (Elt F) → (⟨S64x128, .f32⟩ : BufTy).Contents (Elt F)),
    binary main_v169 main_arg17 main_v170 ((fun l r => Host.dotGeneral dot_S64x128_S128x64_S64x64_1_0_0_1_n_n none l r) : (⟨S64x128, .f32⟩ : BufTy).Contents (Elt F) → (⟨S128x64, .f32⟩ : BufTy).Contents (Elt F) → (⟨S64x64, .f32⟩ : BufTy).Contents (Elt F)),
    unary main_arg18 main_v171 (broadcastInDim S1x64 ![1] bcast_S64_S1x64_1 : (⟨S64, .f32⟩ : BufTy).Contents (Elt F) → (⟨S1x64, .f32⟩ : BufTy).Contents (Elt F)),
    unary main_v171 main_v172 (broadcastInDim S64x64 ![0, 1] bcast_S1x64_S64x64_0_1 : (⟨S1x64, .f32⟩ : BufTy).Contents (Elt F) → (⟨S64x64, .f32⟩ : BufTy).Contents (Elt F)),
    binary main_v170 main_v172 main_v173 (addf : (⟨S64x64, .f32⟩ : BufTy).Contents (Elt F) → (⟨S64x64, .f32⟩ : BufTy).Contents (Elt F) → (⟨S64x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S64x64, .f32⟩) main_call3_v0) (broadcastInDim S64x64 ![] bcast_S_S64x64),
    TRef.binary (TRef.of (T := ⟨S64x64, .f32⟩) main_v173) (TRef.of (T := ⟨S64x64, .f32⟩) main_call3_v0) (TRef.of (T := ⟨S64x64, .f32⟩) main_v174) maximumf,
    binary main_v174 main_arg19 main_v175 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    unary main_arg20 main_v176 (broadcastInDim S1x2 ![1] bcast_S2_S1x2_1 : (⟨S2, .f32⟩ : BufTy).Contents (Elt F) → (⟨S1x2, .f32⟩ : BufTy).Contents (Elt F)),
    unary main_v176 main_v177 (broadcastInDim S64x2 ![0, 1] bcast_S1x2_S64x2_0_1 : (⟨S1x2, .f32⟩ : BufTy).Contents (Elt F) → (⟨S64x2, .f32⟩ : BufTy).Contents (Elt F)),
    binary main_v175 main_v177 main_v178 (addf : (⟨S64x2, .f32⟩ : BufTy).Contents (Elt F) → (⟨S64x2, .f32⟩ : BufTy).Contents (Elt F) → (⟨S64x2, .f32⟩ : BufTy).Contents (Elt F)) ]

/-- The whole list: the seven segments in order. -/
abbrev opsAll : List (HloOp τ sig (Elt F)) := seg1 ++ seg2 ++ seg3 ++ seg4 ++ seg5 ++ seg6 ++ seg7

set_option maxRecDepth 8192 in
set_option maxHeartbeats 4000000 in
/-- @main is the straight line of the seven segments. -/
theorem main_eq (c : Dev nD) : main (F := F) c = seq (seg1 ++ seg2 ++ seg3 ++ seg4 ++ seg5 ++ seg6 ++ seg7) := rfl

/-! ## The fold over a concatenation -/

/-- The fold of two lists in a row is the fold of the second from the fold of the first. -/
theorem after_append {Val : EltTy → Type} (l1 l2 : List (HloOp τ sig Val)) (V : Valuation τ sig Val) :
    after (l1 ++ l2) V = after l2 (after l1 V) := by
  induction l1 generalizing V with
  | nil => rfl
  | cons op l ih => simp only [List.cons_append, after_cons, ih]

/-! ## What each segment writes -/

/-- The buffers that segment 1 writes. -/
abbrev seg1_W : List (Ref sig .tc) := [main_cst, main_v0, main_cst_0, main_v1, main_v2, main_v3, main_cst_1, main_v4, main_v5, main_cst_2, main_v6, main_v7, main_v8, main_cst_3, main_v9, main_v10, main_v11, main_v12, main_c, main_v13, main_v14, main_c_4, main_v15, main_v16, main_v17, main_v18, main_v19, main_v20, main_v21, main_v22, main_c_5, main_v23, main_v24, main_c_6, main_v25, main_v26, main_v27, main_v28, main_v29, main_cst_7, main_v30, main_v31, main_v32, main_v33, main_v34, main_v35, main_v36, main_v37, main_v38, main_v39]
set_option maxRecDepth 8192 in
/-- Every operation of segment 1 writes into that list. -/
theorem seg1_writes : (seg1 : List (HloOp τ sig (Elt F))).Forall fun op => op.writes ⊆ (seg1_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 2 writes. -/
abbrev seg2_W : List (Ref sig .tc) := [main_cst_8, main_v40, main_cst_9, main_v41, main_v42, main_v43, main_v44, main_v45, main_v46, main_cst_10, main_v47, main_cst_11, main_v48, main_v49, main_v50, main_v51, main_v52, main_cst_12, main_v53, main_v54, main_v55, main_v56, main_v57, main_v58, main_v59, main_v60, main_v61, main_v62, main_v63, main_v64, main_call0_cst, main_call0_v0, main_v65, main_v66, main_v67, main_v68]
set_option maxRecDepth 8192 in
/-- Every operation of segment 2 writes into that list. -/
theorem seg2_writes : (seg2 : List (HloOp τ sig (Elt F))).Forall fun op => op.writes ⊆ (seg2_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 3 writes. -/
abbrev seg3_W : List (Ref sig .tc) := [main_c_13, main_v69, main_v70, main_c_14, main_v71, main_v72, main_v73, main_v74, main_v75, main_cst_15, main_v76, main_v77, main_v78, main_v79, main_v80, main_v81, main_v82, main_v83, main_v84, main_v85]
set_option maxRecDepth 8192 in
/-- Every operation of segment 3 writes into that list. -/
theorem seg3_writes : (seg3 : List (HloOp τ sig (Elt F))).Forall fun op => op.writes ⊆ (seg3_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 4 writes. -/
abbrev seg4_W : List (Ref sig .tc) := [main_cst_16, main_v86, main_cst_17, main_v87, main_v88, main_v89, main_v90, main_v91, main_v92, main_cst_18, main_v93, main_cst_19, main_v94, main_v95, main_v96, main_v97, main_v98, main_cst_20, main_v99, main_v100, main_v101, main_v102, main_v103, main_v104, main_v105, main_v106, main_v107, main_v108, main_v109, main_v110, main_call1_cst, main_call1_v0, main_v111, main_v112, main_v113, main_v114]
set_option maxRecDepth 8192 in
/-- Every operation of segment 4 writes into that list. -/
theorem seg4_writes : (seg4 : List (HloOp τ sig (Elt F))).Forall fun op => op.writes ⊆ (seg4_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 5 writes. -/
abbrev seg5_W : List (Ref sig .tc) := [main_c_21, main_v115, main_v116, main_c_22, main_v117, main_v118, main_v119, main_v120, main_v121, main_cst_23, main_v122, main_v123, main_v124, main_v125, main_v126, main_v127, main_v128, main_v129, main_v130, main_v131]
set_option maxRecDepth 8192 in
/-- Every operation of segment 5 writes into that list. -/
theorem seg5_writes : (seg5 : List (HloOp τ sig (Elt F))).Forall fun op => op.writes ⊆ (seg5_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 6 writes. -/
abbrev seg6_W : List (Ref sig .tc) := [main_cst_24, main_v132, main_cst_25, main_v133, main_v134, main_v135, main_v136, main_v137, main_v138, main_cst_26, main_v139, main_cst_27, main_v140, main_v141, main_v142, main_v143, main_v144, main_cst_28, main_v145, main_v146, main_v147, main_v148, main_v149, main_v150, main_v151, main_v152, main_v153, main_v154, main_v155, main_v156, main_call2_cst, main_call2_v0, main_v157]
set_option maxRecDepth 8192 in
/-- Every operation of segment 6 writes into that list. -/
theorem seg6_writes : (seg6 : List (HloOp τ sig (Elt F))).Forall fun op => op.writes ⊆ (seg6_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-- The buffers that segment 7 writes. -/
abbrev seg7_W : List (Ref sig .tc) := [main_cst_29, main_v158, main_v159, main_v160, main_cst_30, main_v161, main_cst_31, main_v162, main_v163, main_v164, main_cst_32, main_v165, main_v166, main_v167, main_v168, main_v169, main_v170, main_v171, main_v172, main_v173, main_call3_cst, main_call3_v0, main_v174, main_v175, main_v176, main_v177, main_v178]
set_option maxRecDepth 8192 in
/-- Every operation of segment 7 writes into that list. -/
theorem seg7_writes : (seg7 : List (HloOp τ sig (Elt F))).Forall fun op => op.writes ⊆ (seg7_W.map (Proc.devRef (τ := τ) .tc)).toFinset := by
  simp only [List.Forall]
  exact ⟨(by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide)), (by simp only [nullary_writes, unary_writes, binary_writes, ternary_writes, quaternary_writes, reshape_writes, binaryIndexed_writes, nary_writes, unaryIndexed_writes, Finset.singleton_subset_iff, List.mem_toFinset]; exact List.mem_map_of_mem (by decide))⟩

/-! ## The contents after each segment

  `U0` is the launch contents of a device; `Uk` is the fold of segment k from `U(k-1)`. Each is named,
  and a later segment reads an earlier one's buffers through the lemmas below. -/

/-- The device's buffer contents at launch. -/
def U0 (m : (ℓ : Loc nD τ sig) → Buf (Elt F) ℓ) (c : Dev nD) : Valuation τ sig (Elt F) := launchContents m c
theorem U0_def (m : (ℓ : Loc nD τ sig) → Buf (Elt F) ℓ) (c : Dev nD) : U0 m c = launchContents m c := rfl
/-- At launch a buffer holds what the memory holds. -/
theorem U0_apply (m : (ℓ : Loc nD τ sig) → Buf (Elt F) ℓ) (c : Dev nD) (r : Ref sig .tc) : U0 m c (Proc.devRef .tc r) = m ((c.tc : Thread nD τ).loc r) := rfl

/-- The device's buffer contents after the first 1 segment. -/
def U1 (m : (ℓ : Loc nD τ sig) → Buf (Elt F) ℓ) (c : Dev nD) : Valuation τ sig (Elt F) := after seg1 (U0 m c)
theorem U1_def (m : (ℓ : Loc nD τ sig) → Buf (Elt F) ℓ) (c : Dev nD) : U1 m c = after seg1 (U0 m c) := rfl
/-- A buffer that segment 1 does not write keeps its contents through it. -/
theorem U1_keep (m : (ℓ : Loc nD τ sig) → Buf (Elt F) ℓ) (c : Dev nD) (r : Ref sig .tc) (h : r ∉ seg1_W) :
    U1 m c (Proc.devRef .tc r) = U0 m c (Proc.devRef .tc r) :=
  after_of_writes_sub seg1 _ seg1_writes h
/-- A buffer that none of the first 1 segment writes still holds its launch contents. -/
theorem U1_init (m : (ℓ : Loc nD τ sig) → Buf (Elt F) ℓ) (c : Dev nD) (r : Ref sig .tc) (h1 : r ∉ seg1_W) :
    U1 m c (Proc.devRef .tc r) = m ((c.tc : Thread nD τ).loc r) :=
  (U1_keep m c r h1).trans (U0_apply m c r)

/-- The device's buffer contents after the first 2 segments. -/
def U2 (m : (ℓ : Loc nD τ sig) → Buf (Elt F) ℓ) (c : Dev nD) : Valuation τ sig (Elt F) := after seg2 (U1 m c)
theorem U2_def (m : (ℓ : Loc nD τ sig) → Buf (Elt F) ℓ) (c : Dev nD) : U2 m c = after seg2 (U1 m c) := rfl
/-- A buffer that segment 2 does not write keeps its contents through it. -/
theorem U2_keep (m : (ℓ : Loc nD τ sig) → Buf (Elt F) ℓ) (c : Dev nD) (r : Ref sig .tc) (h : r ∉ seg2_W) :
    U2 m c (Proc.devRef .tc r) = U1 m c (Proc.devRef .tc r) :=
  after_of_writes_sub seg2 _ seg2_writes h
/-- A buffer that none of the first 2 segments writes still holds its launch contents. -/
theorem U2_init (m : (ℓ : Loc nD τ sig) → Buf (Elt F) ℓ) (c : Dev nD) (r : Ref sig .tc) (h1 : r ∉ seg1_W) (h2 : r ∉ seg2_W) :
    U2 m c (Proc.devRef .tc r) = m ((c.tc : Thread nD τ).loc r) :=
  (U2_keep m c r h2).trans (U1_init m c r h1)

/-- The device's buffer contents after the first 3 segments. -/
def U3 (m : (ℓ : Loc nD τ sig) → Buf (Elt F) ℓ) (c : Dev nD) : Valuation τ sig (Elt F) := after seg3 (U2 m c)
theorem U3_def (m : (ℓ : Loc nD τ sig) → Buf (Elt F) ℓ) (c : Dev nD) : U3 m c = after seg3 (U2 m c) := rfl
/-- A buffer that segment 3 does not write keeps its contents through it. -/
theorem U3_keep (m : (ℓ : Loc nD τ sig) → Buf (Elt F) ℓ) (c : Dev nD) (r : Ref sig .tc) (h : r ∉ seg3_W) :
    U3 m c (Proc.devRef .tc r) = U2 m c (Proc.devRef .tc r) :=
  after_of_writes_sub seg3 _ seg3_writes h
/-- A buffer that none of the first 3 segments writes still holds its launch contents. -/
theorem U3_init (m : (ℓ : Loc nD τ sig) → Buf (Elt F) ℓ) (c : Dev nD) (r : Ref sig .tc) (h1 : r ∉ seg1_W) (h2 : r ∉ seg2_W) (h3 : r ∉ seg3_W) :
    U3 m c (Proc.devRef .tc r) = m ((c.tc : Thread nD τ).loc r) :=
  (U3_keep m c r h3).trans (U2_init m c r h1 h2)

/-- The device's buffer contents after the first 4 segments. -/
def U4 (m : (ℓ : Loc nD τ sig) → Buf (Elt F) ℓ) (c : Dev nD) : Valuation τ sig (Elt F) := after seg4 (U3 m c)
theorem U4_def (m : (ℓ : Loc nD τ sig) → Buf (Elt F) ℓ) (c : Dev nD) : U4 m c = after seg4 (U3 m c) := rfl
/-- A buffer that segment 4 does not write keeps its contents through it. -/
theorem U4_keep (m : (ℓ : Loc nD τ sig) → Buf (Elt F) ℓ) (c : Dev nD) (r : Ref sig .tc) (h : r ∉ seg4_W) :
    U4 m c (Proc.devRef .tc r) = U3 m c (Proc.devRef .tc r) :=
  after_of_writes_sub seg4 _ seg4_writes h
/-- A buffer that none of the first 4 segments writes still holds its launch contents. -/
theorem U4_init (m : (ℓ : Loc nD τ sig) → Buf (Elt F) ℓ) (c : Dev nD) (r : Ref sig .tc) (h1 : r ∉ seg1_W) (h2 : r ∉ seg2_W) (h3 : r ∉ seg3_W) (h4 : r ∉ seg4_W) :
    U4 m c (Proc.devRef .tc r) = m ((c.tc : Thread nD τ).loc r) :=
  (U4_keep m c r h4).trans (U3_init m c r h1 h2 h3)

/-- The device's buffer contents after the first 5 segments. -/
def U5 (m : (ℓ : Loc nD τ sig) → Buf (Elt F) ℓ) (c : Dev nD) : Valuation τ sig (Elt F) := after seg5 (U4 m c)
theorem U5_def (m : (ℓ : Loc nD τ sig) → Buf (Elt F) ℓ) (c : Dev nD) : U5 m c = after seg5 (U4 m c) := rfl
/-- A buffer that segment 5 does not write keeps its contents through it. -/
theorem U5_keep (m : (ℓ : Loc nD τ sig) → Buf (Elt F) ℓ) (c : Dev nD) (r : Ref sig .tc) (h : r ∉ seg5_W) :
    U5 m c (Proc.devRef .tc r) = U4 m c (Proc.devRef .tc r) :=
  after_of_writes_sub seg5 _ seg5_writes h
/-- A buffer that none of the first 5 segments writes still holds its launch contents. -/
theorem U5_init (m : (ℓ : Loc nD τ sig) → Buf (Elt F) ℓ) (c : Dev nD) (r : Ref sig .tc) (h1 : r ∉ seg1_W) (h2 : r ∉ seg2_W) (h3 : r ∉ seg3_W) (h4 : r ∉ seg4_W) (h5 : r ∉ seg5_W) :
    U5 m c (Proc.devRef .tc r) = m ((c.tc : Thread nD τ).loc r) :=
  (U5_keep m c r h5).trans (U4_init m c r h1 h2 h3 h4)

/-- The device's buffer contents after the first 6 segments. -/
def U6 (m : (ℓ : Loc nD τ sig) → Buf (Elt F) ℓ) (c : Dev nD) : Valuation τ sig (Elt F) := after seg6 (U5 m c)
theorem U6_def (m : (ℓ : Loc nD τ sig) → Buf (Elt F) ℓ) (c : Dev nD) : U6 m c = after seg6 (U5 m c) := rfl
/-- A buffer that segment 6 does not write keeps its contents through it. -/
theorem U6_keep (m : (ℓ : Loc nD τ sig) → Buf (Elt F) ℓ) (c : Dev nD) (r : Ref sig .tc) (h : r ∉ seg6_W) :
    U6 m c (Proc.devRef .tc r) = U5 m c (Proc.devRef .tc r) :=
  after_of_writes_sub seg6 _ seg6_writes h
/-- A buffer that none of the first 6 segments writes still holds its launch contents. -/
theorem U6_init (m : (ℓ : Loc nD τ sig) → Buf (Elt F) ℓ) (c : Dev nD) (r : Ref sig .tc) (h1 : r ∉ seg1_W) (h2 : r ∉ seg2_W) (h3 : r ∉ seg3_W) (h4 : r ∉ seg4_W) (h5 : r ∉ seg5_W) (h6 : r ∉ seg6_W) :
    U6 m c (Proc.devRef .tc r) = m ((c.tc : Thread nD τ).loc r) :=
  (U6_keep m c r h6).trans (U5_init m c r h1 h2 h3 h4 h5)

/-- The device's buffer contents after the first 7 segments. -/
def U7 (m : (ℓ : Loc nD τ sig) → Buf (Elt F) ℓ) (c : Dev nD) : Valuation τ sig (Elt F) := after seg7 (U6 m c)
theorem U7_def (m : (ℓ : Loc nD τ sig) → Buf (Elt F) ℓ) (c : Dev nD) : U7 m c = after seg7 (U6 m c) := rfl
/-- A buffer that segment 7 does not write keeps its contents through it. -/
theorem U7_keep (m : (ℓ : Loc nD τ sig) → Buf (Elt F) ℓ) (c : Dev nD) (r : Ref sig .tc) (h : r ∉ seg7_W) :
    U7 m c (Proc.devRef .tc r) = U6 m c (Proc.devRef .tc r) :=
  after_of_writes_sub seg7 _ seg7_writes h
/-- A buffer that none of the first 7 segments writes still holds its launch contents. -/
theorem U7_init (m : (ℓ : Loc nD τ sig) → Buf (Elt F) ℓ) (c : Dev nD) (r : Ref sig .tc) (h1 : r ∉ seg1_W) (h2 : r ∉ seg2_W) (h3 : r ∉ seg3_W) (h4 : r ∉ seg4_W) (h5 : r ∉ seg5_W) (h6 : r ∉ seg6_W) (h7 : r ∉ seg7_W) :
    U7 m c (Proc.devRef .tc r) = m ((c.tc : Thread nD τ).loc r) :=
  (U7_keep m c r h7).trans (U6_init m c r h1 h2 h3 h4 h5 h6)

/-- The fold of the whole list is the contents after the seventh segment. -/
theorem after_all (m : (ℓ : Loc nD τ sig) → Buf (Elt F) ℓ) (c : Dev nD) :
    after (seg1 ++ seg2 ++ seg3 ++ seg4 ++ seg5 ++ seg6 ++ seg7) (launchContents m c) = U7 m c := by
  simp only [after_append]
  rfl

end Cert.ReferenceIdeal.RefRun

end
-- ==== Proof.RefRun.lean ====
/-
  The run of the reference program, read segment by segment.

  A straight-line host program is a list of operations, each writing one buffer as a function of buffers
  written before it. Every weakly fair execution of such a program terminates with every buffer at the FOLD of
  the operations' results over the launch contents; a buffer that no operation writes keeps its launch contents.
  The fold over a concatenation of lists is the fold over the second list from the fold over the first, so the
  fold is read one segment at a time: the contents after a segment are a function of the contents before it.
  The list is cut where a large value (a layer's output) starts to be read several times; the value is named once,
  by the stage function of the operation that writes it, and later segments read it by that name instead of by
  its whole expression in the program's arguments. Chaining the seven segments gives the last buffer as the last
  stage function of the arguments, and every argument buffer unchanged.
-/
import proofs.«132861_j65154653880488_2_alg».proof.Proof.Gen.ReferenceIdeal
import proofs.«132861_j65154653880488_2_alg».proof.Proof.ReadP
import proofs.«132861_j65154653880488_2_alg».proof.Proof.RefRunSegs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-! ## Segment 1 -/

set_option maxRecDepth 8192 in
set_option maxHeartbeats 2000000 in
/-- After segment 1, `main_v39` holds its stage function of the arguments. -/
theorem U1_main_v39 (m : (ℓ : Loc nD τ sig) → Buf (Elt F) ℓ) (c : Dev nD) : U1 m c (no_index (Proc.devRef .tc main_v39)) = val_main_v39 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) := by
  unfold U1
  simp only [seg1]
  after_results_simp
  rfl

set_option maxRecDepth 8192 in
set_option maxHeartbeats 2000000 in
/-- After segment 1, `main_v11` holds its stage function of the arguments. -/
theorem U1_main_v11 (m : (ℓ : Loc nD τ sig) → Buf (Elt F) ℓ) (c : Dev nD) : U1 m c (no_index (Proc.devRef .tc main_v11)) = val_main_v11 (F := F) (m ((c.tc : Thread nD τ).loc main_arg1)) := by
  unfold U1
  simp only [seg1]
  after_results_simp
  rfl

set_option maxRecDepth 8192 in
set_option maxHeartbeats 2000000 in
/-- After segment 1, `main_v12` holds its stage function of the arguments. -/
theorem U1_main_v12 (m : (ℓ : Loc nD τ sig) → Buf (Elt F) ℓ) (c : Dev nD) : U1 m c (no_index (Proc.devRef .tc main_v12)) = val_main_v12 (F := F) (m ((c.tc : Thread nD τ).loc main_arg2)) := by
  unfold U1
  simp only [seg1]
  after_results_simp
  rfl

/-! ## Segment 2 -/

theorem U1_main_arg8 (m : (ℓ : Loc nD τ sig) → Buf (Elt F) ℓ) (c : Dev nD) : U1 m c (no_index (Proc.devRef .tc main_arg8)) = (m ((c.tc : Thread nD τ).loc main_arg8)) :=
  U1_init m c main_arg8 (by decide)
theorem U1_main_arg7 (m : (ℓ : Loc nD τ sig) → Buf (Elt F) ℓ) (c : Dev nD) : U1 m c (no_index (Proc.devRef .tc main_arg7)) = (m ((c.tc : Thread nD τ).loc main_arg7)) :=
  U1_init m c main_arg7 (by decide)

set_option maxRecDepth 8192 in
set_option maxHeartbeats 2000000 in
/-- After segment 2, `main_v68` holds its stage function of the arguments. -/
theorem U2_main_v68 (m : (ℓ : Loc nD τ sig) → Buf (Elt F) ℓ) (c : Dev nD) : U2 m c (no_index (Proc.devRef .tc main_v68)) = val_main_v68 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold U2
  simp only [seg2]
  after_results_simp
  simp only [U1_main_v11, U1_main_arg8, U1_main_arg7, U1_main_v39]
  rfl

theorem U2_main_v11 (m : (ℓ : Loc nD τ sig) → Buf (Elt F) ℓ) (c : Dev nD) : U2 m c (no_index (Proc.devRef .tc main_v11)) = val_main_v11 (F := F) (m ((c.tc : Thread nD τ).loc main_arg1)) :=
  (U2_keep m c main_v11 (by decide)).trans (U1_main_v11 m c)
theorem U2_main_v12 (m : (ℓ : Loc nD τ sig) → Buf (Elt F) ℓ) (c : Dev nD) : U2 m c (no_index (Proc.devRef .tc main_v12)) = val_main_v12 (F := F) (m ((c.tc : Thread nD τ).loc main_arg2)) :=
  (U2_keep m c main_v12 (by decide)).trans (U1_main_v12 m c)

/-! ## Segment 3 -/

theorem U2_main_arg10 (m : (ℓ : Loc nD τ sig) → Buf (Elt F) ℓ) (c : Dev nD) : U2 m c (no_index (Proc.devRef .tc main_arg10)) = (m ((c.tc : Thread nD τ).loc main_arg10)) :=
  U2_init m c main_arg10 (by decide) (by decide)
theorem U2_main_arg9 (m : (ℓ : Loc nD τ sig) → Buf (Elt F) ℓ) (c : Dev nD) : U2 m c (no_index (Proc.devRef .tc main_arg9)) = (m ((c.tc : Thread nD τ).loc main_arg9)) :=
  U2_init m c main_arg9 (by decide) (by decide)
theorem U2_main_arg1 (m : (ℓ : Loc nD τ sig) → Buf (Elt F) ℓ) (c : Dev nD) : U2 m c (no_index (Proc.devRef .tc main_arg1)) = (m ((c.tc : Thread nD τ).loc main_arg1)) :=
  U2_init m c main_arg1 (by decide) (by decide)
theorem U2_main_arg2 (m : (ℓ : Loc nD τ sig) → Buf (Elt F) ℓ) (c : Dev nD) : U2 m c (no_index (Proc.devRef .tc main_arg2)) = (m ((c.tc : Thread nD τ).loc main_arg2)) :=
  U2_init m c main_arg2 (by decide) (by decide)

set_option maxRecDepth 8192 in
set_option maxHeartbeats 2000000 in
/-- After segment 3, `main_v85` holds its stage function of the arguments. -/
theorem U3_main_v85 (m : (ℓ : Loc nD τ sig) → Buf (Elt F) ℓ) (c : Dev nD) : U3 m c (no_index (Proc.devRef .tc main_v85)) = val_main_v85 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold U3
  simp only [seg3]
  after_results_simp
  simp only [U2_main_arg10, U2_main_arg9, U2_main_v12, U2_main_arg1, U2_main_v68, U2_main_arg2]
  rfl

theorem U3_main_v11 (m : (ℓ : Loc nD τ sig) → Buf (Elt F) ℓ) (c : Dev nD) : U3 m c (no_index (Proc.devRef .tc main_v11)) = val_main_v11 (F := F) (m ((c.tc : Thread nD τ).loc main_arg1)) :=
  (U3_keep m c main_v11 (by decide)).trans (U2_main_v11 m c)
theorem U3_main_v12 (m : (ℓ : Loc nD τ sig) → Buf (Elt F) ℓ) (c : Dev nD) : U3 m c (no_index (Proc.devRef .tc main_v12)) = val_main_v12 (F := F) (m ((c.tc : Thread nD τ).loc main_arg2)) :=
  (U3_keep m c main_v12 (by decide)).trans (U2_main_v12 m c)

/-! ## Segment 4 -/

theorem U3_main_arg12 (m : (ℓ : Loc nD τ sig) → Buf (Elt F) ℓ) (c : Dev nD) : U3 m c (no_index (Proc.devRef .tc main_arg12)) = (m ((c.tc : Thread nD τ).loc main_arg12)) :=
  U3_init m c main_arg12 (by decide) (by decide) (by decide)
theorem U3_main_arg11 (m : (ℓ : Loc nD τ sig) → Buf (Elt F) ℓ) (c : Dev nD) : U3 m c (no_index (Proc.devRef .tc main_arg11)) = (m ((c.tc : Thread nD τ).loc main_arg11)) :=
  U3_init m c main_arg11 (by decide) (by decide) (by decide)

set_option maxRecDepth 8192 in
set_option maxHeartbeats 2000000 in
/-- After segment 4, `main_v114` holds its stage function of the arguments. -/
theorem U4_main_v114 (m : (ℓ : Loc nD τ sig) → Buf (Elt F) ℓ) (c : Dev nD) : U4 m c (no_index (Proc.devRef .tc main_v114)) = val_main_v114 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  unfold U4
  simp only [seg4]
  after_results_simp
  simp only [U3_main_v11, U3_main_arg12, U3_main_arg11, U3_main_v85]
  rfl

theorem U4_main_v12 (m : (ℓ : Loc nD τ sig) → Buf (Elt F) ℓ) (c : Dev nD) : U4 m c (no_index (Proc.devRef .tc main_v12)) = val_main_v12 (F := F) (m ((c.tc : Thread nD τ).loc main_arg2)) :=
  (U4_keep m c main_v12 (by decide)).trans (U3_main_v12 m c)

/-! ## Segment 5 -/

theorem U4_main_arg14 (m : (ℓ : Loc nD τ sig) → Buf (Elt F) ℓ) (c : Dev nD) : U4 m c (no_index (Proc.devRef .tc main_arg14)) = (m ((c.tc : Thread nD τ).loc main_arg14)) :=
  U4_init m c main_arg14 (by decide) (by decide) (by decide) (by decide)
theorem U4_main_arg13 (m : (ℓ : Loc nD τ sig) → Buf (Elt F) ℓ) (c : Dev nD) : U4 m c (no_index (Proc.devRef .tc main_arg13)) = (m ((c.tc : Thread nD τ).loc main_arg13)) :=
  U4_init m c main_arg13 (by decide) (by decide) (by decide) (by decide)
theorem U4_main_arg1 (m : (ℓ : Loc nD τ sig) → Buf (Elt F) ℓ) (c : Dev nD) : U4 m c (no_index (Proc.devRef .tc main_arg1)) = (m ((c.tc : Thread nD τ).loc main_arg1)) :=
  U4_init m c main_arg1 (by decide) (by decide) (by decide) (by decide)
theorem U4_main_arg2 (m : (ℓ : Loc nD τ sig) → Buf (Elt F) ℓ) (c : Dev nD) : U4 m c (no_index (Proc.devRef .tc main_arg2)) = (m ((c.tc : Thread nD τ).loc main_arg2)) :=
  U4_init m c main_arg2 (by decide) (by decide) (by decide) (by decide)

set_option maxRecDepth 8192 in
set_option maxHeartbeats 2000000 in
/-- After segment 5, `main_v131` holds its stage function of the arguments. -/
theorem U5_main_v131 (m : (ℓ : Loc nD τ sig) → Buf (Elt F) ℓ) (c : Dev nD) : U5 m c (no_index (Proc.devRef .tc main_v131)) = val_main_v131 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold U5
  simp only [seg5]
  after_results_simp
  simp only [U4_main_arg14, U4_main_arg13, U4_main_v12, U4_main_arg1, U4_main_v114, U4_main_arg2]
  rfl

/-! ## Segment 6 -/

theorem U5_main_arg16 (m : (ℓ : Loc nD τ sig) → Buf (Elt F) ℓ) (c : Dev nD) : U5 m c (no_index (Proc.devRef .tc main_arg16)) = (m ((c.tc : Thread nD τ).loc main_arg16)) :=
  U5_init m c main_arg16 (by decide) (by decide) (by decide) (by decide) (by decide)
theorem U5_main_arg15 (m : (ℓ : Loc nD τ sig) → Buf (Elt F) ℓ) (c : Dev nD) : U5 m c (no_index (Proc.devRef .tc main_arg15)) = (m ((c.tc : Thread nD τ).loc main_arg15)) :=
  U5_init m c main_arg15 (by decide) (by decide) (by decide) (by decide) (by decide)

set_option maxRecDepth 8192 in
set_option maxHeartbeats 2000000 in
/-- After segment 6, `main_v157` holds its stage function of the arguments. -/
theorem U6_main_v157 (m : (ℓ : Loc nD τ sig) → Buf (Elt F) ℓ) (c : Dev nD) : U6 m c (no_index (Proc.devRef .tc main_v157)) = val_main_v157 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold U6
  simp only [seg6]
  after_results_simp
  simp only [U5_main_arg16, U5_main_arg15, U5_main_v131]
  rfl

/-! ## Segment 7 -/

theorem U6_main_arg20 (m : (ℓ : Loc nD τ sig) → Buf (Elt F) ℓ) (c : Dev nD) : U6 m c (no_index (Proc.devRef .tc main_arg20)) = (m ((c.tc : Thread nD τ).loc main_arg20)) :=
  U6_init m c main_arg20 (by decide) (by decide) (by decide) (by decide) (by decide) (by decide)
theorem U6_main_arg19 (m : (ℓ : Loc nD τ sig) → Buf (Elt F) ℓ) (c : Dev nD) : U6 m c (no_index (Proc.devRef .tc main_arg19)) = (m ((c.tc : Thread nD τ).loc main_arg19)) :=
  U6_init m c main_arg19 (by decide) (by decide) (by decide) (by decide) (by decide) (by decide)
theorem U6_main_arg18 (m : (ℓ : Loc nD τ sig) → Buf (Elt F) ℓ) (c : Dev nD) : U6 m c (no_index (Proc.devRef .tc main_arg18)) = (m ((c.tc : Thread nD τ).loc main_arg18)) :=
  U6_init m c main_arg18 (by decide) (by decide) (by decide) (by decide) (by decide) (by decide)
theorem U6_main_arg17 (m : (ℓ : Loc nD τ sig) → Buf (Elt F) ℓ) (c : Dev nD) : U6 m c (no_index (Proc.devRef .tc main_arg17)) = (m ((c.tc : Thread nD τ).loc main_arg17)) :=
  U6_init m c main_arg17 (by decide) (by decide) (by decide) (by decide) (by decide) (by decide)
theorem U6_main_arg3 (m : (ℓ : Loc nD τ sig) → Buf (Elt F) ℓ) (c : Dev nD) : U6 m c (no_index (Proc.devRef .tc main_arg3)) = (m ((c.tc : Thread nD τ).loc main_arg3)) :=
  U6_init m c main_arg3 (by decide) (by decide) (by decide) (by decide) (by decide) (by decide)

set_option maxRecDepth 8192 in
set_option maxHeartbeats 2000000 in
/-- After segment 7, `main_v178` holds its stage function of the arguments. -/
theorem U7_main_v178 (m : (ℓ : Loc nD τ sig) → Buf (Elt F) ℓ) (c : Dev nD) : U7 m c (no_index (Proc.devRef .tc main_v178)) = val_main_v178 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  unfold U7
  simp only [seg7]
  after_results_simp
  simp only [U6_main_arg20, U6_main_arg19, U6_main_arg18, U6_main_arg17, U6_main_arg3, U6_main_v157]
  rfl

/-! ## The run -/

theorem scopedRefs_eq : (Finset.univ.filter fun b : Ref sig .tc => b.isScoped) = ∅ := by decide
theorem scopedSems_eq : (Finset.univ.filter fun sm : SemLoc sig => sm.isScoped .tc) = ∅ := by decide

/-- A property of every element of two lists holds of every element of their concatenation. -/
theorem forall_append_of {α : Type*} {p : α → Prop} {l1 l2 : List α} (h1 : l1.Forall p) (h2 : l2.Forall p) :
    (l1 ++ l2).Forall p := List.forall_append.2 ⟨h1, h2⟩
theorem forall_mem_append_of {α : Type*} {p : α → Prop} {l1 l2 : List α} (h1 : ∀ x ∈ l1, p x) (h2 : ∀ x ∈ l2, p x) :
    ∀ x ∈ l1 ++ l2, p x := fun x hx => (List.mem_append.1 hx).elim (h1 x) (h2 x)

set_option maxRecDepth 8192 in
/-- Segment 1 touches TensorCore buffers only. -/
theorem seg1_sub : (seg1 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
set_option maxRecDepth 8192 in
/-- Every operation of segment 1 determines its results. -/
theorem seg1_fresh : ∀ op ∈ (seg1 : List (HloOp τ sig (Elt F))), op.fresh = ∅ := by
  intro _ h; (repeat (cases h with | head => rfl | tail _ h => ?_)); exact nomatch h
set_option maxRecDepth 8192 in
/-- Segment 2 touches TensorCore buffers only. -/
theorem seg2_sub : (seg2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub ..⟩
set_option maxRecDepth 8192 in
/-- Every operation of segment 2 determines its results. -/
theorem seg2_fresh : ∀ op ∈ (seg2 : List (HloOp τ sig (Elt F))), op.fresh = ∅ := by
  intro _ h; (repeat (cases h with | head => rfl | tail _ h => ?_)); exact nomatch h
set_option maxRecDepth 8192 in
/-- Segment 3 touches TensorCore buffers only. -/
theorem seg3_sub : (seg3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
set_option maxRecDepth 8192 in
/-- Every operation of segment 3 determines its results. -/
theorem seg3_fresh : ∀ op ∈ (seg3 : List (HloOp τ sig (Elt F))), op.fresh = ∅ := by
  intro _ h; (repeat (cases h with | head => rfl | tail _ h => ?_)); exact nomatch h
set_option maxRecDepth 8192 in
/-- Segment 4 touches TensorCore buffers only. -/
theorem seg4_sub : (seg4 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub ..⟩
set_option maxRecDepth 8192 in
/-- Every operation of segment 4 determines its results. -/
theorem seg4_fresh : ∀ op ∈ (seg4 : List (HloOp τ sig (Elt F))), op.fresh = ∅ := by
  intro _ h; (repeat (cases h with | head => rfl | tail _ h => ?_)); exact nomatch h
set_option maxRecDepth 8192 in
/-- Segment 5 touches TensorCore buffers only. -/
theorem seg5_sub : (seg5 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩
set_option maxRecDepth 8192 in
/-- Every operation of segment 5 determines its results. -/
theorem seg5_fresh : ∀ op ∈ (seg5 : List (HloOp τ sig (Elt F))), op.fresh = ∅ := by
  intro _ h; (repeat (cases h with | head => rfl | tail _ h => ?_)); exact nomatch h
set_option maxRecDepth 8192 in
/-- Segment 6 touches TensorCore buffers only. -/
theorem seg6_sub : (seg6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩
set_option maxRecDepth 8192 in
/-- Every operation of segment 6 determines its results. -/
theorem seg6_fresh : ∀ op ∈ (seg6 : List (HloOp τ sig (Elt F))), op.fresh = ∅ := by
  intro _ h; (repeat (cases h with | head => rfl | tail _ h => ?_)); exact nomatch h
set_option maxRecDepth 8192 in
/-- Segment 7 touches TensorCore buffers only. -/
theorem seg7_sub : (seg7 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
set_option maxRecDepth 8192 in
/-- Every operation of segment 7 determines its results. -/
theorem seg7_fresh : ∀ op ∈ (seg7 : List (HloOp τ sig (Elt F))), op.fresh = ∅ := by
  intro _ h; (repeat (cases h with | head => rfl | tail _ h => ?_)); exact nomatch h

/-- The whole list touches TensorCore buffers only. -/
theorem ops_sub : (seg1 ++ seg2 ++ seg3 ++ seg4 ++ seg5 ++ seg6 ++ seg7 : List (HloOp τ sig (Elt F))).Forall fun op => op.bufs ⊆ tcRefs τ sig :=
  forall_append_of (forall_append_of (forall_append_of (forall_append_of (forall_append_of (forall_append_of (seg1_sub) seg2_sub) seg3_sub) seg4_sub) seg5_sub) seg6_sub) seg7_sub
/-- Every operation of the whole list determines its results. -/
theorem ops_fresh : ∀ op ∈ (seg1 ++ seg2 ++ seg3 ++ seg4 ++ seg5 ++ seg6 ++ seg7 : List (HloOp τ sig (Elt F))), op.fresh = ∅ :=
  forall_mem_append_of (forall_mem_append_of (forall_mem_append_of (forall_mem_append_of (forall_mem_append_of (forall_mem_append_of (seg1_fresh) seg2_fresh) seg3_fresh) seg4_fresh) seg5_fresh) seg6_fresh) seg7_fresh

/-- On every device, from any memory with zero counters: every weakly fair execution of the reference's @main
    terminates with the last buffer at the last stage function of the arguments' launch contents, and the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v178) = Cert.ReferenceIdeal.ReadP.val_main_v178 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨(h c main_v178).trans ((congrFun (after_all m c) _).trans (U7_main_v178 m c)),
      (h c main_arg0).trans ((congrFun (after_all m c) _).trans (U7_init m c main_arg0 (by decide) (by decide) (by decide) (by decide) (by decide) (by decide) (by decide))),
      (h c main_arg1).trans ((congrFun (after_all m c) _).trans (U7_init m c main_arg1 (by decide) (by decide) (by decide) (by decide) (by decide) (by decide) (by decide))),
      (h c main_arg2).trans ((congrFun (after_all m c) _).trans (U7_init m c main_arg2 (by decide) (by decide) (by decide) (by decide) (by decide) (by decide) (by decide))),
      (h c main_arg3).trans ((congrFun (after_all m c) _).trans (U7_init m c main_arg3 (by decide) (by decide) (by decide) (by decide) (by decide) (by decide) (by decide))),
      (h c main_arg4).trans ((congrFun (after_all m c) _).trans (U7_init m c main_arg4 (by decide) (by decide) (by decide) (by decide) (by decide) (by decide) (by decide))),
      (h c main_arg5).trans ((congrFun (after_all m c) _).trans (U7_init m c main_arg5 (by decide) (by decide) (by decide) (by decide) (by decide) (by decide) (by decide))),
      (h c main_arg6).trans ((congrFun (after_all m c) _).trans (U7_init m c main_arg6 (by decide) (by decide) (by decide) (by decide) (by decide) (by decide) (by decide))),
      (h c main_arg7).trans ((congrFun (after_all m c) _).trans (U7_init m c main_arg7 (by decide) (by decide) (by decide) (by decide) (by decide) (by decide) (by decide))),
      (h c main_arg8).trans ((congrFun (after_all m c) _).trans (U7_init m c main_arg8 (by decide) (by decide) (by decide) (by decide) (by decide) (by decide) (by decide))),
      (h c main_arg9).trans ((congrFun (after_all m c) _).trans (U7_init m c main_arg9 (by decide) (by decide) (by decide) (by decide) (by decide) (by decide) (by decide))),
      (h c main_arg10).trans ((congrFun (after_all m c) _).trans (U7_init m c main_arg10 (by decide) (by decide) (by decide) (by decide) (by decide) (by decide) (by decide))),
      (h c main_arg11).trans ((congrFun (after_all m c) _).trans (U7_init m c main_arg11 (by decide) (by decide) (by decide) (by decide) (by decide) (by decide) (by decide))),
      (h c main_arg12).trans ((congrFun (after_all m c) _).trans (U7_init m c main_arg12 (by decide) (by decide) (by decide) (by decide) (by decide) (by decide) (by decide))),
      (h c main_arg13).trans ((congrFun (after_all m c) _).trans (U7_init m c main_arg13 (by decide) (by decide) (by decide) (by decide) (by decide) (by decide) (by decide))),
      (h c main_arg14).trans ((congrFun (after_all m c) _).trans (U7_init m c main_arg14 (by decide) (by decide) (by decide) (by decide) (by decide) (by decide) (by decide))),
      (h c main_arg15).trans ((congrFun (after_all m c) _).trans (U7_init m c main_arg15 (by decide) (by decide) (by decide) (by decide) (by decide) (by decide) (by decide))),
      (h c main_arg16).trans ((congrFun (after_all m c) _).trans (U7_init m c main_arg16 (by decide) (by decide) (by decide) (by decide) (by decide) (by decide) (by decide))),
      (h c main_arg17).trans ((congrFun (after_all m c) _).trans (U7_init m c main_arg17 (by decide) (by decide) (by decide) (by decide) (by decide) (by decide) (by decide))),
      (h c main_arg18).trans ((congrFun (after_all m c) _).trans (U7_init m c main_arg18 (by decide) (by decide) (by decide) (by decide) (by decide) (by decide) (by decide))),
      (h c main_arg19).trans ((congrFun (after_all m c) _).trans (U7_init m c main_arg19 (by decide) (by decide) (by decide) (by decide) (by decide) (by decide) (by decide))),
      (h c main_arg20).trans ((congrFun (after_all m c) _).trans (U7_init m c main_arg20 (by decide) (by decide) (by decide) (by decide) (by decide) (by decide) (by decide)))⟩)
    (run_seq scopedRefs_eq scopedSems_eq defs main (fun _ => seg1 ++ seg2 ++ seg3 ++ seg4 ++ seg5 ++ seg6 ++ seg7) main_eq (fun _ => ops_sub) m ρ (fun _ => ops_fresh))

end Cert.ReferenceIdeal.RefRun

end
-- ==== Proof.FiniteInputs.lean ====
/-
  FROM THE PRECONDITION TO "EVERY FLOAT ENTRY IS A REAL NUMBER".

  The precondition `finite_inputs` computes, for each float argument x, the truth value jnp.all(|x| < +inf): the
  absolute value of x elementwise, a broadcast of the word 0x7F800000 (the f32 pattern of +inf), the ordered
  comparison "less than" elementwise, and the conjunction of all the resulting bits (a reduce by `and` over every axis,
  started at 1). The seventeen truth values are then joined by `and`, and the precondition says the outcome is 1.

  Over the extended reals (the ideal reading of a float) this says every entry is a real number:
    • a conjunction of bits is 1 exactly when each bit is 1 (`IntOp.andi_eq_one`), so each of the seventeen all-reduces is 1;
    • an all-reduce by `and` that is 1 met a 1 at every index (`Host.reduce_andi_all`: the result has a single index);
    • the word 0x7F800000 denotes ⊤ (sign 0, exponent all ones, fraction 0);
    • the ideal absolute value of a is max a (-a), which is ⊤ at a = ⊥ and at a = ⊤; so max a (-a) < ⊤ leaves only
      the case that a is (the embedding of) a real number.
  `reals_of_all` is this argument for one argument of any shape; `reals_of_pre` splits the printed conjunction and applies it
  to the embedding table, the three weight matrices and the nine bias / scale / shift vectors of the three layers.
-/
import proofs.«132861_j65154653880488_2_alg».proof.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

/-- The rank-0 shape has exactly one index (a function out of the empty type of axes). -/
instance : Subsingleton S_.Idx := ⟨fun a b => funext fun d => d.elim0⟩

/-- The f32 word 0x7F800000 (sign 0, exponent 255, fraction 0) denotes +∞. -/
theorem inf_bits : Ideal.ofBits .f32 0x7F800000#32 = (⊤ : EReal) := by
  simp [Ideal.ofBits, Ideal.ieee]

/-- An extended real whose absolute value max a (-a) is strictly below ⊤ is a real number: at a = ⊥ and at a = ⊤ the
    absolute value is ⊤ itself. -/
theorem real_of_abs_lt_top (a : EReal) (h : Ideal.cmp .olt (max a (-a)) ⊤ = 1#1) :
    ∃ r : ℝ, a = (r : EReal) := by
  induction a using EReal.rec with
  | bot => exact absurd h (by simp [Ideal.cmp])
  | top => exact absurd h (by simp [Ideal.cmp])
  | coe r => exact ⟨r, rfl⟩

/-- One argument of any shape S: if the conjunction over all indices of |x i| < +inf is 1, every x i is a real number. -/
theorem reals_of_all {S : Shape} {axes : List (Fin S.rank)}
    (hb : S_.BroadcastsInDim S (![] : Fin 0 → Fin S.rank)) (hr : S.ReducesTo axes S_) (hu : 0 < S_.numel)
    (x : FVec Ideal S .f32) (j : S_.Idx)
    (e : Host.reduce IntOp.andi
          (cmpf .olt (Host.absf x) (broadcastInDim S ![] hb (constant (F := Ideal) S_ .f32 0x7F800000#32)))
          (constantI S_ 1 1#1) hr hu j = 1#1) :
    ∀ i, ∃ r : ℝ, x i = (r : EReal) := by
  intro i
  -- the bit at index i is 1: it reads  max (x i) (-(x i)) < ofBits 0x7F800000
  have h1 := Host.reduce_andi_all _ _ hr hu j e i
  apply real_of_abs_lt_top
  rw [← inf_bits]
  exact h1

/-- The precondition gives: every entry of the embedding table (x4), of the three weight matrices (x5, x9, x13) and of the
    bias, scale and shift vectors of the three layers (x6 x7 x8, x10 x11 x12, x14 x15 x16) is a real number. The printed
    function is one left-nested conjunction of seventeen all-reduces, read at the single index of the rank-0 result. -/
theorem reals_of_pre [Cert.Pre_finite_inputs.Facts]
    (x0 : IVec S100000 32) (x1 : IVec S1600000 32) (x2 : IVec S1600000 32) (x3 : IVec S100000 32)
    (x4 : FVec Ideal S50000x128 .f32) (x5 : FVec Ideal S128x128 .f32) (x6 : FVec Ideal S128 .f32) (x7 : FVec Ideal S128 .f32)
    (x8 : FVec Ideal S128 .f32) (x9 : FVec Ideal S128x128 .f32) (x10 : FVec Ideal S128 .f32) (x11 : FVec Ideal S128 .f32)
    (x12 : FVec Ideal S128 .f32) (x13 : FVec Ideal S128x128 .f32) (x14 : FVec Ideal S128 .f32) (x15 : FVec Ideal S128 .f32)
    (x16 : FVec Ideal S128 .f32) (x17 : FVec Ideal S128x64 .f32) (x18 : FVec Ideal S64 .f32) (x19 : FVec Ideal S64x2 .f32)
    (x20 : FVec Ideal S2 .f32)
    (h : Cert.Pre_finite_inputs.fn (F := Ideal) x0 x1 x2 x3 x4 x5 x6 x7 x8 x9 x10 x11 x12 x13 x14 x15 x16 x17 x18 x19 x20 = fun _ => 1#1) :
    (∀ i, ∃ r : ℝ, x4 i = (r : EReal)) ∧ (∀ i, ∃ r : ℝ, x5 i = (r : EReal)) ∧ (∀ i, ∃ r : ℝ, x6 i = (r : EReal)) ∧ (∀ i, ∃ r : ℝ, x7 i = (r : EReal)) ∧ (∀ i, ∃ r : ℝ, x8 i = (r : EReal)) ∧ (∀ i, ∃ r : ℝ, x9 i = (r : EReal)) ∧ (∀ i, ∃ r : ℝ, x10 i = (r : EReal)) ∧ (∀ i, ∃ r : ℝ, x11 i = (r : EReal)) ∧ (∀ i, ∃ r : ℝ, x12 i = (r : EReal)) ∧ (∀ i, ∃ r : ℝ, x13 i = (r : EReal)) ∧ (∀ i, ∃ r : ℝ, x14 i = (r : EReal)) ∧ (∀ i, ∃ r : ℝ, x15 i = (r : EReal)) ∧ (∀ i, ∃ r : ℝ, x16 i = (r : EReal)) := by
  have h0 := congrFun h ValueIdx.ix0
  dsimp only [fn, fn_part1, fn_part2, fn_part3, fn_part4] at h0
  simp only [andi, IntOp.andi_eq_one] at h0
  obtain ⟨⟨⟨⟨⟨⟨⟨⟨⟨⟨⟨⟨⟨⟨⟨⟨h4, h5⟩, h6⟩, h7⟩, h8⟩, h9⟩, h10⟩, h11⟩, h12⟩, h13⟩, h14⟩, h15⟩, h16⟩, h17⟩, h18⟩, h19⟩, h20⟩ := h0
  exact ⟨reals_of_all _ _ _ x4 _ h4, reals_of_all _ _ _ x5 _ h5, reals_of_all _ _ _ x6 _ h6, reals_of_all _ _ _ x7 _ h7,
    reals_of_all _ _ _ x8 _ h8, reals_of_all _ _ _ x9 _ h9, reals_of_all _ _ _ x10 _ h10, reals_of_all _ _ _ x11 _ h11,
    reals_of_all _ _ _ x12 _ h12, reals_of_all _ _ _ x13 _ h13, reals_of_all _ _ _ x14 _ h14, reals_of_all _ _ _ x15 _ h15,
    reals_of_all _ _ _ x16 _ h16⟩

end Cert.FiniteInputs
-- ==== Proof.KernelKeep.lean ====
/-
  Buffers that nothing overwrites between two points of the idealized kernel's @main.

  @main alternates stretches of host operations with kernel regions. A stretch of host operations changes only the
  buffers its operations write; a region changes only its windows' arrays. So a buffer written once — a per-node
  scale column computed before the first region, an argument array — holds at every later boundary what it held when
  it was written. Each theorem below walks one buffer back from the boundary where it is read to the boundary where it
  was last written, one segment at a time.
-/
import proofs.«132861_j65154653880488_2_alg».proof.Proof.Gen.KernelIdeal.Frame
import Idealize.ShloMosaic.Lib.StableHlo.Run

set_option maxRecDepth 16384

noncomputable section

namespace Cert.KernelIdeal.Keep

open Cert.KernelIdeal Cert.KernelIdeal.Gen
open Idealize.ShloMosaic Idealize.ShloMosaic.TcCoe Idealize.SL.Sem

/-- A stretch of host operations none of which writes the buffer leaves it as it was. -/
macro "keep_host " ops:ident : tactic => `(tactic| exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

variable {F : FTy → Type} [FloatOps F]
variable (m : (ℓ : Loc nD τ sig) → Buf (Elt F) ℓ) (ρ : Dev nD → PrngReg)

theorem W3_main_v13_W1 (c : Dev nD) : W3 m ρ c (Proc.devRef .tc main_v13) = W1 m ρ c (Proc.devRef .tc main_v13) :=
  calc W3 m ρ c (Proc.devRef .tc main_v13)
    _ = W2 m ρ c (Proc.devRef .tc main_v13) := by keep_host hostOps1
    _ = W1 m ρ c (Proc.devRef .tc main_v13) := W2_of_ne m ρ c main_v13 (by decide)

theorem W7_main_v13_W1 (c : Dev nD) : W7 m ρ c (Proc.devRef .tc main_v13) = W1 m ρ c (Proc.devRef .tc main_v13) :=
  calc W7 m ρ c (Proc.devRef .tc main_v13)
    _ = W6 m ρ c (Proc.devRef .tc main_v13) := by keep_host hostOps3
    _ = W5 m ρ c (Proc.devRef .tc main_v13) := W6_of_ne m ρ c main_v13 (by decide)
    _ = W4 m ρ c (Proc.devRef .tc main_v13) := by keep_host hostOps2
    _ = W3 m ρ c (Proc.devRef .tc main_v13) := (W4_arr m ρ c 5).trans (((dat1 (V3 m ρ) c).arrAt_in 5 rfl cfg1.N).trans (A_eq1 (V3 m ρ) c 5))
    _ = W2 m ρ c (Proc.devRef .tc main_v13) := by keep_host hostOps1
    _ = W1 m ρ c (Proc.devRef .tc main_v13) := W2_of_ne m ρ c main_v13 (by decide)

theorem W5_main_v14_W1 (c : Dev nD) : W5 m ρ c (Proc.devRef .tc main_v14) = W1 m ρ c (Proc.devRef .tc main_v14) :=
  calc W5 m ρ c (Proc.devRef .tc main_v14)
    _ = W4 m ρ c (Proc.devRef .tc main_v14) := by keep_host hostOps2
    _ = W3 m ρ c (Proc.devRef .tc main_v14) := W4_of_ne m ρ c main_v14 (by decide)
    _ = W2 m ρ c (Proc.devRef .tc main_v14) := by keep_host hostOps1
    _ = W1 m ρ c (Proc.devRef .tc main_v14) := (W2_arr m ρ c 1).trans (((dat0 (V1 m ρ) c).arrAt_in 1 rfl cfg0.N).trans (A_eq0 (V1 m ρ) c 1))

theorem W9_main_v14_W1 (c : Dev nD) : W9 m ρ c (Proc.devRef .tc main_v14) = W1 m ρ c (Proc.devRef .tc main_v14) :=
  calc W9 m ρ c (Proc.devRef .tc main_v14)
    _ = W8 m ρ c (Proc.devRef .tc main_v14) := by keep_host hostOps4
    _ = W7 m ρ c (Proc.devRef .tc main_v14) := W8_of_ne m ρ c main_v14 (by decide)
    _ = W6 m ρ c (Proc.devRef .tc main_v14) := by keep_host hostOps3
    _ = W5 m ρ c (Proc.devRef .tc main_v14) := (W6_arr m ρ c 1).trans (((dat2 (V5 m ρ) c).arrAt_in 1 rfl cfg2.N).trans (A_eq2 (V5 m ρ) c 1))
    _ = W4 m ρ c (Proc.devRef .tc main_v14) := by keep_host hostOps2
    _ = W3 m ρ c (Proc.devRef .tc main_v14) := W4_of_ne m ρ c main_v14 (by decide)
    _ = W2 m ρ c (Proc.devRef .tc main_v14) := by keep_host hostOps1
    _ = W1 m ρ c (Proc.devRef .tc main_v14) := (W2_arr m ρ c 1).trans (((dat0 (V1 m ρ) c).arrAt_in 1 rfl cfg0.N).trans (A_eq0 (V1 m ρ) c 1))

theorem W11_main_v15_W1 (c : Dev nD) : W11 m ρ c (Proc.devRef .tc main_v15) = W1 m ρ c (Proc.devRef .tc main_v15) :=
  calc W11 m ρ c (Proc.devRef .tc main_v15)
    _ = W10 m ρ c (Proc.devRef .tc main_v15) := by keep_host hostOps5
    _ = W9 m ρ c (Proc.devRef .tc main_v15) := W10_of_ne m ρ c main_v15 (by decide)
    _ = W8 m ρ c (Proc.devRef .tc main_v15) := by keep_host hostOps4
    _ = W7 m ρ c (Proc.devRef .tc main_v15) := W8_of_ne m ρ c main_v15 (by decide)
    _ = W6 m ρ c (Proc.devRef .tc main_v15) := by keep_host hostOps3
    _ = W5 m ρ c (Proc.devRef .tc main_v15) := W6_of_ne m ρ c main_v15 (by decide)
    _ = W4 m ρ c (Proc.devRef .tc main_v15) := by keep_host hostOps2
    _ = W3 m ρ c (Proc.devRef .tc main_v15) := W4_of_ne m ρ c main_v15 (by decide)
    _ = W2 m ρ c (Proc.devRef .tc main_v15) := by keep_host hostOps1
    _ = W1 m ρ c (Proc.devRef .tc main_v15) := W2_of_ne m ρ c main_v15 (by decide)

theorem W3_main_v39_0_W2 (c : Dev nD) : W3 m ρ c (Proc.devRef .tc main_v39_0) = W2 m ρ c (Proc.devRef .tc main_v39_0) :=
  calc W3 m ρ c (Proc.devRef .tc main_v39_0)
    _ = W2 m ρ c (Proc.devRef .tc main_v39_0) := by keep_host hostOps1

theorem W7_main_v72_0_W6 (c : Dev nD) : W7 m ρ c (Proc.devRef .tc main_v72_0) = W6 m ρ c (Proc.devRef .tc main_v72_0) :=
  calc W7 m ρ c (Proc.devRef .tc main_v72_0)
    _ = W6 m ρ c (Proc.devRef .tc main_v72_0) := by keep_host hostOps3

theorem W11_main_v105_0_W10 (c : Dev nD) : W11 m ρ c (Proc.devRef .tc main_v105_0) = W10 m ρ c (Proc.devRef .tc main_v105_0) :=
  calc W11 m ρ c (Proc.devRef .tc main_v105_0)
    _ = W10 m ρ c (Proc.devRef .tc main_v105_0) := by keep_host hostOps5

theorem W1_main_arg5_W0 (c : Dev nD) : W1 m ρ c (Proc.devRef .tc main_arg5) = W0 m ρ c (Proc.devRef .tc main_arg5) :=
  calc W1 m ρ c (Proc.devRef .tc main_arg5)
    _ = W0 m ρ c (Proc.devRef .tc main_arg5) := by keep_host hostOps0

theorem W2_main_arg7_W0 (c : Dev nD) : W2 m ρ c (Proc.devRef .tc main_arg7) = W0 m ρ c (Proc.devRef .tc main_arg7) :=
  calc W2 m ρ c (Proc.devRef .tc main_arg7)
    _ = W1 m ρ c (Proc.devRef .tc main_arg7) := W2_of_ne m ρ c main_arg7 (by decide)
    _ = W0 m ρ c (Proc.devRef .tc main_arg7) := by keep_host hostOps0

theorem W2_main_arg8_W0 (c : Dev nD) : W2 m ρ c (Proc.devRef .tc main_arg8) = W0 m ρ c (Proc.devRef .tc main_arg8) :=
  calc W2 m ρ c (Proc.devRef .tc main_arg8)
    _ = W1 m ρ c (Proc.devRef .tc main_arg8) := W2_of_ne m ρ c main_arg8 (by decide)
    _ = W0 m ρ c (Proc.devRef .tc main_arg8) := by keep_host hostOps0

theorem W4_main_arg1_W0 (c : Dev nD) : W4 m ρ c (Proc.devRef .tc main_arg1) = W0 m ρ c (Proc.devRef .tc main_arg1) :=
  calc W4 m ρ c (Proc.devRef .tc main_arg1)
    _ = W3 m ρ c (Proc.devRef .tc main_arg1) := W4_of_ne m ρ c main_arg1 (by decide)
    _ = W2 m ρ c (Proc.devRef .tc main_arg1) := by keep_host hostOps1
    _ = W1 m ρ c (Proc.devRef .tc main_arg1) := W2_of_ne m ρ c main_arg1 (by decide)
    _ = W0 m ρ c (Proc.devRef .tc main_arg1) := by keep_host hostOps0

theorem W4_main_arg2_W0 (c : Dev nD) : W4 m ρ c (Proc.devRef .tc main_arg2) = W0 m ρ c (Proc.devRef .tc main_arg2) :=
  calc W4 m ρ c (Proc.devRef .tc main_arg2)
    _ = W3 m ρ c (Proc.devRef .tc main_arg2) := W4_of_ne m ρ c main_arg2 (by decide)
    _ = W2 m ρ c (Proc.devRef .tc main_arg2) := by keep_host hostOps1
    _ = W1 m ρ c (Proc.devRef .tc main_arg2) := W2_of_ne m ρ c main_arg2 (by decide)
    _ = W0 m ρ c (Proc.devRef .tc main_arg2) := by keep_host hostOps0

theorem W5_main_arg9_W0 (c : Dev nD) : W5 m ρ c (Proc.devRef .tc main_arg9) = W0 m ρ c (Proc.devRef .tc main_arg9) :=
  calc W5 m ρ c (Proc.devRef .tc main_arg9)
    _ = W4 m ρ c (Proc.devRef .tc main_arg9) := by keep_host hostOps2
    _ = W3 m ρ c (Proc.devRef .tc main_arg9) := W4_of_ne m ρ c main_arg9 (by decide)
    _ = W2 m ρ c (Proc.devRef .tc main_arg9) := by keep_host hostOps1
    _ = W1 m ρ c (Proc.devRef .tc main_arg9) := W2_of_ne m ρ c main_arg9 (by decide)
    _ = W0 m ρ c (Proc.devRef .tc main_arg9) := by keep_host hostOps0

theorem W4_main_arg10_W0 (c : Dev nD) : W4 m ρ c (Proc.devRef .tc main_arg10) = W0 m ρ c (Proc.devRef .tc main_arg10) :=
  calc W4 m ρ c (Proc.devRef .tc main_arg10)
    _ = W3 m ρ c (Proc.devRef .tc main_arg10) := W4_of_ne m ρ c main_arg10 (by decide)
    _ = W2 m ρ c (Proc.devRef .tc main_arg10) := by keep_host hostOps1
    _ = W1 m ρ c (Proc.devRef .tc main_arg10) := W2_of_ne m ρ c main_arg10 (by decide)
    _ = W0 m ρ c (Proc.devRef .tc main_arg10) := by keep_host hostOps0

theorem W6_main_arg11_W0 (c : Dev nD) : W6 m ρ c (Proc.devRef .tc main_arg11) = W0 m ρ c (Proc.devRef .tc main_arg11) :=
  calc W6 m ρ c (Proc.devRef .tc main_arg11)
    _ = W5 m ρ c (Proc.devRef .tc main_arg11) := W6_of_ne m ρ c main_arg11 (by decide)
    _ = W4 m ρ c (Proc.devRef .tc main_arg11) := by keep_host hostOps2
    _ = W3 m ρ c (Proc.devRef .tc main_arg11) := W4_of_ne m ρ c main_arg11 (by decide)
    _ = W2 m ρ c (Proc.devRef .tc main_arg11) := by keep_host hostOps1
    _ = W1 m ρ c (Proc.devRef .tc main_arg11) := W2_of_ne m ρ c main_arg11 (by decide)
    _ = W0 m ρ c (Proc.devRef .tc main_arg11) := by keep_host hostOps0

theorem W6_main_arg12_W0 (c : Dev nD) : W6 m ρ c (Proc.devRef .tc main_arg12) = W0 m ρ c (Proc.devRef .tc main_arg12) :=
  calc W6 m ρ c (Proc.devRef .tc main_arg12)
    _ = W5 m ρ c (Proc.devRef .tc main_arg12) := W6_of_ne m ρ c main_arg12 (by decide)
    _ = W4 m ρ c (Proc.devRef .tc main_arg12) := by keep_host hostOps2
    _ = W3 m ρ c (Proc.devRef .tc main_arg12) := W4_of_ne m ρ c main_arg12 (by decide)
    _ = W2 m ρ c (Proc.devRef .tc main_arg12) := by keep_host hostOps1
    _ = W1 m ρ c (Proc.devRef .tc main_arg12) := W2_of_ne m ρ c main_arg12 (by decide)
    _ = W0 m ρ c (Proc.devRef .tc main_arg12) := by keep_host hostOps0

theorem W8_main_arg1_W0 (c : Dev nD) : W8 m ρ c (Proc.devRef .tc main_arg1) = W0 m ρ c (Proc.devRef .tc main_arg1) :=
  calc W8 m ρ c (Proc.devRef .tc main_arg1)
    _ = W7 m ρ c (Proc.devRef .tc main_arg1) := W8_of_ne m ρ c main_arg1 (by decide)
    _ = W6 m ρ c (Proc.devRef .tc main_arg1) := by keep_host hostOps3
    _ = W5 m ρ c (Proc.devRef .tc main_arg1) := W6_of_ne m ρ c main_arg1 (by decide)
    _ = W4 m ρ c (Proc.devRef .tc main_arg1) := by keep_host hostOps2
    _ = W3 m ρ c (Proc.devRef .tc main_arg1) := W4_of_ne m ρ c main_arg1 (by decide)
    _ = W2 m ρ c (Proc.devRef .tc main_arg1) := by keep_host hostOps1
    _ = W1 m ρ c (Proc.devRef .tc main_arg1) := W2_of_ne m ρ c main_arg1 (by decide)
    _ = W0 m ρ c (Proc.devRef .tc main_arg1) := by keep_host hostOps0

theorem W8_main_arg2_W0 (c : Dev nD) : W8 m ρ c (Proc.devRef .tc main_arg2) = W0 m ρ c (Proc.devRef .tc main_arg2) :=
  calc W8 m ρ c (Proc.devRef .tc main_arg2)
    _ = W7 m ρ c (Proc.devRef .tc main_arg2) := W8_of_ne m ρ c main_arg2 (by decide)
    _ = W6 m ρ c (Proc.devRef .tc main_arg2) := by keep_host hostOps3
    _ = W5 m ρ c (Proc.devRef .tc main_arg2) := W6_of_ne m ρ c main_arg2 (by decide)
    _ = W4 m ρ c (Proc.devRef .tc main_arg2) := by keep_host hostOps2
    _ = W3 m ρ c (Proc.devRef .tc main_arg2) := W4_of_ne m ρ c main_arg2 (by decide)
    _ = W2 m ρ c (Proc.devRef .tc main_arg2) := by keep_host hostOps1
    _ = W1 m ρ c (Proc.devRef .tc main_arg2) := W2_of_ne m ρ c main_arg2 (by decide)
    _ = W0 m ρ c (Proc.devRef .tc main_arg2) := by keep_host hostOps0

theorem W9_main_arg13_W0 (c : Dev nD) : W9 m ρ c (Proc.devRef .tc main_arg13) = W0 m ρ c (Proc.devRef .tc main_arg13) :=
  calc W9 m ρ c (Proc.devRef .tc main_arg13)
    _ = W8 m ρ c (Proc.devRef .tc main_arg13) := by keep_host hostOps4
    _ = W7 m ρ c (Proc.devRef .tc main_arg13) := W8_of_ne m ρ c main_arg13 (by decide)
    _ = W6 m ρ c (Proc.devRef .tc main_arg13) := by keep_host hostOps3
    _ = W5 m ρ c (Proc.devRef .tc main_arg13) := W6_of_ne m ρ c main_arg13 (by decide)
    _ = W4 m ρ c (Proc.devRef .tc main_arg13) := by keep_host hostOps2
    _ = W3 m ρ c (Proc.devRef .tc main_arg13) := W4_of_ne m ρ c main_arg13 (by decide)
    _ = W2 m ρ c (Proc.devRef .tc main_arg13) := by keep_host hostOps1
    _ = W1 m ρ c (Proc.devRef .tc main_arg13) := W2_of_ne m ρ c main_arg13 (by decide)
    _ = W0 m ρ c (Proc.devRef .tc main_arg13) := by keep_host hostOps0

theorem W8_main_arg14_W0 (c : Dev nD) : W8 m ρ c (Proc.devRef .tc main_arg14) = W0 m ρ c (Proc.devRef .tc main_arg14) :=
  calc W8 m ρ c (Proc.devRef .tc main_arg14)
    _ = W7 m ρ c (Proc.devRef .tc main_arg14) := W8_of_ne m ρ c main_arg14 (by decide)
    _ = W6 m ρ c (Proc.devRef .tc main_arg14) := by keep_host hostOps3
    _ = W5 m ρ c (Proc.devRef .tc main_arg14) := W6_of_ne m ρ c main_arg14 (by decide)
    _ = W4 m ρ c (Proc.devRef .tc main_arg14) := by keep_host hostOps2
    _ = W3 m ρ c (Proc.devRef .tc main_arg14) := W4_of_ne m ρ c main_arg14 (by decide)
    _ = W2 m ρ c (Proc.devRef .tc main_arg14) := by keep_host hostOps1
    _ = W1 m ρ c (Proc.devRef .tc main_arg14) := W2_of_ne m ρ c main_arg14 (by decide)
    _ = W0 m ρ c (Proc.devRef .tc main_arg14) := by keep_host hostOps0

theorem W10_main_arg15_W0 (c : Dev nD) : W10 m ρ c (Proc.devRef .tc main_arg15) = W0 m ρ c (Proc.devRef .tc main_arg15) :=
  calc W10 m ρ c (Proc.devRef .tc main_arg15)
    _ = W9 m ρ c (Proc.devRef .tc main_arg15) := W10_of_ne m ρ c main_arg15 (by decide)
    _ = W8 m ρ c (Proc.devRef .tc main_arg15) := by keep_host hostOps4
    _ = W7 m ρ c (Proc.devRef .tc main_arg15) := W8_of_ne m ρ c main_arg15 (by decide)
    _ = W6 m ρ c (Proc.devRef .tc main_arg15) := by keep_host hostOps3
    _ = W5 m ρ c (Proc.devRef .tc main_arg15) := W6_of_ne m ρ c main_arg15 (by decide)
    _ = W4 m ρ c (Proc.devRef .tc main_arg15) := by keep_host hostOps2
    _ = W3 m ρ c (Proc.devRef .tc main_arg15) := W4_of_ne m ρ c main_arg15 (by decide)
    _ = W2 m ρ c (Proc.devRef .tc main_arg15) := by keep_host hostOps1
    _ = W1 m ρ c (Proc.devRef .tc main_arg15) := W2_of_ne m ρ c main_arg15 (by decide)
    _ = W0 m ρ c (Proc.devRef .tc main_arg15) := by keep_host hostOps0

theorem W10_main_arg16_W0 (c : Dev nD) : W10 m ρ c (Proc.devRef .tc main_arg16) = W0 m ρ c (Proc.devRef .tc main_arg16) :=
  calc W10 m ρ c (Proc.devRef .tc main_arg16)
    _ = W9 m ρ c (Proc.devRef .tc main_arg16) := W10_of_ne m ρ c main_arg16 (by decide)
    _ = W8 m ρ c (Proc.devRef .tc main_arg16) := by keep_host hostOps4
    _ = W7 m ρ c (Proc.devRef .tc main_arg16) := W8_of_ne m ρ c main_arg16 (by decide)
    _ = W6 m ρ c (Proc.devRef .tc main_arg16) := by keep_host hostOps3
    _ = W5 m ρ c (Proc.devRef .tc main_arg16) := W6_of_ne m ρ c main_arg16 (by decide)
    _ = W4 m ρ c (Proc.devRef .tc main_arg16) := by keep_host hostOps2
    _ = W3 m ρ c (Proc.devRef .tc main_arg16) := W4_of_ne m ρ c main_arg16 (by decide)
    _ = W2 m ρ c (Proc.devRef .tc main_arg16) := by keep_host hostOps1
    _ = W1 m ρ c (Proc.devRef .tc main_arg16) := W2_of_ne m ρ c main_arg16 (by decide)
    _ = W0 m ρ c (Proc.devRef .tc main_arg16) := by keep_host hostOps0

theorem W12_main_arg3_W0 (c : Dev nD) : W12 m ρ c (Proc.devRef .tc main_arg3) = W0 m ρ c (Proc.devRef .tc main_arg3) :=
  calc W12 m ρ c (Proc.devRef .tc main_arg3)
    _ = W11 m ρ c (Proc.devRef .tc main_arg3) := W12_of_ne m ρ c main_arg3 (by decide)
    _ = W10 m ρ c (Proc.devRef .tc main_arg3) := by keep_host hostOps5
    _ = W9 m ρ c (Proc.devRef .tc main_arg3) := W10_of_ne m ρ c main_arg3 (by decide)
    _ = W8 m ρ c (Proc.devRef .tc main_arg3) := by keep_host hostOps4
    _ = W7 m ρ c (Proc.devRef .tc main_arg3) := W8_of_ne m ρ c main_arg3 (by decide)
    _ = W6 m ρ c (Proc.devRef .tc main_arg3) := by keep_host hostOps3
    _ = W5 m ρ c (Proc.devRef .tc main_arg3) := W6_of_ne m ρ c main_arg3 (by decide)
    _ = W4 m ρ c (Proc.devRef .tc main_arg3) := by keep_host hostOps2
    _ = W3 m ρ c (Proc.devRef .tc main_arg3) := W4_of_ne m ρ c main_arg3 (by decide)
    _ = W2 m ρ c (Proc.devRef .tc main_arg3) := by keep_host hostOps1
    _ = W1 m ρ c (Proc.devRef .tc main_arg3) := W2_of_ne m ρ c main_arg3 (by decide)
    _ = W0 m ρ c (Proc.devRef .tc main_arg3) := by keep_host hostOps0

theorem W12_main_arg17_W0 (c : Dev nD) : W12 m ρ c (Proc.devRef .tc main_arg17) = W0 m ρ c (Proc.devRef .tc main_arg17) :=
  calc W12 m ρ c (Proc.devRef .tc main_arg17)
    _ = W11 m ρ c (Proc.devRef .tc main_arg17) := W12_of_ne m ρ c main_arg17 (by decide)
    _ = W10 m ρ c (Proc.devRef .tc main_arg17) := by keep_host hostOps5
    _ = W9 m ρ c (Proc.devRef .tc main_arg17) := W10_of_ne m ρ c main_arg17 (by decide)
    _ = W8 m ρ c (Proc.devRef .tc main_arg17) := by keep_host hostOps4
    _ = W7 m ρ c (Proc.devRef .tc main_arg17) := W8_of_ne m ρ c main_arg17 (by decide)
    _ = W6 m ρ c (Proc.devRef .tc main_arg17) := by keep_host hostOps3
    _ = W5 m ρ c (Proc.devRef .tc main_arg17) := W6_of_ne m ρ c main_arg17 (by decide)
    _ = W4 m ρ c (Proc.devRef .tc main_arg17) := by keep_host hostOps2
    _ = W3 m ρ c (Proc.devRef .tc main_arg17) := W4_of_ne m ρ c main_arg17 (by decide)
    _ = W2 m ρ c (Proc.devRef .tc main_arg17) := by keep_host hostOps1
    _ = W1 m ρ c (Proc.devRef .tc main_arg17) := W2_of_ne m ρ c main_arg17 (by decide)
    _ = W0 m ρ c (Proc.devRef .tc main_arg17) := by keep_host hostOps0

theorem W12_main_arg18_W0 (c : Dev nD) : W12 m ρ c (Proc.devRef .tc main_arg18) = W0 m ρ c (Proc.devRef .tc main_arg18) :=
  calc W12 m ρ c (Proc.devRef .tc main_arg18)
    _ = W11 m ρ c (Proc.devRef .tc main_arg18) := W12_of_ne m ρ c main_arg18 (by decide)
    _ = W10 m ρ c (Proc.devRef .tc main_arg18) := by keep_host hostOps5
    _ = W9 m ρ c (Proc.devRef .tc main_arg18) := W10_of_ne m ρ c main_arg18 (by decide)
    _ = W8 m ρ c (Proc.devRef .tc main_arg18) := by keep_host hostOps4
    _ = W7 m ρ c (Proc.devRef .tc main_arg18) := W8_of_ne m ρ c main_arg18 (by decide)
    _ = W6 m ρ c (Proc.devRef .tc main_arg18) := by keep_host hostOps3
    _ = W5 m ρ c (Proc.devRef .tc main_arg18) := W6_of_ne m ρ c main_arg18 (by decide)
    _ = W4 m ρ c (Proc.devRef .tc main_arg18) := by keep_host hostOps2
    _ = W3 m ρ c (Proc.devRef .tc main_arg18) := W4_of_ne m ρ c main_arg18 (by decide)
    _ = W2 m ρ c (Proc.devRef .tc main_arg18) := by keep_host hostOps1
    _ = W1 m ρ c (Proc.devRef .tc main_arg18) := W2_of_ne m ρ c main_arg18 (by decide)
    _ = W0 m ρ c (Proc.devRef .tc main_arg18) := by keep_host hostOps0

theorem W14_main_arg19_W0 (c : Dev nD) : W14 m ρ c (Proc.devRef .tc main_arg19) = W0 m ρ c (Proc.devRef .tc main_arg19) :=
  calc W14 m ρ c (Proc.devRef .tc main_arg19)
    _ = W13 m ρ c (Proc.devRef .tc main_arg19) := by keep_host hostOps6_1
    _ = W12 m ρ c (Proc.devRef .tc main_arg19) := by keep_host hostOps6
    _ = W11 m ρ c (Proc.devRef .tc main_arg19) := W12_of_ne m ρ c main_arg19 (by decide)
    _ = W10 m ρ c (Proc.devRef .tc main_arg19) := by keep_host hostOps5
    _ = W9 m ρ c (Proc.devRef .tc main_arg19) := W10_of_ne m ρ c main_arg19 (by decide)
    _ = W8 m ρ c (Proc.devRef .tc main_arg19) := by keep_host hostOps4
    _ = W7 m ρ c (Proc.devRef .tc main_arg19) := W8_of_ne m ρ c main_arg19 (by decide)
    _ = W6 m ρ c (Proc.devRef .tc main_arg19) := by keep_host hostOps3
    _ = W5 m ρ c (Proc.devRef .tc main_arg19) := W6_of_ne m ρ c main_arg19 (by decide)
    _ = W4 m ρ c (Proc.devRef .tc main_arg19) := by keep_host hostOps2
    _ = W3 m ρ c (Proc.devRef .tc main_arg19) := W4_of_ne m ρ c main_arg19 (by decide)
    _ = W2 m ρ c (Proc.devRef .tc main_arg19) := by keep_host hostOps1
    _ = W1 m ρ c (Proc.devRef .tc main_arg19) := W2_of_ne m ρ c main_arg19 (by decide)
    _ = W0 m ρ c (Proc.devRef .tc main_arg19) := by keep_host hostOps0

theorem W14_main_arg20_W0 (c : Dev nD) : W14 m ρ c (Proc.devRef .tc main_arg20) = W0 m ρ c (Proc.devRef .tc main_arg20) :=
  calc W14 m ρ c (Proc.devRef .tc main_arg20)
    _ = W13 m ρ c (Proc.devRef .tc main_arg20) := by keep_host hostOps6_1
    _ = W12 m ρ c (Proc.devRef .tc main_arg20) := by keep_host hostOps6
    _ = W11 m ρ c (Proc.devRef .tc main_arg20) := W12_of_ne m ρ c main_arg20 (by decide)
    _ = W10 m ρ c (Proc.devRef .tc main_arg20) := by keep_host hostOps5
    _ = W9 m ρ c (Proc.devRef .tc main_arg20) := W10_of_ne m ρ c main_arg20 (by decide)
    _ = W8 m ρ c (Proc.devRef .tc main_arg20) := by keep_host hostOps4
    _ = W7 m ρ c (Proc.devRef .tc main_arg20) := W8_of_ne m ρ c main_arg20 (by decide)
    _ = W6 m ρ c (Proc.devRef .tc main_arg20) := by keep_host hostOps3
    _ = W5 m ρ c (Proc.devRef .tc main_arg20) := W6_of_ne m ρ c main_arg20 (by decide)
    _ = W4 m ρ c (Proc.devRef .tc main_arg20) := by keep_host hostOps2
    _ = W3 m ρ c (Proc.devRef .tc main_arg20) := W4_of_ne m ρ c main_arg20 (by decide)
    _ = W2 m ρ c (Proc.devRef .tc main_arg20) := by keep_host hostOps1
    _ = W1 m ρ c (Proc.devRef .tc main_arg20) := W2_of_ne m ρ c main_arg20 (by decide)
    _ = W0 m ρ c (Proc.devRef .tc main_arg20) := by keep_host hostOps0

/-- At launch a buffer holds the launch memory's contents. -/
theorem W0_eq (c : Dev nD) (b : Ref sig .tc) : W0 m ρ c (Proc.devRef .tc b) = m ((c : Thread nD τ).loc b) := rfl

end Cert.KernelIdeal.Keep

end
-- ==== Proof.KernelHostRead.lean ====
/-
  The host operations between the regions of the idealized kernel program, read at an index.

  On the extended reals every host operation used here is pointwise or a regrouping of indices:
  * a reshape that adds or drops a unit axis reads the operand at the index with the same row-major position
    ([100000] → [100000, 1], [128] → [1, 128], [50, 1, 128] → [50, 128]);
  * the host's sum over axis 0 of a [50, 128] array, from a scalar initial value, is that value plus the sum of
    the 50 entries of the column;
  * a scalar constant broadcast to a row is the constant's value at every index;
  * division, product, difference, maximum, sum and reciprocal square root act entry by entry.
  So the mean row (the column sums of the per-tile sums, divided by the row count) and the inverse standard
  deviation row (rsqrt of max(mean of squares − mean · mean, 0) + eps) read, at a column j, as the scalar
  expressions over the 50 per-tile entries of that column.

  The shape facts cited (which shapes cast, reduce or broadcast to which) are the program's stated side
  conditions; the statements take them from the class that states them.
-/
import proofs.«132861_j65154653880488_2_alg».proof.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostRead

open Idealize.ShloMosaic Idealize.ShloMosaic.ValueIdx Cert.KernelIdeal
open scoped BigOperators

variable [Facts₀]
open Cert.KernelIdeal.Facts₀

/-! ### Reshapes that add or drop a unit axis -/

/-- A vector of 100000 entries read as a [100000, 1] column: entry (r, 0) is entry r. -/
theorem col_apply (x : S100000.Idx → EReal) (r : Fin 100000) :
    shapeCast S100000x1 x shapeCasts_S100000_S100000x1 (ix2 r 0) = x (ix1 r) :=
  shapeCast_apply x _ _ _ (by
    rw [Shape.rowMajor_val_one, Shape.rowMajor_val_two]
    show r.val = r.val * 1 + 0
    rw [Nat.mul_one, Nat.add_zero])

/-- A vector of 128 entries read as a [1, 128] row: entry (0, j) is entry j. -/
theorem row_apply (x : S128.Idx → EReal) (j : Fin 128) :
    shapeCast S1x128 x shapeCasts_S128_S1x128 (ix2 0 j) = x (ix1 j) :=
  shapeCast_a_1a_apply x _ 0 j

/-- A [50, 1, 128] array read as [50, 128]: entry (t, j) is entry (t, 0, j). -/
theorem tiles_apply (x : S50x1x128.Idx → EReal) (t : Fin 50) (j : Fin 128) :
    shapeCast S50x128 x shapeCasts_S50x1x128_S50x128 (ix2 t j) = x (ix3 t 0 j) :=
  shapeCast_apply x _ _ _ (by
    rw [Shape.rowMajor_val_three, Shape.rowMajor_val_two]
    show (t.val * 1 + 0) * 128 + j.val = t.val * 128 + j.val
    rw [Nat.mul_one, Nat.add_zero])

/-! ### The column sum -/

/-- The host's sum over axis 0 of a [50, 128] array from the zero word: at column j, the word's value plus the sum of the column. -/
theorem colsum_apply (x : S50x128.Idx → EReal) (j : Fin 128) :
    Host.reduceAdd (F := Ideal) x (constant (F := Ideal) S_ .f32 0x00000000#32) reducesTo_S50x128_S128_d0 h_S_ (ix1 j)
      = Ideal.ofBits .f32 0x00000000#32 + ∑ t : Fin 50, x (ix2 t j) := by
  simp only [Host.reduceAdd, Ideal.hostReduceAdd_def]
  rw [Ideal.hostReduceAdd_single reducesTo_S50x128_S128_d0 (by decide)]
  refine congrArg (_ + ·) (Finset.sum_congr rfl fun k _ => ?_)
  exact congrArg x (funext fun a => Fin.ext (by match a with | ⟨0, _⟩ => rfl | ⟨1, _⟩ => rfl))

/-! ### The mean row and the inverse standard deviation row -/

/-- the mean row: the column sums of the per-tile sums s, divided by the row count -/
def meanVec (s : S50x1x128.Idx → EReal) : S128.Idx → EReal :=
  Host.divf (F := Ideal)
    (Host.reduceAdd (F := Ideal) (shapeCast S50x128 s shapeCasts_S50x1x128_S50x128)
      (constant (F := Ideal) S_ .f32 0x00000000#32) reducesTo_S50x128_S128_d0 h_S_)
    (broadcastInDim S128 ![] bcast_S_S128 (constant (F := Ideal) S_ .f32 0x47C35000#32))

/-- the inverse standard deviation row from the per-tile sums s and sums of squares q:
    rsqrt (max (mean of squares − mean · mean) 0 + eps) -/
def invVec (s q : S50x1x128.Idx → EReal) : S128.Idx → EReal :=
  Host.rsqrt (F := Ideal)
    (addf
      (maximumf (subf (meanVec q) (mulf (meanVec s) (meanVec s)))
        (broadcastInDim S128 ![] bcast_S_S128 (constant (F := Ideal) S_ .f32 0x00000000#32)))
      (broadcastInDim S128 ![] bcast_S_S128 (constant (F := Ideal) S_ .f32 0x3727C5AC#32)))

/-- The mean row at column j. -/
theorem meanVec_apply (s : S50x1x128.Idx → EReal) (j : Fin 128) :
    meanVec s (ix1 j)
      = Ideal.div (Ideal.ofBits .f32 0x00000000#32 + ∑ t : Fin 50, s (ix3 t 0 j)) (Ideal.ofBits .f32 0x47C35000#32) := by
  refine (congrArg (Ideal.div · (Ideal.ofBits .f32 0x47C35000#32)) (colsum_apply _ j)).trans ?_
  simp only [tiles_apply]

/-- The inverse standard deviation row at column j. -/
theorem invVec_apply (s q : S50x1x128.Idx → EReal) (j : Fin 128) :
    invVec s q (ix1 j)
      = Ideal.rsqrt (max (Ideal.div (Ideal.ofBits .f32 0x00000000#32 + ∑ t : Fin 50, q (ix3 t 0 j)) (Ideal.ofBits .f32 0x47C35000#32)
          - meanVec s (ix1 j) * meanVec s (ix1 j)) (Ideal.ofBits .f32 0x00000000#32) + Ideal.ofBits .f32 0x3727C5AC#32) := by
  show Ideal.rsqrt (max (meanVec q (ix1 j) - meanVec s (ix1 j) * meanVec s (ix1 j)) (Ideal.ofBits .f32 0x00000000#32)
      + Ideal.ofBits .f32 0x3727C5AC#32) = _
  rw [meanVec_apply q j]

end Cert.KernelIdeal.HostRead

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.RegionLin4.lean ====
/-
  Region 4 of the network's main function: one linear layer with column statistics, over 50 row tiles of 2000 rows.

  The region reads the aggregated features agg : [100000,128], a per-row scale nd : [100000,1], a weight
  W : [128,128] and a bias row b : [1,128]. On the extended reals, where every float operation is exact and a format
  change is the identity, it leaves three arrays:
    lin (r, j)      = (sum over k of (agg (r,k) * nd (r,0)) * W (k,j)) + b (0,j)          for every row r and column j,
    sums (t, 0, j)  = sum over the 2000 rows y of tile t of lin (2000 t + y, j),
    sumsq (t, 0, j) = sum over the same rows of lin (2000 t + y, j) * lin (2000 t + y, j).
  The proof reads the tile's computation at one index (the product with a zero accumulator is a finite sum over the
  contracted coordinate; a column sum is a finite sum over the rows; the broadcasts and unit-axis casts move
  coordinates), then shows that what tile t writes back is block t of these whole-array functions, and that the
  blocks cover each array: row r lies in tile r / 2000.
-/
import proofs.«132861_j65154653880488_2_alg».proof.Proof.Gen.KernelIdeal.Frame
import proofs.«132861_j65154653880488_2_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionLin4

open Idealize.ShloMosaic Idealize.ShloMosaic.TcCoe Idealize.SL.Sem Idealize.ShloMosaic.ValueIdx
open Cert.KernelIdeal Cert.KernelIdeal.Gen
open scoped BigOperators

/-! ## The tile's computation read at one index -/

/-- A column [a,1] broadcast to [a,b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the product's left operand the row coordinate is the result's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the column coordinate the contracted one; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- on the right operand the row coordinate is the contracted one … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the column coordinate the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block with a [128,128] matrix into a zero accumulator, at (y, j): the sum over the
    contracted coordinate k of lhs (y,k) * rhs (k,j). -/
theorem matmul_apply (lhs : FVec Ideal S2000x128 .bf16) (rhs : FVec Ideal S128x128 .bf16) (y : Fin 2000) (j : Fin 128) :
    matmul dot_S2000x128_S128x128_S2000x128_1_0_0_1_n_n none lhs rhs (constant S2000x128 .f32 0x00000000#32) (ix2 y j)
      = ∑ k : Fin 128, lhs (ix2 y k) * rhs (ix2 k j) := by
  refine (Ideal.matmul_constant_zero_apply dot_S2000x128_S128x128_S2000x128_1_0_0_1_n_n none lhs rhs (ix2 y j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 y j) ((ValueIdx.contrEquiv1 dot_S2000x128_S128x128_S2000x128_1_0_0_1_n_n 128 rfl rfl).symm k) = ix2 y k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 y j) ((ValueIdx.contrEquiv1 dot_S2000x128_S128x128_S2000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear layer's tile at (y, j), from the four blocks the tile reads. -/
theorem pay1_apply (x0 : Vec Ideal S2000x128 .f32) (x1 : Vec Ideal S2000x1 .f32) (x2 : Vec Ideal S128x128 .f32)
    (x3 : Vec Ideal S1x128 .f32) (y : Fin 2000) (j : Fin 128) :
    k4_pay1 x0 x1 x2 x3 (ix2 y j)
      = (∑ k : Fin 128, (x0 (ix2 y k) * x1 (ix2 y 0)) * x2 (ix2 k j)) + x3 (ix2 0 j) := by
  unfold k4_pay1
  simp only [shapeCast_self]
  rw [addf_apply, matmul_apply, broadcastTo_1b_ab_apply]
  congr 1
  refine Finset.sum_congr rfl fun k _ => ?_
  rw [truncf_apply, truncf_apply, mulf_apply, broadcastTo_a1_ab_apply]

/-! ## The grid: 50 tiles, tile t holds rows 2000 t … 2000 t + 1999 -/

variable (V : (c : Dev nD) → (b : Ref sig .tc) → Buf (Elt Ideal) ((c : Thread nD τ).loc b))

/-- The region's four input arrays as functions of the index: the aggregated features, the per-row scale, the weight
    and the bias row. -/
abbrev agg (c : Dev nD) : S100000x128.Idx → EReal := V c main_v103
abbrev nd (c : Dev nD) : S100000x1.Idx → EReal := V c main_v14
abbrev wt (c : Dev nD) : S128x128.Idx → EReal := V c main_arg13
abbrev bias (c : Dev nD) : S1x128.Idx → EReal := V c main_v104

/-- The linear layer at row r and column j, from four arrays: features, per-row scale, weight, bias row. -/
def linOf (agg : S100000x128.Idx → EReal) (nd : S100000x1.Idx → EReal) (W : S128x128.Idx → EReal) (b : S1x128.Idx → EReal)
    (r : Fin 100000) (j : Fin 128) : EReal :=
  (∑ k : Fin 128, (agg (ix2 r k) * nd (ix2 r 0)) * W (ix2 k j)) + b (ix2 0 j)

/-- The linear layer at row r and column j, from the region's four input arrays. -/
def linAt (c : Dev nD) (r : Fin 100000) (j : Fin 128) : EReal :=
  linOf (V c main_v103) (V c main_v14) (V c main_arg13) (V c main_v104) r j

/-- Row y of tile t in the whole array. -/
def rowOf (t : Fin 50) (y : Fin 2000) : Fin 100000 := ⟨t.val * 2000 + y.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is below 50. -/
theorem pt_lt (t : Fin cfg4.N) : t.val < 50 := lt_of_lt_of_eq t.isLt (show cfg4.N = 50 from N_4)
/-- A grid point as a tile number … -/
def tile (t : Fin cfg4.N) : Fin 50 := ⟨t.val, pt_lt t⟩
/-- … and a tile number as a grid point. -/
def point (t : Fin 50) : Fin cfg4.N := ⟨t.val, by rw [show cfg4.N = 50 from N_4]; exact t.isLt⟩
theorem tile_point (t : Fin 50) : tile (point t) = t := rfl

/-- The printed index maps, decided over the 50 grid points: the row-tiled windows sit at block (t, 0), the two small
    arrays at block (0, 0), the two column-statistics outputs at block (t, 0, 0). -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 3) = t.val ∧ win4_5.index t (1 : Fin 3) = 0 ∧ win4_5.index t (2 : Fin 3) = 0
    ∧ win4_6.index t (0 : Fin 3) = t.val ∧ win4_6.index t (1 : Fin 3) = 0 ∧ win4_6.index t (2 : Fin 3) = 0 :=
  (by decide +kernel : ∀ t : Fin grid4.N, _)

/-! ## The input blocks at tile t, read at an index -/

/-- The feature block at tile t is rows 2000 t … of the feature array. -/
theorem iblk_agg (c : Dev nD) (t : Fin cfg4.N) (y : Fin 2000) (k : Fin 128) :
    (iblk4 V c 0 t : Vec Ideal S2000x128 .f32) (ix2 y k) = agg V c (ix2 (rowOf (tile t) y) k) := by
  obtain ⟨e0, e1, -⟩ := idx_facts t
  unfold iblk4
  rw [View.read_apply]
  show agg V c _ = agg V c _
  congr 1
  funext a
  apply Fin.ext
  match a with
  | ⟨0, _⟩ => show win4_0.index t (0 : Fin 2) * 2000 + 1 * y.val = t.val * 2000 + y.val; rw [e0]; omega
  | ⟨1, _⟩ => show win4_0.index t (1 : Fin 2) * 128 + 1 * k.val = k.val; rw [e1]; omega

/-- The scale block at tile t is rows 2000 t … of the scale column. -/
theorem iblk_nd (c : Dev nD) (t : Fin cfg4.N) (y : Fin 2000) :
    (iblk4 V c 1 t : Vec Ideal S2000x1 .f32) (ix2 y 0) = nd V c (ix2 (rowOf (tile t) y) 0) := by
  obtain ⟨-, -, e0, e1, -⟩ := idx_facts t
  unfold iblk4
  rw [View.read_apply]
  show nd V c _ = nd V c _
  congr 1
  funext a
  apply Fin.ext
  match a with
  | ⟨0, _⟩ => show win4_1.index t (0 : Fin 2) * 2000 + 1 * y.val = t.val * 2000 + y.val; rw [e0]; omega
  | ⟨1, _⟩ => show win4_1.index t (1 : Fin 2) * 1 + 1 * 0 = 0; rw [e1]

/-- The weight block at every tile is the weight array. -/
theorem iblk_w (c : Dev nD) (t : Fin cfg4.N) (k j : Fin 128) :
    (iblk4 V c 2 t : Vec Ideal S128x128 .f32) (ix2 k j) = wt V c (ix2 k j) := by
  obtain ⟨-, -, -, -, e0, e1, -⟩ := idx_facts t
  unfold iblk4
  rw [View.read_apply]
  show wt V c _ = wt V c _
  congr 1
  funext a
  apply Fin.ext
  match a with
  | ⟨0, _⟩ => show win4_2.index t (0 : Fin 2) * 128 + 1 * k.val = k.val; rw [e0]; omega
  | ⟨1, _⟩ => show win4_2.index t (1 : Fin 2) * 128 + 1 * j.val = j.val; rw [e1]; omega

/-- The bias block at every tile is the bias row. -/
theorem iblk_b (c : Dev nD) (t : Fin cfg4.N) (j : Fin 128) :
    (iblk4 V c 3 t : Vec Ideal S1x128 .f32) (ix2 0 j) = bias V c (ix2 0 j) := by
  obtain ⟨-, -, -, -, -, -, e0, e1, -⟩ := idx_facts t
  unfold iblk4
  rw [View.read_apply]
  show bias V c _ = bias V c _
  congr 1
  funext a
  apply Fin.ext
  match a with
  | ⟨0, _⟩ => show win4_3.index t (0 : Fin 2) * 1 + 1 * 0 = 0; rw [e0]
  | ⟨1, _⟩ => show win4_3.index t (1 : Fin 2) * 128 + 1 * j.val = j.val; rw [e1]; omega

/-- So the linear layer's tile at tile t, at (y, j), is the layer at row 2000 t + y. -/
theorem pay1_tile (c : Dev nD) (t : Fin cfg4.N) (y : Fin 2000) (j : Fin 128) :
    k4_pay1 (iblk4 V c 0 t) (iblk4 V c 1 t) (iblk4 V c 2 t) (iblk4 V c 3 t) (ix2 y j) = linAt V c (rowOf (tile t) y) j := by
  rw [pay1_apply, iblk_nd, iblk_b]
  unfold linAt linOf
  refine congrArg₂ (· + ·) (Finset.sum_congr rfl fun k _ => ?_) rfl
  rw [iblk_agg, iblk_w]

/-! ## The linear layer's array -/

/-- The whole linear-layer array: the layer at each index's row and column. -/
def G4 (c : Dev nD) : S100000x128.Idx → EReal := fun i => linAt V c (i 0) (i 1)

/-- What tile t writes back to the linear-layer array is block t of `G4`. -/
theorem flushed4_eq (c : Dev nD) (t : Fin cfg4.N) :
    (dat4 V c).flushed 4 t = ((cfg4.win 4).blk t).view.read (Elt Ideal) (G4 V c) := by
  show (cfg4.win 4).cut (grid4.coords t) ((dat4 V c).after 4 t) = _
  rw [after4_4]
  unfold out4_4
  rw [View.canon_unit_zero hz2]
  simp only [View.ld_unit_zero (S := S2000x128) hz2, View.ld_unit_zero (S := S2000x1) hz2, View.ld_unit_zero (S := S128x128) hz2, View.ld_unit_zero (S := S1x128) hz2]
  obtain ⟨-, -, -, -, -, -, -, -, e0, e1, -⟩ := idx_facts t
  funext y
  rw [View.read_apply]
  have hy : (cfg4.win 4).xinj (grid4.coords t) y = ix2 (⟨(y 0).val, (y 0).isLt⟩ : Fin 2000) (⟨(y 1).val, (y 1).isLt⟩ : Fin 128) :=
    funext fun a => by match a with | ⟨0, _⟩ => rfl | ⟨1, _⟩ => rfl
  refine Eq.trans (congrArg (k4_pay1 (iblk4 V c 0 t) (iblk4 V c 1 t) (iblk4 V c 2 t) (iblk4 V c 3 t)) hy) ?_
  rw [pay1_tile]
  show _ = G4 V c (((View.whole main_v105_0).slice ((win4 4).rect t)).emb y)
  refine congrArg₂ (linAt V c) (Fin.ext ?_) (Fin.ext ?_)
  · show t.val * 2000 + (y 0).val = win4_4.index t (0 : Fin 2) * 2000 + 1 * (y 0).val
    rw [e0]; omega
  · show (y 1).val = win4_4.index t (1 : Fin 2) * 128 + 1 * (y 1).val
    rw [e1]; omega

/-- An index of the array is in tile t's block iff each coordinate is in the block's range on its axis. -/
theorem mem_blk4 (t : Fin cfg4.N) (i : S100000x128.Idx) :
    i ∈ ((cfg4.win 4).blk t).view.set ↔ ∀ a : Fin 2, win4_4.index t a * S2000x128.size a ≤ (i a).val ∧ (i a).val < win4_4.index t a * S2000x128.size a + S2000x128.size a := by
  show i ∈ ((View.whole main_v105_0).slice (win4_4.rect t)).set ↔ _
  rw [View.set_slice_whole, Rect.mem_set_unit]
  exact Iff.rfl

/-- Every index is in some tile's block: row r is in tile r / 2000. -/
theorem cover4 (i : S100000x128.Idx) : ∃ t : Fin cfg4.N, (cfg4.win 4).flush t = true ∧ i ∈ ((cfg4.win 4).blk t).view.set := by
  have hi0 : (i 0).val < 100000 := (i 0).isLt
  have hi1 : (i 1).val < 128 := (i 1).isLt
  obtain ⟨t, ht⟩ : ∃ t : Fin cfg4.N, t.val = (i 0).val / 2000 := ⟨point ⟨(i 0).val / 2000, by omega⟩, rfl⟩
  obtain ⟨-, -, -, -, -, -, -, -, e0, e1, -⟩ := idx_facts t
  refine ⟨t, flush4_4 t, ?_⟩
  rw [mem_blk4]
  intro a
  match a with
  | ⟨0, _⟩ => show win4_4.index t (0 : Fin 2) * 2000 ≤ (i 0).val ∧ (i 0).val < win4_4.index t (0 : Fin 2) * 2000 + 2000; rw [e0, ht]; omega
  | ⟨1, _⟩ => show win4_4.index t (1 : Fin 2) * 128 ≤ (i 1).val ∧ (i 1).val < win4_4.index t (1 : Fin 2) * 128 + 128; rw [e1]; omega

/-- The linear-layer array after the region is `G4`. -/
theorem lin_arr (c : Dev nD) : (dat4 V c).arrAt 4 cfg4.N = G4 V c :=
  (dat4 V c).arrAt_eq_of_cover 4 (G4 V c) (fun t _ => flushed4_eq V c t) cover4

/-- The linear-layer array after the region, index by index. -/
theorem lin_apply (c : Dev nD) (r : Fin 100000) (j : Fin 128) :
    ((dat4 (F := Ideal) V c).arrAt 4 cfg4.N : S100000x128.Idx → EReal) (ix2 r j) = linAt V c r j :=
  congrFun (lin_arr V c) (ix2 r j)

/-! ## The two column statistics of a tile, read at one index -/

/-- The column sums of the linear layer's tile, at column j. -/
theorem pay2_apply (x0 : Vec Ideal S2000x128 .f32) (x1 : Vec Ideal S2000x1 .f32) (x2 : Vec Ideal S128x128 .f32)
    (x3 : Vec Ideal S1x128 .f32) (j : Fin 128) :
    k4_pay2 x0 x1 x2 x3 (ix3 (0 : Fin 1) (0 : Fin 1) j) = ∑ y : Fin 2000, k4_pay1 x0 x1 x2 x3 (ix2 y j) := by
  unfold k4_pay2
  refine (shapeCast_ab_1ab_apply _ _ (0 : Fin 1) (0 : Fin 1) j).trans ?_
  refine (shapeCast_a_1a_apply _ _ (0 : Fin 1) j).trans ?_
  exact Cert.LibAxisSum.sum_first _ _ _ _ _ j

/-- The column sums of the squares of the linear layer's tile, at column j. -/
theorem pay3_apply (x0 : Vec Ideal S2000x128 .f32) (x1 : Vec Ideal S2000x1 .f32) (x2 : Vec Ideal S128x128 .f32)
    (x3 : Vec Ideal S1x128 .f32) (j : Fin 128) :
    k4_pay3 x0 x1 x2 x3 (ix3 (0 : Fin 1) (0 : Fin 1) j)
      = ∑ y : Fin 2000, k4_pay1 x0 x1 x2 x3 (ix2 y j) * k4_pay1 x0 x1 x2 x3 (ix2 y j) := by
  unfold k4_pay3
  refine (shapeCast_ab_1ab_apply _ _ (0 : Fin 1) (0 : Fin 1) j).trans ?_
  refine (shapeCast_a_1a_apply _ _ (0 : Fin 1) j).trans ?_
  exact Cert.LibAxisSum.sum_first _ _ _ _ _ j

/-! ## The two column-statistics arrays -/

theorem idx5_0 (t : Fin cfg4.N) : win4_5.index t (0 : Fin 3) = t.val := (idx_facts t).2.2.2.2.2.2.2.2.2.2.1
theorem idx5_1 (t : Fin cfg4.N) : win4_5.index t (1 : Fin 3) = 0 := (idx_facts t).2.2.2.2.2.2.2.2.2.2.2.1
theorem idx5_2 (t : Fin cfg4.N) : win4_5.index t (2 : Fin 3) = 0 := (idx_facts t).2.2.2.2.2.2.2.2.2.2.2.2.1
theorem idx6_0 (t : Fin cfg4.N) : win4_6.index t (0 : Fin 3) = t.val := (idx_facts t).2.2.2.2.2.2.2.2.2.2.2.2.2.1
theorem idx6_1 (t : Fin cfg4.N) : win4_6.index t (1 : Fin 3) = 0 := (idx_facts t).2.2.2.2.2.2.2.2.2.2.2.2.2.2.1
theorem idx6_2 (t : Fin cfg4.N) : win4_6.index t (2 : Fin 3) = 0 := (idx_facts t).2.2.2.2.2.2.2.2.2.2.2.2.2.2.2

/-- The whole column-sums array: at (t, 0, j) the sum of the layer over tile t's rows at column j. -/
def G5 (c : Dev nD) : S50x1x128.Idx → EReal := fun i => ∑ y : Fin 2000, linAt V c (rowOf (i 0) y) (i 2)

/-- The statistic's tile at tile t, at column j. -/
theorem pay2_tile (c : Dev nD) (t : Fin cfg4.N) (j : Fin 128) :
    k4_pay2 (iblk4 V c 0 t) (iblk4 V c 1 t) (iblk4 V c 2 t) (iblk4 V c 3 t) (ix3 (0 : Fin 1) (0 : Fin 1) j)
      = ∑ y : Fin 2000, linAt V c (rowOf (tile t) y) j := by
  rw [pay2_apply]
  refine Finset.sum_congr rfl fun y _ => ?_
  rw [pay1_tile]

/-- What tile t writes back to the statistic's array is block t of `G5`. -/
theorem flushed5_eq (c : Dev nD) (t : Fin cfg4.N) :
    (dat4 V c).flushed 5 t = ((cfg4.win 5).blk t).view.read (Elt Ideal) (G5 V c) := by
  show (cfg4.win 5).cut (grid4.coords t) ((dat4 V c).after 5 t) = _
  rw [after4_5]
  unfold out4_5
  rw [View.canon_unit_zero hz3]
  simp only [View.ld_unit_zero (S := S2000x128) hz2, View.ld_unit_zero (S := S2000x1) hz2, View.ld_unit_zero (S := S128x128) hz2, View.ld_unit_zero (S := S1x128) hz2]
  have e0 : win4_5.index t (0 : Fin 3) = t.val := idx5_0 t
  have e2 : win4_5.index t (2 : Fin 3) = 0 := idx5_2 t
  funext y
  rw [View.read_apply]
  have hy : (cfg4.win 5).xinj (grid4.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k4_pay2 (iblk4 V c 0 t) (iblk4 V c 1 t) (iblk4 V c 2 t) (iblk4 V c 3 t)) hy) ?_
  rw [pay2_tile]
  show _ = G5 V c (((View.whole main_v105_1).slice ((win4 5).rect t)).emb y)
  unfold G5
  have hr : tile t = ((View.whole main_v105_1).slice ((win4 5).rect t)).emb y 0 := Fin.ext (by
    show t.val = win4_5.index t (0 : Fin 3) * 1 + 1 * (y 0).val
    have h : (y 0).val < 1 := (y 0).isLt
    rw [e0]; omega)
  have hc : (⟨(y 2).val, (y 2).isLt⟩ : Fin 128) = ((View.whole main_v105_1).slice ((win4 5).rect t)).emb y 2 := Fin.ext (by
    show (y 2).val = win4_5.index t (2 : Fin 3) * 128 + 1 * (y 2).val
    rw [e2]; omega)
  rw [← hr, ← hc]

/-- An index of the array is in tile t's block iff each coordinate is in the block's range on its axis. -/
theorem mem_blk5 (t : Fin cfg4.N) (i : S50x1x128.Idx) :
    i ∈ ((cfg4.win 5).blk t).view.set ↔ ∀ a : Fin 3, win4_5.index t a * S1x1x128.size a ≤ (i a).val ∧ (i a).val < win4_5.index t a * S1x1x128.size a + S1x1x128.size a := by
  show i ∈ ((View.whole main_v105_1).slice (win4_5.rect t)).set ↔ _
  rw [View.set_slice_whole, Rect.mem_set_unit]
  exact Iff.rfl

/-- Every index is in some tile's block: (q, 0, j) is in tile q. -/
theorem cover5 (i : S50x1x128.Idx) : ∃ t : Fin cfg4.N, (cfg4.win 5).flush t = true ∧ i ∈ ((cfg4.win 5).blk t).view.set := by
  have hi0 : (i 0).val < 50 := (i 0).isLt
  have hi1 : (i 1).val < 1 := (i 1).isLt
  have hi2 : (i 2).val < 128 := (i 2).isLt
  obtain ⟨t, ht⟩ : ∃ t : Fin cfg4.N, t.val = (i 0).val := ⟨point ⟨(i 0).val, hi0⟩, rfl⟩
  have e0 : win4_5.index t (0 : Fin 3) = t.val := idx5_0 t
  have e1 : win4_5.index t (1 : Fin 3) = 0 := idx5_1 t
  have e2 : win4_5.index t (2 : Fin 3) = 0 := idx5_2 t
  refine ⟨t, flush4_5 t, ?_⟩
  rw [mem_blk5]
  intro a
  match a with
  | ⟨0, _⟩ => show win4_5.index t (0 : Fin 3) * 1 ≤ (i 0).val ∧ (i 0).val < win4_5.index t (0 : Fin 3) * 1 + 1; rw [e0, ht]; omega
  | ⟨1, _⟩ => show win4_5.index t (1 : Fin 3) * 1 ≤ (i 1).val ∧ (i 1).val < win4_5.index t (1 : Fin 3) * 1 + 1; rw [e1]; omega
  | ⟨2, _⟩ => show win4_5.index t (2 : Fin 3) * 128 ≤ (i 2).val ∧ (i 2).val < win4_5.index t (2 : Fin 3) * 128 + 128; rw [e2]; omega

/-- The statistic's array after the region is `G5`. -/
theorem sums_arr (c : Dev nD) : (dat4 V c).arrAt 5 cfg4.N = G5 V c :=
  (dat4 V c).arrAt_eq_of_cover 5 (G5 V c) (fun t _ => flushed5_eq V c t) cover5

/-- The whole column-sums-of-squares array: at (t, 0, j) the sum of the layer's squares over tile t's rows at column j. -/
def G6 (c : Dev nD) : S50x1x128.Idx → EReal := fun i => ∑ y : Fin 2000, linAt V c (rowOf (i 0) y) (i 2) * linAt V c (rowOf (i 0) y) (i 2)

/-- The statistic's tile at tile t, at column j. -/
theorem pay3_tile (c : Dev nD) (t : Fin cfg4.N) (j : Fin 128) :
    k4_pay3 (iblk4 V c 0 t) (iblk4 V c 1 t) (iblk4 V c 2 t) (iblk4 V c 3 t) (ix3 (0 : Fin 1) (0 : Fin 1) j)
      = ∑ y : Fin 2000, linAt V c (rowOf (tile t) y) j * linAt V c (rowOf (tile t) y) j := by
  rw [pay3_apply]
  refine Finset.sum_congr rfl fun y _ => ?_
  rw [pay1_tile]

/-- What tile t writes back to the statistic's array is block t of `G6`. -/
theorem flushed6_eq (c : Dev nD) (t : Fin cfg4.N) :
    (dat4 V c).flushed 6 t = ((cfg4.win 6).blk t).view.read (Elt Ideal) (G6 V c) := by
  show (cfg4.win 6).cut (grid4.coords t) ((dat4 V c).after 6 t) = _
  rw [after4_6]
  unfold out4_6
  rw [View.canon_unit_zero hz3]
  simp only [View.ld_unit_zero (S := S2000x128) hz2, View.ld_unit_zero (S := S2000x1) hz2, View.ld_unit_zero (S := S128x128) hz2, View.ld_unit_zero (S := S1x128) hz2]
  have e0 : win4_6.index t (0 : Fin 3) = t.val := idx6_0 t
  have e2 : win4_6.index t (2 : Fin 3) = 0 := idx6_2 t
  funext y
  rw [View.read_apply]
  have hy : (cfg4.win 6).xinj (grid4.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k4_pay3 (iblk4 V c 0 t) (iblk4 V c 1 t) (iblk4 V c 2 t) (iblk4 V c 3 t)) hy) ?_
  rw [pay3_tile]
  show _ = G6 V c (((View.whole main_v105_2).slice ((win4 6).rect t)).emb y)
  unfold G6
  have hr : tile t = ((View.whole main_v105_2).slice ((win4 6).rect t)).emb y 0 := Fin.ext (by
    show t.val = win4_6.index t (0 : Fin 3) * 1 + 1 * (y 0).val
    have h : (y 0).val < 1 := (y 0).isLt
    rw [e0]; omega)
  have hc : (⟨(y 2).val, (y 2).isLt⟩ : Fin 128) = ((View.whole main_v105_2).slice ((win4 6).rect t)).emb y 2 := Fin.ext (by
    show (y 2).val = win4_6.index t (2 : Fin 3) * 128 + 1 * (y 2).val
    rw [e2]; omega)
  rw [← hr, ← hc]

/-- An index of the array is in tile t's block iff each coordinate is in the block's range on its axis. -/
theorem mem_blk6 (t : Fin cfg4.N) (i : S50x1x128.Idx) :
    i ∈ ((cfg4.win 6).blk t).view.set ↔ ∀ a : Fin 3, win4_6.index t a * S1x1x128.size a ≤ (i a).val ∧ (i a).val < win4_6.index t a * S1x1x128.size a + S1x1x128.size a := by
  show i ∈ ((View.whole main_v105_2).slice (win4_6.rect t)).set ↔ _
  rw [View.set_slice_whole, Rect.mem_set_unit]
  exact Iff.rfl

/-- Every index is in some tile's block: (q, 0, j) is in tile q. -/
theorem cover6 (i : S50x1x128.Idx) : ∃ t : Fin cfg4.N, (cfg4.win 6).flush t = true ∧ i ∈ ((cfg4.win 6).blk t).view.set := by
  have hi0 : (i 0).val < 50 := (i 0).isLt
  have hi1 : (i 1).val < 1 := (i 1).isLt
  have hi2 : (i 2).val < 128 := (i 2).isLt
  obtain ⟨t, ht⟩ : ∃ t : Fin cfg4.N, t.val = (i 0).val := ⟨point ⟨(i 0).val, hi0⟩, rfl⟩
  have e0 : win4_6.index t (0 : Fin 3) = t.val := idx6_0 t
  have e1 : win4_6.index t (1 : Fin 3) = 0 := idx6_1 t
  have e2 : win4_6.index t (2 : Fin 3) = 0 := idx6_2 t
  refine ⟨t, flush4_6 t, ?_⟩
  rw [mem_blk6]
  intro a
  match a with
  | ⟨0, _⟩ => show win4_6.index t (0 : Fin 3) * 1 ≤ (i 0).val ∧ (i 0).val < win4_6.index t (0 : Fin 3) * 1 + 1; rw [e0, ht]; omega
  | ⟨1, _⟩ => show win4_6.index t (1 : Fin 3) * 1 ≤ (i 1).val ∧ (i 1).val < win4_6.index t (1 : Fin 3) * 1 + 1; rw [e1]; omega
  | ⟨2, _⟩ => show win4_6.index t (2 : Fin 3) * 128 ≤ (i 2).val ∧ (i 2).val < win4_6.index t (2 : Fin 3) * 128 + 128; rw [e2]; omega

/-- The statistic's array after the region is `G6`. -/
theorem sumsq_arr (c : Dev nD) : (dat4 V c).arrAt 6 cfg4.N = G6 V c :=
  (dat4 V c).arrAt_eq_of_cover 6 (G6 V c) (fun t _ => flushed6_eq V c t) cover6

/-- The column sums after the region, index by index. -/
theorem sums_apply (c : Dev nD) (t : Fin 50) (j : Fin 128) :
    ((dat4 (F := Ideal) V c).arrAt 5 cfg4.N : S50x1x128.Idx → EReal) (ix3 t 0 j) = ∑ y : Fin 2000, linAt V c (rowOf t y) j :=
  congrFun (sums_arr V c) (ix3 t 0 j)

/-- The column sums of squares after the region, index by index. -/
theorem sumsq_apply (c : Dev nD) (t : Fin 50) (j : Fin 128) :
    ((dat4 (F := Ideal) V c).arrAt 6 cfg4.N : S50x1x128.Idx → EReal) (ix3 t 0 j)
      = ∑ y : Fin 2000, linAt V c (rowOf t y) j * linAt V c (rowOf t y) j :=
  congrFun (sumsq_arr V c) (ix3 t 0 j)

end Cert.KernelIdeal.RegionLin4

end
-- ==== Proof.RegionBn5.lean ====
/-
  Region 5 of the network's main function: batch normalisation, rectifier and row scaling, over 50 row tiles of
  2000 rows.

  The region reads the linear layer's output lin : [100000,128], four rows of shape [1,128] (the column mean, the
  inverse standard deviation, gamma, beta) and a per-row scale column of shape [100000,1]. On the extended reals, where
  every float operation is exact and a format change is the identity, it leaves one array:
    out (r, j) = max ((((lin (r,j) - mean (0,j)) * inv (0,j)) * gamma (0,j)) + beta (0,j)) 0 * scale (r,0)
  for every row r and column j.
  The proof reads the tile's computation at one index (a row of shape [1,128] broadcast over the 2000 rows reads its
  one row; a column of shape [2000,1] broadcast over the 128 lanes reads its one column; every other operation is
  pointwise), then shows that what tile t writes back is block t of this whole-array function (row y of tile t is row
  2000 t + y of each row-tiled array, and the four small rows are read whole at every tile), and that the blocks cover
  the array: row r lies in tile r / 2000.
-/
import proofs.«132861_j65154653880488_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionBn5

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## The tile's computation at one index -/

theorem hz : (![0, 0] : Fin 2 → Nat) = fun _ => 0 := funext fun a => by fin_cases a <;> rfl

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload read at row `p`, lane `q` of the tile: the normalised, rectified, scaled entry. -/
theorem pay_apply (x0 : Vec Ideal S2000x128 .f32) (x1 x2 x3 x4 : Vec Ideal S1x128 .f32) (x5 : Vec Ideal S2000x1 .f32)
    (p : Fin 2000) (q : Fin 128) :
    (k5_pay1 x0 x1 x2 x3 x4 x5 : S2000x128.Idx → EReal) (ix2 p q)
      = max (((((x0 : S2000x128.Idx → EReal) (ix2 p q) - (x1 : S1x128.Idx → EReal) (ix2 0 q)) * (x2 : S1x128.Idx → EReal) (ix2 0 q)) * (x3 : S1x128.Idx → EReal) (ix2 0 q)) + (x4 : S1x128.Idx → EReal) (ix2 0 q)) (Ideal.ofBits .f32 0x00000000#32) * (x5 : S2000x1.Idx → EReal) (ix2 p 0) := by
  unfold k5_pay1
  simp only [shapeCast_self]
  simp only [truncf_apply, mulf_apply, maximumf_apply, addf_apply, subf_apply, broadcast_apply]
  rw [broadcastTo_a1_ab_apply, broadcastTo_1b_ab_apply, broadcastTo_1b_ab_apply, broadcastTo_1b_ab_apply, broadcastTo_1b_ab_apply]
  rfl

/-! ## The whole-array function -/

/-- The normalised, rectified, scaled entry at row `r`, column `j`, from the six input arrays: the entry of `lin`
    minus the column's mean, times the column's inverse standard deviation, times gamma, plus beta, clamped below at
    zero, times the row's scale. -/
def bnOf (lin : S100000x128.Idx → EReal) (mean inv gamma beta : S1x128.Idx → EReal) (scale : S100000x1.Idx → EReal)
    (r : Fin 100000) (j : Fin 128) : EReal :=
  max ((((lin (ix2 r j) - mean (ix2 0 j)) * inv (ix2 0 j)) * gamma (ix2 0 j)) + beta (ix2 0 j)) (Ideal.ofBits .f32 0x00000000#32) * scale (ix2 r 0)

/-- The entry of the region's output at row `r`, column `j`, from the region's input arrays as it finds them. -/
def bnAt (c : Dev nD) (r : Fin 100000) (j : Fin 128) : EReal :=
  bnOf (V c main_v105_0) (V c main_v121) (V c main_v122) (V c main_v123) (V c main_v124) (V c main_v15) r j

/-- The output array as one function of its index. -/
def G (c : Dev nD) : S100000x128.Idx → EReal := fun i => bnAt V c (i 0) (i 1)

/-! ## The index maps over the grid -/

/-- The printed index maps, decided over the 50 grid points: the three row-tiled windows sit at block `(t, 0)`, the
    four small rows at block `(0, 0)`. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0
    ∧ win5_6.index t (0 : Fin 2) = t.val ∧ win5_6.index t (1 : Fin 2) = 0 :=
  (by decide +kernel : ∀ t : Fin grid5.N, _)

/-! ## Each input block read at an index of the tile -/

/-- Row `p` of tile `t` of the row-tiled input is row `2000 t + p` of the array. -/
theorem rows_apply (c : Dev nD) (t : Fin cfg5.N) (p : Fin 2000) (q : Fin 128) (r : Fin 100000)
    (hr : r.val = t.val * 2000 + p.val) :
    (iblk5 V c 0 t : Vec Ideal S2000x128 .f32) (ix2 p q) = (V c main_v105_0 : S100000x128.Idx → EReal) (ix2 r q) := by
  obtain ⟨e0, e1, -⟩ := idx_facts t
  unfold iblk5
  rw [View.read_apply]
  show (V c main_v105_0 : S100000x128.Idx → EReal) _ = _
  congr 1
  funext a
  apply Fin.ext
  match a with
  | ⟨0, _⟩ => show win5_0.index t (0 : Fin 2) * 2000 + 1 * p.val = r.val; rw [e0, hr]; omega
  | ⟨1, _⟩ => show win5_0.index t (1 : Fin 2) * 128 + 1 * q.val = q.val; rw [e1]; omega

/-- The mean row's block at any tile is the whole row. -/
theorem mean_apply (c : Dev nD) (t : Fin cfg5.N) (q : Fin 128) :
    (iblk5 V c 1 t : Vec Ideal S1x128 .f32) (ix2 0 q) = (V c main_v121 : S1x128.Idx → EReal) (ix2 0 q) := by
  obtain ⟨-, -, e0, e1, -⟩ := idx_facts t
  unfold iblk5
  rw [View.read_apply]
  show (V c main_v121 : S1x128.Idx → EReal) _ = _
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-- The inverse standard deviation row's block at any tile is the whole row. -/
theorem inv_apply (c : Dev nD) (t : Fin cfg5.N) (q : Fin 128) :
    (iblk5 V c 2 t : Vec Ideal S1x128 .f32) (ix2 0 q) = (V c main_v122 : S1x128.Idx → EReal) (ix2 0 q) := by
  obtain ⟨-, -, -, -, e0, e1, -⟩ := idx_facts t
  unfold iblk5
  rw [View.read_apply]
  show (V c main_v122 : S1x128.Idx → EReal) _ = _
  congr 1
  funext a
  apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

/-- The gamma row's block at any tile is the whole row. -/
theorem gamma_apply (c : Dev nD) (t : Fin cfg5.N) (q : Fin 128) :
    (iblk5 V c 3 t : Vec Ideal S1x128 .f32) (ix2 0 q) = (V c main_v123 : S1x128.Idx → EReal) (ix2 0 q) := by
  obtain ⟨-, -, -, -, -, -, e0, e1, -⟩ := idx_facts t
  unfold iblk5
  rw [View.read_apply]
  show (V c main_v123 : S1x128.Idx → EReal) _ = _
  congr 1
  funext a
  apply Fin.ext
  match a with
  | ⟨0, _⟩ => show win5_3.index t (0 : Fin 2) * 1 + 1 * 0 = 0; rw [e0]
  | ⟨1, _⟩ => show win5_3.index t (1 : Fin 2) * 128 + 1 * q.val = q.val; rw [e1]; omega

/-- The beta row's block at any tile is the whole row. -/
theorem beta_apply (c : Dev nD) (t : Fin cfg5.N) (q : Fin 128) :
    (iblk5 V c 4 t : Vec Ideal S1x128 .f32) (ix2 0 q) = (V c main_v124 : S1x128.Idx → EReal) (ix2 0 q) := by
  obtain ⟨-, -, -, -, -, -, -, -, e0, e1, -⟩ := idx_facts t
  unfold iblk5
  rw [View.read_apply]
  show (V c main_v124 : S1x128.Idx → EReal) _ = _
  congr 1
  funext a
  apply Fin.ext
  match a with
  | ⟨0, _⟩ => show win5_4.index t (0 : Fin 2) * 1 + 1 * 0 = 0; rw [e0]
  | ⟨1, _⟩ => show win5_4.index t (1 : Fin 2) * 128 + 1 * q.val = q.val; rw [e1]; omega

/-- Row `p` of tile `t` of the scale column is row `2000 t + p` of the column. -/
theorem scale_apply (c : Dev nD) (t : Fin cfg5.N) (p : Fin 2000) (r : Fin 100000)
    (hr : r.val = t.val * 2000 + p.val) :
    (iblk5 V c 5 t : Vec Ideal S2000x1 .f32) (ix2 p 0) = (V c main_v15 : S100000x1.Idx → EReal) (ix2 r 0) := by
  obtain ⟨-, -, -, -, -, -, -, -, -, -, e0, e1, -⟩ := idx_facts t
  unfold iblk5
  rw [View.read_apply]
  show (V c main_v15 : S100000x1.Idx → EReal) _ = _
  congr 1
  funext a
  apply Fin.ext
  match a with
  | ⟨0, _⟩ => show win5_5.index t (0 : Fin 2) * 2000 + 1 * p.val = r.val; rw [e0, hr]; omega
  | ⟨1, _⟩ => show win5_5.index t (1 : Fin 2) * 1 + 1 * 0 = 0; rw [e1]

/-! ## What a tile writes back, the cover, the array after the region -/

/-- WHAT TILE `t` WRITES BACK is block `t` of `G` of the region's input arrays. -/
theorem flushed6_eq (c : Dev nD) (t : Fin cfg5.N) :
    (dat5 V c).flushed 6 t = ((cfg5.win 6).blk t).view.read (Elt Ideal) (G V c) := by
  show (cfg5.win 6).cut (grid5.coords t) ((dat5 V c).after 6 t) = _
  rw [after5_6]
  unfold out5_6
  rw [View.canon_unit_zero hz]
  simp only [View.ld_unit_zero (S := S2000x128) hz, View.ld_unit_zero (S := S1x128) hz, View.ld_unit_zero (S := S2000x1) hz]
  obtain ⟨-, -, -, -, -, -, -, -, -, -, -, -, e0, e1⟩ := idx_facts t
  funext y
  obtain ⟨p, q, rfl⟩ : ∃ (p : Fin 2000) (q : Fin 128), y = ix2 p q :=
    ⟨y 0, y 1, eq_ix2 (n0 := 2000) (n1 := 128) y⟩
  have ht : t.val < 50 := lt_of_lt_of_eq t.isLt N_5
  let r : Fin 100000 := ⟨t.val * 2000 + p.val, by have := p.isLt; omega⟩
  have hr : r.val = t.val * 2000 + p.val := rfl
  have hemb : ((cfg5.win 6).blk t).view.emb (ix2 p q) = (ix2 r q : S100000x128.Idx) := by
    funext a
    apply Fin.ext
    match a with
    | ⟨0, _⟩ => show win5_6.index t (0 : Fin 2) * 2000 + 1 * p.val = t.val * 2000 + p.val; rw [e0]; omega
    | ⟨1, _⟩ => show win5_6.index t (1 : Fin 2) * 128 + 1 * q.val = q.val; rw [e1]; omega
  show (k5_pay1 (iblk5 V c 0 t) (iblk5 V c 1 t) (iblk5 V c 2 t) (iblk5 V c 3 t) (iblk5 V c 4 t) (iblk5 V c 5 t) : S2000x128.Idx → EReal) (ix2 p q)
    = G V c (((cfg5.win 6).blk t).view.emb (ix2 p q))
  rw [hemb, pay_apply, rows_apply V c t p q r hr, mean_apply, inv_apply, gamma_apply, beta_apply,
    scale_apply V c t p r hr]
  rfl

/-- An index of the array is in tile `t`'s block iff each coordinate is in the block's range on its axis. -/
theorem mem_blk6 (t : Fin cfg5.N) (i : S100000x128.Idx) :
    i ∈ ((cfg5.win 6).blk t).view.set ↔ ∀ a : Fin 2, win5_6.index t a * S2000x128.size a ≤ (i a).val ∧ (i a).val < win5_6.index t a * S2000x128.size a + S2000x128.size a := by
  show i ∈ ((View.whole main_v125).slice (win5_6.rect t)).set ↔ _
  rw [View.set_slice_whole, Rect.mem_set_unit]
  exact Iff.rfl

/-- Every index of the array is in some tile's block: row `r` lies in tile `r / 2000`. -/
theorem cover6 (i : S100000x128.Idx) :
    ∃ t : Fin cfg5.N, (cfg5.win 6).flush t = true ∧ i ∈ ((cfg5.win 6).blk t).view.set := by
  have hi0 : (i 0).val < 100000 := (i 0).isLt
  have hi1 : (i 1).val < 128 := (i 1).isLt
  have hN : cfg5.N = 50 := N_5
  have hlt : (i 0).val / 2000 < cfg5.N := by rw [hN]; omega
  obtain ⟨-, -, -, -, -, -, -, -, -, -, -, -, e0, e1⟩ := idx_facts ⟨(i 0).val / 2000, hlt⟩
  refine ⟨⟨(i 0).val / 2000, hlt⟩, flush5_6 _, ?_⟩
  rw [mem_blk6]
  intro a
  match a with
  | ⟨0, _⟩ =>
    show win5_6.index ⟨(i 0).val / 2000, hlt⟩ (0 : Fin 2) * 2000 ≤ (i 0).val ∧ (i 0).val < win5_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win5_6.index ⟨(i 0).val / 2000, hlt⟩ (1 : Fin 2) * 128 ≤ (i 1).val ∧ (i 1).val < win5_6.index ⟨(i 0).val / 2000, hlt⟩ (1 : Fin 2) * 128 + 128
    rw [e1]
    omega

/-- THE ARRAY after the region is `G` of the region's input arrays. -/
theorem final6 (c : Dev nD) : (dat5 V c).arrAt 6 cfg5.N = G V c :=
  (dat5 V c).arrAt_eq_of_cover 6 (G V c) (fun t _ => flushed6_eq V c t) cover6

/-- The region's output at row `r`, column `j`. -/
theorem bn_apply (c : Dev nD) (r : Fin 100000) (j : Fin 128) :
    ((dat5 (F := Ideal) V c).arrAt 6 cfg5.N : S100000x128.Idx → EReal) (ix2 r j) = bnAt V c r j := by
  rw [final6]
  rfl

end Cert.KernelIdeal.RegionBn5
end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«132861_j65154653880488_2_alg».proof.Proof.LibVariance
import proofs.«132861_j65154653880488_2_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.Layer.lean ====
/-
  One graph-convolution layer with batch normalisation, as functions of plain arrays of extended reals.

  A layer's linear part sends the aggregated features agg (n rows, K columns), a per-row factor nd, a weight matrix W
  and a bias b to  lin r j = (sum over k of (agg r k * nd r) * W k j) + b j.  Its normalisation takes, column by
  column, the mean and the variance of lin over the n rows and sends lin to
  max((((lin - mean) * rsqrt(var + eps)) * g) + be, 0), possibly scaled row by row afterwards.
  The statistics can be taken in two passes (mean, then the mean of the squared deviations) or in one pass from the
  column totals S = sum x and Q = sum x*x (mean = S/N, variance = max(Q/N - mean*mean, 0)). On the extended reals the
  two agree when every entry of lin is a real number; everything built from real entries by sums, products,
  differences, maxima, a division by a nonzero real and the reciprocal square root of a positive real is again real.
-/
import proofs.«132861_j65154653880488_2_alg».proof.Proof.LibBatchNorm

noncomputable section

namespace Cert.GCN

open Idealize.ShloMosaic Cert.LibBatchNorm
open scoped BigOperators

variable {n K d : ℕ}

/-- The linear part of a layer at row r and output column j. -/
def lin (agg : Fin n → Fin K → EReal) (nd : Fin n → EReal) (W : Fin K → Fin d → EReal) (b : Fin d → EReal)
    (r : Fin n) (j : Fin d) : EReal :=
  (∑ k : Fin K, (agg r k * nd r) * W k j) + b j

/-- Real inputs give a real linear part. -/
theorem lin_real {agg : Fin n → Fin K → EReal} {nd : Fin n → EReal} {W : Fin K → Fin d → EReal} {b : Fin d → EReal}
    (hagg : ∀ r k, IsReal (agg r k)) (hnd : ∀ r, IsReal (nd r)) (hW : ∀ k j, IsReal (W k j)) (hb : ∀ j, IsReal (b j))
    (r : Fin n) (j : Fin d) : IsReal (lin agg nd W b r j) :=
  (IsReal.sum _ _ fun k _ => ((hagg r k).mul (hnd r)).mul (hW k j)).add (hb j)

/-- The normalised, rectified entry with two-pass statistics of column j. -/
def bnR (x : Fin n → Fin d → EReal) (cN cEps c0 : EReal) (g be : Fin d → EReal) (r : Fin n) (j : Fin d) : EReal :=
  max ((((x r j - meanR (fun r => x r j) cN) * Ideal.rsqrt (varR (fun r => x r j) cN + cEps)) * g j) + be j) c0

/-- The same entry with one-pass statistics from the column totals S and Q. -/
def bnK (x : Fin n → Fin d → EReal) (S Q : Fin d → EReal) (cN cEps c0 : EReal) (g be : Fin d → EReal)
    (r : Fin n) (j : Fin d) : EReal :=
  max ((((x r j - meanK cN (S j)) * Ideal.rsqrt (varK cN (S j) (Q j) + cEps)) * g j) + be j) c0

/-- With real entries the one-pass and the two-pass layers agree entry by entry. -/
theorem bnK_eq_bnR (x : Fin n → Fin d → EReal) (hx : ∀ r j, IsReal (x r j)) (N : ℝ) (hN : N = (n : ℝ)) (hpos : 0 < N)
    (S Q : Fin d → EReal) (hS : ∀ j, S j = 0 + ∑ r, x r j) (hQ : ∀ j, Q j = 0 + ∑ r, x r j * x r j)
    (cEps c0 : EReal) (g be : Fin d → EReal) (r : Fin n) (j : Fin d) :
    bnK x S Q (N : EReal) cEps c0 g be r j = bnR x (N : EReal) cEps c0 g be r j := by
  obtain ⟨hm, hv, -, -, -⟩ := stats_eq (fun r => x r j) (fun r => hx r j) N (by rw [hN, Fintype.card_fin]) hpos
    (S j) (Q j) (hS j) (hQ j)
  unfold bnK bnR
  rw [hm, hv]

/-- Real entries, a real positive eps, real g, be and a real floor give a real normalised entry. -/
theorem bnR_real (x : Fin n → Fin d → EReal) (hx : ∀ r j, IsReal (x r j)) (N : ℝ) (hN : N = (n : ℝ)) (hpos : 0 < N)
    {e : ℝ} (he : 0 < e) {c0 : EReal} (h0 : IsReal c0) {g be : Fin d → EReal} (hg : ∀ j, IsReal (g j))
    (hbe : ∀ j, IsReal (be j)) (r : Fin n) (j : Fin d) : IsReal (bnR x (N : EReal) (e : EReal) c0 g be r j) := by
  obtain ⟨-, -, hmr, hvr, hv0⟩ := stats_eq (fun r => x r j) (fun r => hx r j) N (by rw [hN, Fintype.card_fin]) hpos
    _ _ rfl rfl
  unfold bnR
  exact (((((hx r j).sub hmr).mul (invstd_real hvr hv0 he)).mul (hg j)).add (hbe j)).max h0

end Cert.GCN

end
-- ==== Proof.KernelLayer3.lean ====
/-
  Layer 3 of the idealized kernel: what its two regions and the host stretch between them leave, entry by entry.

  The layer's first region computes, tile by tile, lin = (agg * nd) · W + b for the aggregated features agg found at its
  entry, and each tile's column sums of lin and of lin * lin. The host stretch adds the 50 tiles' partial sums into the
  column totals S and Q, and forms mean = S / N, var = max(Q / N - mean * mean, 0) and rsqrt(var + eps). The second
  region normalises lin with them, rectifies and scales each row. Read at an entry (r, j), the layer's output is the
  one-pass normalised entry of column j of lin, times the scale of row r; the totals are sums over all N rows because
  row y of tile t is row 2000 t + y.
-/
import proofs.«132861_j65154653880488_2_alg».proof.Proof.Gen.KernelIdeal.Frame
import proofs.«132861_j65154653880488_2_alg».proof.Proof.KernelKeep
import proofs.«132861_j65154653880488_2_alg».proof.Proof.KernelHostRead
import proofs.«132861_j65154653880488_2_alg».proof.Proof.RegionLin4
import proofs.«132861_j65154653880488_2_alg».proof.Proof.RegionBn5
import proofs.«132861_j65154653880488_2_alg».proof.Proof.Layer
import Idealize.ShloMosaic.Lib.StableHlo.Run

noncomputable section

namespace Cert.KernelIdeal.Layer3

open Cert.KernelIdeal Cert.KernelIdeal.Gen Cert.KernelIdeal.HostRead Cert.KernelIdeal.Keep Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The layer's linear output at row r, column j, from the arrays the first region finds. -/
def L (r : Fin 100000) (j : Fin 128) : EReal := RegionLin4.linAt (V9 m ρ) c r j

/-- The first region leaves lin in its first output array. -/
theorem lin_apply (r : Fin 100000) (j : Fin 128) :
    (W10 m ρ c (Proc.devRef .tc main_v105_0) : S100000x128.Idx → EReal) (ix2 r j) = L m ρ c r j := by
  rw [show W10 m ρ c (Proc.devRef .tc main_v105_0) = (dat4 (V9 m ρ) c).arrAt 4 cfg4.N from W10_arr m ρ c 4]
  exact RegionLin4.lin_apply (V9 m ρ) c r j

/-- Tile t's column sum of lin. -/
theorem sums_apply (t : Fin 50) (j : Fin 128) :
    (W10 m ρ c (Proc.devRef .tc main_v105_1) : S50x1x128.Idx → EReal) (ix3 t 0 j)
      = ∑ y : Fin 2000, L m ρ c (RegionLin4.rowOf t y) j := by
  rw [show W10 m ρ c (Proc.devRef .tc main_v105_1) = (dat4 (V9 m ρ) c).arrAt 5 cfg4.N from W10_arr m ρ c 5]
  exact RegionLin4.sums_apply (V9 m ρ) c t j

/-- Tile t's column sum of lin * lin. -/
theorem sumsq_apply (t : Fin 50) (j : Fin 128) :
    (W10 m ρ c (Proc.devRef .tc main_v105_2) : S50x1x128.Idx → EReal) (ix3 t 0 j)
      = ∑ y : Fin 2000, L m ρ c (RegionLin4.rowOf t y) j * L m ρ c (RegionLin4.rowOf t y) j := by
  rw [show W10 m ρ c (Proc.devRef .tc main_v105_2) = (dat4 (V9 m ρ) c).arrAt 6 cfg4.N from W10_arr m ρ c 6]
  exact RegionLin4.sumsq_apply (V9 m ρ) c t j

/-- Row y of tile t, as the batch-norm library numbers it. -/
theorem rowOf_eq (t : Fin 50) (y : Fin 2000) :
    RegionLin4.rowOf t y = Cert.LibBatchNorm.rowOf (T := 50) (B := 2000) (n := 100000) rfl t y := rfl

/-- The column totals of lin and of lin * lin over all rows. -/
def S (j : Fin 128) : EReal := 0 + ∑ r : Fin 100000, L m ρ c r j
def Q (j : Fin 128) : EReal := 0 + ∑ r : Fin 100000, L m ρ c r j * L m ρ c r j

/-- Partial sums s that are, tile by tile, the column sums of lin add up, from the zero word, to the column total. -/
theorem tiles_S (s : S50x1x128.Idx → EReal)
    (hs : ∀ (t : Fin 50) (j : Fin 128), s (ix3 t 0 j) = ∑ y : Fin 2000, L m ρ c (RegionLin4.rowOf t y) j) (j : Fin 128) :
    Ideal.ofBits .f32 0x00000000#32 + ∑ t : Fin 50, s (ix3 t 0 j) = S m ρ c j := by
  rw [ofBits_zero, Finset.sum_congr rfl (fun t _ => hs t j)]
  exact sum_tiles' (T := 50) (B := 2000) (n := 100000) rfl (fun r => L m ρ c r j)

/-- The same for the column sums of lin * lin. -/
theorem tiles_Q (q : S50x1x128.Idx → EReal)
    (hq : ∀ (t : Fin 50) (j : Fin 128), q (ix3 t 0 j)
      = ∑ y : Fin 2000, L m ρ c (RegionLin4.rowOf t y) j * L m ρ c (RegionLin4.rowOf t y) j) (j : Fin 128) :
    Ideal.ofBits .f32 0x00000000#32 + ∑ t : Fin 50, q (ix3 t 0 j) = Q m ρ c j := by
  rw [ofBits_zero, Finset.sum_congr rfl (fun t _ => hq t j)]
  exact sum_tiles' (T := 50) (B := 2000) (n := 100000) rfl (fun r => L m ρ c r j * L m ρ c r j)

/-! ## The host stretch between the two regions -/

theorem mean_eq : (V11 m ρ c main_v121 : S1x128.Idx → EReal)
    = shapeCast S1x128 (meanVec (W10 m ρ c (Proc.devRef .tc main_v105_1))) shapeCasts_S128_S1x128 := by
  show StableHlo.after hostOps5 (W10 m ρ c) (Proc.devRef .tc main_v121) = _
  after_results_simp
  rfl

theorem inv_eq : (V11 m ρ c main_v122 : S1x128.Idx → EReal)
    = shapeCast S1x128 (invVec (W10 m ρ c (Proc.devRef .tc main_v105_1)) (W10 m ρ c (Proc.devRef .tc main_v105_2))) shapeCasts_S128_S1x128 := by
  show StableHlo.after hostOps5 (W10 m ρ c) (Proc.devRef .tc main_v122) = _
  after_results_simp
  rfl

theorem g_eq : (V11 m ρ c main_v123 : S1x128.Idx → EReal)
    = shapeCast S1x128 (m ((c : Thread nD τ).loc main_arg15)) shapeCasts_S128_S1x128 := by
  show StableHlo.after hostOps5 (W10 m ρ c) (Proc.devRef .tc main_v123) = _
  after_results_simp
  rw [W10_main_arg15_W0 m ρ c]
  rfl

theorem be_eq : (V11 m ρ c main_v124 : S1x128.Idx → EReal)
    = shapeCast S1x128 (m ((c : Thread nD τ).loc main_arg16)) shapeCasts_S128_S1x128 := by
  show StableHlo.after hostOps5 (W10 m ρ c) (Proc.devRef .tc main_v124) = _
  after_results_simp
  rw [W10_main_arg16_W0 m ρ c]
  rfl

/-- The mean row at column j is the one-pass mean of column j. -/
theorem mean_apply (j : Fin 128) :
    (V11 m ρ c main_v121 : S1x128.Idx → EReal) (ix2 0 j) = meanK (Ideal.ofBits .f32 0x47C35000#32) (S m ρ c j) := by
  rw [mean_eq, row_apply, meanVec_apply, tiles_S m ρ c _ (sums_apply m ρ c)]
  rfl

/-- The inverse-standard-deviation row at column j, from the one-pass variance of column j. -/
theorem inv_apply (j : Fin 128) :
    (V11 m ρ c main_v122 : S1x128.Idx → EReal) (ix2 0 j)
      = Ideal.rsqrt (varK (Ideal.ofBits .f32 0x47C35000#32) (S m ρ c j) (Q m ρ c j) + Ideal.ofBits .f32 0x3727C5AC#32) := by
  rw [inv_eq, row_apply, invVec_apply, meanVec_apply, tiles_S m ρ c _ (sums_apply m ρ c), tiles_Q m ρ c _ (sumsq_apply m ρ c),
    ofBits_zero]
  rfl

theorem g_apply (j : Fin 128) :
    (V11 m ρ c main_v123 : S1x128.Idx → EReal) (ix2 0 j) = (m ((c : Thread nD τ).loc main_arg15) : S128.Idx → EReal) (ix1 j) := by
  rw [g_eq, row_apply]

theorem be_apply (j : Fin 128) :
    (V11 m ρ c main_v124 : S1x128.Idx → EReal) (ix2 0 j) = (m ((c : Thread nD τ).loc main_arg16) : S128.Idx → EReal) (ix1 j) := by
  rw [be_eq, row_apply]

/-- The second region finds lin as the first left it. -/
theorem lin_kept (r : Fin 100000) (j : Fin 128) :
    (V11 m ρ c main_v105_0 : S100000x128.Idx → EReal) (ix2 r j) = L m ρ c r j := by
  show (W11 m ρ c (Proc.devRef .tc main_v105_0) : S100000x128.Idx → EReal) (ix2 r j) = _
  rw [W11_main_v105_0_W10 m ρ c]
  exact lin_apply m ρ c r j

/-- The per-row scale column is the one computed before the first region. -/
theorem scale_kept (r : Fin 100000) :
    (V11 m ρ c main_v15 : S100000x1.Idx → EReal) (ix2 r 0) = (V1 m ρ c main_v15 : S100000x1.Idx → EReal) (ix2 r 0) := by
  show (W11 m ρ c (Proc.devRef .tc main_v15) : S100000x1.Idx → EReal) (ix2 r 0) = _
  rw [W11_main_v15_W1 m ρ c]

/-! ## The layer's output -/

/-- Entry (r, j) of the layer's output: the one-pass normalised, rectified entry times the row's scale. -/
theorem out_apply (r : Fin 100000) (j : Fin 128) :
    (W12 m ρ c (Proc.devRef .tc main_v125) : S100000x128.Idx → EReal) (ix2 r j)
      = Cert.GCN.bnK (L m ρ c) (S m ρ c) (Q m ρ c) (Ideal.ofBits .f32 0x47C35000#32) (Ideal.ofBits .f32 0x3727C5AC#32)
          (Ideal.ofBits .f32 0x00000000#32) (fun j => (m ((c : Thread nD τ).loc main_arg15) : S128.Idx → EReal) (ix1 j))
          (fun j => (m ((c : Thread nD τ).loc main_arg16) : S128.Idx → EReal) (ix1 j)) r j
        * (V1 m ρ c main_v15 : S100000x1.Idx → EReal) (ix2 r 0) := by
  rw [show W12 m ρ c (Proc.devRef .tc main_v125) = (dat5 (V11 m ρ) c).arrAt 6 cfg5.N from W12_arr m ρ c 6]
  rw [RegionBn5.bn_apply (V11 m ρ) c r j]
  unfold RegionBn5.bnAt RegionBn5.bnOf Cert.GCN.bnK
  rw [lin_kept, mean_apply, inv_apply, g_apply, be_apply, scale_kept]

end Cert.KernelIdeal.Layer3

end
-- ==== Proof.RealOps.lean ====
/-
  REAL ENTRIES STAY REAL UNDER A ROW GATHER, AN ACCUMULATING SCATTER, AND 1/√max(·, 1).

  Over the extended reals (the ideal reading of a float), call an entry real when it is the embedding of a real number.
    • A gather copies entries: every entry of the result is an entry of the table (at the index the dimension numbers
      and the start indices select), so a table of real entries gathers to real entries, whatever the indices.
    • An accumulating scatter (a segment sum) leaves, at each index, the operand's entry plus the finite sum of the
      updates that land there. The embedding of ℝ commutes with finite sums, so a real operand and real updates give
      real results, whatever the indices (an update that lands nowhere contributes nothing).
    • For a real x, max(x, 1) is a real ≥ 1 > 0, where 1/√· is the real (√·)⁻¹; the f32 word 0x3F800000 denotes 1.
  The four middle statements are the first two facts at the dimension numbers the reference program prints: gathering rows
  of the [50000, 128] table at [100000, 1] row numbers, rows of a [100000, 128] table at [1600000, 1] row numbers, and
  summing [1600000, 128] rows, or [1600000] elements, into [100000, 128], or [100000], at [1600000, 1] row numbers.
-/
import proofs.«132861_j65154653880488_2_alg».proof.ReferenceIdeal
import proofs.«132861_j65154653880488_2_alg».proof.Proof.LibVariance
import Idealize.ShloMosaic.PureOps.Ideal
import Idealize.ShloMosaic.PureOps.Ideal.Laws

noncomputable section

namespace Cert.RealOps

open Idealize.ShloMosaic Cert.ReferenceIdeal

/-- A finite sum of real entries is real: the embedding of ℝ commutes with finite sums. -/
theorem finset_sum_real {ι : Type} (s : Finset ι) (f : ι → EReal) (hf : ∀ j, ∃ r : ℝ, f j = (r : EReal)) :
    ∃ r : ℝ, ∑ j ∈ s, f j = (r : EReal) := by
  choose g hg using hf
  exact ⟨∑ j ∈ s, g j, by
    rw [Cert.Lib.Variance.coe_finset_sum]
    exact Finset.sum_congr rfl (fun j _ => hg j)⟩

/-- A gather of a table of real entries has real entries: each result entry IS a table entry. -/
theorem gather_real {s si t : Shape} {w : Nat} (d : GatherDims s si t) (x : s.Idx → EReal) (idx : IVec si w)
    (hx : ∀ i, ∃ r : ℝ, x i = (r : EReal)) : ∀ i, ∃ r : ℝ, Host.gather d x idx i = (r : EReal) :=
  fun i => hx (d.operandIdx i idx)

/-- An accumulating scatter of real updates into a real operand has real entries: the operand's entry plus a finite sum
    of updates. -/
theorem hostScatterAdd_real {s si su : Shape} (d : ScatterDims s si su) {w : Nat} (x : s.Idx → EReal) (idx : IVec si w)
    (u : su.Idx → EReal) (hx : ∀ i, ∃ r : ℝ, x i = (r : EReal)) (hu : ∀ i, ∃ r : ℝ, u i = (r : EReal)) :
    ∀ i, ∃ r : ℝ, Ideal.hostScatterAdd d x idx u i = (r : EReal) := by
  intro i
  obtain ⟨a, ha⟩ := hx i
  obtain ⟨b, hb⟩ := finset_sum_real (Finset.univ.filter (fun j => d.resultIdx? j idx = some i)) u hu
  refine ⟨a + b, ?_⟩
  rw [EReal.coe_add, ← ha, ← hb]
  rfl

variable [Facts₀]

theorem gather_emb_real (x : S50000x128.Idx → EReal) (idx : IVec S100000x1 32)
    (hx : ∀ i, ∃ r : ℝ, x i = (r : EReal)) :
    ∀ i, ∃ r : ℝ, Host.gather gather_S50000x128_S100000x1_S100000x128_1_0_n_n_0_1_1128 x idx i = (r : EReal) :=
  fun i => hx _

theorem gather_rows_real (x : S100000x128.Idx → EReal) (idx : IVec S1600000x1 32)
    (hx : ∀ i, ∃ r : ℝ, x i = (r : EReal)) :
    ∀ i, ∃ r : ℝ, Host.gather gather_S100000x128_S1600000x1_S1600000x128_1_0_n_n_0_1_1128 x idx i = (r : EReal) :=
  fun i => hx _

theorem scatter_rows_real (x : S100000x128.Idx → EReal) (idx : IVec S1600000x1 32) (u : S1600000x128.Idx → EReal)
    (hx : ∀ i, ∃ r : ℝ, x i = (r : EReal)) (hu : ∀ i, ∃ r : ℝ, u i = (r : EReal)) :
    ∀ i, ∃ r : ℝ, Host.scatterAdd (F := Ideal) (φ := .f32) scatter_S100000x128_S1600000x1_S1600000x128_1_0_0_1 x idx u i
      = (r : EReal) :=
  hostScatterAdd_real _ x idx u hx hu

theorem scatter_elts_real (x : S100000.Idx → EReal) (idx : IVec S1600000x1 32) (u : S1600000.Idx → EReal)
    (hx : ∀ i, ∃ r : ℝ, x i = (r : EReal)) (hu : ∀ i, ∃ r : ℝ, u i = (r : EReal)) :
    ∀ i, ∃ r : ℝ, Host.scatterAdd (F := Ideal) (φ := .f32) scatter_S100000_S1600000x1_S1600000_n_0_0_1 x idx u i
      = (r : EReal) :=
  hostScatterAdd_real _ x idx u hx hu

omit [Facts₀] in
/-- For a real x, 1/√max(x, 1) is real: max(x, 1) ≥ 1 is positive, where 1/√· is the inverse of the real square root. -/
theorem rsqrt_max_one_real (x : EReal) (hx : ∃ r : ℝ, x = (r : EReal)) :
    ∃ r : ℝ, Ideal.rsqrt (max x (Ideal.ofBits .f32 0x3F800000#32)) = (r : EReal) := by
  obtain ⟨r, rfl⟩ := hx
  have hm : max (r : EReal) 1 = ((max r 1 : ℝ) : EReal) := (EReal.coe_strictMono.monotone.map_max).symm
  have h1 : (1 : ℝ) ≤ max r 1 := le_max_right _ _
  rw [Cert.Lib.Variance.ofBits_one, hm, Ideal.rsqrt_coe, if_neg (by linarith), if_neg (by linarith)]
  exact ⟨_, rfl⟩

end Cert.RealOps
-- ==== Proof.RefLayer3.lean ====
/-
  LAYER 3 OF THE REFERENCE PROGRAM, READ AT AN INDEX.

  The reference computes a graph-convolution layer one whole-array operation at a time. Read at an entry (r, j), and over
  the extended reals where a matrix product and a column total are exact finite sums, its operations compose to the
  layer written as a function of plain arrays:
    • the linear part  lin r j = (∑ k, (agg r k · nd r) · W k j) + b j,  where agg is the array of aggregated features
      (a sum of gathered rows, kept opaque here), nd the per-row factor, W the weight matrix and b the bias: the product
      with nd is an elementwise product with nd broadcast along the columns, the matrix product's k-th term at (r, j) is
      entry (r, k) of the left operand times entry (k, j) of the right, and the bias is broadcast along the rows;
    • column j's mean, (0 + ∑ r, lin r j) / 100000, and variance, (0 + ∑ r, (lin r j − mean)²) / 100000: each column total
      starts from the zero word and its k-th term is the entry at (k, j); the divisor is the f32 word of 100000;
    • the output  max((((lin r j − mean) · rsqrt(var + eps)) · g j) + be j, 0), with mean, rsqrt(var + eps), g and be
      broadcast along the rows.
  Each broadcast is read through its index function, and the index functions compose to "row r" or "column j" by
  computing on the literal extents.

  Also here: every entry of these arrays is a real number when the arrays they are built from have real entries
  (sums, products, differences, maxima of reals are real; 100000 is a nonzero real; eps is a positive real and a variance
  of reals is a nonnegative real, so rsqrt(var + eps) is real; gathered entries of a real table are real and an
  accumulating scatter of real updates into zeros is real).
-/
import proofs.«132861_j65154653880488_2_alg».proof.Proof.ReadP
import proofs.«132861_j65154653880488_2_alg».proof.Proof.Layer
import proofs.«132861_j65154653880488_2_alg».proof.Proof.LibBatchNorm
import proofs.«132861_j65154653880488_2_alg».proof.Proof.RealOps

noncomputable section

namespace Cert.ReferenceIdeal.Layer3

open Idealize.ShloMosaic Idealize.ShloMosaic.ValueIdx Cert.ReferenceIdeal Cert.ReferenceIdeal.ReadP Cert.LibBatchNorm

variable (x0 : (⟨S100000, .i32⟩ : BufTy).Contents (Elt Ideal)) (x1 : (⟨S1600000, .i32⟩ : BufTy).Contents (Elt Ideal)) (x2 : (⟨S1600000, .i32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal)) (x13 : (⟨S128x128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal))

/-! ### Index arithmetic

  Every index function below is computed from literal extents: a row factor broadcast to [n, 1] and then to [n, C] is read
  at row r; a column vector broadcast to [1, C] and then to [n, C] is read at column j; the k-th term of a column total over
  the rows is the entry at (k, j); the k-th term of the matrix product at (r, j) is the entry (r, k) times the entry (k, j). -/

theorem lidx_eq (r : Fin 100000) (j k : Fin 128) : lidx_main_v128 (ix2 r j) k = ix2 r k :=
  funext fun a => Fin.ext (by match a with | ⟨0, _⟩ => rfl | ⟨1, _⟩ => rfl)
theorem ridx_eq (r : Fin 100000) (j k : Fin 128) : ridx_main_v128 (ix2 r j) k = ix2 k j :=
  funext fun a => Fin.ext (by match a with | ⟨0, _⟩ => rfl | ⟨1, _⟩ => rfl)
theorem row_idx_nd (r : Fin 100000) (j : Fin 128) : idx_main_v125 (idx_main_v126 (ix2 r j)) = ix1 r :=
  funext fun a => Fin.ext (by match a with | ⟨0, _⟩ => rfl)
theorem col_idx_bias (r : Fin 100000) (j : Fin 128) : idx_main_v129 (idx_main_v130 (ix2 r j)) = ix1 j :=
  funext fun a => Fin.ext (by match a with | ⟨0, _⟩ => rfl)
theorem red_idx_S (j : Fin 128) (k : Fin 100000) : idx_main_v132 (ix1 j) k = ix2 k j :=
  funext fun a => Fin.ext (by match a with | ⟨0, _⟩ => rfl | ⟨1, _⟩ => rfl)
theorem red_idx_Q (j : Fin 128) (k : Fin 100000) : idx_main_v139 (ix1 j) k = ix2 k j :=
  funext fun a => Fin.ext (by match a with | ⟨0, _⟩ => rfl | ⟨1, _⟩ => rfl)
theorem col_idx_mean1 (r : Fin 100000) (j : Fin 128) : idx_main_v135 (idx_main_v136 (ix2 r j)) = ix1 j :=
  funext fun a => Fin.ext (by match a with | ⟨0, _⟩ => rfl)
theorem col_idx_mean2 (r : Fin 100000) (j : Fin 128) : idx_main_v142 (idx_main_v143 (ix2 r j)) = ix1 j :=
  funext fun a => Fin.ext (by match a with | ⟨0, _⟩ => rfl)
theorem col_idx_inv (r : Fin 100000) (j : Fin 128) : idx_main_v148 (idx_main_v149 (ix2 r j)) = ix1 j :=
  funext fun a => Fin.ext (by match a with | ⟨0, _⟩ => rfl)
theorem col_idx_g (r : Fin 100000) (j : Fin 128) : idx_main_v151 (idx_main_v152 (ix2 r j)) = ix1 j :=
  funext fun a => Fin.ext (by match a with | ⟨0, _⟩ => rfl)
theorem col_idx_be (r : Fin 100000) (j : Fin 128) : idx_main_v154 (idx_main_v155 (ix2 r j)) = ix1 j :=
  funext fun a => Fin.ext (by match a with | ⟨0, _⟩ => rfl)

/-! ### The linear part -/

/-- The layer's linear part at (r, j): the sum over k of (agg r k · nd r) · W k j, plus the bias b j. -/
theorem lin_apply (r : Fin 100000) (j : Fin 128) :
    val_main_v131 (F := Ideal) x0 x1 x2 x4 x5 x6 x7 x8 x9 x10 x11 x12 x13 x14 (ix2 r j)
      = Cert.GCN.lin (fun r k => val_main_v124 (F := Ideal) x0 x1 x2 x4 x5 x6 x7 x8 x9 x10 x11 x12 (ix2 r k)) (fun r => val_main_v12 (F := Ideal) x2 (ix1 r))
          (fun k j => x13 (ix2 k j)) (fun j => x14 (ix1 j)) r j := by
  rw [val_main_v131_apply, val_main_v128_apply, val_main_v130_apply, val_main_v129_apply, col_idx_bias]
  unfold Cert.GCN.lin
  refine congrArg (· + x14 (ix1 j)) (Finset.sum_congr rfl fun k _ => ?_)
  rw [lidx_eq, ridx_eq, val_main_v127_apply, val_main_v126_apply, val_main_v125_apply, row_idx_nd]
  rfl

/-! ### The column statistics -/

/-- Column j's mean: the column total from the zero word, over the word of 100000. -/
theorem mean_apply (j : Fin 128) :
    val_main_v134 (F := Ideal) x0 x1 x2 x4 x5 x6 x7 x8 x9 x10 x11 x12 x13 x14 (ix1 j) = meanR (fun r => val_main_v131 (F := Ideal) x0 x1 x2 x4 x5 x6 x7 x8 x9 x10 x11 x12 x13 x14 (ix2 r j)) (Ideal.ofBits .f32 0x47C35000#32) := by
  rw [val_main_v134_apply, val_main_v132_apply, val_main_v133_apply, val_main_cst_25_apply, val_main_cst_24_apply, Ideal.hostDivf_def, Ideal.ofBits_def,
    Ideal.ofBits_def, ofBits_zero]
  unfold meanR
  have hs : ∀ k : Fin 100000, val_main_v131 (F := Ideal) x0 x1 x2 x4 x5 x6 x7 x8 x9 x10 x11 x12 x13 x14 (idx_main_v132 (ix1 j) k) = val_main_v131 (F := Ideal) x0 x1 x2 x4 x5 x6 x7 x8 x9 x10 x11 x12 x13 x14 (ix2 k j) := fun k => by rw [red_idx_S]
  rw [Finset.sum_congr rfl (fun k _ => hs k)]

/-- Column j's variance: the total of the squared deviations from the mean, from the zero word, over the word of 100000. -/
theorem var_apply (j : Fin 128) :
    val_main_v141 (F := Ideal) x0 x1 x2 x4 x5 x6 x7 x8 x9 x10 x11 x12 x13 x14 (ix1 j) = varR (fun r => val_main_v131 (F := Ideal) x0 x1 x2 x4 x5 x6 x7 x8 x9 x10 x11 x12 x13 x14 (ix2 r j)) (Ideal.ofBits .f32 0x47C35000#32) := by
  rw [val_main_v141_apply, val_main_v139_apply, val_main_v140_apply, val_main_cst_27_apply, val_main_cst_26_apply, Ideal.hostDivf_def, Ideal.ofBits_def,
    Ideal.ofBits_def, ofBits_zero]
  unfold varR
  have hs : ∀ k : Fin 100000, val_main_v138 (F := Ideal) x0 x1 x2 x4 x5 x6 x7 x8 x9 x10 x11 x12 x13 x14 (idx_main_v139 (ix1 j) k)
      = (val_main_v131 (F := Ideal) x0 x1 x2 x4 x5 x6 x7 x8 x9 x10 x11 x12 x13 x14 (ix2 k j) - meanR (fun r => val_main_v131 (F := Ideal) x0 x1 x2 x4 x5 x6 x7 x8 x9 x10 x11 x12 x13 x14 (ix2 r j)) (Ideal.ofBits .f32 0x47C35000#32)) * (val_main_v131 (F := Ideal) x0 x1 x2 x4 x5 x6 x7 x8 x9 x10 x11 x12 x13 x14 (ix2 k j) - meanR (fun r => val_main_v131 (F := Ideal) x0 x1 x2 x4 x5 x6 x7 x8 x9 x10 x11 x12 x13 x14 (ix2 r j)) (Ideal.ofBits .f32 0x47C35000#32)) := by
    intro k
    rw [red_idx_Q, val_main_v138_apply, val_main_v137_apply, val_main_v136_apply, val_main_v135_apply, col_idx_mean1, mean_apply]
    rfl
  rw [Finset.sum_congr rfl (fun k _ => hs k)]

/-! ### The normalised, rectified output -/

/-- The layer's output at (r, j): the two-pass batch normalisation of the linear part, rectified. -/
theorem hs_apply (r : Fin 100000) (j : Fin 128) :
    val_main_v157 (F := Ideal) x0 x1 x2 x4 x5 x6 x7 x8 x9 x10 x11 x12 x13 x14 x15 x16 (ix2 r j) = Cert.GCN.bnR (fun r j => val_main_v131 (F := Ideal) x0 x1 x2 x4 x5 x6 x7 x8 x9 x10 x11 x12 x13 x14 (ix2 r j)) (Ideal.ofBits .f32 0x47C35000#32) (Ideal.ofBits .f32 0x3727C5AC#32) (Ideal.ofBits .f32 0x00000000#32) (fun j => x15 (ix1 j)) (fun j => x16 (ix1 j)) r j := by
  rw [val_main_v157_apply, val_main_call2_v0_apply, val_main_call2_cst_apply,
    val_main_v156_apply, val_main_v155_apply, val_main_v154_apply, col_idx_be,
    val_main_v153_apply, val_main_v152_apply, val_main_v151_apply, col_idx_g,
    val_main_v150_apply, val_main_v149_apply, val_main_v148_apply, col_idx_inv,
    val_main_v147_apply, val_main_v146_apply, val_main_v145_apply, val_main_cst_28_apply, var_apply,
    val_main_v144_apply, val_main_v143_apply, val_main_v142_apply, col_idx_mean2, mean_apply]
  rfl

/-! ### Real entries -/

theorem zero_word_real : IsReal (Ideal.ofBits .f32 0x00000000#32) := by rw [ofBits_zero]; exact IsReal.zero
theorem one_word_real : IsReal (Ideal.ofBits .f32 0x3F800000#32) := by rw [ofBits_one]; exact IsReal.one

/-- The aggregated features: sums, from the zero word, of gathered rows of the layer's input, whose entries are real. -/
theorem agg_real (hin : ∀ i, IsReal (val_main_v114 (F := Ideal) x0 x1 x2 x4 x5 x6 x7 x8 x9 x10 x11 x12 i)) (i : S100000x128.Idx) : IsReal (val_main_v124 (F := Ideal) x0 x1 x2 x4 x5 x6 x7 x8 x9 x10 x11 x12 i) := by
  unfold val_main_v124
  refine Cert.RealOps.scatter_rows_real _ _ _ (fun i => ?_) (fun i => ?_) i
  · rw [val_main_v122_apply, val_main_cst_23_apply, Ideal.ofBits_def]; exact zero_word_real
  · unfold val_main_v121
    exact Cert.RealOps.gather_rows_real _ _ hin i

/-- The linear part is real when the aggregated features, the row factor, the weights and the bias are. -/
theorem lin_real_of (hagg : ∀ i, IsReal (val_main_v124 (F := Ideal) x0 x1 x2 x4 x5 x6 x7 x8 x9 x10 x11 x12 i)) (hnd : ∀ i, IsReal (val_main_v12 (F := Ideal) x2 i))
    (hW : ∀ i, IsReal (x13 i)) (hb : ∀ i, IsReal (x14 i)) (i : S100000x128.Idx) : IsReal (val_main_v131 (F := Ideal) x0 x1 x2 x4 x5 x6 x7 x8 x9 x10 x11 x12 x13 x14 i) := by
  obtain ⟨r, j, rfl⟩ : ∃ (r : Fin 100000) (j : Fin 128), i = ix2 r j := ⟨i 0, i 1, eq_ix2 i⟩
  rw [lin_apply]
  exact Cert.GCN.lin_real (fun r k => hagg _) (fun r => hnd _) (fun k j => hW _) (fun j => hb _) r j

/-- The layer's output is real when the linear part, the scale g, the shift be are. -/
theorem hs_real_of (hlin : ∀ i, IsReal (val_main_v131 (F := Ideal) x0 x1 x2 x4 x5 x6 x7 x8 x9 x10 x11 x12 x13 x14 i)) (hg : ∀ i, IsReal (x15 i)) (hbe : ∀ i, IsReal (x16 i)) (i : S100000x128.Idx) : IsReal (val_main_v157 (F := Ideal) x0 x1 x2 x4 x5 x6 x7 x8 x9 x10 x11 x12 x13 x14 x15 x16 i) := by
  obtain ⟨r, j, rfl⟩ : ∃ (r : Fin 100000) (j : Fin 128), i = ix2 r j := ⟨i 0, i 1, eq_ix2 i⟩
  rw [hs_apply]
  obtain ⟨e, he, hee⟩ := ofBits_eps_pos
  rw [hee, ofBits_100000]
  exact Cert.GCN.bnR_real _ (fun r j => hlin _) 100000 (by norm_num) (by norm_num) he zero_word_real
    (fun j => hg _) (fun j => hbe _) r j

/-- The linear part is real when the layer's input, the row factor nd, the weights and the bias are. -/
theorem lin_real (hin : ∀ i, IsReal (val_main_v114 (F := Ideal) x0 x1 x2 x4 x5 x6 x7 x8 x9 x10 x11 x12 i)) (hnd : ∀ i, IsReal (val_main_v12 (F := Ideal) x2 i))
    (hW : ∀ i, IsReal (x13 i)) (hb : ∀ i, IsReal (x14 i)) (i : S100000x128.Idx) : IsReal (val_main_v131 (F := Ideal) x0 x1 x2 x4 x5 x6 x7 x8 x9 x10 x11 x12 x13 x14 i) :=
  lin_real_of x0 x1 x2 x4 x5 x6 x7 x8 x9 x10 x11 x12 x13 x14 (agg_real x0 x1 x2 x4 x5 x6 x7 x8 x9 x10 x11 x12 hin) hnd hW hb i

/-- The layer's output is real when its input, the row factor and the layer's parameter arrays are. -/
theorem hs_real (hin : ∀ i, IsReal (val_main_v114 (F := Ideal) x0 x1 x2 x4 x5 x6 x7 x8 x9 x10 x11 x12 i)) (hnd : ∀ i, IsReal (val_main_v12 (F := Ideal) x2 i))
    (hW : ∀ i, IsReal (x13 i)) (hb : ∀ i, IsReal (x14 i)) (hg : ∀ i, IsReal (x15 i)) (hbe : ∀ i, IsReal (x16 i))
    (i : S100000x128.Idx) : IsReal (val_main_v157 (F := Ideal) x0 x1 x2 x4 x5 x6 x7 x8 x9 x10 x11 x12 x13 x14 x15 x16 i) :=
  hs_real_of x0 x1 x2 x4 x5 x6 x7 x8 x9 x10 x11 x12 x13 x14 x15 x16 (lin_real x0 x1 x2 x4 x5 x6 x7 x8 x9 x10 x11 x12 x13 x14 hin hnd hW hb) hg hbe i

end Cert.ReferenceIdeal.Layer3
-- ==== Proof.KernelEnds.lean ====
/-
  The idealized kernel program's first stretch of host operations and its last three, read as the reference
  program's stage functions.

  Before the first kernel region the program computes, from the graph's edge lists, the two per-node scales
  (the reciprocal square roots of the out-degree and of the in-degree, each clamped below at one), lays them out as
  columns, gathers and scales the input features, and aggregates them along the edges; it also lays the first bias out as
  a row. After the last region it averages the last layer's output over each graph, and applies two dense layers.
  The reference program prints the same operations; on the extended reals a change of float format is the identity, so
  each buffer the kernel program's host operations leave equals the reference's stage function of the same arguments:
  the per-node scales, their columns entry by entry (a column of shape [100000,1] read at row r is the vector at r), the
  column of ones, the scaled features, the first aggregation, the bias row entry by entry, the first weight matrix, and the
  final [64,2] output as a function of the last layer's output.
-/
import proofs.«132861_j65154653880488_2_alg».proof.Proof.Gen.KernelIdeal.Frame
import proofs.«132861_j65154653880488_2_alg».proof.Proof.KernelKeep
import proofs.«132861_j65154653880488_2_alg».proof.Proof.ReadP
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ends

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg) (c : Dev nD)

/-! ## The arguments of the main function, as launched -/

abbrev X0 := m ((c : Thread nD τ).loc main_arg0)
abbrev X1 := m ((c : Thread nD τ).loc main_arg1)
abbrev X2 := m ((c : Thread nD τ).loc main_arg2)
abbrev X3 := m ((c : Thread nD τ).loc main_arg3)
abbrev X4 := m ((c : Thread nD τ).loc main_arg4)
abbrev X5 := m ((c : Thread nD τ).loc main_arg5)
abbrev X6 := m ((c : Thread nD τ).loc main_arg6)
abbrev X7 := m ((c : Thread nD τ).loc main_arg7)
abbrev X8 := m ((c : Thread nD τ).loc main_arg8)
abbrev X9 := m ((c : Thread nD τ).loc main_arg9)
abbrev X10 := m ((c : Thread nD τ).loc main_arg10)
abbrev X11 := m ((c : Thread nD τ).loc main_arg11)
abbrev X12 := m ((c : Thread nD τ).loc main_arg12)
abbrev X13 := m ((c : Thread nD τ).loc main_arg13)
abbrev X14 := m ((c : Thread nD τ).loc main_arg14)
abbrev X15 := m ((c : Thread nD τ).loc main_arg15)
abbrev X16 := m ((c : Thread nD τ).loc main_arg16)
abbrev X17 := m ((c : Thread nD τ).loc main_arg17)
abbrev X18 := m ((c : Thread nD τ).loc main_arg18)
abbrev X19 := m ((c : Thread nD τ).loc main_arg19)
abbrev X20 := m ((c : Thread nD τ).loc main_arg20)

/-! ## A change of float format on the extended reals -/

/-- Narrowing a vector's float format is the identity on the extended reals. -/
theorem truncf_id {s : Shape} {φ ψ : FTy} (a : FVec Ideal s φ) (h : ψ.bits < φ.bits) :
    (truncf ψ a h : FVec Ideal s ψ) = a := rfl

/-- Widening a vector's float format is the identity on the extended reals. -/
theorem extf_id {s : Shape} {φ ψ : FTy} (a : FVec Ideal s φ) (h : φ.bits < ψ.bits) :
    (extf ψ a h : FVec Ideal s ψ) = a := rfl
/-! ## Reading a column and a row laid out by a shape cast -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The out-degree scale: the reciprocal square root of the out-degree clamped below at one. -/
theorem ns_eq : (V1 m ρ c main_v11 : S100000.Idx → EReal) = Cert.ReferenceIdeal.ReadP.val_main_v11 (F := Ideal) (X1 m c) := by
  show StableHlo.after hostOps0 (W0 m ρ c) (Proc.devRef .tc main_v11) = _
  after_results_simp
  rfl

/-- The in-degree scale: the reciprocal square root of the in-degree clamped below at one. -/
theorem nd_eq : (V1 m ρ c main_v12 : S100000.Idx → EReal) = Cert.ReferenceIdeal.ReadP.val_main_v12 (F := Ideal) (X2 m c) := by
  show StableHlo.after hostOps0 (W0 m ρ c) (Proc.devRef .tc main_v12) = _
  after_results_simp
  rfl

/-- The out-degree scale laid out as a column: its entry at row `r`. -/
theorem nscol_apply (r : Fin 100000) :
    (V1 m ρ c main_v13 : S100000x1.Idx → EReal) (ix2 r 0) = Cert.ReferenceIdeal.ReadP.val_main_v11 (F := Ideal) (X1 m c) (ix1 r) := by
  have h : (V1 m ρ c main_v13 : S100000x1.Idx → EReal)
      = shapeCast S100000x1 (Cert.ReferenceIdeal.ReadP.val_main_v11 (F := Ideal) (X1 m c)) shapeCasts_S100000_S100000x1 := by
    show StableHlo.after hostOps0 (W0 m ρ c) (Proc.devRef .tc main_v13) = _
    after_results_simp
    rfl
  refine (congrFun h (ix2 r 0)).trans ?_
  exact shapeCast_a_a1_apply _ _ r 0

/-- The in-degree scale laid out as a column: its entry at row `r`. -/
theorem ndcol_apply (r : Fin 100000) :
    (V1 m ρ c main_v14 : S100000x1.Idx → EReal) (ix2 r 0) = Cert.ReferenceIdeal.ReadP.val_main_v12 (F := Ideal) (X2 m c) (ix1 r) := by
  have h : (V1 m ρ c main_v14 : S100000x1.Idx → EReal)
      = shapeCast S100000x1 (Cert.ReferenceIdeal.ReadP.val_main_v12 (F := Ideal) (X2 m c)) shapeCasts_S100000_S100000x1 := by
    show StableHlo.after hostOps0 (W0 m ρ c) (Proc.devRef .tc main_v14) = _
    after_results_simp
    rfl
  refine (congrFun h (ix2 r 0)).trans ?_
  exact shapeCast_a_a1_apply _ _ r 0

/-- The column of ones: every entry is the float one. -/
theorem onescol_apply (r : Fin 100000) :
    (V1 m ρ c main_v15 : S100000x1.Idx → EReal) (ix2 r 0) = Ideal.ofBits .f32 0x3F800000#32 := by
  have h : (V1 m ρ c main_v15 : S100000x1.Idx → EReal)
      = broadcastInDim S100000x1 ![] bcast_S_S100000x1 (constant (F := Ideal) S_ .f32 0x3F800000#32) := by
    show StableHlo.after hostOps0 (W0 m ρ c) (Proc.devRef .tc main_v15) = _
    after_results_simp
  refine (congrFun h (ix2 r 0)).trans ?_
  exact broadcastInDim_apply _ _ _ (ix2 r 0) (fun a => a.elim0) (fun a => a.elim0)

/-- The gathered input features scaled by the out-degree scale. -/
theorem hs0_eq : (V1 m ρ c main_v26 : S100000x128.Idx → EReal)
    = Cert.ReferenceIdeal.ReadP.val_main_v22 (F := Ideal) (X0 m c) (X1 m c) (X4 m c) := by
  show StableHlo.after hostOps0 (W0 m ρ c) (Proc.devRef .tc main_v26) = _
  after_results_simp
  rw [truncf_id]
  rfl

/-- The first aggregation along the edges. -/
theorem agg1_eq : (V1 m ρ c main_v37 : S100000x128.Idx → EReal)
    = Cert.ReferenceIdeal.ReadP.val_main_v32 (F := Ideal) (X0 m c) (X1 m c) (X2 m c) (X4 m c) := by
  show StableHlo.after hostOps0 (W0 m ρ c) (Proc.devRef .tc main_v37) = _
  after_results_simp
  rw [extf_id, truncf_id]
  rfl

/-- The first bias laid out as a row: its entry at column `j`. -/
theorem b1row_apply (j : Fin 128) :
    (V1 m ρ c main_v38 : S1x128.Idx → EReal) (ix2 0 j) = (X6 m c : S128.Idx → EReal) (ix1 j) := by
  have h : (V1 m ρ c main_v38 : S1x128.Idx → EReal)
      = shapeCast S1x128 (X6 m c : S128.Idx → EReal) shapeCasts_S128_S1x128 := by
    show StableHlo.after hostOps0 (W0 m ρ c) (Proc.devRef .tc main_v38) = _
    after_results_simp
    rfl
  refine (congrFun h (ix2 0 j)).trans ?_
  exact shapeCast_a_1a_apply _ _ 0 j

/-- The first weight matrix is as launched: no operation of the stretch writes it. -/
theorem w1_eq : (V1 m ρ c main_arg5 : S128x128.Idx → EReal) = X5 m c :=
  (Keep.W1_main_arg5_W0 m ρ c).trans (Keep.W0_eq m ρ c main_arg5)

/-! ## The last three stretches of host operations, over the last layer's output -/

/-- The first dense layer before its rectifier: the per-graph mean of the last layer's output, times the first dense
    weight, plus its bias. -/
theorem dense1_eq
    (h3 : (W12 m ρ c (Proc.devRef .tc main_v125) : S100000x128.Idx → EReal)
      = Cert.ReferenceIdeal.ReadP.val_main_v157 (F := Ideal) (X0 m c) (X1 m c) (X2 m c) (X4 m c) (X5 m c) (X6 m c) (X7 m c) (X8 m c) (X9 m c) (X10 m c) (X11 m c) (X12 m c) (X13 m c) (X14 m c) (X15 m c) (X16 m c)) :
    (W13 m ρ c (Proc.devRef .tc main_v142) : S64x64.Idx → EReal)
      = Cert.ReferenceIdeal.ReadP.val_main_v173 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) := by
  show StableHlo.after hostOps6 (W12 m ρ c) (Proc.devRef .tc main_v142) = _
  after_results_simp
  rw [extf_id, h3, Keep.W12_main_arg3_W0, Keep.W12_main_arg17_W0, Keep.W12_main_arg18_W0]
  rfl

/-- The first dense layer after its rectifier. -/
theorem relu1_eq
    (h3 : (W12 m ρ c (Proc.devRef .tc main_v125) : S100000x128.Idx → EReal)
      = Cert.ReferenceIdeal.ReadP.val_main_v157 (F := Ideal) (X0 m c) (X1 m c) (X2 m c) (X4 m c) (X5 m c) (X6 m c) (X7 m c) (X8 m c) (X9 m c) (X10 m c) (X11 m c) (X12 m c) (X13 m c) (X14 m c) (X15 m c) (X16 m c)) :
    (W14 m ρ c (Proc.devRef .tc main_v143) : S64x64.Idx → EReal)
      = Cert.ReferenceIdeal.ReadP.val_main_v174 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) := by
  have h142 := dense1_eq m ρ c h3
  show StableHlo.after hostOps6_1 (W13 m ρ c) (Proc.devRef .tc main_v143) = _
  generalize W13 m ρ c = W at h142 ⊢
  after_results
  rw [h142]
  rfl

/-- THE TAIL: the program's final [64,2] output, from the last layer's output, is the reference's final stage. -/
theorem tail_eq
    (h3 : (W12 m ρ c (Proc.devRef .tc main_v125) : S100000x128.Idx → EReal)
      = Cert.ReferenceIdeal.ReadP.val_main_v157 (F := Ideal) (X0 m c) (X1 m c) (X2 m c) (X4 m c) (X5 m c) (X6 m c) (X7 m c) (X8 m c) (X9 m c) (X10 m c) (X11 m c) (X12 m c) (X13 m c) (X14 m c) (X15 m c) (X16 m c)) :
    (W15 m ρ c (Proc.devRef .tc main_v147) : S64x2.Idx → EReal)
      = Cert.ReferenceIdeal.ReadP.val_main_v178 (F := Ideal) (X0 m c) (X1 m c) (X2 m c) (X3 m c) (X4 m c) (X5 m c) (X6 m c) (X7 m c) (X8 m c) (X9 m c) (X10 m c) (X11 m c) (X12 m c) (X13 m c) (X14 m c) (X15 m c) (X16 m c) (X17 m c) (X18 m c) (X19 m c) (X20 m c) := by
  have h143 := relu1_eq m ρ c h3
  have e19 := Keep.W14_main_arg19_W0 m ρ c
  have e20 := Keep.W14_main_arg20_W0 m ρ c
  show StableHlo.after hostOps6_2 (W14 m ρ c) (Proc.devRef .tc main_v147) = _
  generalize W14 m ρ c = W at h143 e19 e20 ⊢
  after_results
  rw [h143, e19, e20]
  rfl

end Cert.KernelIdeal.Ends
end
-- ==== Proof.RefLayer1.lean ====
/-
  LAYER 1 OF THE REFERENCE PROGRAM, READ AT AN INDEX.

  The reference computes a graph-convolution layer one whole-array operation at a time. Read at an entry (r, j), and over
  the extended reals where a matrix product and a column total are exact finite sums, its operations compose to the
  layer written as a function of plain arrays:
    • the linear part  lin r j = (∑ k, (agg r k · nd r) · W k j) + b j,  where agg is the array of aggregated features
      (a sum of gathered rows, kept opaque here), nd the per-row factor, W the weight matrix and b the bias: the product
      with nd is an elementwise product with nd broadcast along the columns, the matrix product's k-th term at (r, j) is
      entry (r, k) of the left operand times entry (k, j) of the right, and the bias is broadcast along the rows;
    • column j's mean, (0 + ∑ r, lin r j) / 100000, and variance, (0 + ∑ r, (lin r j − mean)²) / 100000: each column total
      starts from the zero word and its k-th term is the entry at (k, j); the divisor is the f32 word of 100000;
    • the output  max((((lin r j − mean) · rsqrt(var + eps)) · g j) + be j, 0) · ns r, with mean, rsqrt(var + eps), g and be
      broadcast along the rows, and ns, the other per-row factor, broadcast along the columns.
  Each broadcast is read through its index function, and the index functions compose to "row r" or "column j" by
  computing on the literal extents.

  Also here: every entry of these arrays is a real number when the arrays they are built from have real entries
  (sums, products, differences, maxima of reals are real; 100000 is a nonzero real; eps is a positive real and a variance
  of reals is a nonnegative real, so rsqrt(var + eps) is real; gathered entries of a real table are real and an
  accumulating scatter of real updates into zeros is real).
-/
import proofs.«132861_j65154653880488_2_alg».proof.Proof.ReadP
import proofs.«132861_j65154653880488_2_alg».proof.Proof.Layer
import proofs.«132861_j65154653880488_2_alg».proof.Proof.LibBatchNorm
import proofs.«132861_j65154653880488_2_alg».proof.Proof.RealOps

noncomputable section

namespace Cert.ReferenceIdeal.Layer1

open Idealize.ShloMosaic Idealize.ShloMosaic.ValueIdx Cert.ReferenceIdeal Cert.ReferenceIdeal.ReadP Cert.LibBatchNorm

variable (x0 : (⟨S100000, .i32⟩ : BufTy).Contents (Elt Ideal)) (x1 : (⟨S1600000, .i32⟩ : BufTy).Contents (Elt Ideal)) (x2 : (⟨S1600000, .i32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal))

/-! ### Index arithmetic

  Every index function below is computed from literal extents: a row factor broadcast to [n, 1] and then to [n, C] is read
  at row r; a column vector broadcast to [1, C] and then to [n, C] is read at column j; the k-th term of a column total over
  the rows is the entry at (k, j); the k-th term of the matrix product at (r, j) is the entry (r, k) times the entry (k, j). -/

theorem lidx_eq (r : Fin 100000) (j k : Fin 128) : lidx_main_v36 (ix2 r j) k = ix2 r k :=
  funext fun a => Fin.ext (by match a with | ⟨0, _⟩ => rfl | ⟨1, _⟩ => rfl)
theorem ridx_eq (r : Fin 100000) (j k : Fin 128) : ridx_main_v36 (ix2 r j) k = ix2 k j :=
  funext fun a => Fin.ext (by match a with | ⟨0, _⟩ => rfl | ⟨1, _⟩ => rfl)
theorem row_idx_nd (r : Fin 100000) (j : Fin 128) : idx_main_v33 (idx_main_v34 (ix2 r j)) = ix1 r :=
  funext fun a => Fin.ext (by match a with | ⟨0, _⟩ => rfl)
theorem col_idx_bias (r : Fin 100000) (j : Fin 128) : idx_main_v37 (idx_main_v38 (ix2 r j)) = ix1 j :=
  funext fun a => Fin.ext (by match a with | ⟨0, _⟩ => rfl)
theorem red_idx_S (j : Fin 128) (k : Fin 100000) : idx_main_v40 (ix1 j) k = ix2 k j :=
  funext fun a => Fin.ext (by match a with | ⟨0, _⟩ => rfl | ⟨1, _⟩ => rfl)
theorem red_idx_Q (j : Fin 128) (k : Fin 100000) : idx_main_v47 (ix1 j) k = ix2 k j :=
  funext fun a => Fin.ext (by match a with | ⟨0, _⟩ => rfl | ⟨1, _⟩ => rfl)
theorem col_idx_mean1 (r : Fin 100000) (j : Fin 128) : idx_main_v43 (idx_main_v44 (ix2 r j)) = ix1 j :=
  funext fun a => Fin.ext (by match a with | ⟨0, _⟩ => rfl)
theorem col_idx_mean2 (r : Fin 100000) (j : Fin 128) : idx_main_v50 (idx_main_v51 (ix2 r j)) = ix1 j :=
  funext fun a => Fin.ext (by match a with | ⟨0, _⟩ => rfl)
theorem col_idx_inv (r : Fin 100000) (j : Fin 128) : idx_main_v56 (idx_main_v57 (ix2 r j)) = ix1 j :=
  funext fun a => Fin.ext (by match a with | ⟨0, _⟩ => rfl)
theorem col_idx_g (r : Fin 100000) (j : Fin 128) : idx_main_v59 (idx_main_v60 (ix2 r j)) = ix1 j :=
  funext fun a => Fin.ext (by match a with | ⟨0, _⟩ => rfl)
theorem col_idx_be (r : Fin 100000) (j : Fin 128) : idx_main_v62 (idx_main_v63 (ix2 r j)) = ix1 j :=
  funext fun a => Fin.ext (by match a with | ⟨0, _⟩ => rfl)
theorem row_idx_ns (r : Fin 100000) (j : Fin 128) : idx_main_v66 (idx_main_v67 (ix2 r j)) = ix1 r :=
  funext fun a => Fin.ext (by match a with | ⟨0, _⟩ => rfl)

/-! ### The linear part -/

/-- The layer's linear part at (r, j): the sum over k of (agg r k · nd r) · W k j, plus the bias b j. -/
theorem lin_apply (r : Fin 100000) (j : Fin 128) :
    val_main_v39 (F := Ideal) x0 x1 x2 x4 x5 x6 (ix2 r j)
      = Cert.GCN.lin (fun r k => val_main_v32 (F := Ideal) x0 x1 x2 x4 (ix2 r k)) (fun r => val_main_v12 (F := Ideal) x2 (ix1 r))
          (fun k j => x5 (ix2 k j)) (fun j => x6 (ix1 j)) r j := by
  rw [val_main_v39_apply, val_main_v36_apply, val_main_v38_apply, val_main_v37_apply, col_idx_bias]
  unfold Cert.GCN.lin
  refine congrArg (· + x6 (ix1 j)) (Finset.sum_congr rfl fun k _ => ?_)
  rw [lidx_eq, ridx_eq, val_main_v35_apply, val_main_v34_apply, val_main_v33_apply, row_idx_nd]
  rfl

/-! ### The column statistics -/

/-- Column j's mean: the column total from the zero word, over the word of 100000. -/
theorem mean_apply (j : Fin 128) :
    val_main_v42 (F := Ideal) x0 x1 x2 x4 x5 x6 (ix1 j) = meanR (fun r => val_main_v39 (F := Ideal) x0 x1 x2 x4 x5 x6 (ix2 r j)) (Ideal.ofBits .f32 0x47C35000#32) := by
  rw [val_main_v42_apply, val_main_v40_apply, val_main_v41_apply, val_main_cst_9_apply, val_main_cst_8_apply, Ideal.hostDivf_def, Ideal.ofBits_def,
    Ideal.ofBits_def, ofBits_zero]
  unfold meanR
  have hs : ∀ k : Fin 100000, val_main_v39 (F := Ideal) x0 x1 x2 x4 x5 x6 (idx_main_v40 (ix1 j) k) = val_main_v39 (F := Ideal) x0 x1 x2 x4 x5 x6 (ix2 k j) := fun k => by rw [red_idx_S]
  rw [Finset.sum_congr rfl (fun k _ => hs k)]

/-- Column j's variance: the total of the squared deviations from the mean, from the zero word, over the word of 100000. -/
theorem var_apply (j : Fin 128) :
    val_main_v49 (F := Ideal) x0 x1 x2 x4 x5 x6 (ix1 j) = varR (fun r => val_main_v39 (F := Ideal) x0 x1 x2 x4 x5 x6 (ix2 r j)) (Ideal.ofBits .f32 0x47C35000#32) := by
  rw [val_main_v49_apply, val_main_v47_apply, val_main_v48_apply, val_main_cst_11_apply, val_main_cst_10_apply, Ideal.hostDivf_def, Ideal.ofBits_def,
    Ideal.ofBits_def, ofBits_zero]
  unfold varR
  have hs : ∀ k : Fin 100000, val_main_v46 (F := Ideal) x0 x1 x2 x4 x5 x6 (idx_main_v47 (ix1 j) k)
      = (val_main_v39 (F := Ideal) x0 x1 x2 x4 x5 x6 (ix2 k j) - meanR (fun r => val_main_v39 (F := Ideal) x0 x1 x2 x4 x5 x6 (ix2 r j)) (Ideal.ofBits .f32 0x47C35000#32)) * (val_main_v39 (F := Ideal) x0 x1 x2 x4 x5 x6 (ix2 k j) - meanR (fun r => val_main_v39 (F := Ideal) x0 x1 x2 x4 x5 x6 (ix2 r j)) (Ideal.ofBits .f32 0x47C35000#32)) := by
    intro k
    rw [red_idx_Q, val_main_v46_apply, val_main_v45_apply, val_main_v44_apply, val_main_v43_apply, col_idx_mean1, mean_apply]
    rfl
  rw [Finset.sum_congr rfl (fun k _ => hs k)]

/-! ### The normalised, rectified, rescaled output -/

/-- The layer's output at (r, j): the two-pass batch normalisation of the linear part, rectified, times the row factor ns r. -/
theorem hs_apply (r : Fin 100000) (j : Fin 128) :
    val_main_v68 (F := Ideal) x0 x1 x2 x4 x5 x6 x7 x8 (ix2 r j) = Cert.GCN.bnR (fun r j => val_main_v39 (F := Ideal) x0 x1 x2 x4 x5 x6 (ix2 r j)) (Ideal.ofBits .f32 0x47C35000#32) (Ideal.ofBits .f32 0x3727C5AC#32) (Ideal.ofBits .f32 0x00000000#32) (fun j => x7 (ix1 j)) (fun j => x8 (ix1 j)) r j * val_main_v11 (F := Ideal) x1 (ix1 r) := by
  rw [val_main_v68_apply, val_main_v67_apply, val_main_v66_apply, row_idx_ns,
    val_main_v65_apply, val_main_call0_v0_apply, val_main_call0_cst_apply,
    val_main_v64_apply, val_main_v63_apply, val_main_v62_apply, col_idx_be,
    val_main_v61_apply, val_main_v60_apply, val_main_v59_apply, col_idx_g,
    val_main_v58_apply, val_main_v57_apply, val_main_v56_apply, col_idx_inv,
    val_main_v55_apply, val_main_v54_apply, val_main_v53_apply, val_main_cst_12_apply, var_apply,
    val_main_v52_apply, val_main_v51_apply, val_main_v50_apply, col_idx_mean2, mean_apply]
  rfl

/-! ### Real entries -/

theorem zero_word_real : IsReal (Ideal.ofBits .f32 0x00000000#32) := by rw [ofBits_zero]; exact IsReal.zero
theorem one_word_real : IsReal (Ideal.ofBits .f32 0x3F800000#32) := by rw [ofBits_one]; exact IsReal.one

/-- The row factor ns = 1/√max(deg, 1), deg the number of edges counted into each row from zero: real. -/
theorem ns_real (i : S100000.Idx) : IsReal (val_main_v11 (F := Ideal) x1 i) := by
  rw [val_main_v11_apply, val_main_v5_apply, val_main_v4_apply, val_main_cst_1_apply, Ideal.hostUnary_rsqrt_def,
    Ideal.maximumf_def, Ideal.ofBits_def]
  refine Cert.RealOps.rsqrt_max_one_real _ ?_
  unfold val_main_v3
  refine Cert.RealOps.scatter_elts_real _ _ _ (fun i => ?_) (fun i => ?_) i
  · rw [val_main_v1_apply, val_main_cst_0_apply, Ideal.ofBits_def]; exact zero_word_real
  · rw [val_main_v0_apply, val_main_cst_apply, Ideal.ofBits_def]; exact one_word_real

/-- The row factor nd, the same from the other end of each edge: real. -/
theorem nd_real (i : S100000.Idx) : IsReal (val_main_v12 (F := Ideal) x2 i) := by
  rw [val_main_v12_apply, val_main_v10_apply, val_main_v9_apply, val_main_cst_3_apply, Ideal.hostUnary_rsqrt_def,
    Ideal.maximumf_def, Ideal.ofBits_def]
  refine Cert.RealOps.rsqrt_max_one_real _ ?_
  unfold val_main_v8
  refine Cert.RealOps.scatter_elts_real _ _ _ (fun i => ?_) (fun i => ?_) i
  · rw [val_main_v6_apply, val_main_cst_2_apply, Ideal.ofBits_def]; exact zero_word_real
  · rw [val_main_v0_apply, val_main_cst_apply, Ideal.ofBits_def]; exact one_word_real

/-- The scaled embedding rows: gathered entries of a real table times the real row factor. -/
theorem hs0_real (hx4 : ∀ i, IsReal (x4 i)) (i : S100000x128.Idx) : IsReal (val_main_v22 (F := Ideal) x0 x1 x4 i) := by
  rw [val_main_v22_apply, val_main_v21_apply, val_main_v20_apply, Ideal.mulf_def]
  refine IsReal.mul ?_ (ns_real x1 _)
  unfold val_main_v19
  exact Cert.RealOps.gather_emb_real _ _ hx4 i

/-- The aggregated features: sums, from the zero word, of gathered rows of real entries. -/
theorem agg_real (hx4 : ∀ i, IsReal (x4 i)) (i : S100000x128.Idx) : IsReal (val_main_v32 (F := Ideal) x0 x1 x2 x4 i) := by
  unfold val_main_v32
  refine Cert.RealOps.scatter_rows_real _ _ _ (fun i => ?_) (fun i => ?_) i
  · rw [val_main_v30_apply, val_main_cst_7_apply, Ideal.ofBits_def]; exact zero_word_real
  · unfold val_main_v29
    exact Cert.RealOps.gather_rows_real _ _ (hs0_real x0 x1 x4 hx4) i

/-- The linear part is real when the aggregated features, the row factor, the weights and the bias are. -/
theorem lin_real_of (hagg : ∀ i, IsReal (val_main_v32 (F := Ideal) x0 x1 x2 x4 i)) (hnd : ∀ i, IsReal (val_main_v12 (F := Ideal) x2 i))
    (hW : ∀ i, IsReal (x5 i)) (hb : ∀ i, IsReal (x6 i)) (i : S100000x128.Idx) : IsReal (val_main_v39 (F := Ideal) x0 x1 x2 x4 x5 x6 i) := by
  obtain ⟨r, j, rfl⟩ : ∃ (r : Fin 100000) (j : Fin 128), i = ix2 r j := ⟨i 0, i 1, eq_ix2 i⟩
  rw [lin_apply]
  exact Cert.GCN.lin_real (fun r k => hagg _) (fun r => hnd _) (fun k j => hW _) (fun j => hb _) r j

/-- The layer's output is real when the linear part, the scale g, the shift be and the row factor ns are. -/
theorem hs_real_of (hlin : ∀ i, IsReal (val_main_v39 (F := Ideal) x0 x1 x2 x4 x5 x6 i)) (hg : ∀ i, IsReal (x7 i)) (hbe : ∀ i, IsReal (x8 i))
    (hns : ∀ i, IsReal (val_main_v11 (F := Ideal) x1 i)) (i : S100000x128.Idx) : IsReal (val_main_v68 (F := Ideal) x0 x1 x2 x4 x5 x6 x7 x8 i) := by
  obtain ⟨r, j, rfl⟩ : ∃ (r : Fin 100000) (j : Fin 128), i = ix2 r j := ⟨i 0, i 1, eq_ix2 i⟩
  rw [hs_apply]
  obtain ⟨e, he, hee⟩ := ofBits_eps_pos
  rw [hee, ofBits_100000]
  refine IsReal.mul ?_ (hns _)
  exact Cert.GCN.bnR_real _ (fun r j => hlin _) 100000 (by norm_num) (by norm_num) he zero_word_real
    (fun j => hg _) (fun j => hbe _) r j

/-- Layer 1's linear part is real when the embedding table, the weights and the bias are. -/
theorem lin_real (hx4 : ∀ i, IsReal (x4 i)) (hx5 : ∀ i, IsReal (x5 i)) (hx6 : ∀ i, IsReal (x6 i)) (i : S100000x128.Idx) :
    IsReal (val_main_v39 (F := Ideal) x0 x1 x2 x4 x5 x6 i) :=
  lin_real_of x0 x1 x2 x4 x5 x6 (agg_real x0 x1 x2 x4 hx4) (nd_real x2) hx5 hx6 i

/-- Layer 1's output is real when the embedding table and the layer's five parameter arrays are. -/
theorem hs_real (hx4 : ∀ i, IsReal (x4 i)) (hx5 : ∀ i, IsReal (x5 i)) (hx6 : ∀ i, IsReal (x6 i)) (hx7 : ∀ i, IsReal (x7 i))
    (hx8 : ∀ i, IsReal (x8 i)) (i : S100000x128.Idx) : IsReal (val_main_v68 (F := Ideal) x0 x1 x2 x4 x5 x6 x7 x8 i) :=
  hs_real_of x0 x1 x2 x4 x5 x6 x7 x8 (lin_real x0 x1 x2 x4 x5 x6 hx4 hx5 hx6) hx7 hx8 (ns_real x1) i

end Cert.ReferenceIdeal.Layer1
-- ==== Proof.RegionLin2.lean ====
/-
  Region 2 of the network's main function: one linear layer with column statistics, over 50 row tiles of 2000 rows.

  The region reads the aggregated features agg : [100000,128], a per-row scale nd : [100000,1], a weight
  W : [128,128] and a bias row b : [1,128]. On the extended reals, where every float operation is exact and a format
  change is the identity, it leaves three arrays:
    lin (r, j)      = (sum over k of (agg (r,k) * nd (r,0)) * W (k,j)) + b (0,j)          for every row r and column j,
    sums (t, 0, j)  = sum over the 2000 rows y of tile t of lin (2000 t + y, j),
    sumsq (t, 0, j) = sum over the same rows of lin (2000 t + y, j) * lin (2000 t + y, j).
  The proof reads the tile's computation at one index (the product with a zero accumulator is a finite sum over the
  contracted coordinate; a column sum is a finite sum over the rows; the broadcasts and unit-axis casts move
  coordinates), then shows that what tile t writes back is block t of these whole-array functions, and that the
  blocks cover each array: row r lies in tile r / 2000.
-/
import proofs.«132861_j65154653880488_2_alg».proof.Proof.Gen.KernelIdeal.Frame
import proofs.«132861_j65154653880488_2_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionLin2

open Idealize.ShloMosaic Idealize.ShloMosaic.TcCoe Idealize.SL.Sem Idealize.ShloMosaic.ValueIdx
open Cert.KernelIdeal Cert.KernelIdeal.Gen
open scoped BigOperators

/-! ## The tile's computation read at one index -/

/-- A column [a,1] broadcast to [a,b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the product's left operand the row coordinate is the result's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the column coordinate the contracted one; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- on the right operand the row coordinate is the contracted one … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the column coordinate the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block with a [128,128] matrix into a zero accumulator, at (y, j): the sum over the
    contracted coordinate k of lhs (y,k) * rhs (k,j). -/
theorem matmul_apply (lhs : FVec Ideal S2000x128 .bf16) (rhs : FVec Ideal S128x128 .bf16) (y : Fin 2000) (j : Fin 128) :
    matmul dot_S2000x128_S128x128_S2000x128_1_0_0_1_n_n none lhs rhs (constant S2000x128 .f32 0x00000000#32) (ix2 y j)
      = ∑ k : Fin 128, lhs (ix2 y k) * rhs (ix2 k j) := by
  refine (Ideal.matmul_constant_zero_apply dot_S2000x128_S128x128_S2000x128_1_0_0_1_n_n none lhs rhs (ix2 y j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 y j) ((ValueIdx.contrEquiv1 dot_S2000x128_S128x128_S2000x128_1_0_0_1_n_n 128 rfl rfl).symm k) = ix2 y k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 y j) ((ValueIdx.contrEquiv1 dot_S2000x128_S128x128_S2000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear layer's tile at (y, j), from the four blocks the tile reads. -/
theorem pay1_apply (x0 : Vec Ideal S2000x128 .f32) (x1 : Vec Ideal S2000x1 .f32) (x2 : Vec Ideal S128x128 .f32)
    (x3 : Vec Ideal S1x128 .f32) (y : Fin 2000) (j : Fin 128) :
    k2_pay1 x0 x1 x2 x3 (ix2 y j)
      = (∑ k : Fin 128, (x0 (ix2 y k) * x1 (ix2 y 0)) * x2 (ix2 k j)) + x3 (ix2 0 j) := by
  unfold k2_pay1
  simp only [shapeCast_self]
  rw [addf_apply, matmul_apply, broadcastTo_1b_ab_apply]
  congr 1
  refine Finset.sum_congr rfl fun k _ => ?_
  rw [truncf_apply, truncf_apply, mulf_apply, broadcastTo_a1_ab_apply]

/-! ## The grid: 50 tiles, tile t holds rows 2000 t … 2000 t + 1999 -/

variable (V : (c : Dev nD) → (b : Ref sig .tc) → Buf (Elt Ideal) ((c : Thread nD τ).loc b))

/-- The region's four input arrays as functions of the index: the aggregated features, the per-row scale, the weight
    and the bias row. -/
abbrev agg (c : Dev nD) : S100000x128.Idx → EReal := V c main_v70
abbrev nd (c : Dev nD) : S100000x1.Idx → EReal := V c main_v14
abbrev wt (c : Dev nD) : S128x128.Idx → EReal := V c main_arg9
abbrev bias (c : Dev nD) : S1x128.Idx → EReal := V c main_v71

/-- The linear layer at row r and column j, from four arrays: features, per-row scale, weight, bias row. -/
def linOf (agg : S100000x128.Idx → EReal) (nd : S100000x1.Idx → EReal) (W : S128x128.Idx → EReal) (b : S1x128.Idx → EReal)
    (r : Fin 100000) (j : Fin 128) : EReal :=
  (∑ k : Fin 128, (agg (ix2 r k) * nd (ix2 r 0)) * W (ix2 k j)) + b (ix2 0 j)

/-- The linear layer at row r and column j, from the region's four input arrays. -/
def linAt (c : Dev nD) (r : Fin 100000) (j : Fin 128) : EReal :=
  linOf (V c main_v70) (V c main_v14) (V c main_arg9) (V c main_v71) r j

/-- Row y of tile t in the whole array. -/
def rowOf (t : Fin 50) (y : Fin 2000) : Fin 100000 := ⟨t.val * 2000 + y.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is below 50. -/
theorem pt_lt (t : Fin cfg2.N) : t.val < 50 := lt_of_lt_of_eq t.isLt (show cfg2.N = 50 from N_2)
/-- A grid point as a tile number … -/
def tile (t : Fin cfg2.N) : Fin 50 := ⟨t.val, pt_lt t⟩
/-- … and a tile number as a grid point. -/
def point (t : Fin 50) : Fin cfg2.N := ⟨t.val, by rw [show cfg2.N = 50 from N_2]; exact t.isLt⟩
theorem tile_point (t : Fin 50) : tile (point t) = t := rfl

/-- The printed index maps, decided over the 50 grid points: the row-tiled windows sit at block (t, 0), the two small
    arrays at block (0, 0), the two column-statistics outputs at block (t, 0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 3) = t.val ∧ win2_5.index t (1 : Fin 3) = 0 ∧ win2_5.index t (2 : Fin 3) = 0
    ∧ win2_6.index t (0 : Fin 3) = t.val ∧ win2_6.index t (1 : Fin 3) = 0 ∧ win2_6.index t (2 : Fin 3) = 0 :=
  (by decide +kernel : ∀ t : Fin grid2.N, _)

/-! ## The input blocks at tile t, read at an index -/

/-- The feature block at tile t is rows 2000 t … of the feature array. -/
theorem iblk_agg (c : Dev nD) (t : Fin cfg2.N) (y : Fin 2000) (k : Fin 128) :
    (iblk2 V c 0 t : Vec Ideal S2000x128 .f32) (ix2 y k) = agg V c (ix2 (rowOf (tile t) y) k) := by
  obtain ⟨e0, e1, -⟩ := idx_facts t
  unfold iblk2
  rw [View.read_apply]
  show agg V c _ = agg V c _
  congr 1
  funext a
  apply Fin.ext
  match a with
  | ⟨0, _⟩ => show win2_0.index t (0 : Fin 2) * 2000 + 1 * y.val = t.val * 2000 + y.val; rw [e0]; omega
  | ⟨1, _⟩ => show win2_0.index t (1 : Fin 2) * 128 + 1 * k.val = k.val; rw [e1]; omega

/-- The scale block at tile t is rows 2000 t … of the scale column. -/
theorem iblk_nd (c : Dev nD) (t : Fin cfg2.N) (y : Fin 2000) :
    (iblk2 V c 1 t : Vec Ideal S2000x1 .f32) (ix2 y 0) = nd V c (ix2 (rowOf (tile t) y) 0) := by
  obtain ⟨-, -, e0, e1, -⟩ := idx_facts t
  unfold iblk2
  rw [View.read_apply]
  show nd V c _ = nd V c _
  congr 1
  funext a
  apply Fin.ext
  match a with
  | ⟨0, _⟩ => show win2_1.index t (0 : Fin 2) * 2000 + 1 * y.val = t.val * 2000 + y.val; rw [e0]; omega
  | ⟨1, _⟩ => show win2_1.index t (1 : Fin 2) * 1 + 1 * 0 = 0; rw [e1]

/-- The weight block at every tile is the weight array. -/
theorem iblk_w (c : Dev nD) (t : Fin cfg2.N) (k j : Fin 128) :
    (iblk2 V c 2 t : Vec Ideal S128x128 .f32) (ix2 k j) = wt V c (ix2 k j) := by
  obtain ⟨-, -, -, -, e0, e1, -⟩ := idx_facts t
  unfold iblk2
  rw [View.read_apply]
  show wt V c _ = wt V c _
  congr 1
  funext a
  apply Fin.ext
  match a with
  | ⟨0, _⟩ => show win2_2.index t (0 : Fin 2) * 128 + 1 * k.val = k.val; rw [e0]; omega
  | ⟨1, _⟩ => show win2_2.index t (1 : Fin 2) * 128 + 1 * j.val = j.val; rw [e1]; omega

/-- The bias block at every tile is the bias row. -/
theorem iblk_b (c : Dev nD) (t : Fin cfg2.N) (j : Fin 128) :
    (iblk2 V c 3 t : Vec Ideal S1x128 .f32) (ix2 0 j) = bias V c (ix2 0 j) := by
  obtain ⟨-, -, -, -, -, -, e0, e1, -⟩ := idx_facts t
  unfold iblk2
  rw [View.read_apply]
  show bias V c _ = bias V c _
  congr 1
  funext a
  apply Fin.ext
  match a with
  | ⟨0, _⟩ => show win2_3.index t (0 : Fin 2) * 1 + 1 * 0 = 0; rw [e0]
  | ⟨1, _⟩ => show win2_3.index t (1 : Fin 2) * 128 + 1 * j.val = j.val; rw [e1]; omega

/-- So the linear layer's tile at tile t, at (y, j), is the layer at row 2000 t + y. -/
theorem pay1_tile (c : Dev nD) (t : Fin cfg2.N) (y : Fin 2000) (j : Fin 128) :
    k2_pay1 (iblk2 V c 0 t) (iblk2 V c 1 t) (iblk2 V c 2 t) (iblk2 V c 3 t) (ix2 y j) = linAt V c (rowOf (tile t) y) j := by
  rw [pay1_apply, iblk_nd, iblk_b]
  unfold linAt linOf
  refine congrArg₂ (· + ·) (Finset.sum_congr rfl fun k _ => ?_) rfl
  rw [iblk_agg, iblk_w]

/-! ## The linear layer's array -/

/-- The whole linear-layer array: the layer at each index's row and column. -/
def G4 (c : Dev nD) : S100000x128.Idx → EReal := fun i => linAt V c (i 0) (i 1)

/-- What tile t writes back to the linear-layer array is block t of `G4`. -/
theorem flushed4_eq (c : Dev nD) (t : Fin cfg2.N) :
    (dat2 V c).flushed 4 t = ((cfg2.win 4).blk t).view.read (Elt Ideal) (G4 V c) := by
  show (cfg2.win 4).cut (grid2.coords t) ((dat2 V c).after 4 t) = _
  rw [after2_4]
  unfold out2_4
  rw [View.canon_unit_zero hz2]
  simp only [View.ld_unit_zero (S := S2000x128) hz2, View.ld_unit_zero (S := S2000x1) hz2, View.ld_unit_zero (S := S128x128) hz2, View.ld_unit_zero (S := S1x128) hz2]
  obtain ⟨-, -, -, -, -, -, -, -, e0, e1, -⟩ := idx_facts t
  funext y
  rw [View.read_apply]
  have hy : (cfg2.win 4).xinj (grid2.coords t) y = ix2 (⟨(y 0).val, (y 0).isLt⟩ : Fin 2000) (⟨(y 1).val, (y 1).isLt⟩ : Fin 128) :=
    funext fun a => by match a with | ⟨0, _⟩ => rfl | ⟨1, _⟩ => rfl
  refine Eq.trans (congrArg (k2_pay1 (iblk2 V c 0 t) (iblk2 V c 1 t) (iblk2 V c 2 t) (iblk2 V c 3 t)) hy) ?_
  rw [pay1_tile]
  show _ = G4 V c (((View.whole main_v72_0).slice ((win2 4).rect t)).emb y)
  refine congrArg₂ (linAt V c) (Fin.ext ?_) (Fin.ext ?_)
  · show t.val * 2000 + (y 0).val = win2_4.index t (0 : Fin 2) * 2000 + 1 * (y 0).val
    rw [e0]; omega
  · show (y 1).val = win2_4.index t (1 : Fin 2) * 128 + 1 * (y 1).val
    rw [e1]; omega

/-- An index of the array is in tile t's block iff each coordinate is in the block's range on its axis. -/
theorem mem_blk4 (t : Fin cfg2.N) (i : S100000x128.Idx) :
    i ∈ ((cfg2.win 4).blk t).view.set ↔ ∀ a : Fin 2, win2_4.index t a * S2000x128.size a ≤ (i a).val ∧ (i a).val < win2_4.index t a * S2000x128.size a + S2000x128.size a := by
  show i ∈ ((View.whole main_v72_0).slice (win2_4.rect t)).set ↔ _
  rw [View.set_slice_whole, Rect.mem_set_unit]
  exact Iff.rfl

/-- Every index is in some tile's block: row r is in tile r / 2000. -/
theorem cover4 (i : S100000x128.Idx) : ∃ t : Fin cfg2.N, (cfg2.win 4).flush t = true ∧ i ∈ ((cfg2.win 4).blk t).view.set := by
  have hi0 : (i 0).val < 100000 := (i 0).isLt
  have hi1 : (i 1).val < 128 := (i 1).isLt
  obtain ⟨t, ht⟩ : ∃ t : Fin cfg2.N, t.val = (i 0).val / 2000 := ⟨point ⟨(i 0).val / 2000, by omega⟩, rfl⟩
  obtain ⟨-, -, -, -, -, -, -, -, e0, e1, -⟩ := idx_facts t
  refine ⟨t, flush2_4 t, ?_⟩
  rw [mem_blk4]
  intro a
  match a with
  | ⟨0, _⟩ => show win2_4.index t (0 : Fin 2) * 2000 ≤ (i 0).val ∧ (i 0).val < win2_4.index t (0 : Fin 2) * 2000 + 2000; rw [e0, ht]; omega
  | ⟨1, _⟩ => show win2_4.index t (1 : Fin 2) * 128 ≤ (i 1).val ∧ (i 1).val < win2_4.index t (1 : Fin 2) * 128 + 128; rw [e1]; omega

/-- The linear-layer array after the region is `G4`. -/
theorem lin_arr (c : Dev nD) : (dat2 V c).arrAt 4 cfg2.N = G4 V c :=
  (dat2 V c).arrAt_eq_of_cover 4 (G4 V c) (fun t _ => flushed4_eq V c t) cover4

/-- The linear-layer array after the region, index by index. -/
theorem lin_apply (c : Dev nD) (r : Fin 100000) (j : Fin 128) :
    ((dat2 (F := Ideal) V c).arrAt 4 cfg2.N : S100000x128.Idx → EReal) (ix2 r j) = linAt V c r j :=
  congrFun (lin_arr V c) (ix2 r j)

/-! ## The two column statistics of a tile, read at one index -/

/-- The column sums of the linear layer's tile, at column j. -/
theorem pay2_apply (x0 : Vec Ideal S2000x128 .f32) (x1 : Vec Ideal S2000x1 .f32) (x2 : Vec Ideal S128x128 .f32)
    (x3 : Vec Ideal S1x128 .f32) (j : Fin 128) :
    k2_pay2 x0 x1 x2 x3 (ix3 (0 : Fin 1) (0 : Fin 1) j) = ∑ y : Fin 2000, k2_pay1 x0 x1 x2 x3 (ix2 y j) := by
  unfold k2_pay2
  refine (shapeCast_ab_1ab_apply _ _ (0 : Fin 1) (0 : Fin 1) j).trans ?_
  refine (shapeCast_a_1a_apply _ _ (0 : Fin 1) j).trans ?_
  exact Cert.LibAxisSum.sum_first _ _ _ _ _ j

/-- The column sums of the squares of the linear layer's tile, at column j. -/
theorem pay3_apply (x0 : Vec Ideal S2000x128 .f32) (x1 : Vec Ideal S2000x1 .f32) (x2 : Vec Ideal S128x128 .f32)
    (x3 : Vec Ideal S1x128 .f32) (j : Fin 128) :
    k2_pay3 x0 x1 x2 x3 (ix3 (0 : Fin 1) (0 : Fin 1) j)
      = ∑ y : Fin 2000, k2_pay1 x0 x1 x2 x3 (ix2 y j) * k2_pay1 x0 x1 x2 x3 (ix2 y j) := by
  unfold k2_pay3
  refine (shapeCast_ab_1ab_apply _ _ (0 : Fin 1) (0 : Fin 1) j).trans ?_
  refine (shapeCast_a_1a_apply _ _ (0 : Fin 1) j).trans ?_
  exact Cert.LibAxisSum.sum_first _ _ _ _ _ j

/-! ## The two column-statistics arrays -/

theorem idx5_0 (t : Fin cfg2.N) : win2_5.index t (0 : Fin 3) = t.val := (idx_facts t).2.2.2.2.2.2.2.2.2.2.1
theorem idx5_1 (t : Fin cfg2.N) : win2_5.index t (1 : Fin 3) = 0 := (idx_facts t).2.2.2.2.2.2.2.2.2.2.2.1
theorem idx5_2 (t : Fin cfg2.N) : win2_5.index t (2 : Fin 3) = 0 := (idx_facts t).2.2.2.2.2.2.2.2.2.2.2.2.1
theorem idx6_0 (t : Fin cfg2.N) : win2_6.index t (0 : Fin 3) = t.val := (idx_facts t).2.2.2.2.2.2.2.2.2.2.2.2.2.1
theorem idx6_1 (t : Fin cfg2.N) : win2_6.index t (1 : Fin 3) = 0 := (idx_facts t).2.2.2.2.2.2.2.2.2.2.2.2.2.2.1
theorem idx6_2 (t : Fin cfg2.N) : win2_6.index t (2 : Fin 3) = 0 := (idx_facts t).2.2.2.2.2.2.2.2.2.2.2.2.2.2.2

/-- The whole column-sums array: at (t, 0, j) the sum of the layer over tile t's rows at column j. -/
def G5 (c : Dev nD) : S50x1x128.Idx → EReal := fun i => ∑ y : Fin 2000, linAt V c (rowOf (i 0) y) (i 2)

/-- The statistic's tile at tile t, at column j. -/
theorem pay2_tile (c : Dev nD) (t : Fin cfg2.N) (j : Fin 128) :
    k2_pay2 (iblk2 V c 0 t) (iblk2 V c 1 t) (iblk2 V c 2 t) (iblk2 V c 3 t) (ix3 (0 : Fin 1) (0 : Fin 1) j)
      = ∑ y : Fin 2000, linAt V c (rowOf (tile t) y) j := by
  rw [pay2_apply]
  refine Finset.sum_congr rfl fun y _ => ?_
  rw [pay1_tile]

/-- What tile t writes back to the statistic's array is block t of `G5`. -/
theorem flushed5_eq (c : Dev nD) (t : Fin cfg2.N) :
    (dat2 V c).flushed 5 t = ((cfg2.win 5).blk t).view.read (Elt Ideal) (G5 V c) := by
  show (cfg2.win 5).cut (grid2.coords t) ((dat2 V c).after 5 t) = _
  rw [after2_5]
  unfold out2_5
  rw [View.canon_unit_zero hz3]
  simp only [View.ld_unit_zero (S := S2000x128) hz2, View.ld_unit_zero (S := S2000x1) hz2, View.ld_unit_zero (S := S128x128) hz2, View.ld_unit_zero (S := S1x128) hz2]
  have e0 : win2_5.index t (0 : Fin 3) = t.val := idx5_0 t
  have e2 : win2_5.index t (2 : Fin 3) = 0 := idx5_2 t
  funext y
  rw [View.read_apply]
  have hy : (cfg2.win 5).xinj (grid2.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k2_pay2 (iblk2 V c 0 t) (iblk2 V c 1 t) (iblk2 V c 2 t) (iblk2 V c 3 t)) hy) ?_
  rw [pay2_tile]
  show _ = G5 V c (((View.whole main_v72_1).slice ((win2 5).rect t)).emb y)
  unfold G5
  have hr : tile t = ((View.whole main_v72_1).slice ((win2 5).rect t)).emb y 0 := Fin.ext (by
    show t.val = win2_5.index t (0 : Fin 3) * 1 + 1 * (y 0).val
    have h : (y 0).val < 1 := (y 0).isLt
    rw [e0]; omega)
  have hc : (⟨(y 2).val, (y 2).isLt⟩ : Fin 128) = ((View.whole main_v72_1).slice ((win2 5).rect t)).emb y 2 := Fin.ext (by
    show (y 2).val = win2_5.index t (2 : Fin 3) * 128 + 1 * (y 2).val
    rw [e2]; omega)
  rw [← hr, ← hc]

/-- An index of the array is in tile t's block iff each coordinate is in the block's range on its axis. -/
theorem mem_blk5 (t : Fin cfg2.N) (i : S50x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v72_1).slice (win2_5.rect t)).set ↔ _
  rw [View.set_slice_whole, Rect.mem_set_unit]
  exact Iff.rfl

/-- Every index is in some tile's block: (q, 0, j) is in tile q. -/
theorem cover5 (i : S50x1x128.Idx) : ∃ t : Fin cfg2.N, (cfg2.win 5).flush t = true ∧ i ∈ ((cfg2.win 5).blk t).view.set := by
  have hi0 : (i 0).val < 50 := (i 0).isLt
  have hi1 : (i 1).val < 1 := (i 1).isLt
  have hi2 : (i 2).val < 128 := (i 2).isLt
  obtain ⟨t, ht⟩ : ∃ t : Fin cfg2.N, t.val = (i 0).val := ⟨point ⟨(i 0).val, hi0⟩, rfl⟩
  have e0 : win2_5.index t (0 : Fin 3) = t.val := idx5_0 t
  have e1 : win2_5.index t (1 : Fin 3) = 0 := idx5_1 t
  have e2 : win2_5.index t (2 : Fin 3) = 0 := idx5_2 t
  refine ⟨t, flush2_5 t, ?_⟩
  rw [mem_blk5]
  intro a
  match a with
  | ⟨0, _⟩ => show win2_5.index t (0 : Fin 3) * 1 ≤ (i 0).val ∧ (i 0).val < win2_5.index t (0 : Fin 3) * 1 + 1; rw [e0, ht]; omega
  | ⟨1, _⟩ => show win2_5.index t (1 : Fin 3) * 1 ≤ (i 1).val ∧ (i 1).val < win2_5.index t (1 : Fin 3) * 1 + 1; rw [e1]; omega
  | ⟨2, _⟩ => show win2_5.index t (2 : Fin 3) * 128 ≤ (i 2).val ∧ (i 2).val < win2_5.index t (2 : Fin 3) * 128 + 128; rw [e2]; omega

/-- The statistic's array after the region is `G5`. -/
theorem sums_arr (c : Dev nD) : (dat2 V c).arrAt 5 cfg2.N = G5 V c :=
  (dat2 V c).arrAt_eq_of_cover 5 (G5 V c) (fun t _ => flushed5_eq V c t) cover5

/-- The whole column-sums-of-squares array: at (t, 0, j) the sum of the layer's squares over tile t's rows at column j. -/
def G6 (c : Dev nD) : S50x1x128.Idx → EReal := fun i => ∑ y : Fin 2000, linAt V c (rowOf (i 0) y) (i 2) * linAt V c (rowOf (i 0) y) (i 2)

/-- The statistic's tile at tile t, at column j. -/
theorem pay3_tile (c : Dev nD) (t : Fin cfg2.N) (j : Fin 128) :
    k2_pay3 (iblk2 V c 0 t) (iblk2 V c 1 t) (iblk2 V c 2 t) (iblk2 V c 3 t) (ix3 (0 : Fin 1) (0 : Fin 1) j)
      = ∑ y : Fin 2000, linAt V c (rowOf (tile t) y) j * linAt V c (rowOf (tile t) y) j := by
  rw [pay3_apply]
  refine Finset.sum_congr rfl fun y _ => ?_
  rw [pay1_tile]

/-- What tile t writes back to the statistic's array is block t of `G6`. -/
theorem flushed6_eq (c : Dev nD) (t : Fin cfg2.N) :
    (dat2 V c).flushed 6 t = ((cfg2.win 6).blk t).view.read (Elt Ideal) (G6 V c) := by
  show (cfg2.win 6).cut (grid2.coords t) ((dat2 V c).after 6 t) = _
  rw [after2_6]
  unfold out2_6
  rw [View.canon_unit_zero hz3]
  simp only [View.ld_unit_zero (S := S2000x128) hz2, View.ld_unit_zero (S := S2000x1) hz2, View.ld_unit_zero (S := S128x128) hz2, View.ld_unit_zero (S := S1x128) hz2]
  have e0 : win2_6.index t (0 : Fin 3) = t.val := idx6_0 t
  have e2 : win2_6.index t (2 : Fin 3) = 0 := idx6_2 t
  funext y
  rw [View.read_apply]
  have hy : (cfg2.win 6).xinj (grid2.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k2_pay3 (iblk2 V c 0 t) (iblk2 V c 1 t) (iblk2 V c 2 t) (iblk2 V c 3 t)) hy) ?_
  rw [pay3_tile]
  show _ = G6 V c (((View.whole main_v72_2).slice ((win2 6).rect t)).emb y)
  unfold G6
  have hr : tile t = ((View.whole main_v72_2).slice ((win2 6).rect t)).emb y 0 := Fin.ext (by
    show t.val = win2_6.index t (0 : Fin 3) * 1 + 1 * (y 0).val
    have h : (y 0).val < 1 := (y 0).isLt
    rw [e0]; omega)
  have hc : (⟨(y 2).val, (y 2).isLt⟩ : Fin 128) = ((View.whole main_v72_2).slice ((win2 6).rect t)).emb y 2 := Fin.ext (by
    show (y 2).val = win2_6.index t (2 : Fin 3) * 128 + 1 * (y 2).val
    rw [e2]; omega)
  rw [← hr, ← hc]

/-- An index of the array is in tile t's block iff each coordinate is in the block's range on its axis. -/
theorem mem_blk6 (t : Fin cfg2.N) (i : S50x1x128.Idx) :
    i ∈ ((cfg2.win 6).blk t).view.set ↔ ∀ a : Fin 3, win2_6.index t a * S1x1x128.size a ≤ (i a).val ∧ (i a).val < win2_6.index t a * S1x1x128.size a + S1x1x128.size a := by
  show i ∈ ((View.whole main_v72_2).slice (win2_6.rect t)).set ↔ _
  rw [View.set_slice_whole, Rect.mem_set_unit]
  exact Iff.rfl

/-- Every index is in some tile's block: (q, 0, j) is in tile q. -/
theorem cover6 (i : S50x1x128.Idx) : ∃ t : Fin cfg2.N, (cfg2.win 6).flush t = true ∧ i ∈ ((cfg2.win 6).blk t).view.set := by
  have hi0 : (i 0).val < 50 := (i 0).isLt
  have hi1 : (i 1).val < 1 := (i 1).isLt
  have hi2 : (i 2).val < 128 := (i 2).isLt
  obtain ⟨t, ht⟩ : ∃ t : Fin cfg2.N, t.val = (i 0).val := ⟨point ⟨(i 0).val, hi0⟩, rfl⟩
  have e0 : win2_6.index t (0 : Fin 3) = t.val := idx6_0 t
  have e1 : win2_6.index t (1 : Fin 3) = 0 := idx6_1 t
  have e2 : win2_6.index t (2 : Fin 3) = 0 := idx6_2 t
  refine ⟨t, flush2_6 t, ?_⟩
  rw [mem_blk6]
  intro a
  match a with
  | ⟨0, _⟩ => show win2_6.index t (0 : Fin 3) * 1 ≤ (i 0).val ∧ (i 0).val < win2_6.index t (0 : Fin 3) * 1 + 1; rw [e0, ht]; omega
  | ⟨1, _⟩ => show win2_6.index t (1 : Fin 3) * 1 ≤ (i 1).val ∧ (i 1).val < win2_6.index t (1 : Fin 3) * 1 + 1; rw [e1]; omega
  | ⟨2, _⟩ => show win2_6.index t (2 : Fin 3) * 128 ≤ (i 2).val ∧ (i 2).val < win2_6.index t (2 : Fin 3) * 128 + 128; rw [e2]; omega

/-- The statistic's array after the region is `G6`. -/
theorem sumsq_arr (c : Dev nD) : (dat2 V c).arrAt 6 cfg2.N = G6 V c :=
  (dat2 V c).arrAt_eq_of_cover 6 (G6 V c) (fun t _ => flushed6_eq V c t) cover6

/-- The column sums after the region, index by index. -/
theorem sums_apply (c : Dev nD) (t : Fin 50) (j : Fin 128) :
    ((dat2 (F := Ideal) V c).arrAt 5 cfg2.N : S50x1x128.Idx → EReal) (ix3 t 0 j) = ∑ y : Fin 2000, linAt V c (rowOf t y) j :=
  congrFun (sums_arr V c) (ix3 t 0 j)

/-- The column sums of squares after the region, index by index. -/
theorem sumsq_apply (c : Dev nD) (t : Fin 50) (j : Fin 128) :
    ((dat2 (F := Ideal) V c).arrAt 6 cfg2.N : S50x1x128.Idx → EReal) (ix3 t 0 j)
      = ∑ y : Fin 2000, linAt V c (rowOf t y) j * linAt V c (rowOf t y) j :=
  congrFun (sumsq_arr V c) (ix3 t 0 j)

end Cert.KernelIdeal.RegionLin2

end
-- ==== Proof.RegionBn3.lean ====
/-
  Region 3 of the network's main function: batch normalisation, rectifier and row scaling, over 50 row tiles of
  2000 rows.

  The region reads the linear layer's output lin : [100000,128], four rows of shape [1,128] (the column mean, the
  inverse standard deviation, gamma, beta) and a per-row scale column of shape [100000,1]. On the extended reals, where
  every float operation is exact and a format change is the identity, it leaves one array:
    out (r, j) = max ((((lin (r,j) - mean (0,j)) * inv (0,j)) * gamma (0,j)) + beta (0,j)) 0 * scale (r,0)
  for every row r and column j.
  The proof reads the tile's computation at one index (a row of shape [1,128] broadcast over the 2000 rows reads its
  one row; a column of shape [2000,1] broadcast over the 128 lanes reads its one column; every other operation is
  pointwise), then shows that what tile t writes back is block t of this whole-array function (row y of tile t is row
  2000 t + y of each row-tiled array, and the four small rows are read whole at every tile), and that the blocks cover
  the array: row r lies in tile r / 2000.
-/
import proofs.«132861_j65154653880488_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionBn3

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## The tile's computation at one index -/

theorem hz : (![0, 0] : Fin 2 → Nat) = fun _ => 0 := funext fun a => by fin_cases a <;> rfl

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload read at row `p`, lane `q` of the tile: the normalised, rectified, scaled entry. -/
theorem pay_apply (x0 : Vec Ideal S2000x128 .f32) (x1 x2 x3 x4 : Vec Ideal S1x128 .f32) (x5 : Vec Ideal S2000x1 .f32)
    (p : Fin 2000) (q : Fin 128) :
    (k3_pay1 x0 x1 x2 x3 x4 x5 : S2000x128.Idx → EReal) (ix2 p q)
      = max (((((x0 : S2000x128.Idx → EReal) (ix2 p q) - (x1 : S1x128.Idx → EReal) (ix2 0 q)) * (x2 : S1x128.Idx → EReal) (ix2 0 q)) * (x3 : S1x128.Idx → EReal) (ix2 0 q)) + (x4 : S1x128.Idx → EReal) (ix2 0 q)) (Ideal.ofBits .f32 0x00000000#32) * (x5 : S2000x1.Idx → EReal) (ix2 p 0) := by
  unfold k3_pay1
  simp only [shapeCast_self]
  simp only [truncf_apply, mulf_apply, maximumf_apply, addf_apply, subf_apply, broadcast_apply]
  rw [broadcastTo_a1_ab_apply, broadcastTo_1b_ab_apply, broadcastTo_1b_ab_apply, broadcastTo_1b_ab_apply, broadcastTo_1b_ab_apply]
  rfl

/-! ## The whole-array function -/

/-- The normalised, rectified, scaled entry at row `r`, column `j`, from the six input arrays: the entry of `lin`
    minus the column's mean, times the column's inverse standard deviation, times gamma, plus beta, clamped below at
    zero, times the row's scale. -/
def bnOf (lin : S100000x128.Idx → EReal) (mean inv gamma beta : S1x128.Idx → EReal) (scale : S100000x1.Idx → EReal)
    (r : Fin 100000) (j : Fin 128) : EReal :=
  max ((((lin (ix2 r j) - mean (ix2 0 j)) * inv (ix2 0 j)) * gamma (ix2 0 j)) + beta (ix2 0 j)) (Ideal.ofBits .f32 0x00000000#32) * scale (ix2 r 0)

/-- The entry of the region's output at row `r`, column `j`, from the region's input arrays as it finds them. -/
def bnAt (c : Dev nD) (r : Fin 100000) (j : Fin 128) : EReal :=
  bnOf (V c main_v72_0) (V c main_v88) (V c main_v89) (V c main_v90) (V c main_v91) (V c main_v13) r j

/-- The output array as one function of its index. -/
def G (c : Dev nD) : S100000x128.Idx → EReal := fun i => bnAt V c (i 0) (i 1)

/-! ## The index maps over the grid -/

/-- The printed index maps, decided over the 50 grid points: the three row-tiled windows sit at block `(t, 0)`, the
    four small rows at block `(0, 0)`. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-! ## Each input block read at an index of the tile -/

/-- Row `p` of tile `t` of the row-tiled input is row `2000 t + p` of the array. -/
theorem rows_apply (c : Dev nD) (t : Fin cfg3.N) (p : Fin 2000) (q : Fin 128) (r : Fin 100000)
    (hr : r.val = t.val * 2000 + p.val) :
    (iblk3 V c 0 t : Vec Ideal S2000x128 .f32) (ix2 p q) = (V c main_v72_0 : S100000x128.Idx → EReal) (ix2 r q) := by
  obtain ⟨e0, e1, -⟩ := idx_facts t
  unfold iblk3
  rw [View.read_apply]
  show (V c main_v72_0 : S100000x128.Idx → EReal) _ = _
  congr 1
  funext a
  apply Fin.ext
  match a with
  | ⟨0, _⟩ => show win3_0.index t (0 : Fin 2) * 2000 + 1 * p.val = r.val; rw [e0, hr]; omega
  | ⟨1, _⟩ => show win3_0.index t (1 : Fin 2) * 128 + 1 * q.val = q.val; rw [e1]; omega

/-- The mean row's block at any tile is the whole row. -/
theorem mean_apply (c : Dev nD) (t : Fin cfg3.N) (q : Fin 128) :
    (iblk3 V c 1 t : Vec Ideal S1x128 .f32) (ix2 0 q) = (V c main_v88 : S1x128.Idx → EReal) (ix2 0 q) := by
  obtain ⟨-, -, e0, e1, -⟩ := idx_facts t
  unfold iblk3
  rw [View.read_apply]
  show (V c main_v88 : S1x128.Idx → EReal) _ = _
  congr 1
  funext a
  apply Fin.ext
  match a with
  | ⟨0, _⟩ => show win3_1.index t (0 : Fin 2) * 1 + 1 * 0 = 0; rw [e0]
  | ⟨1, _⟩ => show win3_1.index t (1 : Fin 2) * 128 + 1 * q.val = q.val; rw [e1]; omega

/-- The inverse standard deviation row's block at any tile is the whole row. -/
theorem inv_apply (c : Dev nD) (t : Fin cfg3.N) (q : Fin 128) :
    (iblk3 V c 2 t : Vec Ideal S1x128 .f32) (ix2 0 q) = (V c main_v89 : S1x128.Idx → EReal) (ix2 0 q) := by
  obtain ⟨-, -, -, -, e0, e1, -⟩ := idx_facts t
  unfold iblk3
  rw [View.read_apply]
  show (V c main_v89 : S1x128.Idx → EReal) _ = _
  congr 1
  funext a
  apply Fin.ext
  match a with
  | ⟨0, _⟩ => show win3_2.index t (0 : Fin 2) * 1 + 1 * 0 = 0; rw [e0]
  | ⟨1, _⟩ => show win3_2.index t (1 : Fin 2) * 128 + 1 * q.val = q.val; rw [e1]; omega

/-- The gamma row's block at any tile is the whole row. -/
theorem gamma_apply (c : Dev nD) (t : Fin cfg3.N) (q : Fin 128) :
    (iblk3 V c 3 t : Vec Ideal S1x128 .f32) (ix2 0 q) = (V c main_v90 : S1x128.Idx → EReal) (ix2 0 q) := by
  obtain ⟨-, -, -, -, -, -, e0, e1, -⟩ := idx_facts t
  unfold iblk3
  rw [View.read_apply]
  show (V c main_v90 : S1x128.Idx → EReal) _ = _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

/-- The beta row's block at any tile is the whole row. -/
theorem beta_apply (c : Dev nD) (t : Fin cfg3.N) (q : Fin 128) :
    (iblk3 V c 4 t : Vec Ideal S1x128 .f32) (ix2 0 q) = (V c main_v91 : S1x128.Idx → EReal) (ix2 0 q) := by
  obtain ⟨-, -, -, -, -, -, -, -, e0, e1, -⟩ := idx_facts t
  unfold iblk3
  rw [View.read_apply]
  show (V c main_v91 : S1x128.Idx → EReal) _ = _
  congr 1
  funext a
  apply Fin.ext
  match a with
  | ⟨0, _⟩ => show win3_4.index t (0 : Fin 2) * 1 + 1 * 0 = 0; rw [e0]
  | ⟨1, _⟩ => show win3_4.index t (1 : Fin 2) * 128 + 1 * q.val = q.val; rw [e1]; omega

/-- Row `p` of tile `t` of the scale column is row `2000 t + p` of the column. -/
theorem scale_apply (c : Dev nD) (t : Fin cfg3.N) (p : Fin 2000) (r : Fin 100000)
    (hr : r.val = t.val * 2000 + p.val) :
    (iblk3 V c 5 t : Vec Ideal S2000x1 .f32) (ix2 p 0) = (V c main_v13 : S100000x1.Idx → EReal) (ix2 r 0) := by
  obtain ⟨-, -, -, -, -, -, -, -, -, -, e0, e1, -⟩ := idx_facts t
  unfold iblk3
  rw [View.read_apply]
  show (V c main_v13 : S100000x1.Idx → EReal) _ = _
  congr 1
  funext a
  apply Fin.ext
  match a with
  | ⟨0, _⟩ => show win3_5.index t (0 : Fin 2) * 2000 + 1 * p.val = r.val; rw [e0, hr]; omega
  | ⟨1, _⟩ => show win3_5.index t (1 : Fin 2) * 1 + 1 * 0 = 0; rw [e1]

/-! ## What a tile writes back, the cover, the array after the region -/

/-- WHAT TILE `t` WRITES BACK is block `t` of `G` of the region's input arrays. -/
theorem flushed6_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S2000x128) hz, View.ld_unit_zero (S := S1x128) hz, View.ld_unit_zero (S := S2000x1) hz]
  obtain ⟨-, -, -, -, -, -, -, -, -, -, -, -, e0, e1⟩ := idx_facts t
  funext y
  obtain ⟨p, q, rfl⟩ : ∃ (p : Fin 2000) (q : Fin 128), y = ix2 p q :=
    ⟨y 0, y 1, eq_ix2 (n0 := 2000) (n1 := 128) y⟩
  have ht : t.val < 50 := lt_of_lt_of_eq t.isLt N_3
  let r : Fin 100000 := ⟨t.val * 2000 + p.val, by have := p.isLt; omega⟩
  have hr : r.val = t.val * 2000 + p.val := rfl
  have hemb : ((cfg3.win 6).blk t).view.emb (ix2 p q) = (ix2 r q : S100000x128.Idx) := by
    funext a
    apply Fin.ext
    match a with
    | ⟨0, _⟩ => show win3_6.index t (0 : Fin 2) * 2000 + 1 * p.val = t.val * 2000 + p.val; rw [e0]; omega
    | ⟨1, _⟩ => show win3_6.index t (1 : Fin 2) * 128 + 1 * q.val = q.val; rw [e1]; omega
  show (k3_pay1 (iblk3 V c 0 t) (iblk3 V c 1 t) (iblk3 V c 2 t) (iblk3 V c 3 t) (iblk3 V c 4 t) (iblk3 V c 5 t) : S2000x128.Idx → EReal) (ix2 p q)
    = G V c (((cfg3.win 6).blk t).view.emb (ix2 p q))
  rw [hemb, pay_apply, rows_apply V c t p q r hr, mean_apply, inv_apply, gamma_apply, beta_apply,
    scale_apply V c t p r hr]
  rfl

/-- An index of the array is in tile `t`'s block iff each coordinate is in the block's range on its axis. -/
theorem mem_blk6 (t : Fin cfg3.N) (i : S100000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v92).slice (win3_6.rect t)).set ↔ _
  rw [View.set_slice_whole, Rect.mem_set_unit]
  exact Iff.rfl

/-- Every index of the array is in some tile's block: row `r` lies in tile `r / 2000`. -/
theorem cover6 (i : S100000x128.Idx) :
    ∃ t : Fin cfg3.N, (cfg3.win 6).flush t = true ∧ i ∈ ((cfg3.win 6).blk t).view.set := by
  have hi0 : (i 0).val < 100000 := (i 0).isLt
  have hi1 : (i 1).val < 128 := (i 1).isLt
  have hN : cfg3.N = 50 := N_3
  have hlt : (i 0).val / 2000 < cfg3.N := by rw [hN]; omega
  obtain ⟨-, -, -, -, -, -, -, -, -, -, -, -, e0, e1⟩ := idx_facts ⟨(i 0).val / 2000, hlt⟩
  refine ⟨⟨(i 0).val / 2000, hlt⟩, flush3_6 _, ?_⟩
  rw [mem_blk6]
  intro a
  match a with
  | ⟨0, _⟩ =>
    show win3_6.index ⟨(i 0).val / 2000, hlt⟩ (0 : Fin 2) * 2000 ≤ (i 0).val ∧ (i 0).val < win3_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win3_6.index ⟨(i 0).val / 2000, hlt⟩ (1 : Fin 2) * 128 ≤ (i 1).val ∧ (i 1).val < win3_6.index ⟨(i 0).val / 2000, hlt⟩ (1 : Fin 2) * 128 + 128
    rw [e1]
    omega

/-- THE ARRAY after the region is `G` of the region's input arrays. -/
theorem final6 (c : Dev nD) : (dat3 V c).arrAt 6 cfg3.N = G V c :=
  (dat3 V c).arrAt_eq_of_cover 6 (G V c) (fun t _ => flushed6_eq V c t) cover6

/-- The region's output at row `r`, column `j`. -/
theorem bn_apply (c : Dev nD) (r : Fin 100000) (j : Fin 128) :
    ((dat3 (F := Ideal) V c).arrAt 6 cfg3.N : S100000x128.Idx → EReal) (ix2 r j) = bnAt V c r j := by
  rw [final6]
  rfl

end Cert.KernelIdeal.RegionBn3
end
-- ==== Proof.KernelLayer2.lean ====
/-
  Layer 2 of the idealized kernel: what its two regions and the host stretch between them leave, entry by entry.

  The layer's first region computes, tile by tile, lin = (agg * nd) · W + b for the aggregated features agg found at its
  entry, and each tile's column sums of lin and of lin * lin. The host stretch adds the 50 tiles' partial sums into the
  column totals S and Q, and forms mean = S / N, var = max(Q / N - mean * mean, 0) and rsqrt(var + eps). The second
  region normalises lin with them, rectifies and scales each row. Read at an entry (r, j), the layer's output is the
  one-pass normalised entry of column j of lin, times the scale of row r; the totals are sums over all N rows because
  row y of tile t is row 2000 t + y.
-/
import proofs.«132861_j65154653880488_2_alg».proof.Proof.Gen.KernelIdeal.Frame
import proofs.«132861_j65154653880488_2_alg».proof.Proof.KernelKeep
import proofs.«132861_j65154653880488_2_alg».proof.Proof.KernelHostRead
import proofs.«132861_j65154653880488_2_alg».proof.Proof.RegionLin2
import proofs.«132861_j65154653880488_2_alg».proof.Proof.RegionBn3
import proofs.«132861_j65154653880488_2_alg».proof.Proof.Layer
import Idealize.ShloMosaic.Lib.StableHlo.Run

noncomputable section

namespace Cert.KernelIdeal.Layer2

open Cert.KernelIdeal Cert.KernelIdeal.Gen Cert.KernelIdeal.HostRead Cert.KernelIdeal.Keep Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The layer's linear output at row r, column j, from the arrays the first region finds. -/
def L (r : Fin 100000) (j : Fin 128) : EReal := RegionLin2.linAt (V5 m ρ) c r j

/-- The first region leaves lin in its first output array. -/
theorem lin_apply (r : Fin 100000) (j : Fin 128) :
    (W6 m ρ c (Proc.devRef .tc main_v72_0) : S100000x128.Idx → EReal) (ix2 r j) = L m ρ c r j := by
  rw [show W6 m ρ c (Proc.devRef .tc main_v72_0) = (dat2 (V5 m ρ) c).arrAt 4 cfg2.N from W6_arr m ρ c 4]
  exact RegionLin2.lin_apply (V5 m ρ) c r j

/-- Tile t's column sum of lin. -/
theorem sums_apply (t : Fin 50) (j : Fin 128) :
    (W6 m ρ c (Proc.devRef .tc main_v72_1) : S50x1x128.Idx → EReal) (ix3 t 0 j)
      = ∑ y : Fin 2000, L m ρ c (RegionLin2.rowOf t y) j := by
  rw [show W6 m ρ c (Proc.devRef .tc main_v72_1) = (dat2 (V5 m ρ) c).arrAt 5 cfg2.N from W6_arr m ρ c 5]
  exact RegionLin2.sums_apply (V5 m ρ) c t j

/-- Tile t's column sum of lin * lin. -/
theorem sumsq_apply (t : Fin 50) (j : Fin 128) :
    (W6 m ρ c (Proc.devRef .tc main_v72_2) : S50x1x128.Idx → EReal) (ix3 t 0 j)
      = ∑ y : Fin 2000, L m ρ c (RegionLin2.rowOf t y) j * L m ρ c (RegionLin2.rowOf t y) j := by
  rw [show W6 m ρ c (Proc.devRef .tc main_v72_2) = (dat2 (V5 m ρ) c).arrAt 6 cfg2.N from W6_arr m ρ c 6]
  exact RegionLin2.sumsq_apply (V5 m ρ) c t j

/-- Row y of tile t, as the batch-norm library numbers it. -/
theorem rowOf_eq (t : Fin 50) (y : Fin 2000) :
    RegionLin2.rowOf t y = Cert.LibBatchNorm.rowOf (T := 50) (B := 2000) (n := 100000) rfl t y := rfl

/-- The column totals of lin and of lin * lin over all rows. -/
def S (j : Fin 128) : EReal := 0 + ∑ r : Fin 100000, L m ρ c r j
def Q (j : Fin 128) : EReal := 0 + ∑ r : Fin 100000, L m ρ c r j * L m ρ c r j

/-- Partial sums s that are, tile by tile, the column sums of lin add up, from the zero word, to the column total. -/
theorem tiles_S (s : S50x1x128.Idx → EReal)
    (hs : ∀ (t : Fin 50) (j : Fin 128), s (ix3 t 0 j) = ∑ y : Fin 2000, L m ρ c (RegionLin2.rowOf t y) j) (j : Fin 128) :
    Ideal.ofBits .f32 0x00000000#32 + ∑ t : Fin 50, s (ix3 t 0 j) = S m ρ c j := by
  rw [ofBits_zero, Finset.sum_congr rfl (fun t _ => hs t j)]
  exact sum_tiles' (T := 50) (B := 2000) (n := 100000) rfl (fun r => L m ρ c r j)

/-- The same for the column sums of lin * lin. -/
theorem tiles_Q (q : S50x1x128.Idx → EReal)
    (hq : ∀ (t : Fin 50) (j : Fin 128), q (ix3 t 0 j)
      = ∑ y : Fin 2000, L m ρ c (RegionLin2.rowOf t y) j * L m ρ c (RegionLin2.rowOf t y) j) (j : Fin 128) :
    Ideal.ofBits .f32 0x00000000#32 + ∑ t : Fin 50, q (ix3 t 0 j) = Q m ρ c j := by
  rw [ofBits_zero, Finset.sum_congr rfl (fun t _ => hq t j)]
  exact sum_tiles' (T := 50) (B := 2000) (n := 100000) rfl (fun r => L m ρ c r j * L m ρ c r j)

/-! ## The host stretch between the two regions -/

theorem mean_eq : (V7 m ρ c main_v88 : S1x128.Idx → EReal)
    = shapeCast S1x128 (meanVec (W6 m ρ c (Proc.devRef .tc main_v72_1))) shapeCasts_S128_S1x128 := by
  show StableHlo.after hostOps3 (W6 m ρ c) (Proc.devRef .tc main_v88) = _
  after_results_simp
  rfl

theorem inv_eq : (V7 m ρ c main_v89 : S1x128.Idx → EReal)
    = shapeCast S1x128 (invVec (W6 m ρ c (Proc.devRef .tc main_v72_1)) (W6 m ρ c (Proc.devRef .tc main_v72_2))) shapeCasts_S128_S1x128 := by
  show StableHlo.after hostOps3 (W6 m ρ c) (Proc.devRef .tc main_v89) = _
  after_results_simp
  rfl

theorem g_eq : (V7 m ρ c main_v90 : S1x128.Idx → EReal)
    = shapeCast S1x128 (m ((c : Thread nD τ).loc main_arg11)) shapeCasts_S128_S1x128 := by
  show StableHlo.after hostOps3 (W6 m ρ c) (Proc.devRef .tc main_v90) = _
  after_results_simp
  rw [W6_main_arg11_W0 m ρ c]
  rfl

theorem be_eq : (V7 m ρ c main_v91 : S1x128.Idx → EReal)
    = shapeCast S1x128 (m ((c : Thread nD τ).loc main_arg12)) shapeCasts_S128_S1x128 := by
  show StableHlo.after hostOps3 (W6 m ρ c) (Proc.devRef .tc main_v91) = _
  after_results_simp
  rw [W6_main_arg12_W0 m ρ c]
  rfl

/-- The mean row at column j is the one-pass mean of column j. -/
theorem mean_apply (j : Fin 128) :
    (V7 m ρ c main_v88 : S1x128.Idx → EReal) (ix2 0 j) = meanK (Ideal.ofBits .f32 0x47C35000#32) (S m ρ c j) := by
  rw [mean_eq, row_apply, meanVec_apply, tiles_S m ρ c _ (sums_apply m ρ c)]
  rfl

/-- The inverse-standard-deviation row at column j, from the one-pass variance of column j. -/
theorem inv_apply (j : Fin 128) :
    (V7 m ρ c main_v89 : S1x128.Idx → EReal) (ix2 0 j)
      = Ideal.rsqrt (varK (Ideal.ofBits .f32 0x47C35000#32) (S m ρ c j) (Q m ρ c j) + Ideal.ofBits .f32 0x3727C5AC#32) := by
  rw [inv_eq, row_apply, invVec_apply, meanVec_apply, tiles_S m ρ c _ (sums_apply m ρ c), tiles_Q m ρ c _ (sumsq_apply m ρ c),
    ofBits_zero]
  rfl

theorem g_apply (j : Fin 128) :
    (V7 m ρ c main_v90 : S1x128.Idx → EReal) (ix2 0 j) = (m ((c : Thread nD τ).loc main_arg11) : S128.Idx → EReal) (ix1 j) := by
  rw [g_eq, row_apply]

theorem be_apply (j : Fin 128) :
    (V7 m ρ c main_v91 : S1x128.Idx → EReal) (ix2 0 j) = (m ((c : Thread nD τ).loc main_arg12) : S128.Idx → EReal) (ix1 j) := by
  rw [be_eq, row_apply]

/-- The second region finds lin as the first left it. -/
theorem lin_kept (r : Fin 100000) (j : Fin 128) :
    (V7 m ρ c main_v72_0 : S100000x128.Idx → EReal) (ix2 r j) = L m ρ c r j := by
  show (W7 m ρ c (Proc.devRef .tc main_v72_0) : S100000x128.Idx → EReal) (ix2 r j) = _
  rw [W7_main_v72_0_W6 m ρ c]
  exact lin_apply m ρ c r j

/-- The per-row scale column is the one computed before the first region. -/
theorem scale_kept (r : Fin 100000) :
    (V7 m ρ c main_v13 : S100000x1.Idx → EReal) (ix2 r 0) = (V1 m ρ c main_v13 : S100000x1.Idx → EReal) (ix2 r 0) := by
  show (W7 m ρ c (Proc.devRef .tc main_v13) : S100000x1.Idx → EReal) (ix2 r 0) = _
  rw [W7_main_v13_W1 m ρ c]

/-! ## The layer's output -/

/-- Entry (r, j) of the layer's output: the one-pass normalised, rectified entry times the row's scale. -/
theorem out_apply (r : Fin 100000) (j : Fin 128) :
    (W8 m ρ c (Proc.devRef .tc main_v92) : S100000x128.Idx → EReal) (ix2 r j)
      = Cert.GCN.bnK (L m ρ c) (S m ρ c) (Q m ρ c) (Ideal.ofBits .f32 0x47C35000#32) (Ideal.ofBits .f32 0x3727C5AC#32)
          (Ideal.ofBits .f32 0x00000000#32) (fun j => (m ((c : Thread nD τ).loc main_arg11) : S128.Idx → EReal) (ix1 j))
          (fun j => (m ((c : Thread nD τ).loc main_arg12) : S128.Idx → EReal) (ix1 j)) r j
        * (V1 m ρ c main_v13 : S100000x1.Idx → EReal) (ix2 r 0) := by
  rw [show W8 m ρ c (Proc.devRef .tc main_v92) = (dat3 (V7 m ρ) c).arrAt 6 cfg3.N from W8_arr m ρ c 6]
  rw [RegionBn3.bn_apply (V7 m ρ) c r j]
  unfold RegionBn3.bnAt RegionBn3.bnOf Cert.GCN.bnK
  rw [lin_kept, mean_apply, inv_apply, g_apply, be_apply, scale_kept]

end Cert.KernelIdeal.Layer2

end
-- ==== Proof.RefLayer2.lean ====
/-
  LAYER 2 OF THE REFERENCE PROGRAM, READ AT AN INDEX.

  The reference computes a graph-convolution layer one whole-array operation at a time. Read at an entry (r, j), and over
  the extended reals where a matrix product and a column total are exact finite sums, its operations compose to the
  layer written as a function of plain arrays:
    • the linear part  lin r j = (∑ k, (agg r k · nd r) · W k j) + b j,  where agg is the array of aggregated features
      (a sum of gathered rows, kept opaque here), nd the per-row factor, W the weight matrix and b the bias: the product
      with nd is an elementwise product with nd broadcast along the columns, the matrix product's k-th term at (r, j) is
      entry (r, k) of the left operand times entry (k, j) of the right, and the bias is broadcast along the rows;
    • column j's mean, (0 + ∑ r, lin r j) / 100000, and variance, (0 + ∑ r, (lin r j − mean)²) / 100000: each column total
      starts from the zero word and its k-th term is the entry at (k, j); the divisor is the f32 word of 100000;
    • the output  max((((lin r j − mean) · rsqrt(var + eps)) · g j) + be j, 0) · ns r, with mean, rsqrt(var + eps), g and be
      broadcast along the rows, and ns, the other per-row factor, broadcast along the columns.
  Each broadcast is read through its index function, and the index functions compose to "row r" or "column j" by
  computing on the literal extents.

  Also here: every entry of these arrays is a real number when the arrays they are built from have real entries
  (sums, products, differences, maxima of reals are real; 100000 is a nonzero real; eps is a positive real and a variance
  of reals is a nonnegative real, so rsqrt(var + eps) is real; gathered entries of a real table are real and an
  accumulating scatter of real updates into zeros is real).
-/
import proofs.«132861_j65154653880488_2_alg».proof.Proof.ReadP
import proofs.«132861_j65154653880488_2_alg».proof.Proof.Layer
import proofs.«132861_j65154653880488_2_alg».proof.Proof.LibBatchNorm
import proofs.«132861_j65154653880488_2_alg».proof.Proof.RealOps

noncomputable section

namespace Cert.ReferenceIdeal.Layer2

open Idealize.ShloMosaic Idealize.ShloMosaic.ValueIdx Cert.ReferenceIdeal Cert.ReferenceIdeal.ReadP Cert.LibBatchNorm

variable (x0 : (⟨S100000, .i32⟩ : BufTy).Contents (Elt Ideal)) (x1 : (⟨S1600000, .i32⟩ : BufTy).Contents (Elt Ideal)) (x2 : (⟨S1600000, .i32⟩ : BufTy).Contents (Elt Ideal)) (x4 : (⟨S50000x128, .f32⟩ : BufTy).Contents (Elt Ideal)) (x5 : (⟨S128x128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128, .f32⟩ : BufTy).Contents (Elt Ideal)) (x12 : (⟨S128, .f32⟩ : BufTy).Contents (Elt Ideal))

/-! ### Index arithmetic

  Every index function below is computed from literal extents: a row factor broadcast to [n, 1] and then to [n, C] is read
  at row r; a column vector broadcast to [1, C] and then to [n, C] is read at column j; the k-th term of a column total over
  the rows is the entry at (k, j); the k-th term of the matrix product at (r, j) is the entry (r, k) times the entry (k, j). -/

theorem lidx_eq (r : Fin 100000) (j k : Fin 128) : lidx_main_v82 (ix2 r j) k = ix2 r k :=
  funext fun a => Fin.ext (by match a with | ⟨0, _⟩ => rfl | ⟨1, _⟩ => rfl)
theorem ridx_eq (r : Fin 100000) (j k : Fin 128) : ridx_main_v82 (ix2 r j) k = ix2 k j :=
  funext fun a => Fin.ext (by match a with | ⟨0, _⟩ => rfl | ⟨1, _⟩ => rfl)
theorem row_idx_nd (r : Fin 100000) (j : Fin 128) : idx_main_v79 (idx_main_v80 (ix2 r j)) = ix1 r :=
  funext fun a => Fin.ext (by match a with | ⟨0, _⟩ => rfl)
theorem col_idx_bias (r : Fin 100000) (j : Fin 128) : idx_main_v83 (idx_main_v84 (ix2 r j)) = ix1 j :=
  funext fun a => Fin.ext (by match a with | ⟨0, _⟩ => rfl)
theorem red_idx_S (j : Fin 128) (k : Fin 100000) : idx_main_v86 (ix1 j) k = ix2 k j :=
  funext fun a => Fin.ext (by match a with | ⟨0, _⟩ => rfl | ⟨1, _⟩ => rfl)
theorem red_idx_Q (j : Fin 128) (k : Fin 100000) : idx_main_v93 (ix1 j) k = ix2 k j :=
  funext fun a => Fin.ext (by match a with | ⟨0, _⟩ => rfl | ⟨1, _⟩ => rfl)
theorem col_idx_mean1 (r : Fin 100000) (j : Fin 128) : idx_main_v89 (idx_main_v90 (ix2 r j)) = ix1 j :=
  funext fun a => Fin.ext (by match a with | ⟨0, _⟩ => rfl)
theorem col_idx_mean2 (r : Fin 100000) (j : Fin 128) : idx_main_v96 (idx_main_v97 (ix2 r j)) = ix1 j :=
  funext fun a => Fin.ext (by match a with | ⟨0, _⟩ => rfl)
theorem col_idx_inv (r : Fin 100000) (j : Fin 128) : idx_main_v102 (idx_main_v103 (ix2 r j)) = ix1 j :=
  funext fun a => Fin.ext (by match a with | ⟨0, _⟩ => rfl)
theorem col_idx_g (r : Fin 100000) (j : Fin 128) : idx_main_v105 (idx_main_v106 (ix2 r j)) = ix1 j :=
  funext fun a => Fin.ext (by match a with | ⟨0, _⟩ => rfl)
theorem col_idx_be (r : Fin 100000) (j : Fin 128) : idx_main_v108 (idx_main_v109 (ix2 r j)) = ix1 j :=
  funext fun a => Fin.ext (by match a with | ⟨0, _⟩ => rfl)
theorem row_idx_ns (r : Fin 100000) (j : Fin 128) : idx_main_v112 (idx_main_v113 (ix2 r j)) = ix1 r :=
  funext fun a => Fin.ext (by match a with | ⟨0, _⟩ => rfl)

/-! ### The linear part -/

/-- The layer's linear part at (r, j): the sum over k of (agg r k · nd r) · W k j, plus the bias b j. -/
theorem lin_apply (r : Fin 100000) (j : Fin 128) :
    val_main_v85 (F := Ideal) x0 x1 x2 x4 x5 x6 x7 x8 x9 x10 (ix2 r j)
      = Cert.GCN.lin (fun r k => val_main_v78 (F := Ideal) x0 x1 x2 x4 x5 x6 x7 x8 (ix2 r k)) (fun r => val_main_v12 (F := Ideal) x2 (ix1 r))
          (fun k j => x9 (ix2 k j)) (fun j => x10 (ix1 j)) r j := by
  rw [val_main_v85_apply, val_main_v82_apply, val_main_v84_apply, val_main_v83_apply, col_idx_bias]
  unfold Cert.GCN.lin
  refine congrArg (· + x10 (ix1 j)) (Finset.sum_congr rfl fun k _ => ?_)
  rw [lidx_eq, ridx_eq, val_main_v81_apply, val_main_v80_apply, val_main_v79_apply, row_idx_nd]
  rfl

/-! ### The column statistics -/

/-- Column j's mean: the column total from the zero word, over the word of 100000. -/
theorem mean_apply (j : Fin 128) :
    val_main_v88 (F := Ideal) x0 x1 x2 x4 x5 x6 x7 x8 x9 x10 (ix1 j) = meanR (fun r => val_main_v85 (F := Ideal) x0 x1 x2 x4 x5 x6 x7 x8 x9 x10 (ix2 r j)) (Ideal.ofBits .f32 0x47C35000#32) := by
  rw [val_main_v88_apply, val_main_v86_apply, val_main_v87_apply, val_main_cst_17_apply, val_main_cst_16_apply, Ideal.hostDivf_def, Ideal.ofBits_def,
    Ideal.ofBits_def, ofBits_zero]
  unfold meanR
  have hs : ∀ k : Fin 100000, val_main_v85 (F := Ideal) x0 x1 x2 x4 x5 x6 x7 x8 x9 x10 (idx_main_v86 (ix1 j) k) = val_main_v85 (F := Ideal) x0 x1 x2 x4 x5 x6 x7 x8 x9 x10 (ix2 k j) := fun k => by rw [red_idx_S]
  rw [Finset.sum_congr rfl (fun k _ => hs k)]

/-- Column j's variance: the total of the squared deviations from the mean, from the zero word, over the word of 100000. -/
theorem var_apply (j : Fin 128) :
    val_main_v95 (F := Ideal) x0 x1 x2 x4 x5 x6 x7 x8 x9 x10 (ix1 j) = varR (fun r => val_main_v85 (F := Ideal) x0 x1 x2 x4 x5 x6 x7 x8 x9 x10 (ix2 r j)) (Ideal.ofBits .f32 0x47C35000#32) := by
  rw [val_main_v95_apply, val_main_v93_apply, val_main_v94_apply, val_main_cst_19_apply, val_main_cst_18_apply, Ideal.hostDivf_def, Ideal.ofBits_def,
    Ideal.ofBits_def, ofBits_zero]
  unfold varR
  have hs : ∀ k : Fin 100000, val_main_v92 (F := Ideal) x0 x1 x2 x4 x5 x6 x7 x8 x9 x10 (idx_main_v93 (ix1 j) k)
      = (val_main_v85 (F := Ideal) x0 x1 x2 x4 x5 x6 x7 x8 x9 x10 (ix2 k j) - meanR (fun r => val_main_v85 (F := Ideal) x0 x1 x2 x4 x5 x6 x7 x8 x9 x10 (ix2 r j)) (Ideal.ofBits .f32 0x47C35000#32)) * (val_main_v85 (F := Ideal) x0 x1 x2 x4 x5 x6 x7 x8 x9 x10 (ix2 k j) - meanR (fun r => val_main_v85 (F := Ideal) x0 x1 x2 x4 x5 x6 x7 x8 x9 x10 (ix2 r j)) (Ideal.ofBits .f32 0x47C35000#32)) := by
    intro k
    rw [red_idx_Q, val_main_v92_apply, val_main_v91_apply, val_main_v90_apply, val_main_v89_apply, col_idx_mean1, mean_apply]
    rfl
  rw [Finset.sum_congr rfl (fun k _ => hs k)]

/-! ### The normalised, rectified, rescaled output -/

/-- The layer's output at (r, j): the two-pass batch normalisation of the linear part, rectified, times the row factor ns r. -/
theorem hs_apply (r : Fin 100000) (j : Fin 128) :
    val_main_v114 (F := Ideal) x0 x1 x2 x4 x5 x6 x7 x8 x9 x10 x11 x12 (ix2 r j) = Cert.GCN.bnR (fun r j => val_main_v85 (F := Ideal) x0 x1 x2 x4 x5 x6 x7 x8 x9 x10 (ix2 r j)) (Ideal.ofBits .f32 0x47C35000#32) (Ideal.ofBits .f32 0x3727C5AC#32) (Ideal.ofBits .f32 0x00000000#32) (fun j => x11 (ix1 j)) (fun j => x12 (ix1 j)) r j * val_main_v11 (F := Ideal) x1 (ix1 r) := by
  rw [val_main_v114_apply, val_main_v113_apply, val_main_v112_apply, row_idx_ns,
    val_main_v111_apply, val_main_call1_v0_apply, val_main_call1_cst_apply,
    val_main_v110_apply, val_main_v109_apply, val_main_v108_apply, col_idx_be,
    val_main_v107_apply, val_main_v106_apply, val_main_v105_apply, col_idx_g,
    val_main_v104_apply, val_main_v103_apply, val_main_v102_apply, col_idx_inv,
    val_main_v101_apply, val_main_v100_apply, val_main_v99_apply, val_main_cst_20_apply, var_apply,
    val_main_v98_apply, val_main_v97_apply, val_main_v96_apply, col_idx_mean2, mean_apply]
  rfl

/-! ### Real entries -/

theorem zero_word_real : IsReal (Ideal.ofBits .f32 0x00000000#32) := by rw [ofBits_zero]; exact IsReal.zero
theorem one_word_real : IsReal (Ideal.ofBits .f32 0x3F800000#32) := by rw [ofBits_one]; exact IsReal.one

/-- The aggregated features: sums, from the zero word, of gathered rows of the layer's input, whose entries are real. -/
theorem agg_real (hin : ∀ i, IsReal (val_main_v68 (F := Ideal) x0 x1 x2 x4 x5 x6 x7 x8 i)) (i : S100000x128.Idx) : IsReal (val_main_v78 (F := Ideal) x0 x1 x2 x4 x5 x6 x7 x8 i) := by
  unfold val_main_v78
  refine Cert.RealOps.scatter_rows_real _ _ _ (fun i => ?_) (fun i => ?_) i
  · rw [val_main_v76_apply, val_main_cst_15_apply, Ideal.ofBits_def]; exact zero_word_real
  · unfold val_main_v75
    exact Cert.RealOps.gather_rows_real _ _ hin i

/-- The linear part is real when the aggregated features, the row factor, the weights and the bias are. -/
theorem lin_real_of (hagg : ∀ i, IsReal (val_main_v78 (F := Ideal) x0 x1 x2 x4 x5 x6 x7 x8 i)) (hnd : ∀ i, IsReal (val_main_v12 (F := Ideal) x2 i))
    (hW : ∀ i, IsReal (x9 i)) (hb : ∀ i, IsReal (x10 i)) (i : S100000x128.Idx) : IsReal (val_main_v85 (F := Ideal) x0 x1 x2 x4 x5 x6 x7 x8 x9 x10 i) := by
  obtain ⟨r, j, rfl⟩ : ∃ (r : Fin 100000) (j : Fin 128), i = ix2 r j := ⟨i 0, i 1, eq_ix2 i⟩
  rw [lin_apply]
  exact Cert.GCN.lin_real (fun r k => hagg _) (fun r => hnd _) (fun k j => hW _) (fun j => hb _) r j

/-- The layer's output is real when the linear part, the scale g, the shift be and the row factor ns are. -/
theorem hs_real_of (hlin : ∀ i, IsReal (val_main_v85 (F := Ideal) x0 x1 x2 x4 x5 x6 x7 x8 x9 x10 i)) (hg : ∀ i, IsReal (x11 i)) (hbe : ∀ i, IsReal (x12 i))
    (hns : ∀ i, IsReal (val_main_v11 (F := Ideal) x1 i)) (i : S100000x128.Idx) : IsReal (val_main_v114 (F := Ideal) x0 x1 x2 x4 x5 x6 x7 x8 x9 x10 x11 x12 i) := by
  obtain ⟨r, j, rfl⟩ : ∃ (r : Fin 100000) (j : Fin 128), i = ix2 r j := ⟨i 0, i 1, eq_ix2 i⟩
  rw [hs_apply]
  obtain ⟨e, he, hee⟩ := ofBits_eps_pos
  rw [hee, ofBits_100000]
  refine IsReal.mul ?_ (hns _)
  exact Cert.GCN.bnR_real _ (fun r j => hlin _) 100000 (by norm_num) (by norm_num) he zero_word_real
    (fun j => hg _) (fun j => hbe _) r j

/-- The linear part is real when the layer's input, the row factor nd, the weights and the bias are. -/
theorem lin_real (hin : ∀ i, IsReal (val_main_v68 (F := Ideal) x0 x1 x2 x4 x5 x6 x7 x8 i)) (hnd : ∀ i, IsReal (val_main_v12 (F := Ideal) x2 i))
    (hW : ∀ i, IsReal (x9 i)) (hb : ∀ i, IsReal (x10 i)) (i : S100000x128.Idx) : IsReal (val_main_v85 (F := Ideal) x0 x1 x2 x4 x5 x6 x7 x8 x9 x10 i) :=
  lin_real_of x0 x1 x2 x4 x5 x6 x7 x8 x9 x10 (agg_real x0 x1 x2 x4 x5 x6 x7 x8 hin) hnd hW hb i

/-- The layer's output is real when its input, the row factors and the layer's parameter arrays are. -/
theorem hs_real (hin : ∀ i, IsReal (val_main_v68 (F := Ideal) x0 x1 x2 x4 x5 x6 x7 x8 i)) (hnd : ∀ i, IsReal (val_main_v12 (F := Ideal) x2 i))
    (hns : ∀ i, IsReal (val_main_v11 (F := Ideal) x1 i))
    (hW : ∀ i, IsReal (x9 i)) (hb : ∀ i, IsReal (x10 i)) (hg : ∀ i, IsReal (x11 i)) (hbe : ∀ i, IsReal (x12 i))
    (i : S100000x128.Idx) : IsReal (val_main_v114 (F := Ideal) x0 x1 x2 x4 x5 x6 x7 x8 x9 x10 x11 x12 i) :=
  hs_real_of x0 x1 x2 x4 x5 x6 x7 x8 x9 x10 x11 x12 (lin_real x0 x1 x2 x4 x5 x6 x7 x8 x9 x10 hin hnd hW hb) hg hbe hns i

end Cert.ReferenceIdeal.Layer2
-- ==== Proof.RegionLin0.lean ====
/-
  Region 0 of the network's main function: one linear layer with column statistics, over 50 row tiles of 2000 rows.

  The region reads the aggregated features agg : [100000,128], a per-row scale nd : [100000,1], a weight
  W : [128,128] and a bias row b : [1,128]. On the extended reals, where every float operation is exact and a format
  change is the identity, it leaves three arrays:
    lin (r, j)      = (sum over k of (agg (r,k) * nd (r,0)) * W (k,j)) + b (0,j)          for every row r and column j,
    sums (t, 0, j)  = sum over the 2000 rows y of tile t of lin (2000 t + y, j),
    sumsq (t, 0, j) = sum over the same rows of lin (2000 t + y, j) * lin (2000 t + y, j).
  The proof reads the tile's computation at one index (the product with a zero accumulator is a finite sum over the
  contracted coordinate; a column sum is a finite sum over the rows; the broadcasts and unit-axis casts move
  coordinates), then shows that what tile t writes back is block t of these whole-array functions, and that the
  blocks cover each array: row r lies in tile r / 2000.
-/
import proofs.«132861_j65154653880488_2_alg».proof.Proof.Gen.KernelIdeal.Frame
import proofs.«132861_j65154653880488_2_alg».proof.Proof.LibAxisSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionLin0

open Idealize.ShloMosaic Idealize.ShloMosaic.TcCoe Idealize.SL.Sem Idealize.ShloMosaic.ValueIdx
open Cert.KernelIdeal Cert.KernelIdeal.Gen
open scoped BigOperators

/-! ## The tile's computation read at one index -/

/-- A column [a,1] broadcast to [a,b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the product's left operand the row coordinate is the result's row … -/
theorem lhs_row (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
/-- … and the column coordinate the contracted one; -/
theorem lhs_col (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- on the right operand the row coordinate is the contracted one … -/
theorem rhs_row (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and the column coordinate the result's column. -/
theorem rhs_col (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block with a [128,128] matrix into a zero accumulator, at (y, j): the sum over the
    contracted coordinate k of lhs (y,k) * rhs (k,j). -/
theorem matmul_apply (lhs : FVec Ideal S2000x128 .bf16) (rhs : FVec Ideal S128x128 .bf16) (y : Fin 2000) (j : Fin 128) :
    matmul dot_S2000x128_S128x128_S2000x128_1_0_0_1_n_n none lhs rhs (constant S2000x128 .f32 0x00000000#32) (ix2 y j)
      = ∑ k : Fin 128, lhs (ix2 y k) * rhs (ix2 k j) := by
  refine (Ideal.matmul_constant_zero_apply dot_S2000x128_S128x128_S2000x128_1_0_0_1_n_n none lhs rhs (ix2 y j)).trans ?_
  rw [← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 y j) ((ValueIdx.contrEquiv1 dot_S2000x128_S128x128_S2000x128_1_0_0_1_n_n 128 rfl rfl).symm k) = ix2 y k := funext fun a => Fin.ext (by
    match a with
    | ⟨0, _⟩ => exact lhs_row _ _
    | ⟨1, _⟩ => exact (lhs_col _ _).trans hk)
  have er : dot_S2000x128_S128x128_S2000x128_1_0_0_1_n_n.rhsIdx (ix2 y j) ((ValueIdx.contrEquiv1 dot_S2000x128_S128x128_S2000x128_1_0_0_1_n_n 128 rfl rfl).symm k) = ix2 k j := funext fun a => Fin.ext (by
    match a with
    | ⟨0, _⟩ => exact (rhs_row _ _).trans hk
    | ⟨1, _⟩ => exact rhs_col _ _)
  rw [el, er]

/-- The linear layer's tile at (y, j), from the four blocks the tile reads. -/
theorem pay1_apply (x0 : Vec Ideal S2000x128 .f32) (x1 : Vec Ideal S2000x1 .f32) (x2 : Vec Ideal S128x128 .f32)
    (x3 : Vec Ideal S1x128 .f32) (y : Fin 2000) (j : Fin 128) :
    k0_pay1 x0 x1 x2 x3 (ix2 y j)
      = (∑ k : Fin 128, (x0 (ix2 y k) * x1 (ix2 y 0)) * x2 (ix2 k j)) + x3 (ix2 0 j) := by
  unfold k0_pay1
  simp only [shapeCast_self]
  rw [addf_apply, matmul_apply, broadcastTo_1b_ab_apply]
  congr 1
  refine Finset.sum_congr rfl fun k _ => ?_
  rw [truncf_apply, truncf_apply, mulf_apply, broadcastTo_a1_ab_apply]

/-! ## The grid: 50 tiles, tile t holds rows 2000 t … 2000 t + 1999 -/

variable (V : (c : Dev nD) → (b : Ref sig .tc) → Buf (Elt Ideal) ((c : Thread nD τ).loc b))

/-- The region's four input arrays as functions of the index: the aggregated features, the per-row scale, the weight
    and the bias row. -/
abbrev agg (c : Dev nD) : S100000x128.Idx → EReal := V c main_v37
abbrev nd (c : Dev nD) : S100000x1.Idx → EReal := V c main_v14
abbrev wt (c : Dev nD) : S128x128.Idx → EReal := V c main_arg5
abbrev bias (c : Dev nD) : S1x128.Idx → EReal := V c main_v38

/-- The linear layer at row r and column j, from four arrays: features, per-row scale, weight, bias row. -/
def linOf (agg : S100000x128.Idx → EReal) (nd : S100000x1.Idx → EReal) (W : S128x128.Idx → EReal) (b : S1x128.Idx → EReal)
    (r : Fin 100000) (j : Fin 128) : EReal :=
  (∑ k : Fin 128, (agg (ix2 r k) * nd (ix2 r 0)) * W (ix2 k j)) + b (ix2 0 j)

/-- The linear layer at row r and column j, from the region's four input arrays. -/
def linAt (c : Dev nD) (r : Fin 100000) (j : Fin 128) : EReal :=
  linOf (V c main_v37) (V c main_v14) (V c main_arg5) (V c main_v38) r j

/-- Row y of tile t in the whole array. -/
def rowOf (t : Fin 50) (y : Fin 2000) : Fin 100000 := ⟨t.val * 2000 + y.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- A grid point is below 50. -/
theorem pt_lt (t : Fin cfg0.N) : t.val < 50 := lt_of_lt_of_eq t.isLt (show cfg0.N = 50 from N_0)
/-- A grid point as a tile number … -/
def tile (t : Fin cfg0.N) : Fin 50 := ⟨t.val, pt_lt t⟩
/-- … and a tile number as a grid point. -/
def point (t : Fin 50) : Fin cfg0.N := ⟨t.val, by rw [show cfg0.N = 50 from N_0]; exact t.isLt⟩
theorem tile_point (t : Fin 50) : tile (point t) = t := rfl

/-- The printed index maps, decided over the 50 grid points: the row-tiled windows sit at block (t, 0), the two small
    arrays at block (0, 0), the two column-statistics outputs at block (t, 0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-! ## The input blocks at tile t, read at an index -/

/-- The feature block at tile t is rows 2000 t … of the feature array. -/
theorem iblk_agg (c : Dev nD) (t : Fin cfg0.N) (y : Fin 2000) (k : Fin 128) :
    (iblk0 V c 0 t : Vec Ideal S2000x128 .f32) (ix2 y k) = agg V c (ix2 (rowOf (tile t) y) k) := by
  obtain ⟨e0, e1, -⟩ := idx_facts t
  unfold iblk0
  rw [View.read_apply]
  show agg V c _ = agg V c _
  congr 1
  funext a
  apply Fin.ext
  match a with
  | ⟨0, _⟩ => show win0_0.index t (0 : Fin 2) * 2000 + 1 * y.val = t.val * 2000 + y.val; rw [e0]; omega
  | ⟨1, _⟩ => show win0_0.index t (1 : Fin 2) * 128 + 1 * k.val = k.val; rw [e1]; omega

/-- The scale block at tile t is rows 2000 t … of the scale column. -/
theorem iblk_nd (c : Dev nD) (t : Fin cfg0.N) (y : Fin 2000) :
    (iblk0 V c 1 t : Vec Ideal S2000x1 .f32) (ix2 y 0) = nd V c (ix2 (rowOf (tile t) y) 0) := by
  obtain ⟨-, -, e0, e1, -⟩ := idx_facts t
  unfold iblk0
  rw [View.read_apply]
  show nd V c _ = nd V c _
  congr 1
  funext a
  apply Fin.ext
  match a with
  | ⟨0, _⟩ => show win0_1.index t (0 : Fin 2) * 2000 + 1 * y.val = t.val * 2000 + y.val; rw [e0]; omega
  | ⟨1, _⟩ => show win0_1.index t (1 : Fin 2) * 1 + 1 * 0 = 0; rw [e1]

/-- The weight block at every tile is the weight array. -/
theorem iblk_w (c : Dev nD) (t : Fin cfg0.N) (k j : Fin 128) :
    (iblk0 V c 2 t : Vec Ideal S128x128 .f32) (ix2 k j) = wt V c (ix2 k j) := by
  obtain ⟨-, -, -, -, e0, e1, -⟩ := idx_facts t
  unfold iblk0
  rw [View.read_apply]
  show wt V c _ = wt V c _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * j.val = j.val; rw [e1]; omega

/-- The bias block at every tile is the bias row. -/
theorem iblk_b (c : Dev nD) (t : Fin cfg0.N) (j : Fin 128) :
    (iblk0 V c 3 t : Vec Ideal S1x128 .f32) (ix2 0 j) = bias V c (ix2 0 j) := by
  obtain ⟨-, -, -, -, -, -, e0, e1, -⟩ := idx_facts t
  unfold iblk0
  rw [View.read_apply]
  show bias V c _ = bias V c _
  congr 1
  funext a
  apply Fin.ext
  match a with
  | ⟨0, _⟩ => show win0_3.index t (0 : Fin 2) * 1 + 1 * 0 = 0; rw [e0]
  | ⟨1, _⟩ => show win0_3.index t (1 : Fin 2) * 128 + 1 * j.val = j.val; rw [e1]; omega

/-- So the linear layer's tile at tile t, at (y, j), is the layer at row 2000 t + y. -/
theorem pay1_tile (c : Dev nD) (t : Fin cfg0.N) (y : Fin 2000) (j : Fin 128) :
    k0_pay1 (iblk0 V c 0 t) (iblk0 V c 1 t) (iblk0 V c 2 t) (iblk0 V c 3 t) (ix2 y j) = linAt V c (rowOf (tile t) y) j := by
  rw [pay1_apply, iblk_nd, iblk_b]
  unfold linAt linOf
  refine congrArg₂ (· + ·) (Finset.sum_congr rfl fun k _ => ?_) rfl
  rw [iblk_agg, iblk_w]

/-! ## The linear layer's array -/

/-- The whole linear-layer array: the layer at each index's row and column. -/
def G4 (c : Dev nD) : S100000x128.Idx → EReal := fun i => linAt V c (i 0) (i 1)

/-- What tile t writes back to the linear-layer array is block t of `G4`. -/
theorem flushed4_eq (c : Dev nD) (t : Fin cfg0.N) :
    (dat0 V c).flushed 4 t = ((cfg0.win 4).blk t).view.read (Elt Ideal) (G4 V c) := by
  show (cfg0.win 4).cut (grid0.coords t) ((dat0 V c).after 4 t) = _
  rw [after0_4]
  unfold out0_4
  rw [View.canon_unit_zero hz2]
  simp only [View.ld_unit_zero (S := S2000x128) hz2, View.ld_unit_zero (S := S2000x1) hz2, View.ld_unit_zero (S := S128x128) hz2, View.ld_unit_zero (S := S1x128) hz2]
  obtain ⟨-, -, -, -, -, -, -, -, e0, e1, -⟩ := idx_facts t
  funext y
  rw [View.read_apply]
  have hy : (cfg0.win 4).xinj (grid0.coords t) y = ix2 (⟨(y 0).val, (y 0).isLt⟩ : Fin 2000) (⟨(y 1).val, (y 1).isLt⟩ : Fin 128) :=
    funext fun a => by match a with | ⟨0, _⟩ => rfl | ⟨1, _⟩ => rfl
  refine Eq.trans (congrArg (k0_pay1 (iblk0 V c 0 t) (iblk0 V c 1 t) (iblk0 V c 2 t) (iblk0 V c 3 t)) hy) ?_
  rw [pay1_tile]
  show _ = G4 V c (((View.whole main_v39_0).slice ((win0 4).rect t)).emb y)
  refine congrArg₂ (linAt V c) (Fin.ext ?_) (Fin.ext ?_)
  · show t.val * 2000 + (y 0).val = win0_4.index t (0 : Fin 2) * 2000 + 1 * (y 0).val
    rw [e0]; omega
  · show (y 1).val = win0_4.index t (1 : Fin 2) * 128 + 1 * (y 1).val
    rw [e1]; omega

/-- An index of the array is in tile t's block iff each coordinate is in the block's range on its axis. -/
theorem mem_blk4 (t : Fin cfg0.N) (i : S100000x128.Idx) :
    i ∈ ((cfg0.win 4).blk t).view.set ↔ ∀ a : Fin 2, win0_4.index t a * S2000x128.size a ≤ (i a).val ∧ (i a).val < win0_4.index t a * S2000x128.size a + S2000x128.size a := by
  show i ∈ ((View.whole main_v39_0).slice (win0_4.rect t)).set ↔ _
  rw [View.set_slice_whole, Rect.mem_set_unit]
  exact Iff.rfl

/-- Every index is in some tile's block: row r is in tile r / 2000. -/
theorem cover4 (i : S100000x128.Idx) : ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ : ∃ t : Fin cfg0.N, t.val = (i 0).val / 2000 := ⟨point ⟨(i 0).val / 2000, by omega⟩, rfl⟩
  obtain ⟨-, -, -, -, -, -, -, -, e0, e1, -⟩ := idx_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 128 ≤ (i 1).val ∧ (i 1).val < win0_4.index t (1 : Fin 2) * 128 + 128; rw [e1]; omega

/-- The linear-layer array after the region is `G4`. -/
theorem lin_arr (c : Dev nD) : (dat0 V c).arrAt 4 cfg0.N = G4 V c :=
  (dat0 V c).arrAt_eq_of_cover 4 (G4 V c) (fun t _ => flushed4_eq V c t) cover4

/-- The linear-layer array after the region, index by index. -/
theorem lin_apply (c : Dev nD) (r : Fin 100000) (j : Fin 128) :
    ((dat0 (F := Ideal) V c).arrAt 4 cfg0.N : S100000x128.Idx → EReal) (ix2 r j) = linAt V c r j :=
  congrFun (lin_arr V c) (ix2 r j)

/-! ## The two column statistics of a tile, read at one index -/

/-- The column sums of the linear layer's tile, at column j. -/
theorem pay2_apply (x0 : Vec Ideal S2000x128 .f32) (x1 : Vec Ideal S2000x1 .f32) (x2 : Vec Ideal S128x128 .f32)
    (x3 : Vec Ideal S1x128 .f32) (j : Fin 128) :
    k0_pay2 x0 x1 x2 x3 (ix3 (0 : Fin 1) (0 : Fin 1) j) = ∑ y : Fin 2000, k0_pay1 x0 x1 x2 x3 (ix2 y j) := by
  unfold k0_pay2
  refine (shapeCast_ab_1ab_apply _ _ (0 : Fin 1) (0 : Fin 1) j).trans ?_
  refine (shapeCast_a_1a_apply _ _ (0 : Fin 1) j).trans ?_
  exact Cert.LibAxisSum.sum_first _ _ _ _ _ j

/-- The column sums of the squares of the linear layer's tile, at column j. -/
theorem pay3_apply (x0 : Vec Ideal S2000x128 .f32) (x1 : Vec Ideal S2000x1 .f32) (x2 : Vec Ideal S128x128 .f32)
    (x3 : Vec Ideal S1x128 .f32) (j : Fin 128) :
    k0_pay3 x0 x1 x2 x3 (ix3 (0 : Fin 1) (0 : Fin 1) j)
      = ∑ y : Fin 2000, k0_pay1 x0 x1 x2 x3 (ix2 y j) * k0_pay1 x0 x1 x2 x3 (ix2 y j) := by
  unfold k0_pay3
  refine (shapeCast_ab_1ab_apply _ _ (0 : Fin 1) (0 : Fin 1) j).trans ?_
  refine (shapeCast_a_1a_apply _ _ (0 : Fin 1) j).trans ?_
  exact Cert.LibAxisSum.sum_first _ _ _ _ _ j

/-! ## The two column-statistics arrays -/

theorem idx5_0 (t : Fin cfg0.N) : win0_5.index t (0 : Fin 3) = t.val := (idx_facts t).2.2.2.2.2.2.2.2.2.2.1
theorem idx5_1 (t : Fin cfg0.N) : win0_5.index t (1 : Fin 3) = 0 := (idx_facts t).2.2.2.2.2.2.2.2.2.2.2.1
theorem idx5_2 (t : Fin cfg0.N) : win0_5.index t (2 : Fin 3) = 0 := (idx_facts t).2.2.2.2.2.2.2.2.2.2.2.2.1
theorem idx6_0 (t : Fin cfg0.N) : win0_6.index t (0 : Fin 3) = t.val := (idx_facts t).2.2.2.2.2.2.2.2.2.2.2.2.2.1
theorem idx6_1 (t : Fin cfg0.N) : win0_6.index t (1 : Fin 3) = 0 := (idx_facts t).2.2.2.2.2.2.2.2.2.2.2.2.2.2.1
theorem idx6_2 (t : Fin cfg0.N) : win0_6.index t (2 : Fin 3) = 0 := (idx_facts t).2.2.2.2.2.2.2.2.2.2.2.2.2.2.2

/-- The whole column-sums array: at (t, 0, j) the sum of the layer over tile t's rows at column j. -/
def G5 (c : Dev nD) : S50x1x128.Idx → EReal := fun i => ∑ y : Fin 2000, linAt V c (rowOf (i 0) y) (i 2)

/-- The statistic's tile at tile t, at column j. -/
theorem pay2_tile (c : Dev nD) (t : Fin cfg0.N) (j : Fin 128) :
    k0_pay2 (iblk0 V c 0 t) (iblk0 V c 1 t) (iblk0 V c 2 t) (iblk0 V c 3 t) (ix3 (0 : Fin 1) (0 : Fin 1) j)
      = ∑ y : Fin 2000, linAt V c (rowOf (tile t) y) j := by
  rw [pay2_apply]
  refine Finset.sum_congr rfl fun y _ => ?_
  rw [pay1_tile]

/-- What tile t writes back to the statistic's array is block t of `G5`. -/
theorem flushed5_eq (c : Dev nD) (t : Fin cfg0.N) :
    (dat0 V c).flushed 5 t = ((cfg0.win 5).blk t).view.read (Elt Ideal) (G5 V c) := by
  show (cfg0.win 5).cut (grid0.coords t) ((dat0 V c).after 5 t) = _
  rw [after0_5]
  unfold out0_5
  rw [View.canon_unit_zero hz3]
  simp only [View.ld_unit_zero (S := S2000x128) hz2, View.ld_unit_zero (S := S2000x1) hz2, View.ld_unit_zero (S := S128x128) hz2, View.ld_unit_zero (S := S1x128) hz2]
  have e0 : win0_5.index t (0 : Fin 3) = t.val := idx5_0 t
  have e2 : win0_5.index t (2 : Fin 3) = 0 := idx5_2 t
  funext y
  rw [View.read_apply]
  have hy : (cfg0.win 5).xinj (grid0.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k0_pay2 (iblk0 V c 0 t) (iblk0 V c 1 t) (iblk0 V c 2 t) (iblk0 V c 3 t)) hy) ?_
  rw [pay2_tile]
  show _ = G5 V c (((View.whole main_v39_1).slice ((win0 5).rect t)).emb y)
  unfold G5
  have hr : tile t = ((View.whole main_v39_1).slice ((win0 5).rect t)).emb y 0 := Fin.ext (by
    show t.val = win0_5.index t (0 : Fin 3) * 1 + 1 * (y 0).val
    have h : (y 0).val < 1 := (y 0).isLt
    rw [e0]; omega)
  have hc : (⟨(y 2).val, (y 2).isLt⟩ : Fin 128) = ((View.whole main_v39_1).slice ((win0 5).rect t)).emb y 2 := Fin.ext (by
    show (y 2).val = win0_5.index t (2 : Fin 3) * 128 + 1 * (y 2).val
    rw [e2]; omega)
  rw [← hr, ← hc]

/-- An index of the array is in tile t's block iff each coordinate is in the block's range on its axis. -/
theorem mem_blk5 (t : Fin cfg0.N) (i : S50x1x128.Idx) :
    i ∈ ((cfg0.win 5).blk t).view.set ↔ ∀ a : Fin 3, win0_5.index t a * S1x1x128.size a ≤ (i a).val ∧ (i a).val < win0_5.index t a * S1x1x128.size a + S1x1x128.size a := by
  show i ∈ ((View.whole main_v39_1).slice (win0_5.rect t)).set ↔ _
  rw [View.set_slice_whole, Rect.mem_set_unit]
  exact Iff.rfl

/-- Every index is in some tile's block: (q, 0, j) is in tile q. -/
theorem cover5 (i : S50x1x128.Idx) : ∃ t : Fin cfg0.N, (cfg0.win 5).flush t = true ∧ i ∈ ((cfg0.win 5).blk t).view.set := by
  have hi0 : (i 0).val < 50 := (i 0).isLt
  have hi1 : (i 1).val < 1 := (i 1).isLt
  have hi2 : (i 2).val < 128 := (i 2).isLt
  obtain ⟨t, ht⟩ : ∃ t : Fin cfg0.N, t.val = (i 0).val := ⟨point ⟨(i 0).val, hi0⟩, rfl⟩
  have e0 : win0_5.index t (0 : Fin 3) = t.val := idx5_0 t
  have e1 : win0_5.index t (1 : Fin 3) = 0 := idx5_1 t
  have e2 : win0_5.index t (2 : Fin 3) = 0 := idx5_2 t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; rw [e0, ht]; omega
  | ⟨1, _⟩ => show win0_5.index t (1 : Fin 3) * 1 ≤ (i 1).val ∧ (i 1).val < win0_5.index t (1 : Fin 3) * 1 + 1; rw [e1]; omega
  | ⟨2, _⟩ => show win0_5.index t (2 : Fin 3) * 128 ≤ (i 2).val ∧ (i 2).val < win0_5.index t (2 : Fin 3) * 128 + 128; rw [e2]; omega

/-- The statistic's array after the region is `G5`. -/
theorem sums_arr (c : Dev nD) : (dat0 V c).arrAt 5 cfg0.N = G5 V c :=
  (dat0 V c).arrAt_eq_of_cover 5 (G5 V c) (fun t _ => flushed5_eq V c t) cover5

/-- The whole column-sums-of-squares array: at (t, 0, j) the sum of the layer's squares over tile t's rows at column j. -/
def G6 (c : Dev nD) : S50x1x128.Idx → EReal := fun i => ∑ y : Fin 2000, linAt V c (rowOf (i 0) y) (i 2) * linAt V c (rowOf (i 0) y) (i 2)

/-- The statistic's tile at tile t, at column j. -/
theorem pay3_tile (c : Dev nD) (t : Fin cfg0.N) (j : Fin 128) :
    k0_pay3 (iblk0 V c 0 t) (iblk0 V c 1 t) (iblk0 V c 2 t) (iblk0 V c 3 t) (ix3 (0 : Fin 1) (0 : Fin 1) j)
      = ∑ y : Fin 2000, linAt V c (rowOf (tile t) y) j * linAt V c (rowOf (tile t) y) j := by
  rw [pay3_apply]
  refine Finset.sum_congr rfl fun y _ => ?_
  rw [pay1_tile]

/-- What tile t writes back to the statistic's array is block t of `G6`. -/
theorem flushed6_eq (c : Dev nD) (t : Fin cfg0.N) :
    (dat0 V c).flushed 6 t = ((cfg0.win 6).blk t).view.read (Elt Ideal) (G6 V c) := by
  show (cfg0.win 6).cut (grid0.coords t) ((dat0 V c).after 6 t) = _
  rw [after0_6]
  unfold out0_6
  rw [View.canon_unit_zero hz3]
  simp only [View.ld_unit_zero (S := S2000x128) hz2, View.ld_unit_zero (S := S2000x1) hz2, View.ld_unit_zero (S := S128x128) hz2, View.ld_unit_zero (S := S1x128) hz2]
  have e0 : win0_6.index t (0 : Fin 3) = t.val := idx6_0 t
  have e2 : win0_6.index t (2 : Fin 3) = 0 := idx6_2 t
  funext y
  rw [View.read_apply]
  have hy : (cfg0.win 6).xinj (grid0.coords t) y = ix3 (0 : Fin 1) (0 : Fin 1) (⟨(y 2).val, (y 2).isLt⟩ : Fin 128) :=
    funext fun a => by
      match a with
      | ⟨0, _⟩ => exact Fin.ext (show (y 0).val = 0 from by have h : (y 0).val < 1 := (y 0).isLt; omega)
      | ⟨1, _⟩ => exact Fin.ext (show (y 1).val = 0 from by have h : (y 1).val < 1 := (y 1).isLt; omega)
      | ⟨2, _⟩ => rfl
  refine Eq.trans (congrArg (k0_pay3 (iblk0 V c 0 t) (iblk0 V c 1 t) (iblk0 V c 2 t) (iblk0 V c 3 t)) hy) ?_
  rw [pay3_tile]
  show _ = G6 V c (((View.whole main_v39_2).slice ((win0 6).rect t)).emb y)
  unfold G6
  have hr : tile t = ((View.whole main_v39_2).slice ((win0 6).rect t)).emb y 0 := Fin.ext (by
    show t.val = win0_6.index t (0 : Fin 3) * 1 + 1 * (y 0).val
    have h : (y 0).val < 1 := (y 0).isLt
    rw [e0]; omega)
  have hc : (⟨(y 2).val, (y 2).isLt⟩ : Fin 128) = ((View.whole main_v39_2).slice ((win0 6).rect t)).emb y 2 := Fin.ext (by
    show (y 2).val = win0_6.index t (2 : Fin 3) * 128 + 1 * (y 2).val
    rw [e2]; omega)
  rw [← hr, ← hc]

/-- An index of the array is in tile t's block iff each coordinate is in the block's range on its axis. -/
theorem mem_blk6 (t : Fin cfg0.N) (i : S50x1x128.Idx) :
    i ∈ ((cfg0.win 6).blk t).view.set ↔ ∀ a : Fin 3, win0_6.index t a * S1x1x128.size a ≤ (i a).val ∧ (i a).val < win0_6.index t a * S1x1x128.size a + S1x1x128.size a := by
  show i ∈ ((View.whole main_v39_2).slice (win0_6.rect t)).set ↔ _
  rw [View.set_slice_whole, Rect.mem_set_unit]
  exact Iff.rfl

/-- Every index is in some tile's block: (q, 0, j) is in tile q. -/
theorem cover6 (i : S50x1x128.Idx) : ∃ t : Fin cfg0.N, (cfg0.win 6).flush t = true ∧ i ∈ ((cfg0.win 6).blk t).view.set := by
  have hi0 : (i 0).val < 50 := (i 0).isLt
  have hi1 : (i 1).val < 1 := (i 1).isLt
  have hi2 : (i 2).val < 128 := (i 2).isLt
  obtain ⟨t, ht⟩ : ∃ t : Fin cfg0.N, t.val = (i 0).val := ⟨point ⟨(i 0).val, hi0⟩, rfl⟩
  have e0 : win0_6.index t (0 : Fin 3) = t.val := idx6_0 t
  have e1 : win0_6.index t (1 : Fin 3) = 0 := idx6_1 t
  have e2 : win0_6.index t (2 : Fin 3) = 0 := idx6_2 t
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; rw [e0, ht]; omega
  | ⟨1, _⟩ => show win0_6.index t (1 : Fin 3) * 1 ≤ (i 1).val ∧ (i 1).val < win0_6.index t (1 : Fin 3) * 1 + 1; rw [e1]; omega
  | ⟨2, _⟩ => show win0_6.index t (2 : Fin 3) * 128 ≤ (i 2).val ∧ (i 2).val < win0_6.index t (2 : Fin 3) * 128 + 128; rw [e2]; omega

/-- The statistic's array after the region is `G6`. -/
theorem sumsq_arr (c : Dev nD) : (dat0 V c).arrAt 6 cfg0.N = G6 V c :=
  (dat0 V c).arrAt_eq_of_cover 6 (G6 V c) (fun t _ => flushed6_eq V c t) cover6

/-- The column sums after the region, index by index. -/
theorem sums_apply (c : Dev nD) (t : Fin 50) (j : Fin 128) :
    ((dat0 (F := Ideal) V c).arrAt 5 cfg0.N : S50x1x128.Idx → EReal) (ix3 t 0 j) = ∑ y : Fin 2000, linAt V c (rowOf t y) j :=
  congrFun (sums_arr V c) (ix3 t 0 j)

/-- The column sums of squares after the region, index by index. -/
theorem sumsq_apply (c : Dev nD) (t : Fin 50) (j : Fin 128) :
    ((dat0 (F := Ideal) V c).arrAt 6 cfg0.N : S50x1x128.Idx → EReal) (ix3 t 0 j)
      = ∑ y : Fin 2000, linAt V c (rowOf t y) j * linAt V c (rowOf t y) j :=
  congrFun (sumsq_arr V c) (ix3 t 0 j)

end Cert.KernelIdeal.RegionLin0

end
-- ==== Proof.RegionBn1.lean ====
/-
  Region 1 of the network's main function: batch normalisation, rectifier and row scaling, over 50 row tiles of
  2000 rows.

  The region reads the linear layer's output lin : [100000,128], four rows of shape [1,128] (the column mean, the
  inverse standard deviation, gamma, beta) and a per-row scale column of shape [100000,1]. On the extended reals, where
  every float operation is exact and a format change is the identity, it leaves one array:
    out (r, j) = max ((((lin (r,j) - mean (0,j)) * inv (0,j)) * gamma (0,j)) + beta (0,j)) 0 * scale (r,0)
  for every row r and column j.
  The proof reads the tile's computation at one index (a row of shape [1,128] broadcast over the 2000 rows reads its
  one row; a column of shape [2000,1] broadcast over the 128 lanes reads its one column; every other operation is
  pointwise), then shows that what tile t writes back is block t of this whole-array function (row y of tile t is row
  2000 t + y of each row-tiled array, and the four small rows are read whole at every tile), and that the blocks cover
  the array: row r lies in tile r / 2000.
-/
import proofs.«132861_j65154653880488_2_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionBn1

open Idealize.ShloMosaic Idealize.ShloMosaic.TcCoe Idealize.SL.Sem Idealize.ShloMosaic.ValueIdx Cert.KernelIdeal Cert.KernelIdeal.Gen
open Idealize.ShloMosaic.Pipeline (Dat)

variable (V : (c : Dev nD) → (b : Ref sig .tc) → Buf (Elt Ideal) ((c : Thread nD τ).loc b))

/-! ## The tile's computation at one index -/

theorem hz : (![0, 0] : Fin 2 → Nat) = fun _ => 0 := funext fun a => by fin_cases a <;> rfl

/-- A `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The body's payload read at row `p`, lane `q` of the tile: the normalised, rectified, scaled entry. -/
theorem pay_apply (x0 : Vec Ideal S2000x128 .f32) (x1 x2 x3 x4 : Vec Ideal S1x128 .f32) (x5 : Vec Ideal S2000x1 .f32)
    (p : Fin 2000) (q : Fin 128) :
    (k1_pay1 x0 x1 x2 x3 x4 x5 : S2000x128.Idx → EReal) (ix2 p q)
      = max (((((x0 : S2000x128.Idx → EReal) (ix2 p q) - (x1 : S1x128.Idx → EReal) (ix2 0 q)) * (x2 : S1x128.Idx → EReal) (ix2 0 q)) * (x3 : S1x128.Idx → EReal) (ix2 0 q)) + (x4 : S1x128.Idx → EReal) (ix2 0 q)) (Ideal.ofBits .f32 0x00000000#32) * (x5 : S2000x1.Idx → EReal) (ix2 p 0) := by
  unfold k1_pay1
  simp only [shapeCast_self]
  simp only [truncf_apply, mulf_apply, maximumf_apply, addf_apply, subf_apply, broadcast_apply]
  rw [broadcastTo_a1_ab_apply, broadcastTo_1b_ab_apply, broadcastTo_1b_ab_apply, broadcastTo_1b_ab_apply, broadcastTo_1b_ab_apply]
  rfl

/-! ## The whole-array function -/

/-- The normalised, rectified, scaled entry at row `r`, column `j`, from the six input arrays: the entry of `lin`
    minus the column's mean, times the column's inverse standard deviation, times gamma, plus beta, clamped below at
    zero, times the row's scale. -/
def bnOf (lin : S100000x128.Idx → EReal) (mean inv gamma beta : S1x128.Idx → EReal) (scale : S100000x1.Idx → EReal)
    (r : Fin 100000) (j : Fin 128) : EReal :=
  max ((((lin (ix2 r j) - mean (ix2 0 j)) * inv (ix2 0 j)) * gamma (ix2 0 j)) + beta (ix2 0 j)) (Ideal.ofBits .f32 0x00000000#32) * scale (ix2 r 0)

/-- The entry of the region's output at row `r`, column `j`, from the region's input arrays as it finds them. -/
def bnAt (c : Dev nD) (r : Fin 100000) (j : Fin 128) : EReal :=
  bnOf (V c main_v39_0) (V c main_v55) (V c main_v56) (V c main_v57) (V c main_v58) (V c main_v13) r j

/-- The output array as one function of its index. -/
def G (c : Dev nD) : S100000x128.Idx → EReal := fun i => bnAt V c (i 0) (i 1)

/-! ## The index maps over the grid -/

/-- The printed index maps, decided over the 50 grid points: the three row-tiled windows sit at block `(t, 0)`, the
    four small rows at block `(0, 0)`. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! ## Each input block read at an index of the tile -/

/-- Row `p` of tile `t` of the row-tiled input is row `2000 t + p` of the array. -/
theorem rows_apply (c : Dev nD) (t : Fin cfg1.N) (p : Fin 2000) (q : Fin 128) (r : Fin 100000)
    (hr : r.val = t.val * 2000 + p.val) :
    (iblk1 V c 0 t : Vec Ideal S2000x128 .f32) (ix2 p q) = (V c main_v39_0 : S100000x128.Idx → EReal) (ix2 r q) := by
  obtain ⟨e0, e1, -⟩ := idx_facts t
  unfold iblk1
  rw [View.read_apply]
  show (V c main_v39_0 : S100000x128.Idx → EReal) _ = _
  congr 1
  funext a
  apply Fin.ext
  match a with
  | ⟨0, _⟩ => show win1_0.index t (0 : Fin 2) * 2000 + 1 * p.val = r.val; rw [e0, hr]; omega
  | ⟨1, _⟩ => show win1_0.index t (1 : Fin 2) * 128 + 1 * q.val = q.val; rw [e1]; omega

/-- The mean row's block at any tile is the whole row. -/
theorem mean_apply (c : Dev nD) (t : Fin cfg1.N) (q : Fin 128) :
    (iblk1 V c 1 t : Vec Ideal S1x128 .f32) (ix2 0 q) = (V c main_v55 : S1x128.Idx → EReal) (ix2 0 q) := by
  obtain ⟨-, -, e0, e1, -⟩ := idx_facts t
  unfold iblk1
  rw [View.read_apply]
  show (V c main_v55 : S1x128.Idx → EReal) _ = _
  congr 1
  funext a
  apply Fin.ext
  match a with
  | ⟨0, _⟩ => show win1_1.index t (0 : Fin 2) * 1 + 1 * 0 = 0; rw [e0]
  | ⟨1, _⟩ => show win1_1.index t (1 : Fin 2) * 128 + 1 * q.val = q.val; rw [e1]; omega

/-- The inverse standard deviation row's block at any tile is the whole row. -/
theorem inv_apply (c : Dev nD) (t : Fin cfg1.N) (q : Fin 128) :
    (iblk1 V c 2 t : Vec Ideal S1x128 .f32) (ix2 0 q) = (V c main_v56 : S1x128.Idx → EReal) (ix2 0 q) := by
  obtain ⟨-, -, -, -, e0, e1, -⟩ := idx_facts t
  unfold iblk1
  rw [View.read_apply]
  show (V c main_v56 : S1x128.Idx → EReal) _ = _
  congr 1
  funext a
  apply Fin.ext
  match a with
  | ⟨0, _⟩ => show win1_2.index t (0 : Fin 2) * 1 + 1 * 0 = 0; rw [e0]
  | ⟨1, _⟩ => show win1_2.index t (1 : Fin 2) * 128 + 1 * q.val = q.val; rw [e1]; omega

/-- The gamma row's block at any tile is the whole row. -/
theorem gamma_apply (c : Dev nD) (t : Fin cfg1.N) (q : Fin 128) :
    (iblk1 V c 3 t : Vec Ideal S1x128 .f32) (ix2 0 q) = (V c main_v57 : S1x128.Idx → EReal) (ix2 0 q) := by
  obtain ⟨-, -, -, -, -, -, e0, e1, -⟩ := idx_facts t
  unfold iblk1
  rw [View.read_apply]
  show (V c main_v57 : S1x128.Idx → EReal) _ = _
  congr 1
  funext a
  apply Fin.ext
  match a with
  | ⟨0, _⟩ => show win1_3.index t (0 : Fin 2) * 1 + 1 * 0 = 0; rw [e0]
  | ⟨1, _⟩ => show win1_3.index t (1 : Fin 2) * 128 + 1 * q.val = q.val; rw [e1]; omega

/-- The beta row's block at any tile is the whole row. -/
theorem beta_apply (c : Dev nD) (t : Fin cfg1.N) (q : Fin 128) :
    (iblk1 V c 4 t : Vec Ideal S1x128 .f32) (ix2 0 q) = (V c main_v58 : S1x128.Idx → EReal) (ix2 0 q) := by
  obtain ⟨-, -, -, -, -, -, -, -, e0, e1, -⟩ := idx_facts t
  unfold iblk1
  rw [View.read_apply]
  show (V c main_v58 : S1x128.Idx → EReal) _ = _
  congr 1
  funext a
  apply Fin.ext
  match a with
  | ⟨0, _⟩ => show win1_4.index t (0 : Fin 2) * 1 + 1 * 0 = 0; rw [e0]
  | ⟨1, _⟩ => show win1_4.index t (1 : Fin 2) * 128 + 1 * q.val = q.val; rw [e1]; omega

/-- Row `p` of tile `t` of the scale column is row `2000 t + p` of the column. -/
theorem scale_apply (c : Dev nD) (t : Fin cfg1.N) (p : Fin 2000) (r : Fin 100000)
    (hr : r.val = t.val * 2000 + p.val) :
    (iblk1 V c 5 t : Vec Ideal S2000x1 .f32) (ix2 p 0) = (V c main_v13 : S100000x1.Idx → EReal) (ix2 r 0) := by
  obtain ⟨-, -, -, -, -, -, -, -, -, -, e0, e1, -⟩ := idx_facts t
  unfold iblk1
  rw [View.read_apply]
  show (V c main_v13 : S100000x1.Idx → EReal) _ = _
  congr 1
  funext a
  apply Fin.ext
  match a with
  | ⟨0, _⟩ => show win1_5.index t (0 : Fin 2) * 2000 + 1 * p.val = r.val; rw [e0, hr]; omega
  | ⟨1, _⟩ => show win1_5.index t (1 : Fin 2) * 1 + 1 * 0 = 0; rw [e1]

/-! ## What a tile writes back, the cover, the array after the region -/

/-- WHAT TILE `t` WRITES BACK is block `t` of `G` of the region's input arrays. -/
theorem flushed6_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S1x128) hz, View.ld_unit_zero (S := S2000x1) hz]
  obtain ⟨-, -, -, -, -, -, -, -, -, -, -, -, e0, e1⟩ := idx_facts t
  funext y
  obtain ⟨p, q, rfl⟩ : ∃ (p : Fin 2000) (q : Fin 128), y = ix2 p q :=
    ⟨y 0, y 1, eq_ix2 (n0 := 2000) (n1 := 128) y⟩
  have ht : t.val < 50 := lt_of_lt_of_eq t.isLt N_1
  let r : Fin 100000 := ⟨t.val * 2000 + p.val, by have := p.isLt; omega⟩
  have hr : r.val = t.val * 2000 + p.val := rfl
  have hemb : ((cfg1.win 6).blk t).view.emb (ix2 p q) = (ix2 r q : S100000x128.Idx) := by
    funext a
    apply Fin.ext
    match a with
    | ⟨0, _⟩ => show win1_6.index t (0 : Fin 2) * 2000 + 1 * p.val = t.val * 2000 + p.val; rw [e0]; omega
    | ⟨1, _⟩ => show win1_6.index t (1 : Fin 2) * 128 + 1 * q.val = q.val; rw [e1]; omega
  show (k1_pay1 (iblk1 V c 0 t) (iblk1 V c 1 t) (iblk1 V c 2 t) (iblk1 V c 3 t) (iblk1 V c 4 t) (iblk1 V c 5 t) : S2000x128.Idx → EReal) (ix2 p q)
    = G V c (((cfg1.win 6).blk t).view.emb (ix2 p q))
  rw [hemb, pay_apply, rows_apply V c t p q r hr, mean_apply, inv_apply, gamma_apply, beta_apply,
    scale_apply V c t p r hr]
  rfl

/-- An index of the array is in tile `t`'s block iff each coordinate is in the block's range on its axis. -/
theorem mem_blk6 (t : Fin cfg1.N) (i : S100000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v59).slice (win1_6.rect t)).set ↔ _
  rw [View.set_slice_whole, Rect.mem_set_unit]
  exact Iff.rfl

/-- Every index of the array is in some tile's block: row `r` lies in tile `r / 2000`. -/
theorem cover6 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 50 := N_1
  have hlt : (i 0).val / 2000 < cfg1.N := by rw [hN]; omega
  obtain ⟨-, -, -, -, -, -, -, -, -, -, -, -, e0, e1⟩ := idx_facts ⟨(i 0).val / 2000, hlt⟩
  refine ⟨⟨(i 0).val / 2000, hlt⟩, flush1_6 _, ?_⟩
  rw [mem_blk6]
  intro a
  match a with
  | ⟨0, _⟩ =>
    show win1_6.index ⟨(i 0).val / 2000, hlt⟩ (0 : Fin 2) * 2000 ≤ (i 0).val ∧ (i 0).val < win1_6.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, hlt⟩ (1 : Fin 2) * 128 ≤ (i 1).val ∧ (i 1).val < win1_6.index ⟨(i 0).val / 2000, hlt⟩ (1 : Fin 2) * 128 + 128
    rw [e1]
    omega

/-- THE ARRAY after the region is `G` of the region's input arrays. -/
theorem final6 (c : Dev nD) : (dat1 V c).arrAt 6 cfg1.N = G V c :=
  (dat1 V c).arrAt_eq_of_cover 6 (G V c) (fun t _ => flushed6_eq V c t) cover6

/-- The region's output at row `r`, column `j`. -/
theorem bn_apply (c : Dev nD) (r : Fin 100000) (j : Fin 128) :
    ((dat1 (F := Ideal) V c).arrAt 6 cfg1.N : S100000x128.Idx → EReal) (ix2 r j) = bnAt V c r j := by
  rw [final6]
  rfl

end Cert.KernelIdeal.RegionBn1
end
-- ==== Proof.KernelLayer1.lean ====
/-
  Layer 1 of the idealized kernel: what its two regions and the host stretch between them leave, entry by entry.

  The layer's first region computes, tile by tile, lin = (agg * nd) · W + b for the aggregated features agg found at its
  entry, and each tile's column sums of lin and of lin * lin. The host stretch adds the 50 tiles' partial sums into the
  column totals S and Q, and forms mean = S / N, var = max(Q / N - mean * mean, 0) and rsqrt(var + eps). The second
  region normalises lin with them, rectifies and scales each row. Read at an entry (r, j), the layer's output is the
  one-pass normalised entry of column j of lin, times the scale of row r; the totals are sums over all N rows because
  row y of tile t is row 2000 t + y.
-/
import proofs.«132861_j65154653880488_2_alg».proof.Proof.Gen.KernelIdeal.Frame
import proofs.«132861_j65154653880488_2_alg».proof.Proof.KernelKeep
import proofs.«132861_j65154653880488_2_alg».proof.Proof.KernelHostRead
import proofs.«132861_j65154653880488_2_alg».proof.Proof.RegionLin0
import proofs.«132861_j65154653880488_2_alg».proof.Proof.RegionBn1
import proofs.«132861_j65154653880488_2_alg».proof.Proof.Layer
import Idealize.ShloMosaic.Lib.StableHlo.Run

noncomputable section

namespace Cert.KernelIdeal.Layer1

open Cert.KernelIdeal Cert.KernelIdeal.Gen Cert.KernelIdeal.HostRead Cert.KernelIdeal.Keep Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The layer's linear output at row r, column j, from the arrays the first region finds. -/
def L (r : Fin 100000) (j : Fin 128) : EReal := RegionLin0.linAt (V1 m ρ) c r j

/-- The first region leaves lin in its first output array. -/
theorem lin_apply (r : Fin 100000) (j : Fin 128) :
    (W2 m ρ c (Proc.devRef .tc main_v39_0) : S100000x128.Idx → EReal) (ix2 r j) = L m ρ c r j := by
  rw [show W2 m ρ c (Proc.devRef .tc main_v39_0) = (dat0 (V1 m ρ) c).arrAt 4 cfg0.N from W2_arr m ρ c 4]
  exact RegionLin0.lin_apply (V1 m ρ) c r j

/-- Tile t's column sum of lin. -/
theorem sums_apply (t : Fin 50) (j : Fin 128) :
    (W2 m ρ c (Proc.devRef .tc main_v39_1) : S50x1x128.Idx → EReal) (ix3 t 0 j)
      = ∑ y : Fin 2000, L m ρ c (RegionLin0.rowOf t y) j := by
  rw [show W2 m ρ c (Proc.devRef .tc main_v39_1) = (dat0 (V1 m ρ) c).arrAt 5 cfg0.N from W2_arr m ρ c 5]
  exact RegionLin0.sums_apply (V1 m ρ) c t j

/-- Tile t's column sum of lin * lin. -/
theorem sumsq_apply (t : Fin 50) (j : Fin 128) :
    (W2 m ρ c (Proc.devRef .tc main_v39_2) : S50x1x128.Idx → EReal) (ix3 t 0 j)
      = ∑ y : Fin 2000, L m ρ c (RegionLin0.rowOf t y) j * L m ρ c (RegionLin0.rowOf t y) j := by
  rw [show W2 m ρ c (Proc.devRef .tc main_v39_2) = (dat0 (V1 m ρ) c).arrAt 6 cfg0.N from W2_arr m ρ c 6]
  exact RegionLin0.sumsq_apply (V1 m ρ) c t j

/-- Row y of tile t, as the batch-norm library numbers it. -/
theorem rowOf_eq (t : Fin 50) (y : Fin 2000) :
    RegionLin0.rowOf t y = Cert.LibBatchNorm.rowOf (T := 50) (B := 2000) (n := 100000) rfl t y := rfl

/-- The column totals of lin and of lin * lin over all rows. -/
def S (j : Fin 128) : EReal := 0 + ∑ r : Fin 100000, L m ρ c r j
def Q (j : Fin 128) : EReal := 0 + ∑ r : Fin 100000, L m ρ c r j * L m ρ c r j

/-- Partial sums s that are, tile by tile, the column sums of lin add up, from the zero word, to the column total. -/
theorem tiles_S (s : S50x1x128.Idx → EReal)
    (hs : ∀ (t : Fin 50) (j : Fin 128), s (ix3 t 0 j) = ∑ y : Fin 2000, L m ρ c (RegionLin0.rowOf t y) j) (j : Fin 128) :
    Ideal.ofBits .f32 0x00000000#32 + ∑ t : Fin 50, s (ix3 t 0 j) = S m ρ c j := by
  rw [ofBits_zero, Finset.sum_congr rfl (fun t _ => hs t j)]
  exact sum_tiles' (T := 50) (B := 2000) (n := 100000) rfl (fun r => L m ρ c r j)

/-- The same for the column sums of lin * lin. -/
theorem tiles_Q (q : S50x1x128.Idx → EReal)
    (hq : ∀ (t : Fin 50) (j : Fin 128), q (ix3 t 0 j)
      = ∑ y : Fin 2000, L m ρ c (RegionLin0.rowOf t y) j * L m ρ c (RegionLin0.rowOf t y) j) (j : Fin 128) :
    Ideal.ofBits .f32 0x00000000#32 + ∑ t : Fin 50, q (ix3 t 0 j) = Q m ρ c j := by
  rw [ofBits_zero, Finset.sum_congr rfl (fun t _ => hq t j)]
  exact sum_tiles' (T := 50) (B := 2000) (n := 100000) rfl (fun r => L m ρ c r j * L m ρ c r j)

/-! ## The host stretch between the two regions -/

theorem mean_eq : (V3 m ρ c main_v55 : S1x128.Idx → EReal)
    = shapeCast S1x128 (meanVec (W2 m ρ c (Proc.devRef .tc main_v39_1))) shapeCasts_S128_S1x128 := by
  show StableHlo.after hostOps1 (W2 m ρ c) (Proc.devRef .tc main_v55) = _
  after_results_simp
  rfl

theorem inv_eq : (V3 m ρ c main_v56 : S1x128.Idx → EReal)
    = shapeCast S1x128 (invVec (W2 m ρ c (Proc.devRef .tc main_v39_1)) (W2 m ρ c (Proc.devRef .tc main_v39_2))) shapeCasts_S128_S1x128 := by
  show StableHlo.after hostOps1 (W2 m ρ c) (Proc.devRef .tc main_v56) = _
  after_results_simp
  rfl

theorem g_eq : (V3 m ρ c main_v57 : S1x128.Idx → EReal)
    = shapeCast S1x128 (m ((c : Thread nD τ).loc main_arg7)) shapeCasts_S128_S1x128 := by
  show StableHlo.after hostOps1 (W2 m ρ c) (Proc.devRef .tc main_v57) = _
  after_results_simp
  rw [W2_main_arg7_W0 m ρ c]
  rfl

theorem be_eq : (V3 m ρ c main_v58 : S1x128.Idx → EReal)
    = shapeCast S1x128 (m ((c : Thread nD τ).loc main_arg8)) shapeCasts_S128_S1x128 := by
  show StableHlo.after hostOps1 (W2 m ρ c) (Proc.devRef .tc main_v58) = _
  after_results_simp
  rw [W2_main_arg8_W0 m ρ c]
  rfl

/-- The mean row at column j is the one-pass mean of column j. -/
theorem mean_apply (j : Fin 128) :
    (V3 m ρ c main_v55 : S1x128.Idx → EReal) (ix2 0 j) = meanK (Ideal.ofBits .f32 0x47C35000#32) (S m ρ c j) := by
  rw [mean_eq, row_apply, meanVec_apply, tiles_S m ρ c _ (sums_apply m ρ c)]
  rfl

/-- The inverse-standard-deviation row at column j, from the one-pass variance of column j. -/
theorem inv_apply (j : Fin 128) :
    (V3 m ρ c main_v56 : S1x128.Idx → EReal) (ix2 0 j)
      = Ideal.rsqrt (varK (Ideal.ofBits .f32 0x47C35000#32) (S m ρ c j) (Q m ρ c j) + Ideal.ofBits .f32 0x3727C5AC#32) := by
  rw [inv_eq, row_apply, invVec_apply, meanVec_apply, tiles_S m ρ c _ (sums_apply m ρ c), tiles_Q m ρ c _ (sumsq_apply m ρ c),
    ofBits_zero]
  rfl

theorem g_apply (j : Fin 128) :
    (V3 m ρ c main_v57 : S1x128.Idx → EReal) (ix2 0 j) = (m ((c : Thread nD τ).loc main_arg7) : S128.Idx → EReal) (ix1 j) := by
  rw [g_eq, row_apply]

theorem be_apply (j : Fin 128) :
    (V3 m ρ c main_v58 : S1x128.Idx → EReal) (ix2 0 j) = (m ((c : Thread nD τ).loc main_arg8) : S128.Idx → EReal) (ix1 j) := by
  rw [be_eq, row_apply]

/-- The second region finds lin as the first left it. -/
theorem lin_kept (r : Fin 100000) (j : Fin 128) :
    (V3 m ρ c main_v39_0 : S100000x128.Idx → EReal) (ix2 r j) = L m ρ c r j := by
  show (W3 m ρ c (Proc.devRef .tc main_v39_0) : S100000x128.Idx → EReal) (ix2 r j) = _
  rw [W3_main_v39_0_W2 m ρ c]
  exact lin_apply m ρ c r j

/-- The per-row scale column is the one computed before the first region. -/
theorem scale_kept (r : Fin 100000) :
    (V3 m ρ c main_v13 : S100000x1.Idx → EReal) (ix2 r 0) = (V1 m ρ c main_v13 : S100000x1.Idx → EReal) (ix2 r 0) := by
  show (W3 m ρ c (Proc.devRef .tc main_v13) : S100000x1.Idx → EReal) (ix2 r 0) = _
  rw [W3_main_v13_W1 m ρ c]

/-! ## The layer's output -/

/-- Entry (r, j) of the layer's output: the one-pass normalised, rectified entry times the row's scale. -/
theorem out_apply (r : Fin 100000) (j : Fin 128) :
    (W4 m ρ c (Proc.devRef .tc main_v59) : S100000x128.Idx → EReal) (ix2 r j)
      = Cert.GCN.bnK (L m ρ c) (S m ρ c) (Q m ρ c) (Ideal.ofBits .f32 0x47C35000#32) (Ideal.ofBits .f32 0x3727C5AC#32)
          (Ideal.ofBits .f32 0x00000000#32) (fun j => (m ((c : Thread nD τ).loc main_arg7) : S128.Idx → EReal) (ix1 j))
          (fun j => (m ((c : Thread nD τ).loc main_arg8) : S128.Idx → EReal) (ix1 j)) r j
        * (V1 m ρ c main_v13 : S100000x1.Idx → EReal) (ix2 r 0) := by
  rw [show W4 m ρ c (Proc.devRef .tc main_v59) = (dat1 (V3 m ρ) c).arrAt 6 cfg1.N from W4_arr m ρ c 6]
  rw [RegionBn1.bn_apply (V3 m ρ) c r j]
  unfold RegionBn1.bnAt RegionBn1.bnOf Cert.GCN.bnK
  rw [lin_kept, mean_apply, inv_apply, g_apply, be_apply, scale_kept]

end Cert.KernelIdeal.Layer1

end
-- ==== Proof.Bridge1.lean ====
/-
  Layer 1: the idealized kernel's output array is the reference's.

  Both programs form lin = (agg * nd) · W + b from the same aggregated features, so their linear outputs agree entry by
  entry. The kernel normalises with one-pass statistics taken from per-tile partial sums, the reference with two-pass
  statistics; every entry of lin is a real number (finite inputs; sums, products and reciprocal square roots of positive
  reals stay real), so the two normalisations agree, and so do the rectified, row-scaled outputs.
-/
import proofs.«132861_j65154653880488_2_alg».proof.Proof.KernelLayer1
import proofs.«132861_j65154653880488_2_alg».proof.Proof.RefLayer1
import proofs.«132861_j65154653880488_2_alg».proof.Proof.KernelEnds

noncomputable section

namespace Cert.Bridge1

open Cert.KernelIdeal Cert.KernelIdeal.Gen Cert.KernelIdeal.HostRead Cert.KernelIdeal.Keep Cert.KernelIdeal.Ends Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The aggregated features the first region finds are the reference's. -/
theorem agg_eq : (V1 m ρ c main_v37 : S100000x128.Idx → EReal) = Cert.ReferenceIdeal.ReadP.val_main_v32 (F := Ideal) (X0 m c) (X1 m c) (X2 m c) (X4 m c) :=
  Ends.agg1_eq m ρ c
theorem nd_apply (r : Fin 100000) : (V1 m ρ c main_v14 : S100000x1.Idx → EReal) (ix2 r 0) = Cert.ReferenceIdeal.ReadP.val_main_v12 (F := Ideal) (X2 m c) (ix1 r) :=
  Ends.ndcol_apply m ρ c r
theorem w_eq : (V1 m ρ c main_arg5 : S128x128.Idx → EReal) = X5 m c := Ends.w1_eq m ρ c
theorem brow_apply (j : Fin 128) : (V1 m ρ c main_v38 : S1x128.Idx → EReal) (ix2 0 j) = (X6 m c) (ix1 j) := Ends.b1row_apply m ρ c j

/-- The kernel's linear output is the reference's, entry by entry. -/
theorem lin_eq  (r : Fin 100000) (j : Fin 128) :
    Cert.KernelIdeal.Layer1.L m ρ c r j = Cert.ReferenceIdeal.ReadP.val_main_v39 (F := Ideal) (X0 m c) (X1 m c) (X2 m c) (X4 m c) (X5 m c) (X6 m c) (ix2 r j) := by
  rw [Cert.ReferenceIdeal.Layer1.lin_apply]
  unfold Cert.KernelIdeal.Layer1.L Cert.KernelIdeal.RegionLin0.linAt Cert.KernelIdeal.RegionLin0.linOf Cert.GCN.lin
  rw [agg_eq m ρ c , w_eq m ρ c, brow_apply m ρ c j, nd_apply m ρ c r]

/-- The layer's output array is the reference's. -/
theorem hs_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) :
    (W4 m ρ c (Proc.devRef .tc main_v59) : S100000x128.Idx → EReal) = Cert.ReferenceIdeal.ReadP.val_main_v68 (F := Ideal) (X0 m c) (X1 m c) (X2 m c) (X4 m c) (X5 m c) (X6 m c) (X7 m c) (X8 m c) := by
  funext i
  obtain ⟨r, j, rfl⟩ : ∃ (r : Fin 100000) (j : Fin 128), i = ix2 r j := ⟨i 0, i 1, eq_ix2 i⟩
  have hL : Cert.KernelIdeal.Layer1.L m ρ c = fun r j => Cert.ReferenceIdeal.ReadP.val_main_v39 (F := Ideal) (X0 m c) (X1 m c) (X2 m c) (X4 m c) (X5 m c) (X6 m c) (ix2 r j) :=
    funext fun r => funext fun j => lin_eq m ρ c  r j
  have hreal : ∀ r j, IsReal (Cert.KernelIdeal.Layer1.L m ρ c r j) := fun r j => by
    rw [hL]; exact Cert.ReferenceIdeal.Layer1.lin_real (X0 m c) (X1 m c) (X2 m c) (X4 m c) (X5 m c) (X6 m c) h4 h5 h6 (ix2 r j)
  rw [Cert.KernelIdeal.Layer1.out_apply, Cert.ReferenceIdeal.Layer1.hs_apply, ofBits_100000]
  rw [Cert.GCN.bnK_eq_bnR (Cert.KernelIdeal.Layer1.L m ρ c) hreal 100000 (by norm_num) (by norm_num) (Cert.KernelIdeal.Layer1.S m ρ c) (Cert.KernelIdeal.Layer1.Q m ρ c)
    (fun j => rfl) (fun j => rfl)]
  rw [hL]
  rw [Ends.nscol_apply]

/-- The reference's output of this layer has real entries. -/
theorem hs_real (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (i : S100000x128.Idx) : IsReal (Cert.ReferenceIdeal.ReadP.val_main_v68 (F := Ideal) (X0 m c) (X1 m c) (X2 m c) (X4 m c) (X5 m c) (X6 m c) (X7 m c) (X8 m c) i) :=
  Cert.ReferenceIdeal.Layer1.hs_real (X0 m c) (X1 m c) (X2 m c) (X4 m c) (X5 m c) (X6 m c) (X7 m c) (X8 m c) h4 h5 h6 h7 h8 i

end Cert.Bridge1

end
-- ==== Proof.Bridge2.lean ====
/-
  Layer 2: the idealized kernel's output array is the reference's.

  Both programs form lin = (agg * nd) · W + b from the same aggregated features, so their linear outputs agree entry by
  entry. The kernel normalises with one-pass statistics taken from per-tile partial sums, the reference with two-pass
  statistics; every entry of lin is a real number (finite inputs; sums, products and reciprocal square roots of positive
  reals stay real), so the two normalisations agree, and so do the rectified, row-scaled outputs.
-/
import proofs.«132861_j65154653880488_2_alg».proof.Proof.KernelLayer2
import proofs.«132861_j65154653880488_2_alg».proof.Proof.RefLayer2
import proofs.«132861_j65154653880488_2_alg».proof.Proof.KernelEnds
import proofs.«132861_j65154653880488_2_alg».proof.Proof.RefLayer1
import proofs.«132861_j65154653880488_2_alg».proof.Proof.Bridge1

noncomputable section

namespace Cert.Bridge2

open Cert.KernelIdeal Cert.KernelIdeal.Gen Cert.KernelIdeal.HostRead Cert.KernelIdeal.Keep Cert.KernelIdeal.Ends Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The aggregated features the layer's first region finds: the host's gather and segment sum of the previous layer's
    output, which is the reference's previous output. -/
theorem agg_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) : (V5 m ρ c main_v70 : S100000x128.Idx → EReal) = Cert.ReferenceIdeal.ReadP.val_main_v78 (F := Ideal) (X0 m c) (X1 m c) (X2 m c) (X4 m c) (X5 m c) (X6 m c) (X7 m c) (X8 m c) := by
  show StableHlo.after hostOps2 (W4 m ρ c) (Proc.devRef .tc main_v70) = _
  after_results_simp
  rw [W4_main_arg1_W0 m ρ c, W4_main_arg2_W0 m ρ c]
  rw [Cert.Bridge1.hs_eq m ρ c h4 h5 h6 h7 h8]
  rfl
theorem nd_apply (r : Fin 100000) : (V5 m ρ c main_v14 : S100000x1.Idx → EReal) (ix2 r 0) = Cert.ReferenceIdeal.ReadP.val_main_v12 (F := Ideal) (X2 m c) (ix1 r) := by
  show (W5 m ρ c (Proc.devRef .tc main_v14) : S100000x1.Idx → EReal) (ix2 r 0) = _
  rw [W5_main_v14_W1 m ρ c]
  exact Ends.ndcol_apply m ρ c r
theorem w_eq : (V5 m ρ c main_arg9 : S128x128.Idx → EReal) = X9 m c := by
  show (W5 m ρ c (Proc.devRef .tc main_arg9) : S128x128.Idx → EReal) = _
  rw [W5_main_arg9_W0 m ρ c]
theorem brow_apply (j : Fin 128) : (V5 m ρ c main_v71 : S1x128.Idx → EReal) (ix2 0 j) = (X10 m c) (ix1 j) := by
  have e : (V5 m ρ c main_v71 : S1x128.Idx → EReal) = shapeCast S1x128 (X10 m c) shapeCasts_S128_S1x128 := by
    show StableHlo.after hostOps2 (W4 m ρ c) (Proc.devRef .tc main_v71) = _
    after_results_simp
    rw [W4_main_arg10_W0 m ρ c]
    rfl
  rw [e, row_apply]

/-- The kernel's linear output is the reference's, entry by entry. -/
theorem lin_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (r : Fin 100000) (j : Fin 128) :
    Cert.KernelIdeal.Layer2.L m ρ c r j = Cert.ReferenceIdeal.ReadP.val_main_v85 (F := Ideal) (X0 m c) (X1 m c) (X2 m c) (X4 m c) (X5 m c) (X6 m c) (X7 m c) (X8 m c) (X9 m c) (X10 m c) (ix2 r j) := by
  rw [Cert.ReferenceIdeal.Layer2.lin_apply]
  unfold Cert.KernelIdeal.Layer2.L Cert.KernelIdeal.RegionLin2.linAt Cert.KernelIdeal.RegionLin2.linOf Cert.GCN.lin
  rw [agg_eq m ρ c h4 h5 h6 h7 h8, w_eq m ρ c, brow_apply m ρ c j, nd_apply m ρ c r]

/-- The layer's output array is the reference's. -/
theorem hs_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) :
    (W8 m ρ c (Proc.devRef .tc main_v92) : S100000x128.Idx → EReal) = Cert.ReferenceIdeal.ReadP.val_main_v114 (F := Ideal) (X0 m c) (X1 m c) (X2 m c) (X4 m c) (X5 m c) (X6 m c) (X7 m c) (X8 m c) (X9 m c) (X10 m c) (X11 m c) (X12 m c) := by
  funext i
  obtain ⟨r, j, rfl⟩ : ∃ (r : Fin 100000) (j : Fin 128), i = ix2 r j := ⟨i 0, i 1, eq_ix2 i⟩
  have hL : Cert.KernelIdeal.Layer2.L m ρ c = fun r j => Cert.ReferenceIdeal.ReadP.val_main_v85 (F := Ideal) (X0 m c) (X1 m c) (X2 m c) (X4 m c) (X5 m c) (X6 m c) (X7 m c) (X8 m c) (X9 m c) (X10 m c) (ix2 r j) :=
    funext fun r => funext fun j => lin_eq m ρ c h4 h5 h6 h7 h8 r j
  have hreal : ∀ r j, IsReal (Cert.KernelIdeal.Layer2.L m ρ c r j) := fun r j => by
    rw [hL]; exact Cert.ReferenceIdeal.Layer2.lin_real (X0 m c) (X1 m c) (X2 m c) (X4 m c) (X5 m c) (X6 m c) (X7 m c) (X8 m c) (X9 m c) (X10 m c) (Cert.Bridge1.hs_real m c h4 h5 h6 h7 h8) (Cert.ReferenceIdeal.Layer1.nd_real (X2 m c)) h9 h10 (ix2 r j)
  rw [Cert.KernelIdeal.Layer2.out_apply, Cert.ReferenceIdeal.Layer2.hs_apply, ofBits_100000]
  rw [Cert.GCN.bnK_eq_bnR (Cert.KernelIdeal.Layer2.L m ρ c) hreal 100000 (by norm_num) (by norm_num) (Cert.KernelIdeal.Layer2.S m ρ c) (Cert.KernelIdeal.Layer2.Q m ρ c)
    (fun j => rfl) (fun j => rfl)]
  rw [hL]
  rw [Ends.nscol_apply]

/-- The reference's output of this layer has real entries. -/
theorem hs_real (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) (i : S100000x128.Idx) : IsReal (Cert.ReferenceIdeal.ReadP.val_main_v114 (F := Ideal) (X0 m c) (X1 m c) (X2 m c) (X4 m c) (X5 m c) (X6 m c) (X7 m c) (X8 m c) (X9 m c) (X10 m c) (X11 m c) (X12 m c) i) :=
  Cert.ReferenceIdeal.Layer2.hs_real (X0 m c) (X1 m c) (X2 m c) (X4 m c) (X5 m c) (X6 m c) (X7 m c) (X8 m c) (X9 m c) (X10 m c) (X11 m c) (X12 m c) (Cert.Bridge1.hs_real m c h4 h5 h6 h7 h8) (Cert.ReferenceIdeal.Layer1.nd_real (X2 m c)) (Cert.ReferenceIdeal.Layer1.ns_real (X1 m c)) h9 h10 h11 h12 i

end Cert.Bridge2

end
-- ==== Proof.Bridge3.lean ====
/-
  Layer 3: the idealized kernel's output array is the reference's.

  Both programs form lin = (agg * nd) · W + b from the same aggregated features, so their linear outputs agree entry by
  entry. The kernel normalises with one-pass statistics taken from per-tile partial sums, the reference with two-pass
  statistics; every entry of lin is a real number (finite inputs; sums, products and reciprocal square roots of positive
  reals stay real), so the two normalisations agree, and so do the rectified, row-scaled outputs.
-/
import proofs.«132861_j65154653880488_2_alg».proof.Proof.KernelLayer3
import proofs.«132861_j65154653880488_2_alg».proof.Proof.RefLayer3
import proofs.«132861_j65154653880488_2_alg».proof.Proof.KernelEnds
import proofs.«132861_j65154653880488_2_alg».proof.Proof.RefLayer1
import proofs.«132861_j65154653880488_2_alg».proof.Proof.Bridge2

noncomputable section

namespace Cert.Bridge3

open Cert.KernelIdeal Cert.KernelIdeal.Gen Cert.KernelIdeal.HostRead Cert.KernelIdeal.Keep Cert.KernelIdeal.Ends Cert.LibBatchNorm
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg) (c : Dev nD)

/-- The aggregated features the layer's first region finds: the host's gather and segment sum of the previous layer's
    output, which is the reference's previous output. -/
theorem agg_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) : (V9 m ρ c main_v103 : S100000x128.Idx → EReal) = Cert.ReferenceIdeal.ReadP.val_main_v124 (F := Ideal) (X0 m c) (X1 m c) (X2 m c) (X4 m c) (X5 m c) (X6 m c) (X7 m c) (X8 m c) (X9 m c) (X10 m c) (X11 m c) (X12 m c) := by
  show StableHlo.after hostOps4 (W8 m ρ c) (Proc.devRef .tc main_v103) = _
  after_results_simp
  rw [W8_main_arg1_W0 m ρ c, W8_main_arg2_W0 m ρ c]
  rw [Cert.Bridge2.hs_eq m ρ c h4 h5 h6 h7 h8 h9 h10 h11 h12]
  rfl
theorem nd_apply (r : Fin 100000) : (V9 m ρ c main_v14 : S100000x1.Idx → EReal) (ix2 r 0) = Cert.ReferenceIdeal.ReadP.val_main_v12 (F := Ideal) (X2 m c) (ix1 r) := by
  show (W9 m ρ c (Proc.devRef .tc main_v14) : S100000x1.Idx → EReal) (ix2 r 0) = _
  rw [W9_main_v14_W1 m ρ c]
  exact Ends.ndcol_apply m ρ c r
theorem w_eq : (V9 m ρ c main_arg13 : S128x128.Idx → EReal) = X13 m c := by
  show (W9 m ρ c (Proc.devRef .tc main_arg13) : S128x128.Idx → EReal) = _
  rw [W9_main_arg13_W0 m ρ c]
theorem brow_apply (j : Fin 128) : (V9 m ρ c main_v104 : S1x128.Idx → EReal) (ix2 0 j) = (X14 m c) (ix1 j) := by
  have e : (V9 m ρ c main_v104 : S1x128.Idx → EReal) = shapeCast S1x128 (X14 m c) shapeCasts_S128_S1x128 := by
    show StableHlo.after hostOps4 (W8 m ρ c) (Proc.devRef .tc main_v104) = _
    after_results_simp
    rw [W8_main_arg14_W0 m ρ c]
    rfl
  rw [e, row_apply]

/-- The kernel's linear output is the reference's, entry by entry. -/
theorem lin_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) (r : Fin 100000) (j : Fin 128) :
    Cert.KernelIdeal.Layer3.L m ρ c r j = Cert.ReferenceIdeal.ReadP.val_main_v131 (F := Ideal) (X0 m c) (X1 m c) (X2 m c) (X4 m c) (X5 m c) (X6 m c) (X7 m c) (X8 m c) (X9 m c) (X10 m c) (X11 m c) (X12 m c) (X13 m c) (X14 m c) (ix2 r j) := by
  rw [Cert.ReferenceIdeal.Layer3.lin_apply]
  unfold Cert.KernelIdeal.Layer3.L Cert.KernelIdeal.RegionLin4.linAt Cert.KernelIdeal.RegionLin4.linOf Cert.GCN.lin
  rw [agg_eq m ρ c h4 h5 h6 h7 h8 h9 h10 h11 h12, w_eq m ρ c, brow_apply m ρ c j, nd_apply m ρ c r]

/-- The layer's output array is the reference's. -/
theorem hs_eq (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) (h13 : ∀ i, IsReal ((X13 m c) i)) (h14 : ∀ i, IsReal ((X14 m c) i)) (h15 : ∀ i, IsReal ((X15 m c) i)) (h16 : ∀ i, IsReal ((X16 m c) i)) :
    (W12 m ρ c (Proc.devRef .tc main_v125) : S100000x128.Idx → EReal) = Cert.ReferenceIdeal.ReadP.val_main_v157 (F := Ideal) (X0 m c) (X1 m c) (X2 m c) (X4 m c) (X5 m c) (X6 m c) (X7 m c) (X8 m c) (X9 m c) (X10 m c) (X11 m c) (X12 m c) (X13 m c) (X14 m c) (X15 m c) (X16 m c) := by
  funext i
  obtain ⟨r, j, rfl⟩ : ∃ (r : Fin 100000) (j : Fin 128), i = ix2 r j := ⟨i 0, i 1, eq_ix2 i⟩
  have hL : Cert.KernelIdeal.Layer3.L m ρ c = fun r j => Cert.ReferenceIdeal.ReadP.val_main_v131 (F := Ideal) (X0 m c) (X1 m c) (X2 m c) (X4 m c) (X5 m c) (X6 m c) (X7 m c) (X8 m c) (X9 m c) (X10 m c) (X11 m c) (X12 m c) (X13 m c) (X14 m c) (ix2 r j) :=
    funext fun r => funext fun j => lin_eq m ρ c h4 h5 h6 h7 h8 h9 h10 h11 h12 r j
  have hreal : ∀ r j, IsReal (Cert.KernelIdeal.Layer3.L m ρ c r j) := fun r j => by
    rw [hL]; exact Cert.ReferenceIdeal.Layer3.lin_real (X0 m c) (X1 m c) (X2 m c) (X4 m c) (X5 m c) (X6 m c) (X7 m c) (X8 m c) (X9 m c) (X10 m c) (X11 m c) (X12 m c) (X13 m c) (X14 m c) (Cert.Bridge2.hs_real m c h4 h5 h6 h7 h8 h9 h10 h11 h12) (Cert.ReferenceIdeal.Layer1.nd_real (X2 m c)) h13 h14 (ix2 r j)
  rw [Cert.KernelIdeal.Layer3.out_apply, Cert.ReferenceIdeal.Layer3.hs_apply, ofBits_100000]
  rw [Cert.GCN.bnK_eq_bnR (Cert.KernelIdeal.Layer3.L m ρ c) hreal 100000 (by norm_num) (by norm_num) (Cert.KernelIdeal.Layer3.S m ρ c) (Cert.KernelIdeal.Layer3.Q m ρ c)
    (fun j => rfl) (fun j => rfl)]
  rw [hL]
  rw [Ends.onescol_apply, ofBits_one, mul_one]

/-- The reference's output of this layer has real entries. -/
theorem hs_real (h4 : ∀ i, IsReal ((X4 m c) i)) (h5 : ∀ i, IsReal ((X5 m c) i)) (h6 : ∀ i, IsReal ((X6 m c) i)) (h7 : ∀ i, IsReal ((X7 m c) i)) (h8 : ∀ i, IsReal ((X8 m c) i)) (h9 : ∀ i, IsReal ((X9 m c) i)) (h10 : ∀ i, IsReal ((X10 m c) i)) (h11 : ∀ i, IsReal ((X11 m c) i)) (h12 : ∀ i, IsReal ((X12 m c) i)) (h13 : ∀ i, IsReal ((X13 m c) i)) (h14 : ∀ i, IsReal ((X14 m c) i)) (h15 : ∀ i, IsReal ((X15 m c) i)) (h16 : ∀ i, IsReal ((X16 m c) i)) (i : S100000x128.Idx) : IsReal (Cert.ReferenceIdeal.ReadP.val_main_v157 (F := Ideal) (X0 m c) (X1 m c) (X2 m c) (X4 m c) (X5 m c) (X6 m c) (X7 m c) (X8 m c) (X9 m c) (X10 m c) (X11 m c) (X12 m c) (X13 m c) (X14 m c) (X15 m c) (X16 m c) i) :=
  Cert.ReferenceIdeal.Layer3.hs_real (X0 m c) (X1 m c) (X2 m c) (X4 m c) (X5 m c) (X6 m c) (X7 m c) (X8 m c) (X9 m c) (X10 m c) (X11 m c) (X12 m c) (X13 m c) (X14 m c) (X15 m c) (X16 m c) (Cert.Bridge2.hs_real m c h4 h5 h6 h7 h8 h9 h10 h11 h12) (Cert.ReferenceIdeal.Layer1.nd_real (X2 m c)) h13 h14 h15 h16 i

end Cert.Bridge3

end
-- ==== Proof.lean ====
/-
  The certificate of a three-layer graph-convolution classifier against its plain reference, on the extended reals.

  Each layer aggregates node features along the edges (a row gather and a segment sum, done by the host in both
  programs), forms lin = (agg * nd) · W + b, normalises every column of lin over the 100000 nodes, rectifies and scales
  the rows; after the third layer the node features are averaged per graph and sent through a two-layer head. The kernel
  computes lin and its statistics in one pass, tile by tile (50 tiles of 2000 rows: per-tile column sums of lin and of
  lin * lin, added up by the host; variance = max(Q/N - mean * mean, 0)); the reference takes the mean and then the mean
  of the squared deviations. On the extended reals the two agree because, under the precondition that every float input
  is finite, every entry of lin is a real number: sums, products and differences of reals are real, the degree
  normalisers rsqrt(max(degree, 1)) are positive reals, and rsqrt(var + eps) is real for a real var ≥ 0 and eps > 0.
  Changes of float format are the identity on the extended reals, and the kernel's last per-row scale is the constant 1.
  Everything the two programs spell identically (the degree normalisers, the embedding lookup, the gathers and segment
  sums, the pooling head) is carried as one function applied to equal arrays and is never opened.
  The three frames: the two kernel programs' frames are the generated frame certificates; the reference's is its run with
  the result dropped. The idealization rewrote nothing, so the preservation claim is trivial.
-/
import proofs.«132861_j65154653880488_2_alg».proof.Defs
import proofs.«132861_j65154653880488_2_alg».proof.Proof.Gen.Kernel
import proofs.«132861_j65154653880488_2_alg».proof.Proof.Gen.Kernel.Skeleton
import proofs.«132861_j65154653880488_2_alg».proof.Proof.Gen.Kernel.Launch
import proofs.«132861_j65154653880488_2_alg».proof.Proof.Gen.Kernel.Points
import proofs.«132861_j65154653880488_2_alg».proof.Proof.Gen.Kernel.Frame
import proofs.«132861_j65154653880488_2_alg».proof.Proof.Gen.KernelIdeal
import proofs.«132861_j65154653880488_2_alg».proof.Proof.Gen.KernelIdeal.Skeleton
import proofs.«132861_j65154653880488_2_alg».proof.Proof.Gen.KernelIdeal.Launch
import proofs.«132861_j65154653880488_2_alg».proof.Proof.Gen.KernelIdeal.Points
import proofs.«132861_j65154653880488_2_alg».proof.Proof.Gen.KernelIdeal.Frame
import proofs.«132861_j65154653880488_2_alg».proof.Proof.Gen.ReferenceIdeal
import proofs.«132861_j65154653880488_2_alg».proof.Proof.Gen.Pre_finite_inputs
import proofs.«132861_j65154653880488_2_alg».proof.Proof.KernelRun
import proofs.«132861_j65154653880488_2_alg».proof.Proof.RefRun
import proofs.«132861_j65154653880488_2_alg».proof.Proof.FiniteInputs
import proofs.«132861_j65154653880488_2_alg».proof.Proof.Bridge3
import Idealize.ShloMosaic.Adequacy
import Idealize.ShloMosaic.Init

noncomputable section

namespace Cert.Proof

open Idealize.ShloMosaic Idealize.SL.Sem Idealize.ShloMosaic.TcCoe

/-- The reference runs and leaves its arguments as launched: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- From memories that agree on the arguments both idealized programs end with the same result array: the kernel's
    last fold at the result buffer is the reference's last stage of the same arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Gen.W15 m ρ c (Proc.devRef .tc Cert.KernelIdeal.main_v147), Cert.KernelIdeal.Run.run_named m ρ, ?_⟩
  refine (θ_run Cert.ReferenceIdeal.defs _ _).mono (fun r h c => ⟨(h c).1.trans ?_, (h c).2⟩)
    (Cert.ReferenceIdeal.RefRun.run m' ρ')
  obtain ⟨e0, e1, e2, e3, e4, e5, e6, e7, e8, e9, e10, e11, e12, e13, e14, e15, e16, e17, e18, e19, e20⟩ := hagree c
  rw [e0, e1, e2, e3, e4, e5, e6, e7, e8, e9, e10, e11, e12, e13, e14, e15, e16, e17, e18, e19, e20]
  obtain ⟨h4, h5, h6, h7, h8, h9, h10, h11, h12, h13, h14, h15, h16⟩ := Cert.FiniteInputs.reals_of_pre _ _ _ _ _ _ _ _ _ _ _ _ _ _ _ _ _ _ _ _ _ (hpre c)
  exact (Cert.KernelIdeal.Ends.tail_eq m ρ c (Cert.Bridge3.hs_eq m ρ c h4 h5 h6 h7 h8 h9 h10 h11 h12 h13 h14 h15 h16)).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ri,
  trivial,
  algebraic⟩

end Cert.Proof

end
